-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2 : Shape := ⟨3, ![16, 1024, 2]⟩
abbrev S_ : Shape := ⟨0, ![]⟩

class Facts : Prop where
  bcast_S_S16x1024x2 : S_.BroadcastsInDim S16x1024x2 (![] : Fin 0 → Fin S16x1024x2.rank)
  reducesTo_S16x1024x2_S_d0_1_2 : S16x1024x2.ReducesTo [0, 1, 2] S_
  h_S_ : 0 < S_.numel

variable [Facts]

def fn {F : FTy → Type} [FloatOps F] (main_arg0 : FVec F S16x1024x2 .f32) (main_arg1 : FVec F S16x1024x2 .f32) : IVec S_ 1 :=
  let main_v0 : FVec F S16x1024x2 .f32 := Host.absf main_arg0
  let main_cst : FVec F S_ .f32 := constant S_ .f32 0x7F800000#32
  let main_v1 : FVec F S16x1024x2 .f32 := broadcastInDim S16x1024x2 ![] bcast_S_S16x1024x2 main_cst
  let main_v2 : IVec S16x1024x2 1 := cmpf .olt main_v0 main_v1
  let main_c : IVec S_ 1 := constantI S_ 1 1#1
  let main_v3 : IVec S_ 1 := (fun x v => Host.reduce IntOp.andi x v reducesTo_S16x1024x2_S_d0_1_2 h_S_) main_v2 main_c
  let main_v4 : FVec F S16x1024x2 .f32 := Host.absf main_arg1
  let main_cst_0 : FVec F S_ .f32 := constant S_ .f32 0x7F800000#32
  let main_v5 : FVec F S16x1024x2 .f32 := broadcastInDim S16x1024x2 ![] bcast_S_S16x1024x2 main_cst_0
  let main_v6 : IVec S16x1024x2 1 := cmpf .olt main_v4 main_v5
  let main_c_1 : IVec S_ 1 := constantI S_ 1 1#1
  let main_v7 : IVec S_ 1 := (fun x v => Host.reduce IntOp.andi x v reducesTo_S16x1024x2_S_d0_1_2 h_S_) main_v6 main_c_1
  let main_v8 : IVec S_ 1 := andi main_v3 main_v7
  main_v8
-- ==== Kernel.lean ====
abbrev S16x1024x2 : Shape := ⟨3, ![16, 1024, 2]⟩
abbrev S16x2x1024 : Shape := ⟨3, ![16, 2, 1024]⟩
abbrev S1x1x1 : Shape := ⟨3, ![1, 1, 1]⟩
abbrev S_ : Shape := ⟨0, ![]⟩
abbrev S1x2x1024 : Shape := ⟨3, ![1, 2, 1024]⟩
abbrev S1024x1024 : Shape := ⟨2, ![1024, 1024]⟩
abbrev S1x1x1024 : Shape := ⟨3, ![1, 1, 1024]⟩
abbrev S1x1024 : Shape := ⟨2, ![1, 1024]⟩
abbrev S1x1023 : Shape := ⟨2, ![1, 1023]⟩
abbrev S1x1 : Shape := ⟨2, ![1, 1]⟩
abbrev S1x1022 : Shape := ⟨2, ![1, 1022]⟩
abbrev S1x2 : Shape := ⟨2, ![1, 2]⟩
abbrev S1x1021 : Shape := ⟨2, ![1, 1021]⟩
abbrev S1x3 : Shape := ⟨2, ![1, 3]⟩
abbrev S1x1020 : Shape := ⟨2, ![1, 1020]⟩
abbrev S1x4 : Shape := ⟨2, ![1, 4]⟩
abbrev S1x1019 : Shape := ⟨2, ![1, 1019]⟩
abbrev S1x5 : Shape := ⟨2, ![1, 5]⟩
abbrev S1x1018 : Shape := ⟨2, ![1, 1018]⟩
abbrev S1x6 : Shape := ⟨2, ![1, 6]⟩
abbrev S1x1017 : Shape := ⟨2, ![1, 1017]⟩
abbrev S1x7 : Shape := ⟨2, ![1, 7]⟩
abbrev S8x1024 : Shape := ⟨2, ![8, 1024]⟩
abbrev S8x128 : Shape := ⟨2, ![8, 128]⟩
abbrev S8x896 : Shape := ⟨2, ![8, 896]⟩
abbrev S8x256 : Shape := ⟨2, ![8, 256]⟩
abbrev S8x768 : Shape := ⟨2, ![8, 768]⟩
abbrev S8x384 : Shape := ⟨2, ![8, 384]⟩
abbrev S8x640 : Shape := ⟨2, ![8, 640]⟩
abbrev S8x512 : Shape := ⟨2, ![8, 512]⟩
abbrev S1024x128 : Shape := ⟨2, ![1024, 128]⟩
abbrev S8x1016 : Shape := ⟨2, ![8, 1016]⟩
abbrev S8x8 : Shape := ⟨2, ![8, 8]⟩
abbrev S256x1024 : Shape := ⟨2, ![256, 1024]⟩
abbrev S256x128 : Shape := ⟨2, ![256, 128]⟩
abbrev S1x256x128 : Shape := ⟨3, ![1, 256, 128]⟩
abbrev S1 : Shape := ⟨1, ![1]⟩

abbrev nBuf : Space → Nat
  | .hbm => 6
  | .vmem => 6
  | .smem => 0
  | _ => 0

abbrev bufTy : (tb : Table) → Fin (tcTables nBuf tb) → BufTy
  | .hbm, ⟨0, _⟩ => ⟨S16x1024x2, .f32⟩
  | .hbm, ⟨1, _⟩ => ⟨S16x1024x2, .f32⟩
  | .hbm, ⟨2, _⟩ => ⟨S16x2x1024, .f32⟩
  | .hbm, ⟨3, _⟩ => ⟨S16x2x1024, .f32⟩
  | .hbm, ⟨4, _⟩ => ⟨S1x1x1, .f32⟩
  | .hbm, ⟨5, _⟩ => ⟨S_, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x1x1, .f32⟩
  | .local _ .vmem, ⟨5, _⟩ => ⟨S1024x1024, .f32⟩
  | _, _ => ⟨S16x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v2524 : BitVec 1 := Scalar.cmpi .eq arg0 c0_i32
  let v2525 : BitVec 32 := Scalar.extui v2524
  let c0_i32_411 : BitVec 32 := 0#32
  let v2526 : BitVec 1 := Scalar.cmpi .ne v2525 c0_i32_411
  v2526

def k0_cond2 (i : grid0.Coords) : BitVec 1 :=
  let arg0 : BitVec 32 := BitVec.ofNat 32 (i 0).val
  let c0_i32_412 : BitVec 32 := 0#32
  let v2527 : BitVec 1 := Scalar.cmpi .sgt arg0 c0_i32_412
  let v2528 : BitVec 32 := Scalar.extui v2527
  let c0_i32_413 : BitVec 32 := 0#32
  let v2529 : BitVec 1 := Scalar.cmpi .ne v2528 c0_i32_413
  v2529

def k0_cond3 (i : grid0.Coords) : BitVec 1 :=
  let arg0 : BitVec 32 := BitVec.ofNat 32 (i 0).val
  let c15_i32 : BitVec 32 := 15#32
  let v2530 : BitVec 1 := Scalar.cmpi .eq arg0 c15_i32
  let v2531 : BitVec 32 := Scalar.extui v2530
  let c0_i32_414 : BitVec 32 := 0#32
  let v2532 : BitVec 1 := Scalar.cmpi .ne v2531 c0_i32_414
  v2532

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S16x1024x2_S16x2x1024_0_2_1 : S16x1024x2.Transposes [0, 2, 1] S16x2x1024
  shapeCasts_S1x1x1_S_ : S1x1x1.ShapeCasts S_
  inb_S1x2x1024_S1x1x1024_0_0_0 : ∀ a, (![0, 0, 0] : Fin 3 → Nat) a + S1x1x1024.size a ≤ S1x2x1024.size a
  h_S1x1x1024 : 0 < S1x1x1024.numel
  shapeCasts_S1x1x1024_S1x1024 : S1x1x1024.ShapeCasts S1x1024
  inb_S1x2x1024_S1x1x1024_0_1_0 : ∀ a, (![0, 1, 0] : Fin 3 → Nat) a + S1x1x1024.size a ≤ S1x2x1024.size a
  slices_S1x1024_o0_1_S1x1023 : S1x1024.Slices ![0, 1] S1x1023
  slices_S1x1024_o0_0_S1x1 : S1x1024.Slices ![0, 0] S1x1
  concatenates_S1x1023_S1x1_S1x1024_d1 : Shape.Concatenates [S1x1023, S1x1] S1x1024 1
  slices_S1x1024_o0_2_S1x1022 : S1x1024.Slices ![0, 2] S1x1022
  slices_S1x1024_o0_0_S1x2 : S1x1024.Slices ![0, 0] S1x2
  concatenates_S1x1022_S1x2_S1x1024_d1 : Shape.Concatenates [S1x1022, S1x2] S1x1024 1
  slices_S1x1024_o0_3_S1x1021 : S1x1024.Slices ![0, 3] S1x1021
  slices_S1x1024_o0_0_S1x3 : S1x1024.Slices ![0, 0] S1x3
  concatenates_S1x1021_S1x3_S1x1024_d1 : Shape.Concatenates [S1x1021, S1x3] S1x1024 1
  slices_S1x1024_o0_4_S1x1020 : S1x1024.Slices ![0, 4] S1x1020
  slices_S1x1024_o0_0_S1x4 : S1x1024.Slices ![0, 0] S1x4
  concatenates_S1x1020_S1x4_S1x1024_d1 : Shape.Concatenates [S1x1020, S1x4] S1x1024 1
  slices_S1x1024_o0_5_S1x1019 : S1x1024.Slices ![0, 5] S1x1019
  slices_S1x1024_o0_0_S1x5 : S1x1024.Slices ![0, 0] S1x5
  concatenates_S1x1019_S1x5_S1x1024_d1 : Shape.Concatenates [S1x1019, S1x5] S1x1024 1
  slices_S1x1024_o0_6_S1x1018 : S1x1024.Slices ![0, 6] S1x1018
  slices_S1x1024_o0_0_S1x6 : S1x1024.Slices ![0, 0] S1x6
  concatenates_S1x1018_S1x6_S1x1024_d1 : Shape.Concatenates [S1x1018, S1x6] S1x1024 1
  slices_S1x1024_o0_7_S1x1017 : S1x1024.Slices ![0, 7] S1x1017
  slices_S1x1024_o0_0_S1x7 : S1x1024.Slices ![0, 0] S1x7
  concatenates_S1x1017_S1x7_S1x1024_d1 : Shape.Concatenates [S1x1017, S1x7] S1x1024 1
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  shapeCasts_S1x1024_S1x1024 : S1x1024.ShapeCasts S1x1024
  broadcasts_S1x1024_S8x1024 : S1x1024.Broadcasts S8x1024
  slices_S8x1024_o0_896_S8x128 : S8x1024.Slices ![0, 896] S8x128
  slices_S8x1024_o0_0_S8x896 : S8x1024.Slices ![0, 0] S8x896
  concatenates_S8x128_S8x896_S8x1024_d1 : Shape.Concatenates [S8x128, S8x896] S8x1024 1
  slices_S8x1024_o0_768_S8x256 : S8x1024.Slices ![0, 768] S8x256
  slices_S8x1024_o0_0_S8x768 : S8x1024.Slices ![0, 0] S8x768
  concatenates_S8x256_S8x768_S8x1024_d1 : Shape.Concatenates [S8x256, S8x768] S8x1024 1
  slices_S8x1024_o0_640_S8x384 : S8x1024.Slices ![0, 640] S8x384
  slices_S8x1024_o0_0_S8x640 : S8x1024.Slices ![0, 0] S8x640
  concatenates_S8x384_S8x640_S8x1024_d1 : Shape.Concatenates [S8x384, S8x640] S8x1024 1
  slices_S8x1024_o0_512_S8x512 : S8x1024.Slices ![0, 512] S8x512
  slices_S8x1024_o0_0_S8x512 : S8x1024.Slices ![0, 0] S8x512
  concatenates_S8x512_S8x512_S8x1024_d1 : Shape.Concatenates [S8x512, S8x512] S8x1024 1
  slices_S8x1024_o0_384_S8x640 : S8x1024.Slices ![0, 384] S8x640
  slices_S8x1024_o0_0_S8x384 : S8x1024.Slices ![0, 0] S8x384
  concatenates_S8x640_S8x384_S8x1024_d1 : Shape.Concatenates [S8x640, S8x384] S8x1024 1
  slices_S8x1024_o0_256_S8x768 : S8x1024.Slices ![0, 256] S8x768
  slices_S8x1024_o0_0_S8x256 : S8x1024.Slices ![0, 0] S8x256
  concatenates_S8x768_S8x256_S8x1024_d1 : Shape.Concatenates [S8x768, S8x256] S8x1024 1
  slices_S8x1024_o0_128_S8x896 : S8x1024.Slices ![0, 128] S8x896
  slices_S8x1024_o0_0_S8x128 : S8x1024.Slices ![0, 0] S8x128
  concatenates_S8x896_S8x128_S8x1024_d1 : Shape.Concatenates [S8x896, S8x128] S8x1024 1
  inb_S1024x1024_S8x1024_0_0 : ∀ a, (![0, 0] : Fin 2 → Nat) a + S8x1024.size a ≤ S1024x1024.size a
  h_S8x1024 : 0 < S8x1024.numel
  shapeCasts_S8x1024_S8x1024 : S8x1024.ShapeCasts S8x1024
  inb_S1024x1024_S8x1024_8_0 : ∀ a, (![8, 0] : Fin 2 → Nat) a + S8x1024.size a ≤ S1024x1024.size a
  inb_S1024x1024_S8x1024_16_0 : ∀ a, (![16, 0] : Fin 2 → Nat) a + S8x1024.size a ≤ S1024x1024.size a
  inb_S1024x1024_S8x1024_24_0 : ∀ a, (![24, 0] : Fin 2 → Nat) a + S8x1024.size a ≤ S1024x1024.size a
  inb_S1024x1024_S8x1024_32_0 : ∀ a, (![32, 0] : Fin 2 → Nat) a + S8x1024.size a ≤ S1024x1024.size a
  inb_S1024x1024_S8x1024_40_0 : ∀ a, (![40, 0] : Fin 2 → Nat) a + S8x1024.size a ≤ S1024x1024.size a
  inb_S1024x1024_S8x1024_48_0 : ∀ a, (![48, 0] : Fin 2 → Nat) a + S8x1024.size a ≤ S1024x1024.size a
  inb_S1024x1024_S8x1024_56_0 : ∀ a, (![56, 0] : Fin 2 → Nat) a + S8x1024.size a ≤ S1024x1024.size a
  slices_S8x1024_o0_8_S8x1016 : S8x1024.Slices ![0, 8] S8x1016
  slices_S8x1024_o0_0_S8x8 : S8x1024.Slices ![0, 0] S8x8
  concatenates_S8x1016_S8x8_S8x1024_d1 : Shape.Concatenates [S8x1016, S8x8] S8x1024 1
  inb_S1024x1024_S8x1024_64_0 : ∀ a, (![64, 0] : Fin 2 → Nat) a + S8x1024.size a ≤ S1024x1024.size a
  inb_S1024x1024_S8x1024_72_0 : ∀ a, (![72, 0] : Fin 2 → Nat) a + S8x1024.size a ≤ S1024x1024.size a
  inb_S1024x1024_S8x1024_80_0 : ∀ a, (![80, 0] : Fin 2 → Nat) a + S8x1024.size a ≤ S1024x1024.size a
  inb_S1024x1024_S8x1024_88_0 : ∀ a, (![88, 0] : Fin 2 → Nat) a + S8x1024.size a ≤ S1024x1024.size a
  inb_S1024x1024_S8x1024_96_0 : ∀ a, (![96, 0] : Fin 2 → Nat) a + S8x1024.size a ≤ S1024x1024.size a
  inb_S1024x1024_S8x1024_104_0 : ∀ a, (![104, 0] : Fin 2 → Nat) a + S8x1024.size a ≤ S1024x1024.size a
  inb_S1024x1024_S8x1024_112_0 : ∀ a, (![112, 0] : Fin 2 → Nat) a + S8x1024.size a ≤ S1024x1024.size a
  inb_S1024x1024_S8x1024_120_0 : ∀ a, (![120, 0] : Fin 2 → Nat) a + S8x1024.size a ≤ S1024x1024.size a
  inb_S1024x1024_S8x1024_128_0 : ∀ a, (![128, 0] : Fin 2 → Nat) a + S8x1024.size a ≤ S1024x1024.size a
  inb_S1024x1024_S8x1024_136_0 : ∀ a, (![136, 0] : Fin 2 → Nat) a + S8x1024.size a ≤ S1024x1024.size a
  inb_S1024x1024_S8x1024_144_0 : ∀ a, (![144, 0] : Fin 2 → Nat) a + S8x1024.size a ≤ S1024x1024.size a
  inb_S1024x1024_S8x1024_152_0 : ∀ a, (![152, 0] : Fin 2 → Nat) a + S8x1024.size a ≤ S1024x1024.size a
  inb_S1024x1024_S8x1024_160_0 : ∀ a, (![160, 0] : Fin 2 → Nat) a + S8x1024.size a ≤ S1024x1024.size a
  inb_S1024x1024_S8x1024_168_0 : ∀ a, (![168, 0] : Fin 2 → Nat) a + S8x1024.size a ≤ S1024x1024.size a
  inb_S1024x1024_S8x1024_176_0 : ∀ a, (![176, 0] : Fin 2 → Nat) a + S8x1024.size a ≤ S1024x1024.size a
  inb_S1024x1024_S8x1024_184_0 : ∀ a, (![184, 0] : Fin 2 → Nat) a + S8x1024.size a ≤ S1024x1024.size a
  inb_S1024x1024_S8x1024_192_0 : ∀ a, (![192, 0] : Fin 2 → Nat) a + S8x1024.size a ≤ S1024x1024.size a
  inb_S1024x1024_S8x1024_200_0 : ∀ a, (![200, 0] : Fin 2 → Nat) a + S8x1024.size a ≤ S1024x1024.size a
  inb_S1024x1024_S8x1024_208_0 : ∀ a, (![208, 0] : Fin 2 → Nat) a + S8x1024.size a ≤ S1024x1024.size a
  inb_S1024x1024_S8x1024_216_0 : ∀ a, (![216, 0] : Fin 2 → Nat) a + S8x1024.size a ≤ S1024x1024.size a
  inb_S1024x1024_S8x1024_224_0 : ∀ a, (![224, 0] : Fin 2 → Nat) a + S8x1024.size a ≤ S1024x1024.size a
  inb_S1024x1024_S8x1024_232_0 : ∀ a, (![232, 0] : Fin 2 → Nat) a + S8x1024.size a ≤ S1024x1024.size a
  inb_S1024x1024_S8x1024_240_0 : ∀ a, (![240, 0] : Fin 2 → Nat) a + S8x1024.size a ≤ S1024x1024.size a
  inb_S1024x1024_S8x1024_248_0 : ∀ a, (![248, 0] : Fin 2 → Nat) a + S8x1024.size a ≤ S1024x1024.size a
  inb_S1024x1024_S256x1024_0_0 : ∀ a, (![0, 0] : Fin 2 → Nat) a + S256x1024.size a ≤ S1024x1024.size a
  h_S256x1024 : 0 < S256x1024.numel
  shapeCasts_S256x128_S1x256x128 : S256x128.ShapeCasts S1x256x128
  reduces_S1x256x128_S1 : S1x256x128.Reduces [1, 2] S1
  shapeCasts_S1_S1x1x1 : S1.ShapeCasts S1x1x1
  inpos_S1x1x1_p0_0_0 : ∀ a, (![0, 0, 0] : Fin 3 → Nat) a < S1x1x1.size a
  inb_S1024x1024_S8x1024_256_0 : ∀ a, (![256, 0] : Fin 2 → Nat) a + S8x1024.size a ≤ S1024x1024.size a
  inb_S1024x1024_S8x1024_264_0 : ∀ a, (![264, 0] : Fin 2 → Nat) a + S8x1024.size a ≤ S1024x1024.size a
  inb_S1024x1024_S8x1024_272_0 : ∀ a, (![272, 0] : Fin 2 → Nat) a + S8x1024.size a ≤ S1024x1024.size a
  inb_S1024x1024_S8x1024_280_0 : ∀ a, (![280, 0] : Fin 2 → Nat) a + S8x1024.size a ≤ S1024x1024.size a
  inb_S1024x1024_S8x1024_288_0 : ∀ a, (![288, 0] : Fin 2 → Nat) a + S8x1024.size a ≤ S1024x1024.size a
  inb_S1024x1024_S8x1024_296_0 : ∀ a, (![296, 0] : Fin 2 → Nat) a + S8x1024.size a ≤ S1024x1024.size a
  inb_S1024x1024_S8x1024_304_0 : ∀ a, (![304, 0] : Fin 2 → Nat) a + S8x1024.size a ≤ S1024x1024.size a
  inb_S1024x1024_S8x1024_312_0 : ∀ a, (![312, 0] : Fin 2 → Nat) a + S8x1024.size a ≤ S1024x1024.size a
  inb_S1024x1024_S8x1024_320_0 : ∀ a, (![320, 0] : Fin 2 → Nat) a + S8x1024.size a ≤ S1024x1024.size a
  inb_S1024x1024_S8x1024_328_0 : ∀ a, (![328, 0] : Fin 2 → Nat) a + S8x1024.size a ≤ S1024x1024.size a
  inb_S1024x1024_S8x1024_336_0 : ∀ a, (![336, 0] : Fin 2 → Nat) a + S8x1024.size a ≤ S1024x1024.size a
  inb_S1024x1024_S8x1024_344_0 : ∀ a, (![344, 0] : Fin 2 → Nat) a + S8x1024.size a ≤ S1024x1024.size a
  inb_S1024x1024_S8x1024_352_0 : ∀ a, (![352, 0] : Fin 2 → Nat) a + S8x1024.size a ≤ S1024x1024.size a
  inb_S1024x1024_S8x1024_360_0 : ∀ a, (![360, 0] : Fin 2 → Nat) a + S8x1024.size a ≤ S1024x1024.size a
  inb_S1024x1024_S8x1024_368_0 : ∀ a, (![368, 0] : Fin 2 → Nat) a + S8x1024.size a ≤ S1024x1024.size a
  inb_S1024x1024_S8x1024_376_0 : ∀ a, (![376, 0] : Fin 2 → Nat) a + S8x1024.size a ≤ S1024x1024.size a
  inb_S1024x1024_S8x1024_384_0 : ∀ a, (![384, 0] : Fin 2 → Nat) a + S8x1024.size a ≤ S1024x1024.size a
  inb_S1024x1024_S8x1024_392_0 : ∀ a, (![392, 0] : Fin 2 → Nat) a + S8x1024.size a ≤ S1024x1024.size a
  inb_S1024x1024_S8x1024_400_0 : ∀ a, (![400, 0] : Fin 2 → Nat) a + S8x1024.size a ≤ S1024x1024.size a
  inb_S1024x1024_S8x1024_408_0 : ∀ a, (![408, 0] : Fin 2 → Nat) a + S8x1024.size a ≤ S1024x1024.size a
  inb_S1024x1024_S8x1024_416_0 : ∀ a, (![416, 0] : Fin 2 → Nat) a + S8x1024.size a ≤ S1024x1024.size a
  inb_S1024x1024_S8x1024_424_0 : ∀ a, (![424, 0] : Fin 2 → Nat) a + S8x1024.size a ≤ S1024x1024.size a
  inb_S1024x1024_S8x1024_432_0 : ∀ a, (![432, 0] : Fin 2 → Nat) a + S8x1024.size a ≤ S1024x1024.size a
  inb_S1024x1024_S8x1024_440_0 : ∀ a, (![440, 0] : Fin 2 → Nat) a + S8x1024.size a ≤ S1024x1024.size a
  inb_S1024x1024_S8x1024_448_0 : ∀ a, (![448, 0] : Fin 2 → Nat) a + S8x1024.size a ≤ S1024x1024.size a
  inb_S1024x1024_S8x1024_456_0 : ∀ a, (![456, 0] : Fin 2 → Nat) a + S8x1024.size a ≤ S1024x1024.size a
  inb_S1024x1024_S8x1024_464_0 : ∀ a, (![464, 0] : Fin 2 → Nat) a + S8x1024.size a ≤ S1024x1024.size a
  inb_S1024x1024_S8x1024_472_0 : ∀ a, (![472, 0] : Fin 2 → Nat) a + S8x1024.size a ≤ S1024x1024.size a
  inb_S1024x1024_S8x1024_480_0 : ∀ a, (![480, 0] : Fin 2 → Nat) a + S8x1024.size a ≤ S1024x1024.size a
  inb_S1024x1024_S8x1024_488_0 : ∀ a, (![488, 0] : Fin 2 → Nat) a + S8x1024.size a ≤ S1024x1024.size a
  inb_S1024x1024_S8x1024_496_0 : ∀ a, (![496, 0] : Fin 2 → Nat) a + S8x1024.size a ≤ S1024x1024.size a
  inb_S1024x1024_S8x1024_504_0 : ∀ a, (![504, 0] : Fin 2 → Nat) a + S8x1024.size a ≤ S1024x1024.size a
  inb_S1024x1024_S256x1024_256_0 : ∀ a, (![256, 0] : Fin 2 → Nat) a + S256x1024.size a ≤ S1024x1024.size a
  inb_S1024x1024_S8x1024_512_0 : ∀ a, (![512, 0] : Fin 2 → Nat) a + S8x1024.size a ≤ S1024x1024.size a
  inb_S1024x1024_S8x1024_520_0 : ∀ a, (![520, 0] : Fin 2 → Nat) a + S8x1024.size a ≤ S1024x1024.size a
  inb_S1024x1024_S8x1024_528_0 : ∀ a, (![528, 0] : Fin 2 → Nat) a + S8x1024.size a ≤ S1024x1024.size a
  inb_S1024x1024_S8x1024_536_0 : ∀ a, (![536, 0] : Fin 2 → Nat) a + S8x1024.size a ≤ S1024x1024.size a
  inb_S1024x1024_S8x1024_544_0 : ∀ a, (![544, 0] : Fin 2 → Nat) a + S8x1024.size a ≤ S1024x1024.size a
  inb_S1024x1024_S8x1024_552_0 : ∀ a, (![552, 0] : Fin 2 → Nat) a + S8x1024.size a ≤ S1024x1024.size a
  inb_S1024x1024_S8x1024_560_0 : ∀ a, (![560, 0] : Fin 2 → Nat) a + S8x1024.size a ≤ S1024x1024.size a
  inb_S1024x1024_S8x1024_568_0 : ∀ a, (![568, 0] : Fin 2 → Nat) a + S8x1024.size a ≤ S1024x1024.size a
  inb_S1024x1024_S8x1024_576_0 : ∀ a, (![576, 0] : Fin 2 → Nat) a + S8x1024.size a ≤ S1024x1024.size a
  inb_S1024x1024_S8x1024_584_0 : ∀ a, (![584, 0] : Fin 2 → Nat) a + S8x1024.size a ≤ S1024x1024.size a
  inb_S1024x1024_S8x1024_592_0 : ∀ a, (![592, 0] : Fin 2 → Nat) a + S8x1024.size a ≤ S1024x1024.size a
  inb_S1024x1024_S8x1024_600_0 : ∀ a, (![600, 0] : Fin 2 → Nat) a + S8x1024.size a ≤ S1024x1024.size a
  inb_S1024x1024_S8x1024_608_0 : ∀ a, (![608, 0] : Fin 2 → Nat) a + S8x1024.size a ≤ S1024x1024.size a
  inb_S1024x1024_S8x1024_616_0 : ∀ a, (![616, 0] : Fin 2 → Nat) a + S8x1024.size a ≤ S1024x1024.size a
  inb_S1024x1024_S8x1024_624_0 : ∀ a, (![624, 0] : Fin 2 → Nat) a + S8x1024.size a ≤ S1024x1024.size a
  inb_S1024x1024_S8x1024_632_0 : ∀ a, (![632, 0] : Fin 2 → Nat) a + S8x1024.size a ≤ S1024x1024.size a
  inb_S1024x1024_S8x1024_640_0 : ∀ a, (![640, 0] : Fin 2 → Nat) a + S8x1024.size a ≤ S1024x1024.size a
  inb_S1024x1024_S8x1024_648_0 : ∀ a, (![648, 0] : Fin 2 → Nat) a + S8x1024.size a ≤ S1024x1024.size a
  inb_S1024x1024_S8x1024_656_0 : ∀ a, (![656, 0] : Fin 2 → Nat) a + S8x1024.size a ≤ S1024x1024.size a
  inb_S1024x1024_S8x1024_664_0 : ∀ a, (![664, 0] : Fin 2 → Nat) a + S8x1024.size a ≤ S1024x1024.size a
  inb_S1024x1024_S8x1024_672_0 : ∀ a, (![672, 0] : Fin 2 → Nat) a + S8x1024.size a ≤ S1024x1024.size a
  inb_S1024x1024_S8x1024_680_0 : ∀ a, (![680, 0] : Fin 2 → Nat) a + S8x1024.size a ≤ S1024x1024.size a
  inb_S1024x1024_S8x1024_688_0 : ∀ a, (![688, 0] : Fin 2 → Nat) a + S8x1024.size a ≤ S1024x1024.size a
  inb_S1024x1024_S8x1024_696_0 : ∀ a, (![696, 0] : Fin 2 → Nat) a + S8x1024.size a ≤ S1024x1024.size a
  inb_S1024x1024_S8x1024_704_0 : ∀ a, (![704, 0] : Fin 2 → Nat) a + S8x1024.size a ≤ S1024x1024.size a
  inb_S1024x1024_S8x1024_712_0 : ∀ a, (![712, 0] : Fin 2 → Nat) a + S8x1024.size a ≤ S1024x1024.size a
  inb_S1024x1024_S8x1024_720_0 : ∀ a, (![720, 0] : Fin 2 → Nat) a + S8x1024.size a ≤ S1024x1024.size a
  inb_S1024x1024_S8x1024_728_0 : ∀ a, (![728, 0] : Fin 2 → Nat) a + S8x1024.size a ≤ S1024x1024.size a
  inb_S1024x1024_S8x1024_736_0 : ∀ a, (![736, 0] : Fin 2 → Nat) a + S8x1024.size a ≤ S1024x1024.size a
  inb_S1024x1024_S8x1024_744_0 : ∀ a, (![744, 0] : Fin 2 → Nat) a + S8x1024.size a ≤ S1024x1024.size a
  inb_S1024x1024_S8x1024_752_0 : ∀ a, (![752, 0] : Fin 2 → Nat) a + S8x1024.size a ≤ S1024x1024.size a
  inb_S1024x1024_S8x1024_760_0 : ∀ a, (![760, 0] : Fin 2 → Nat) a + S8x1024.size a ≤ S1024x1024.size a
  inb_S1024x1024_S256x1024_512_0 : ∀ a, (![512, 0] : Fin 2 → Nat) a + S256x1024.size a ≤ S1024x1024.size a
  inb_S1024x1024_S8x1024_768_0 : ∀ a, (![768, 0] : Fin 2 → Nat) a + S8x1024.size a ≤ S1024x1024.size a
  inb_S1024x1024_S8x1024_776_0 : ∀ a, (![776, 0] : Fin 2 → Nat) a + S8x1024.size a ≤ S1024x1024.size a
  inb_S1024x1024_S8x1024_784_0 : ∀ a, (![784, 0] : Fin 2 → Nat) a + S8x1024.size a ≤ S1024x1024.size a
  inb_S1024x1024_S8x1024_792_0 : ∀ a, (![792, 0] : Fin 2 → Nat) a + S8x1024.size a ≤ S1024x1024.size a
  inb_S1024x1024_S8x1024_800_0 : ∀ a, (![800, 0] : Fin 2 → Nat) a + S8x1024.size a ≤ S1024x1024.size a
  inb_S1024x1024_S8x1024_808_0 : ∀ a, (![808, 0] : Fin 2 → Nat) a + S8x1024.size a ≤ S1024x1024.size a
  inb_S1024x1024_S8x1024_816_0 : ∀ a, (![816, 0] : Fin 2 → Nat) a + S8x1024.size a ≤ S1024x1024.size a
  inb_S1024x1024_S8x1024_824_0 : ∀ a, (![824, 0] : Fin 2 → Nat) a + S8x1024.size a ≤ S1024x1024.size a
  inb_S1024x1024_S8x1024_832_0 : ∀ a, (![832, 0] : Fin 2 → Nat) a + S8x1024.size a ≤ S1024x1024.size a
  inb_S1024x1024_S8x1024_840_0 : ∀ a, (![840, 0] : Fin 2 → Nat) a + S8x1024.size a ≤ S1024x1024.size a
  inb_S1024x1024_S8x1024_848_0 : ∀ a, (![848, 0] : Fin 2 → Nat) a + S8x1024.size a ≤ S1024x1024.size a
  inb_S1024x1024_S8x1024_856_0 : ∀ a, (![856, 0] : Fin 2 → Nat) a + S8x1024.size a ≤ S1024x1024.size a
  inb_S1024x1024_S8x1024_864_0 : ∀ a, (![864, 0] : Fin 2 → Nat) a + S8x1024.size a ≤ S1024x1024.size a
  inb_S1024x1024_S8x1024_872_0 : ∀ a, (![872, 0] : Fin 2 → Nat) a + S8x1024.size a ≤ S1024x1024.size a
  inb_S1024x1024_S8x1024_880_0 : ∀ a, (![880, 0] : Fin 2 → Nat) a + S8x1024.size a ≤ S1024x1024.size a
  inb_S1024x1024_S8x1024_888_0 : ∀ a, (![888, 0] : Fin 2 → Nat) a + S8x1024.size a ≤ S1024x1024.size a
  inb_S1024x1024_S8x1024_896_0 : ∀ a, (![896, 0] : Fin 2 → Nat) a + S8x1024.size a ≤ S1024x1024.size a
  inb_S1024x1024_S8x1024_904_0 : ∀ a, (![904, 0] : Fin 2 → Nat) a + S8x1024.size a ≤ S1024x1024.size a
  inb_S1024x1024_S8x1024_912_0 : ∀ a, (![912, 0] : Fin 2 → Nat) a + S8x1024.size a ≤ S1024x1024.size a
  inb_S1024x1024_S8x1024_920_0 : ∀ a, (![920, 0] : Fin 2 → Nat) a + S8x1024.size a ≤ S1024x1024.size a
  inb_S1024x1024_S8x1024_928_0 : ∀ a, (![928, 0] : Fin 2 → Nat) a + S8x1024.size a ≤ S1024x1024.size a
  inb_S1024x1024_S8x1024_936_0 : ∀ a, (![936, 0] : Fin 2 → Nat) a + S8x1024.size a ≤ S1024x1024.size a
  inb_S1024x1024_S8x1024_944_0 : ∀ a, (![944, 0] : Fin 2 → Nat) a + S8x1024.size a ≤ S1024x1024.size a
  inb_S1024x1024_S8x1024_952_0 : ∀ a, (![952, 0] : Fin 2 → Nat) a + S8x1024.size a ≤ S1024x1024.size a
  inb_S1024x1024_S8x1024_960_0 : ∀ a, (![960, 0] : Fin 2 → Nat) a + S8x1024.size a ≤ S1024x1024.size a
  inb_S1024x1024_S8x1024_968_0 : ∀ a, (![968, 0] : Fin 2 → Nat) a + S8x1024.size a ≤ S1024x1024.size a
  inb_S1024x1024_S8x1024_976_0 : ∀ a, (![976, 0] : Fin 2 → Nat) a + S8x1024.size a ≤ S1024x1024.size a
  inb_S1024x1024_S8x1024_984_0 : ∀ a, (![984, 0] : Fin 2 → Nat) a + S8x1024.size a ≤ S1024x1024.size a
  inb_S1024x1024_S8x1024_992_0 : ∀ a, (![992, 0] : Fin 2 → Nat) a + S8x1024.size a ≤ S1024x1024.size a
  inb_S1024x1024_S8x1024_1000_0 : ∀ a, (![1000, 0] : Fin 2 → Nat) a + S8x1024.size a ≤ S1024x1024.size a
  inb_S1024x1024_S8x1024_1008_0 : ∀ a, (![1008, 0] : Fin 2 → Nat) a + S8x1024.size a ≤ S1024x1024.size a
  inb_S1024x1024_S8x1024_1016_0 : ∀ a, (![1016, 0] : Fin 2 → Nat) a + S8x1024.size a ≤ S1024x1024.size a
  inb_S1024x1024_S256x1024_768_0 : ∀ a, (![768, 0] : Fin 2 → Nat) a + S256x1024.size a ≤ S1024x1024.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024.size a ≤ S16x2x1024.size a
  hwx0_0 : ∀ i : grid0.Coords, EltTy.bits .f32 = 32 ∨ (Rect.block (s := S16x2x1024) S1x2x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1024.size a ≤ S16x2x1024.size a
  hwx0_1 : ∀ i : grid0.Coords, EltTy.bits .f32 = 32 ∨ (Rect.block (s := S16x2x1024) S1x2x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S1x1x1.size a
  hwx0_2 : ∀ i : grid0.Coords, EltTy.bits .f32 = 32 ∨ (Rect.block (s := S1x1x1) S1x1x1.size (cc0_transform_2 i) (hinb0_2 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_call0_v0) S1x2x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S16x1024x2 : Shape := ⟨3, ![16, 1024, 2]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S_ : Shape := ⟨0, ![]⟩
abbrev S1048576 : Shape := ⟨1, ![1048576]⟩
abbrev S1048576x1 : Shape := ⟨2, ![1048576, 1]⟩
abbrev S1 : Shape := ⟨1, ![1]⟩
abbrev S1x1 : Shape := ⟨2, ![1, 1]⟩
abbrev S16x1048576x2 : Shape := ⟨3, ![16, 1048576, 2]⟩
abbrev S16x1024x1024x2 : Shape := ⟨4, ![16, 1024, 1024, 2]⟩
abbrev S16x1x1024x2 : Shape := ⟨4, ![16, 1, 1024, 2]⟩
abbrev S16x1024x1024 : Shape := ⟨3, ![16, 1024, 1024]⟩
abbrev S16x1024 : Shape := ⟨2, ![16, 1024]⟩
abbrev S16 : Shape := ⟨1, ![16]⟩

abbrev nBuf : Space → Nat
  | .hbm => 83
  | .vmem => 0
  | .smem => 0
  | _ => 0

abbrev bufTy : (tb : Table) → Fin (tcTables nBuf tb) → BufTy
  | .hbm, ⟨0, _⟩ => ⟨S16x1024x2, .f32⟩
  | .hbm, ⟨1, _⟩ => ⟨S16x1024x2, .f32⟩
  | .hbm, ⟨2, _⟩ => ⟨S1024, .i32⟩
  | .hbm, ⟨3, _⟩ => ⟨S1x1024, .i32⟩
  | .hbm, ⟨4, _⟩ => ⟨S1024x1, .i32⟩
  | .hbm, ⟨5, _⟩ => ⟨S1024x1024, .i32⟩
  | .hbm, ⟨6, _⟩ => ⟨S1024x1024, .i32⟩
  | .hbm, ⟨7, _⟩ => ⟨S1024x1024, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S1024x1024, .i32⟩
  | .hbm, ⟨15, _⟩ => ⟨S1024x1024, .i32⟩
  | .hbm, ⟨16, _⟩ => ⟨S_, .i32⟩
  | .hbm, ⟨17, _⟩ => ⟨S1024x1024, .i32⟩
  | .hbm, ⟨18, _⟩ => ⟨S1024x1024, .i1⟩
  | .hbm, ⟨19, _⟩ => ⟨S_, .i32⟩
  | .hbm, ⟨20, _⟩ => ⟨S1024x1024, .i32⟩
  | .hbm, ⟨21, _⟩ => ⟨S1024x1024, .i1⟩
  | .hbm, ⟨22, _⟩ => ⟨S_, .i32⟩
  | .hbm, ⟨23, _⟩ => ⟨S_, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i32⟩
  | .hbm, ⟨28, _⟩ => ⟨S1024x1024, .i32⟩
  | .hbm, ⟨29, _⟩ => ⟨S1024x1024, .i32⟩
  | .hbm, ⟨30, _⟩ => ⟨S1048576, .i32⟩
  | .hbm, ⟨31, _⟩ => ⟨S_, .i32⟩
  | .hbm, ⟨32, _⟩ => ⟨S1048576, .i32⟩
  | .hbm, ⟨33, _⟩ => ⟨S1048576, .i1⟩
  | .hbm, ⟨34, _⟩ => ⟨S_, .i32⟩
  | .hbm, ⟨35, _⟩ => ⟨S1048576, .i32⟩
  | .hbm, ⟨36, _⟩ => ⟨S1048576, .i32⟩
  | .hbm, ⟨37, _⟩ => ⟨S1048576, .i32⟩
  | .hbm, ⟨38, _⟩ => ⟨S1048576x1, .i32⟩
  | .hbm, ⟨39, _⟩ => ⟨S1, .i32⟩
  | .hbm, ⟨40, _⟩ => ⟨S_, .i32⟩
  | .hbm, ⟨41, _⟩ => ⟨S1048576x1, .i32⟩
  | .hbm, ⟨42, _⟩ => ⟨S1048576x1, .i1⟩
  | .hbm, ⟨43, _⟩ => ⟨S1x1, .i32⟩
  | .hbm, ⟨44, _⟩ => ⟨S1048576x1, .i32⟩
  | .hbm, ⟨45, _⟩ => ⟨S1048576x1, .i1⟩
  | .hbm, ⟨46, _⟩ => ⟨S1048576x1, .i1⟩
  | .hbm, ⟨47, _⟩ => ⟨S_, .i1⟩
  | .hbm, ⟨48, _⟩ => ⟨S1048576, .i1⟩
  | .hbm, ⟨49, _⟩ => ⟨S16x1048576x2, .f32⟩
  | .hbm, ⟨50, _⟩ => ⟨S16x1048576x2, .i1⟩
  | .hbm, ⟨51, _⟩ => ⟨S_, .f32⟩
  | .hbm, ⟨52, _⟩ => ⟨S16x1048576x2, .f32⟩
  | .hbm, ⟨53, _⟩ => ⟨S16x1048576x2, .f32⟩
  | .hbm, ⟨54, _⟩ => ⟨S16x1024x1024x2, .f32⟩
  | .hbm, ⟨55, _⟩ => ⟨S16x1x1024x2, .f32⟩
  | .hbm, ⟨56, _⟩ => ⟨S16x1024x1024x2, .f32⟩
  | .hbm, ⟨57, _⟩ => ⟨S16x1024x1024x2, .f32⟩
  | .hbm, ⟨58, _⟩ => ⟨S16x1024x1024x2, .f32⟩
  | .hbm, ⟨59, _⟩ => ⟨S_, .f32⟩
  | .hbm, ⟨60, _⟩ => ⟨S16x1024x1024x2, .f32⟩
  | .hbm, ⟨61, _⟩ => ⟨S16x1024x1024x2, .i1⟩
  | .hbm, ⟨62, _⟩ => ⟨S_, .f32⟩
  | .hbm, ⟨63, _⟩ => ⟨S16x1024x1024x2, .f32⟩
  | .hbm, ⟨64, _⟩ => ⟨S16x1024x1024x2, .f32⟩
  | .hbm, ⟨65, _⟩ => ⟨S16x1024x1024x2, .f32⟩
  | .hbm, ⟨66, _⟩ => ⟨S_, .f32⟩
  | .hbm, ⟨67, _⟩ => ⟨S16x1024x1024x2, .f32⟩
  | .hbm, ⟨68, _⟩ => ⟨S16x1024x1024x2, .f32⟩
  | .hbm, ⟨69, _⟩ => ⟨S16x1024x1024x2, .f32⟩
  | .hbm, ⟨70, _⟩ => ⟨S_, .f32⟩
  | .hbm, ⟨71, _⟩ => ⟨S16x1024x1024, .f32⟩
  | .hbm, ⟨72, _⟩ => ⟨S_, .f32⟩
  | .hbm, ⟨73, _⟩ => ⟨S16x1024, .f32⟩
  | .hbm, ⟨74, _⟩ => ⟨S_, .f32⟩
  | .hbm, ⟨75, _⟩ => ⟨S16x1024, .f32⟩
  | .hbm, ⟨76, _⟩ => ⟨S16x1024, .f32⟩
  | .hbm, ⟨77, _⟩ => ⟨S_, .f32⟩
  | .hbm, ⟨78, _⟩ => ⟨S16, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S16x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_cst : Ref sig .tc := ⟨.hbm, 59, rfl⟩
abbrev main_v14 : Ref sig .tc := ⟨.hbm, 60, rfl⟩
abbrev main_v15 : Ref sig .tc := ⟨.hbm, 61, rfl⟩
abbrev main_cst_0 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_1 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_2 : Ref sig .tc := ⟨.hbm, 70, rfl⟩
abbrev main_v22 : Ref sig .tc := ⟨.hbm, 71, rfl⟩
abbrev main_cst_3 : Ref sig .tc := ⟨.hbm, 72, rfl⟩
abbrev main_v23 : Ref sig .tc := ⟨.hbm, 73, rfl⟩
abbrev main_cst_4 : Ref sig .tc := ⟨.hbm, 74, rfl⟩
abbrev main_v24 : Ref sig .tc := ⟨.hbm, 75, rfl⟩
abbrev main_v25 : Ref sig .tc := ⟨.hbm, 76, rfl⟩
abbrev main_cst_5 : Ref sig .tc := ⟨.hbm, 77, rfl⟩
abbrev main_v26 : Ref sig .tc := ⟨.hbm, 78, rfl⟩
abbrev main_cst_6 : Ref sig .tc := ⟨.hbm, 79, rfl⟩
abbrev main_v27 : Ref sig .tc := ⟨.hbm, 80, rfl⟩
abbrev main_cst_7 : Ref sig .tc := ⟨.hbm, 81, rfl⟩
abbrev main_v28 : Ref sig .tc := ⟨.hbm, 82, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  shapeCasts_S1024x1024_S1048576 : S1024x1024.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S16x1048576x2_1 : S1048576.BroadcastsInDim S16x1048576x2 (![1] : Fin 1 → Fin S16x1048576x2.rank)
  bcast_S_S16x1048576x2 : S_.BroadcastsInDim S16x1048576x2 (![] : Fin 0 → Fin S16x1048576x2.rank)
  shapeCasts_S16x1048576x2_S16x1024x1024x2 : S16x1048576x2.ShapeCasts S16x1024x1024x2
  bcast_S16x1024x2_S16x1x1024x2_0_2_3 : S16x1024x2.BroadcastsInDim S16x1x1024x2 (![0, 2, 3] : Fin 3 → Fin S16x1x1024x2.rank)
  bcast_S16x1x1024x2_S16x1024x1024x2_0_1_2_3 : S16x1x1024x2.BroadcastsInDim S16x1024x1024x2 (![0, 1, 2, 3] : Fin 4 → Fin S16x1024x1024x2.rank)
  bcast_S_S16x1024x1024x2 : S_.BroadcastsInDim S16x1024x1024x2 (![] : Fin 0 → Fin S16x1024x1024x2.rank)
  reducesTo_S16x1024x1024x2_S16x1024x1024_d3 : S16x1024x1024x2.ReducesTo [3] S16x1024x1024
  reducesTo_S16x1024x1024_S16x1024_d2 : S16x1024x1024.ReducesTo [2] S16x1024
  bcast_S_S16x1024 : S_.BroadcastsInDim S16x1024 (![] : Fin 0 → Fin S16x1024.rank)
  reducesTo_S16x1024_S16_d1 : S16x1024.ReducesTo [1] S16
  reducesTo_S16_S_d0 : S16.ReducesTo [0] S_
  gather_S16x1024x2_S1048576x1_S16x1048576x2_02_1_n_n_1_1_1612_wf : GatherDims.WF S16x1024x2 S1048576x1 S16x1048576x2 [0, 2] [1] [] [1] [] 1 ![16, 1, 2]

variable [Facts₀]

def gather_S16x1024x2_S1048576x1_S16x1048576x2_02_1_n_n_1_1_1612 : GatherDims S16x1024x2 S1048576x1 S16x1048576x2 where
  offsetDims := [0, 2]
  collapsedSliceDims := [1]
  operandBatchingDims := []
  startIndicesBatchingDims := []
  startIndexMap := [1]
  indexVectorDim := 1
  sliceSizes := ![16, 1, 2]
  wf := gather_S16x1024x2_S1048576x1_S16x1048576x2_02_1_n_n_1_1_1612_wf

class Facts : Prop extends Facts₀ where

variable [Facts]
-- ==== Proof.WShared.lean ====
/-
  The kernel's body, read at the word level (the same text as the idealized kernel's, so the same run), what its three runs share.

  The grid has 16 points, one per sample. The body's three conditionals read the point's
  coordinate only: the first holds at point 0 (the running total is set), the second at
  points 1..15 (the sample's minimum is added to it), the third at point 15 (the total is
  scaled). So a point is in exactly one of three cases: first, middle, last. The result
  window is the one cell of the running total; it is live at every point, and its staging
  buffer is written back to the array at the last point only.
-/
import proofs.«103642_g13554916786703_cont_week2b_739_36_alg».proof.Proof.Gen.Kernel.Frame
import proofs.«103642_g13554916786703_cont_week2b_739_36_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions, decided over the grid -/

/-- "this is the first sample": the condition under which the total is set. -/
abbrev isFirst (i : grid0.Coords) : Prop := k0_cond1 i = 1#1
theorem isFirst_iff : ∀ t : Fin cfg0.N, isFirst (grid0.coords t) ↔ t.val % 16 = 0 :=
  (by decide +kernel : ∀ t : Fin grid0.N, isFirst (grid0.coords t) ↔ t.val % 16 = 0)

/-- "this is a later sample": the condition under which the sample's minimum is added. -/
abbrev isLater (i : grid0.Coords) : Prop := k0_cond2 i = 1#1
theorem isLater_iff : ∀ t : Fin cfg0.N, isLater (grid0.coords t) ↔ 1 ≤ t.val :=
  (by decide +kernel : ∀ t : Fin grid0.N, isLater (grid0.coords t) ↔ 1 ≤ t.val)

/-- "this is the last sample": the condition under which the total is scaled. -/
abbrev isLast (i : grid0.Coords) : Prop := k0_cond3 i = 1#1
theorem isLast_iff : ∀ t : Fin cfg0.N, isLast (grid0.coords t) ↔ t.val % 16 = 15 :=
  (by decide +kernel : ∀ t : Fin grid0.N, isLast (grid0.coords t) ↔ t.val % 16 = 15)

/-! ## No window is idle at any point -/

theorem live_pred : ∀ t : Fin cfg0.N, cfg0.idle 0 (grid0.coords t) = false := by decide +kernel
theorem live_gt : ∀ t : Fin cfg0.N, cfg0.idle 1 (grid0.coords t) = false := by decide +kernel
theorem live_total : ∀ t : Fin cfg0.N, cfg0.idle 2 (grid0.coords t) = false := by decide +kernel

/-! ## The memrefs the body is called with -/

/-- The view through which the total's cell is stated (its one staging buffer). -/
abbrev totalView : View sig .tc .vmem S1x1x1 .f32 := (Memref.whole cc0_stg2_0 : Memref sig .tc .vmem S1x1x1 .f32).view

abbrev mPred (t : Fin cfg0.N) : Memref sig .tc .vmem S1x2x1024 .f32 := win0_0.stage (cfg0.slots t 0)
abbrev hPred (t : Fin cfg0.N) : (mPred t).IsWhole := hstage0_0 ((cfg0.slots t 0).cast nbuf0_0)
abbrev mGt (t : Fin cfg0.N) : Memref sig .tc .vmem S1x2x1024 .f32 := win0_1.stage (cfg0.slots t 1)
abbrev hGt (t : Fin cfg0.N) : (mGt t).IsWhole := hstage0_1 ((cfg0.slots t 1).cast nbuf0_1)
abbrev mTotal (t : Fin cfg0.N) : Memref sig .tc .vmem S1x1x1 .f32 := win0_2.stage (cfg0.slots t 2)
abbrev hTotal (t : Fin cfg0.N) : (mTotal t).IsWhole := hstage0_2 ((cfg0.slots t 2).cast nbuf0_2)
/-- The table of per-rotation terms: 1024 rotations by 1024 points, a scratch of the kernel's own. -/
abbrev mTable : Memref sig .tc .vmem S1024x1024 .f32 := Memref.whole cc0_scratch0

/-- The invariant the launch keeps for the body: the table owned at some contents, and the generator
    register. -/
theorem inv_eq (c : Dev nD) :
    (Pipeline.ΦA spec0 c : sProp 𝕄)
      = iprop(iprop((∃ d, owns (c : Thread nD τ) mTable fullShare d)) ∗ (∃ r, prngReg c r)) := by
  unfold Pipeline.ΦA; rw [scopedRest0_eq]; simp only [mTable, owns_whole]; try rfl

end Cert.Kernel.Hand

end
-- ==== Proof.WRunFirst.lean ====
/-
  The kernel's body, read at the word level (the same text as the idealized kernel's, so the same run) at the first sample (point 0).

  On whole staging memrefs -- the two samples' coordinate rows at their contents, the total's
  cell and the table at anything -- the body runs to its end with the rows as they were, the
  table at some contents, and the total's cell written by the stores this case makes: those
  stores, last first, are what the run finds, and they are this definition's first component.
  Here only the first conditional is taken: the cell is set to the sample's minimum.
-/
import proofs.«103642_g13554916786703_cont_week2b_739_36_alg».proof.Proof.WShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runFirst (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : isFirst i) (hc1 : ¬isLater i) (hc2 : ¬isLast i)
    (x0 : Vec F S1x2x1024 .f32) (x1 : Vec F S1x2x1024 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)
                ∗ (∃ d, owns (c : Thread nD τ) arg4 fullShare d)) -∗ K ⟨⟩))
          ⊢ wp frame (wpE (defs₀ (F := F)) Variants.none c none) E (cc0__poly_loss_kernel i arg1 harg1 arg2 harg2 arg3 harg3 arg4 harg4) K } := by
  refine ⟨?_, fun E K => ?run⟩
  case run =>
    simp only [cc0__poly_loss_kernel_eq_skeleton]; unfold cc0__poly_loss_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _, _; isplitr; swap; · iexact HS0
    ipureintro; rfl

end Cert.Kernel.Hand

end
-- ==== Proof.WRunMiddle.lean ====
/-
  The kernel's body, read at the word level (the same text as the idealized kernel's, so the same run) at a middle sample (points 1 to 14).

  On whole staging memrefs -- the two samples' coordinate rows at their contents, the total's
  cell and the table at anything -- the body runs to its end with the rows as they were, the
  table at some contents, and the total's cell written by the stores this case makes: those
  stores, last first, are what the run finds, and they are this definition's first component.
  Here only the second conditional is taken: the sample's minimum is added to the cell's running contents `xo`.
-/
import proofs.«103642_g13554916786703_cont_week2b_739_36_alg».proof.Proof.WShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runMiddle (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : ¬isLast i)
    (x0 : Vec F S1x2x1024 .f32) (x1 : Vec F S1x2x1024 .f32) (xo : Vec F S1x1x1 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)
                ∗ (∃ d, owns (c : Thread nD τ) arg4 fullShare d)) -∗ K ⟨⟩))
          ⊢ wp frame (wpE (defs₀ (F := F)) Variants.none c none) E (cc0__poly_loss_kernel i arg1 harg1 arg2 harg2 arg3 harg3 arg4 harg4) K } := by
  refine ⟨?_, fun E K => ?run⟩
  case run =>
    simp only [cc0__poly_loss_kernel_eq_skeleton]; unfold cc0__poly_loss_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _, _; isplitr; swap; · iexact HS0
    ipureintro; rfl

end Cert.Kernel.Hand

end
-- ==== Proof.WRunLast.lean ====
/-
  The kernel's body, read at the word level (the same text as the idealized kernel's, so the same run) at the last sample (point 15).

  On whole staging memrefs -- the two samples' coordinate rows at their contents, the total's
  cell and the table at anything -- the body runs to its end with the rows as they were, the
  table at some contents, and the total's cell written by the stores this case makes: those
  stores, last first, are what the run finds, and they are this definition's first component.
  Here the second and third conditionals are taken: the sample's minimum is added to the cell's running contents `xo`, and the sum is then scaled.
-/
import proofs.«103642_g13554916786703_cont_week2b_739_36_alg».proof.Proof.WShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def runLast (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : isLast i)
    (x0 : Vec F S1x2x1024 .f32) (x1 : Vec F S1x2x1024 .f32) (xo : Vec F S1x1x1 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)
                ∗ (∃ d, owns (c : Thread nD τ) arg4 fullShare d)) -∗ K ⟨⟩))
          ⊢ wp frame (wpE (defs₀ (F := F)) Variants.none c none) E (cc0__poly_loss_kernel i arg1 harg1 arg2 harg2 arg3 harg3 arg4 harg4) K } := by
  refine ⟨?_, fun E K => ?run⟩
  case run =>
    simp only [cc0__poly_loss_kernel_eq_skeleton]; unfold cc0__poly_loss_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _, _; isplitr; swap; · iexact HS0
    ipureintro; rfl

end Cert.Kernel.Hand

end
-- ==== Proof.WBody.lean ====
/-
  The kernel's body, read at the word level (the same text as the idealized kernel's, so the same run) at every point, and the run of the whole program around it.

  What the total's cell holds after each point is defined by recursion on the point: the first
  sample's case sets it; a middle sample's case adds to what the point before left; the last
  sample's case adds and scales. The cell's staging buffer is written back to the array only
  after the last point, so between points it keeps what the body left. With the two samples'
  rows found at their blocks at every point, this is the proof data of the launch; the body
  obligation is the three runs, chosen by the point; and the launch theorem gives the run of
  the whole program, the host lines after the region included.
-/
import proofs.«103642_g13554916786703_cont_week2b_739_36_alg».proof.Proof.WRunFirst
import proofs.«103642_g13554916786703_cont_week2b_739_36_alg».proof.Proof.WRunMiddle
import proofs.«103642_g13554916786703_cont_week2b_739_36_alg».proof.Proof.WRunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the total's cell -/

theorem cover_first (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : isFirst i) (hc1 : ¬isLater i) (hc2 : ¬isLast i) (x0 x1 : Vec F S1x2x1024 .f32) (y : S1x1x1.Idx) :
    ∃ pc ∈ (runFirst c i arg1 harg1 arg2 harg2 arg3 harg3 arg4 harg4 hc0 hc1 hc2 x0 x1).1, y ∈ pc.1.set :=
  View.cover_of_tiledL (runFirst c i arg1 harg1 arg2 harg2 arg3 harg3 arg4 harg4 hc0 hc1 hc2 x0 x1).1 S1x1x1.size (by sl_kernel_rfl) y

/-- After the first sample: the stores of that case read back. -/
def cellFirst (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : isFirst i) (hc1 : ¬isLater i) (hc2 : ¬isLast i) (x0 x1 : Vec F S1x2x1024 .f32) : Vec F S1x1x1 .f32 :=
  totalView.read (Elt F) (totalView.writes (Elt F) totalView.junk (runFirst c i arg1 harg1 arg2 harg2 arg3 harg3 arg4 harg4 hc0 hc1 hc2 x0 x1).1)

theorem cover_middle (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : ¬isLast i) (x0 x1 : Vec F S1x2x1024 .f32) (xo : Vec F S1x1x1 .f32) (y : S1x1x1.Idx) :
    ∃ pc ∈ (runMiddle c i arg1 harg1 arg2 harg2 arg3 harg3 arg4 harg4 hc0 hc1 hc2 x0 x1 xo).1, y ∈ pc.1.set :=
  View.cover_of_tiledL (runMiddle c i arg1 harg1 arg2 harg2 arg3 harg3 arg4 harg4 hc0 hc1 hc2 x0 x1 xo).1 S1x1x1.size (by sl_kernel_rfl) y

/-- After a middle sample, the cell having held `xo`. -/
def cellMiddle (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : ¬isLast i) (x0 x1 : Vec F S1x2x1024 .f32) (xo : Vec F S1x1x1 .f32) : Vec F S1x1x1 .f32 :=
  totalView.read (Elt F) (totalView.writes (Elt F) totalView.junk (runMiddle c i arg1 harg1 arg2 harg2 arg3 harg3 arg4 harg4 hc0 hc1 hc2 x0 x1 xo).1)

theorem cover_last (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : isLast i) (x0 x1 : Vec F S1x2x1024 .f32) (xo : Vec F S1x1x1 .f32) (y : S1x1x1.Idx) :
    ∃ pc ∈ (runLast c i arg1 harg1 arg2 harg2 arg3 harg3 arg4 harg4 hc0 hc1 hc2 x0 x1 xo).1, y ∈ pc.1.set :=
  View.cover_of_tiledL (runLast c i arg1 harg1 arg2 harg2 arg3 harg3 arg4 harg4 hc0 hc1 hc2 x0 x1 xo).1 S1x1x1.size (by sl_kernel_rfl) y

/-- After the last sample, the cell having held `xo`. -/
def cellLast (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : isLast i) (x0 x1 : Vec F S1x2x1024 .f32) (xo : Vec F S1x1x1 .f32) : Vec F S1x1x1 .f32 :=
  totalView.read (Elt F) (totalView.writes (Elt F) totalView.junk (runLast c i arg1 harg1 arg2 harg2 arg3 harg3 arg4 harg4 hc0 hc1 hc2 x0 x1 xo).1)

/-! ## The running total, point by point -/

theorem lt16 {n : ℕ} (hn : n < cfg0.N) : n < 16 := lt_of_lt_of_eq hn (show cfg0.N = 16 from N_0)

/-- What the total's cell holds after the body at point `n`. -/
def totalAt (c : Dev nD) : (n : ℕ) → n < cfg0.N → Vec F S1x1x1 .f32
  | 0, hn => cellFirst c (grid0.coords ⟨0, hn⟩) (mPred ⟨0, hn⟩) (hPred ⟨0, hn⟩) (mGt ⟨0, hn⟩) (hGt ⟨0, hn⟩) (mTotal ⟨0, hn⟩) (hTotal ⟨0, hn⟩) mTable (Memref.isWhole_whole _)
      ((isFirst_iff ⟨0, hn⟩).mpr (Nat.zero_mod _)) (fun h => by have := (isLater_iff ⟨0, hn⟩).mp h; dsimp only at this; omega)
      (fun h => by have := (isLast_iff ⟨0, hn⟩).mp h; dsimp only at this; omega) (iblk m c 0 ⟨0, hn⟩) (iblk m c 1 ⟨0, hn⟩)
  | n + 1, hn =>
    if h2 : (n + 1) % 16 = 15 then
      cellLast c (grid0.coords ⟨n + 1, hn⟩) (mPred ⟨n + 1, hn⟩) (hPred ⟨n + 1, hn⟩) (mGt ⟨n + 1, hn⟩) (hGt ⟨n + 1, hn⟩) (mTotal ⟨n + 1, hn⟩) (hTotal ⟨n + 1, hn⟩) mTable (Memref.isWhole_whole _)
        (fun h => by have := (isFirst_iff ⟨n + 1, hn⟩).mp h; have := lt16 hn; dsimp only at *; omega)
        ((isLater_iff ⟨n + 1, hn⟩).mpr (Nat.succ_le_succ (Nat.zero_le n))) ((isLast_iff ⟨n + 1, hn⟩).mpr h2)
        (iblk m c 0 ⟨n + 1, hn⟩) (iblk m c 1 ⟨n + 1, hn⟩) (totalAt c n (Nat.lt_of_succ_lt hn))
    else
      cellMiddle c (grid0.coords ⟨n + 1, hn⟩) (mPred ⟨n + 1, hn⟩) (hPred ⟨n + 1, hn⟩) (mGt ⟨n + 1, hn⟩) (hGt ⟨n + 1, hn⟩) (mTotal ⟨n + 1, hn⟩) (hTotal ⟨n + 1, hn⟩) mTable (Memref.isWhole_whole _)
        (fun h => by have := (isFirst_iff ⟨n + 1, hn⟩).mp h; have := lt16 hn; dsimp only at *; omega)
        ((isLater_iff ⟨n + 1, hn⟩).mpr (Nat.succ_le_succ (Nat.zero_le n))) (fun h => h2 ((isLast_iff ⟨n + 1, hn⟩).mp h))
        (iblk m c 0 ⟨n + 1, hn⟩) (iblk m c 1 ⟨n + 1, hn⟩) (totalAt c n (Nat.lt_of_succ_lt hn))

theorem totalAt_first (c : Dev nD) (t : Fin cfg0.N) (h0 : t.val % 16 = 0) (h1 : ¬1 ≤ t.val) (h2 : ¬t.val % 16 = 15) :
    totalAt m c t.val t.isLt = cellFirst c (grid0.coords t) (mPred t) (hPred t) (mGt t) (hGt t) (mTotal t) (hTotal t) mTable (Memref.isWhole_whole _)
      ((isFirst_iff t).mpr h0) (fun h => h1 ((isLater_iff t).mp h)) (fun h => h2 ((isLast_iff t).mp h)) (iblk m c 0 t) (iblk m c 1 t) := by
  obtain ⟨n, hn⟩ := t
  cases n with
  | zero => exact rfl
  | succ n => exact absurd (Nat.succ_le_succ (Nat.zero_le n)) h1

theorem totalAt_middle (c : Dev nD) (t : Fin cfg0.N) (h0 : ¬t.val % 16 = 0) (h1 : 1 ≤ t.val) (h2 : ¬t.val % 16 = 15) :
    totalAt m c t.val t.isLt = cellMiddle c (grid0.coords t) (mPred t) (hPred t) (mGt t) (hGt t) (mTotal t) (hTotal t) mTable (Memref.isWhole_whole _)
      (fun h => h0 ((isFirst_iff t).mp h)) ((isLater_iff t).mpr h1) (fun h => h2 ((isLast_iff t).mp h)) (iblk m c 0 t) (iblk m c 1 t)
      (totalAt m c (t.val - 1) (Nat.lt_of_le_of_lt (Nat.sub_le _ _) t.isLt)) := by
  obtain ⟨n, hn⟩ := t
  cases n with
  | zero => exact absurd h1 (by dsimp only; omega)
  | succ n => exact (dif_neg h2).trans rfl

theorem totalAt_last (c : Dev nD) (t : Fin cfg0.N) (h0 : ¬t.val % 16 = 0) (h1 : 1 ≤ t.val) (h2 : t.val % 16 = 15) :
    totalAt m c t.val t.isLt = cellLast c (grid0.coords t) (mPred t) (hPred t) (mGt t) (hGt t) (mTotal t) (hTotal t) mTable (Memref.isWhole_whole _)
      (fun h => h0 ((isFirst_iff t).mp h)) ((isLater_iff t).mpr h1) ((isLast_iff t).mpr h2) (iblk m c 0 t) (iblk m c 1 t)
      (totalAt m c (t.val - 1) (Nat.lt_of_le_of_lt (Nat.sub_le _ _) t.isLt)) := by
  obtain ⟨n, hn⟩ := t
  cases n with
  | zero => exact absurd h1 (by dsimp only; omega)
  | succ n => exact (dif_pos h2).trans rfl

/-! ## The proof data of the launch -/

/-- On core `c`: the arrays as the region finds them; after the body at point `t` each sample's rows at
    their block and the total's cell at `totalAt`; the launch's own invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => totalAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_pred (c : Dev nD) (t : Fin cfg0.N) : (dats m 0 c).after 0 t = iblk m c 0 t := by dsimp only [dats]
theorem after_gt (c : Dev nD) (t : Fin cfg0.N) : (dats m 0 c).after 1 t = iblk m c 1 t := by dsimp only [dats]
theorem after_total (c : Dev nD) (t : Fin cfg0.N) : (dats m 0 c).after 2 t = totalAt m c t.val t.isLt := by dsimp only [dats]

theorem before_pred (c : Dev nD) (t : Fin cfg0.N) (d) : (dats m 0 c).before 0 t d = iblk m c 0 t :=
  before0_0_of m (dats m 0 c) (A_eq m c 0) (after_pred m c) t d
theorem before_gt (c : Dev nD) (t : Fin cfg0.N) (d) : (dats m 0 c).before 1 t d = iblk m c 1 t :=
  before0_1_of m (dats m 0 c) (A_eq m c 1) (after_gt m c) t d

theorem live_total_all : ∀ i : grid0.Coords, cfg0.idle 2 i = false := by decide +kernel

/-- At a later point the total's cell holds what the body left at the point before: its buffer is written
    back only after the last point, and the window is live and whole. -/
theorem before_total_later (c : Dev nD) (t : Fin cfg0.N) (h1 : 1 ≤ t.val) (d) :
    (dats m 0 c).before 2 t d = totalAt m c (t.val - 1) (Nat.lt_of_le_of_lt (Nat.sub_le _ _) t.isLt) := by
  have hN : t.val < 16 := lt16 t.isLt
  rw [Dat.before_out_kept _ 2 rfl t (by omega) (Bool.eq_false_iff.mpr fun h => by have := (flush0_2 _).mp h; dsimp only at this; omega)
    live_total_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mPred t) fullShare ((dats m 0 c).before 0 t d))
    ∗ (∃ d, owns (c : Thread nD τ) (mGt t) fullShare ((dats m 0 c).before 1 t d))
    ∗ (∃ d, owns (c : Thread nD τ) (mTotal t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_pred, before_gt]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, inv_eq]
  rw [show (dats m 0 c).leavesExact 0 t = owns (c : Thread nD τ) (mPred t) fullShare (iblk m c 0 t) from by
      unfold Dat.leavesExact; rw [live_pred t, after_pred],
    show (dats m 0 c).leavesExact 1 t = owns (c : Thread nD τ) (mGt t) fullShare (iblk m c 1 t) from by
      unfold Dat.leavesExact; rw [live_gt t, after_gt],
    show (dats m 0 c).leavesExact 2 t = owns (c : Thread nD τ) (mTotal t) fullShare (totalAt m c t.val t.isLt) from by
      unfold Dat.leavesExact; rw [live_total t, after_total]]
  have hN : t.val < 16 := lt16 t.isLt
  by_cases h0 : t.val % 16 = 0
  · have h1 : ¬1 ≤ t.val := by omega
    have h2 : ¬t.val % 16 = 15 := by omega
    rw [totalAt_first m c t h0 h1 h2]
    unfold cellFirst
    iintro ⟨⟨HS0, Hg⟩, Ho, ⟨%d0, H0⟩, ⟨%d1, H1⟩, ⟨%d2, H2⟩⟩
    iapply ((runFirst c (grid0.coords t) (mPred t) (hPred t) (mGt t) (hGt t) (mTotal t) (hTotal t) mTable (Memref.isWhole_whole _) ((isFirst_iff t).mpr h0) (fun h => h1 ((isLater_iff t).mp h)) (fun h => h2 ((isLast_iff t).mp h)) (iblk m c 0 t) (iblk m c 1 t)).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hg]
    · isplitl [HS0]
      · iexact HS0
      iexact Hg
    isplitl [Ho]; · iexact Ho
    isplitl [H0]; · iexact H0
    isplitl [H1]; · iexact H1
    unfold owns; iexists _; isplitr
    swap; · iexact H2
    ipureintro; exact View.read_writes_of_cover _ _ _ _ _ (cover_first _ _ _ _ _ _ _ _ _ _ _ _ _ _ _)
  · have h1 : 1 ≤ t.val := by omega
    by_cases h2 : t.val % 16 = 15
    · rw [totalAt_last m c t h0 h1 h2]
      simp only [before_total_later m c t h1]
      unfold cellLast
      iintro ⟨⟨HS0, Hg⟩, Ho, ⟨%d0, H0⟩, ⟨%d1, H1⟩, ⟨%d2, H2⟩⟩
      iapply ((runLast c (grid0.coords t) (mPred t) (hPred t) (mGt t) (hGt t) (mTotal t) (hTotal t) mTable (Memref.isWhole_whole _) (fun h => h0 ((isFirst_iff t).mp h)) ((isLater_iff t).mpr h1) ((isLast_iff t).mpr h2) (iblk m c 0 t) (iblk m c 1 t) _).2 Set.univ _)
      isplitl [H0]; · iexact H0
      isplitl [H1]; · iexact H1
      isplitl [H2]; · iexact H2
      isplitl [HS0]; · iexact HS0
      iintro ⟨H0, H1, ⟨%e2, H2⟩, HS0⟩
      isplitl [HS0 Hg]
      · isplitl [HS0]
        · iexact HS0
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last _ _ _ _ _ _ _ _ _ _ _ _ _ _ _ _)
    · rw [totalAt_middle m c t h0 h1 h2]
      simp only [before_total_later m c t h1]
      unfold cellMiddle
      iintro ⟨⟨HS0, Hg⟩, Ho, ⟨%d0, H0⟩, ⟨%d1, H1⟩, ⟨%d2, H2⟩⟩
      iapply ((runMiddle c (grid0.coords t) (mPred t) (hPred t) (mGt t) (hGt t) (mTotal t) (hTotal t) mTable (Memref.isWhole_whole _) (fun h => h0 ((isFirst_iff t).mp h)) ((isLater_iff t).mpr h1) (fun h => h2 ((isLast_iff t).mp h)) (iblk m c 0 t) (iblk m c 1 t) _).2 Set.univ _)
      isplitl [H0]; · iexact H0
      isplitl [H1]; · iexact H1
      isplitl [H2]; · iexact H2
      isplitl [HS0]; · iexact HS0
      iintro ⟨H0, H1, ⟨%e2, H2⟩, HS0⟩
      isplitl [HS0 Hg]
      · isplitl [HS0]
        · iexact HS0
        iexact Hg
      isplitl [Ho]; · iexact Ho
      isplitl [H0]; · iexact H0
      isplitl [H1]; · iexact H1
      unfold owns; iexists _; isplitr
      swap; · iexact H2
      ipureintro; exact View.read_writes_of_cover _ _ _ _ _ (cover_middle _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run of the whole program, and the frame -/

set_option backward.isDefEq.respectTransparency.types false in
/-- Every weakly fair execution of the program terminates, with every array of the launch at what the
    proof data says was written back, and every other buffer at the host lines after the region applied
    to that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KShared.lean ====
/-
  The idealized kernel's body, what its three runs share.

  The grid has 16 points, one per sample. The body's three conditionals read the point's
  coordinate only: the first holds at point 0 (the running total is set), the second at
  points 1..15 (the sample's minimum is added to it), the third at point 15 (the total is
  scaled). So a point is in exactly one of three cases: first, middle, last. The result
  window is the one cell of the running total; it is live at every point, and its staging
  buffer is written back to the array at the last point only.
-/
import proofs.«103642_g13554916786703_cont_week2b_739_36_alg».proof.Proof.Gen.KernelIdeal.Frame
import proofs.«103642_g13554916786703_cont_week2b_739_36_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions, decided over the grid -/

/-- "this is the first sample": the condition under which the total is set. -/
abbrev isFirst (i : grid0.Coords) : Prop := k0_cond1 i = 1#1
theorem isFirst_iff : ∀ t : Fin cfg0.N, isFirst (grid0.coords t) ↔ t.val % 16 = 0 :=
  (by decide +kernel : ∀ t : Fin grid0.N, isFirst (grid0.coords t) ↔ t.val % 16 = 0)

/-- "this is a later sample": the condition under which the sample's minimum is added. -/
abbrev isLater (i : grid0.Coords) : Prop := k0_cond2 i = 1#1
theorem isLater_iff : ∀ t : Fin cfg0.N, isLater (grid0.coords t) ↔ 1 ≤ t.val :=
  (by decide +kernel : ∀ t : Fin grid0.N, isLater (grid0.coords t) ↔ 1 ≤ t.val)

/-- "this is the last sample": the condition under which the total is scaled. -/
abbrev isLast (i : grid0.Coords) : Prop := k0_cond3 i = 1#1
theorem isLast_iff : ∀ t : Fin cfg0.N, isLast (grid0.coords t) ↔ t.val % 16 = 15 :=
  (by decide +kernel : ∀ t : Fin grid0.N, isLast (grid0.coords t) ↔ t.val % 16 = 15)

/-! ## No window is idle at any point -/

theorem live_pred : ∀ t : Fin cfg0.N, cfg0.idle 0 (grid0.coords t) = false := by decide +kernel
theorem live_gt : ∀ t : Fin cfg0.N, cfg0.idle 1 (grid0.coords t) = false := by decide +kernel
theorem live_total : ∀ t : Fin cfg0.N, cfg0.idle 2 (grid0.coords t) = false := by decide +kernel

/-! ## The memrefs the body is called with -/

/-- The view through which the total's cell is stated (its one staging buffer). -/
abbrev totalView : View sig .tc .vmem S1x1x1 .f32 := (Memref.whole cc0_stg2_0 : Memref sig .tc .vmem S1x1x1 .f32).view

abbrev mPred (t : Fin cfg0.N) : Memref sig .tc .vmem S1x2x1024 .f32 := win0_0.stage (cfg0.slots t 0)
abbrev hPred (t : Fin cfg0.N) : (mPred t).IsWhole := hstage0_0 ((cfg0.slots t 0).cast nbuf0_0)
abbrev mGt (t : Fin cfg0.N) : Memref sig .tc .vmem S1x2x1024 .f32 := win0_1.stage (cfg0.slots t 1)
abbrev hGt (t : Fin cfg0.N) : (mGt t).IsWhole := hstage0_1 ((cfg0.slots t 1).cast nbuf0_1)
abbrev mTotal (t : Fin cfg0.N) : Memref sig .tc .vmem S1x1x1 .f32 := win0_2.stage (cfg0.slots t 2)
abbrev hTotal (t : Fin cfg0.N) : (mTotal t).IsWhole := hstage0_2 ((cfg0.slots t 2).cast nbuf0_2)
/-- The table of per-rotation terms: 1024 rotations by 1024 points, a scratch of the kernel's own. -/
abbrev mTable : Memref sig .tc .vmem S1024x1024 .f32 := Memref.whole cc0_scratch0

/-- The invariant the launch keeps for the body: the table owned at some contents, and the generator
    register. -/
theorem inv_eq (c : Dev nD) :
    (Pipeline.ΦA spec0 c : sProp 𝕄)
      = iprop(iprop((∃ d, owns (c : Thread nD τ) mTable fullShare d)) ∗ (∃ r, prngReg c r)) := by
  unfold Pipeline.ΦA; rw [scopedRest0_eq]; simp only [mTable, owns_whole]; try rfl

end Cert.KernelIdeal.Hand

end
-- ==== Proof.KSlabs.lean ====
/-
  The idealized kernel's body up to its conditionals: the table of per-rotation terms and the
  four minima.

  For one sample the body fills the 1024 x 1024 table (row = rotation, column = point) eight rows
  at a time, 128 stores in all; after every 256 rows it multiplies that slab by a matrix of ones,
  which sums each row over the points, and takes the minimum over the slab. This part of the body
  does not touch the total's cell. It returns the grid coordinate's word, three of the slabs'
  minima, and the fourth slab's row sums; what it returns, as a function of the two samples'
  coordinate rows, is what the run finds, and it is this definition's first component. The three
  cases of the body share it.
-/
import proofs.«103642_g13554916786703_cont_week2b_739_36_alg».proof.Proof.KShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What that part of the body returns. -/
abbrev SlabVals (F : FTy → Type) : Type :=
  Σ' (arg0 : BitVec 32) (v699 : FVec F S1x1 .f32) (v1306 : FVec F S1x1 .f32) (v1913 : FVec F S1x1 .f32), FVec F S1x256x128 .f32

set_option maxHeartbeats 4000000 in
noncomputable def slabRun (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (x0 : Vec F S1x2x1024 .f32) (x1 : Vec F S1x2x1024 .f32) :
    { v : SlabVals F //
      ∀ (E : Set ℕ),
        iprop(owns (c : Thread nD τ) arg1 fullShare x0 ∗ owns (c : Thread nD τ) arg2 fullShare x1
            ∗ (∃ d, owns (c : Thread nD τ) arg4 fullShare d))
          ⊢ wp frame (wpE (defs₀ (F := F)) Variants.none c none) E (k0_part54 i arg1 harg1 arg2 harg2 arg3 harg3 arg4 harg4)
              (fun r => (iprop(⌜r = v⌝ ∗ owns (c : Thread nD τ) arg1 fullShare x0 ∗ owns (c : Thread nD τ) arg2 fullShare x1
                ∗ (∃ d, owns (c : Thread nD τ) arg4 fullShare d)) : sProp 𝕄)) } := by
  refine ⟨?_, fun E => ?run⟩
  case run =>
    simp only [k0_part54_eq_skeleton]; unfold k0_part54_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%ds0, %fs0, -, HS0⟩⟩
    obtain rfl := harg1.eq_unread hf0; obtain rfl := harg2.eq_unread hf1
    sl_exec
    sl_step
    isplitr
    · ipureintro; rfl
    isplitl [H0]
    · iexists _; isplitr; · ipureintro; exact harg1.read_unread _
      iexact H0
    isplitl [H1]
    · iexists _; isplitr; · ipureintro; exact harg2.read_unread _
      iexact H1
    iexists _, _; isplitr; swap; · iexact HS0
    ipureintro; rfl

end Cert.KernelIdeal.Hand

end
-- ==== Proof.KRunFirst.lean ====
/-
  The idealized kernel's body at the first sample (point 0).

  On whole staging memrefs -- the two samples' coordinate rows at their contents, the total's
  cell and the table at anything -- the body runs (its first part by the shared run of the table and the minima) to its end with the rows as they were, the
  table at some contents, and the total's cell written by the stores this case makes: those
  stores, last first, are what the run finds, and they are this definition's first component.
  Here only the first conditional is taken: the cell is set to the sample's minimum.
-/
import proofs.«103642_g13554916786703_cont_week2b_739_36_alg».proof.Proof.KSlabs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runFirst (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : isFirst i) (hc1 : ¬isLater i) (hc2 : ¬isLast i)
    (x0 : Vec F S1x2x1024 .f32) (x1 : Vec F S1x2x1024 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)
                ∗ (∃ d, owns (c : Thread nD τ) arg4 fullShare d)) -∗ K ⟨⟩))
          ⊢ wp frame (wpE (defs₀ (F := F)) Variants.none c none) E (cc0__poly_loss_kernel i arg1 harg1 arg2 harg2 arg3 harg3 arg4 harg4) K } := by
  refine ⟨?_, fun E K => ?run⟩
  case run =>
    simp only [cc0__poly_loss_kernel_eq_skeleton]; unfold cc0__poly_loss_kernel_skel
    have hs := (slabRun c i arg1 harg1 arg2 harg2 arg3 harg3 arg4 harg4 x0 x1).2 E
    unfold owns at hs ⊢
    iintro ⟨H0, H1, ⟨%d2, %f2, -, H2⟩, HS0, Hk⟩
    iapply (exec_cut frame (wpE (defs₀ (F := F)) Variants.none c none) E hs) $$ [H0 H1 HS0]
    · isplitl [H0]; · iexact H0
      isplitl [H1]; · iexact H1
      iexact HS0
    iintro %r ⟨%hr, H0, H1, HS0⟩
    subst hr
    sl_exec (disch := first | exact hc0 | exact hc1 | exact hc2)
    sl_step
    iapply Hk
    isplitl [H0]; · iexact H0
    isplitl [H1]; · iexact H1
    isplitl [H2]
    · iexists _; iexact H2
    iexact HS0

end Cert.KernelIdeal.Hand

end
-- ==== Proof.KRunMiddle.lean ====
/-
  The idealized kernel's body at a middle sample (points 1 to 14).

  On whole staging memrefs -- the two samples' coordinate rows at their contents, the total's
  cell and the table at anything -- the body runs (its first part by the shared run of the table and the minima) to its end with the rows as they were, the
  table at some contents, and the total's cell written by the stores this case makes: those
  stores, last first, are what the run finds, and they are this definition's first component.
  Here only the second conditional is taken: the sample's minimum is added to the cell's running contents `xo`.
-/
import proofs.«103642_g13554916786703_cont_week2b_739_36_alg».proof.Proof.KSlabs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runMiddle (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : ¬isLast i)
    (x0 : Vec F S1x2x1024 .f32) (x1 : Vec F S1x2x1024 .f32) (xo : Vec F S1x1x1 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)
                ∗ (∃ d, owns (c : Thread nD τ) arg4 fullShare d)) -∗ K ⟨⟩))
          ⊢ wp frame (wpE (defs₀ (F := F)) Variants.none c none) E (cc0__poly_loss_kernel i arg1 harg1 arg2 harg2 arg3 harg3 arg4 harg4) K } := by
  refine ⟨?_, fun E K => ?run⟩
  case run =>
    simp only [cc0__poly_loss_kernel_eq_skeleton]; unfold cc0__poly_loss_kernel_skel
    have hs := (slabRun c i arg1 harg1 arg2 harg2 arg3 harg3 arg4 harg4 x0 x1).2 E
    unfold owns at hs ⊢
    iintro ⟨H0, H1, ⟨%f2, %hf2, H2⟩, HS0, Hk⟩
    obtain rfl := harg3.eq_unread hf2
    iapply (exec_cut frame (wpE (defs₀ (F := F)) Variants.none c none) E hs) $$ [H0 H1 HS0]
    · isplitl [H0]; · iexact H0
      isplitl [H1]; · iexact H1
      iexact HS0
    iintro %r ⟨%hr, H0, H1, HS0⟩
    subst hr
    sl_exec (disch := first | exact hc0 | exact hc1 | exact hc2)
    sl_step
    iapply Hk
    isplitl [H0]; · iexact H0
    isplitl [H1]; · iexact H1
    isplitl [H2]
    · iexists _; iexact H2
    iexact HS0

end Cert.KernelIdeal.Hand

end
-- ==== Proof.KRunLast.lean ====
/-
  The idealized kernel's body at the last sample (point 15).

  On whole staging memrefs -- the two samples' coordinate rows at their contents, the total's
  cell and the table at anything -- the body runs (its first part by the shared run of the table and the minima) to its end with the rows as they were, the
  table at some contents, and the total's cell written by the stores this case makes: those
  stores, last first, are what the run finds, and they are this definition's first component.
  Here the second and third conditionals are taken: the sample's minimum is added to the cell's running contents `xo`, and the sum is then scaled.
-/
import proofs.«103642_g13554916786703_cont_week2b_739_36_alg».proof.Proof.KSlabs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runLast (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : isLast i)
    (x0 : Vec F S1x2x1024 .f32) (x1 : Vec F S1x2x1024 .f32) (xo : Vec F S1x1x1 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare xo ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)
                ∗ (∃ d, owns (c : Thread nD τ) arg4 fullShare d)) -∗ K ⟨⟩))
          ⊢ wp frame (wpE (defs₀ (F := F)) Variants.none c none) E (cc0__poly_loss_kernel i arg1 harg1 arg2 harg2 arg3 harg3 arg4 harg4) K } := by
  refine ⟨?_, fun E K => ?run⟩
  case run =>
    simp only [cc0__poly_loss_kernel_eq_skeleton]; unfold cc0__poly_loss_kernel_skel
    have hs := (slabRun c i arg1 harg1 arg2 harg2 arg3 harg3 arg4 harg4 x0 x1).2 E
    unfold owns at hs ⊢
    iintro ⟨H0, H1, ⟨%f2, %hf2, H2⟩, HS0, Hk⟩
    obtain rfl := harg3.eq_unread hf2
    iapply (exec_cut frame (wpE (defs₀ (F := F)) Variants.none c none) E hs) $$ [H0 H1 HS0]
    · isplitl [H0]; · iexact H0
      isplitl [H1]; · iexact H1
      iexact HS0
    iintro %r ⟨%hr, H0, H1, HS0⟩
    subst hr
    sl_exec (disch := first | exact hc0 | exact hc1 | exact hc2)
    sl_step
    iapply Hk
    isplitl [H0]; · iexact H0
    isplitl [H1]; · iexact H1
    isplitl [H2]
    · iexists _; iexact H2
    iexact HS0

end Cert.KernelIdeal.Hand

end
-- ==== Proof.KBody.lean ====
/-
  The idealized kernel's body at every point, and the run of the whole program around it.

  What the total's cell holds after each point is defined by recursion on the point: the first
  sample's case sets it; a middle sample's case adds to what the point before left; the last
  sample's case adds and scales. The cell's staging buffer is written back to the array only
  after the last point, so between points it keeps what the body left. With the two samples'
  rows found at their blocks at every point, this is the proof data of the launch; the body
  obligation is the three runs, chosen by the point; and the launch theorem gives the run of
  the whole program, the host lines after the region included.
-/
import proofs.«103642_g13554916786703_cont_week2b_739_36_alg».proof.Proof.KRunFirst
import proofs.«103642_g13554916786703_cont_week2b_739_36_alg».proof.Proof.KRunMiddle
import proofs.«103642_g13554916786703_cont_week2b_739_36_alg».proof.Proof.KRunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the total's cell -/

theorem cover_first (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : isFirst i) (hc1 : ¬isLater i) (hc2 : ¬isLast i) (x0 x1 : Vec F S1x2x1024 .f32) (y : S1x1x1.Idx) :
    ∃ pc ∈ (runFirst c i arg1 harg1 arg2 harg2 arg3 harg3 arg4 harg4 hc0 hc1 hc2 x0 x1).1, y ∈ pc.1.set :=
  View.cover_of_tiledL (runFirst c i arg1 harg1 arg2 harg2 arg3 harg3 arg4 harg4 hc0 hc1 hc2 x0 x1).1 S1x1x1.size (by sl_kernel_rfl) y

/-- After the first sample: the stores of that case read back. -/
def cellFirst (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : isFirst i) (hc1 : ¬isLater i) (hc2 : ¬isLast i) (x0 x1 : Vec F S1x2x1024 .f32) : Vec F S1x1x1 .f32 :=
  totalView.read (Elt F) (totalView.writes (Elt F) totalView.junk (runFirst c i arg1 harg1 arg2 harg2 arg3 harg3 arg4 harg4 hc0 hc1 hc2 x0 x1).1)

theorem cover_middle (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : ¬isLast i) (x0 x1 : Vec F S1x2x1024 .f32) (xo : Vec F S1x1x1 .f32) (y : S1x1x1.Idx) :
    ∃ pc ∈ (runMiddle c i arg1 harg1 arg2 harg2 arg3 harg3 arg4 harg4 hc0 hc1 hc2 x0 x1 xo).1, y ∈ pc.1.set :=
  View.cover_of_tiledL (runMiddle c i arg1 harg1 arg2 harg2 arg3 harg3 arg4 harg4 hc0 hc1 hc2 x0 x1 xo).1 S1x1x1.size (by sl_kernel_rfl) y

/-- After a middle sample, the cell having held `xo`. -/
def cellMiddle (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : ¬isLast i) (x0 x1 : Vec F S1x2x1024 .f32) (xo : Vec F S1x1x1 .f32) : Vec F S1x1x1 .f32 :=
  totalView.read (Elt F) (totalView.writes (Elt F) totalView.junk (runMiddle c i arg1 harg1 arg2 harg2 arg3 harg3 arg4 harg4 hc0 hc1 hc2 x0 x1 xo).1)

theorem cover_last (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : isLast i) (x0 x1 : Vec F S1x2x1024 .f32) (xo : Vec F S1x1x1 .f32) (y : S1x1x1.Idx) :
    ∃ pc ∈ (runLast c i arg1 harg1 arg2 harg2 arg3 harg3 arg4 harg4 hc0 hc1 hc2 x0 x1 xo).1, y ∈ pc.1.set :=
  View.cover_of_tiledL (runLast c i arg1 harg1 arg2 harg2 arg3 harg3 arg4 harg4 hc0 hc1 hc2 x0 x1 xo).1 S1x1x1.size (by sl_kernel_rfl) y

/-- After the last sample, the cell having held `xo`. -/
def cellLast (c : Dev nD) (i : grid0.Coords)
    (arg1 : Memref sig .tc .vmem S1x2x1024 .f32) (harg1 : arg1.IsWhole) (arg2 : Memref sig .tc .vmem S1x2x1024 .f32) (harg2 : arg2.IsWhole)
    (arg3 : Memref sig .tc .vmem S1x1x1 .f32) (harg3 : arg3.IsWhole) (arg4 : Memref sig .tc .vmem S1024x1024 .f32) (harg4 : arg4.IsWhole)
    (hc0 : ¬isFirst i) (hc1 : isLater i) (hc2 : isLast i) (x0 x1 : Vec F S1x2x1024 .f32) (xo : Vec F S1x1x1 .f32) : Vec F S1x1x1 .f32 :=
  totalView.read (Elt F) (totalView.writes (Elt F) totalView.junk (runLast c i arg1 harg1 arg2 harg2 arg3 harg3 arg4 harg4 hc0 hc1 hc2 x0 x1 xo).1)

/-! ## The running total, point by point -/

theorem lt16 {n : ℕ} (hn : n < cfg0.N) : n < 16 := lt_of_lt_of_eq hn (show cfg0.N = 16 from N_0)

/-- What the total's cell holds after the body at point `n`. -/
def totalAt (c : Dev nD) : (n : ℕ) → n < cfg0.N → Vec F S1x1x1 .f32
  | 0, hn => cellFirst c (grid0.coords ⟨0, hn⟩) (mPred ⟨0, hn⟩) (hPred ⟨0, hn⟩) (mGt ⟨0, hn⟩) (hGt ⟨0, hn⟩) (mTotal ⟨0, hn⟩) (hTotal ⟨0, hn⟩) mTable (Memref.isWhole_whole _)
      ((isFirst_iff ⟨0, hn⟩).mpr (Nat.zero_mod _)) (fun h => by have := (isLater_iff ⟨0, hn⟩).mp h; dsimp only at this; omega)
      (fun h => by have := (isLast_iff ⟨0, hn⟩).mp h; dsimp only at this; omega) (iblk m c 0 ⟨0, hn⟩) (iblk m c 1 ⟨0, hn⟩)
  | n + 1, hn =>
    if h2 : (n + 1) % 16 = 15 then
      cellLast c (grid0.coords ⟨n + 1, hn⟩) (mPred ⟨n + 1, hn⟩) (hPred ⟨n + 1, hn⟩) (mGt ⟨n + 1, hn⟩) (hGt ⟨n + 1, hn⟩) (mTotal ⟨n + 1, hn⟩) (hTotal ⟨n + 1, hn⟩) mTable (Memref.isWhole_whole _)
        (fun h => by have := (isFirst_iff ⟨n + 1, hn⟩).mp h; have := lt16 hn; dsimp only at *; omega)
        ((isLater_iff ⟨n + 1, hn⟩).mpr (Nat.succ_le_succ (Nat.zero_le n))) ((isLast_iff ⟨n + 1, hn⟩).mpr h2)
        (iblk m c 0 ⟨n + 1, hn⟩) (iblk m c 1 ⟨n + 1, hn⟩) (totalAt c n (Nat.lt_of_succ_lt hn))
    else
      cellMiddle c (grid0.coords ⟨n + 1, hn⟩) (mPred ⟨n + 1, hn⟩) (hPred ⟨n + 1, hn⟩) (mGt ⟨n + 1, hn⟩) (hGt ⟨n + 1, hn⟩) (mTotal ⟨n + 1, hn⟩) (hTotal ⟨n + 1, hn⟩) mTable (Memref.isWhole_whole _)
        (fun h => by have := (isFirst_iff ⟨n + 1, hn⟩).mp h; have := lt16 hn; dsimp only at *; omega)
        ((isLater_iff ⟨n + 1, hn⟩).mpr (Nat.succ_le_succ (Nat.zero_le n))) (fun h => h2 ((isLast_iff ⟨n + 1, hn⟩).mp h))
        (iblk m c 0 ⟨n + 1, hn⟩) (iblk m c 1 ⟨n + 1, hn⟩) (totalAt c n (Nat.lt_of_succ_lt hn))

theorem totalAt_first (c : Dev nD) (t : Fin cfg0.N) (h0 : t.val % 16 = 0) (h1 : ¬1 ≤ t.val) (h2 : ¬t.val % 16 = 15) :
    totalAt m c t.val t.isLt = cellFirst c (grid0.coords t) (mPred t) (hPred t) (mGt t) (hGt t) (mTotal t) (hTotal t) mTable (Memref.isWhole_whole _)
      ((isFirst_iff t).mpr h0) (fun h => h1 ((isLater_iff t).mp h)) (fun h => h2 ((isLast_iff t).mp h)) (iblk m c 0 t) (iblk m c 1 t) := by
  obtain ⟨n, hn⟩ := t
  cases n with
  | zero => exact rfl
  | succ n => exact absurd (Nat.succ_le_succ (Nat.zero_le n)) h1

theorem totalAt_middle (c : Dev nD) (t : Fin cfg0.N) (h0 : ¬t.val % 16 = 0) (h1 : 1 ≤ t.val) (h2 : ¬t.val % 16 = 15) :
    totalAt m c t.val t.isLt = cellMiddle c (grid0.coords t) (mPred t) (hPred t) (mGt t) (hGt t) (mTotal t) (hTotal t) mTable (Memref.isWhole_whole _)
      (fun h => h0 ((isFirst_iff t).mp h)) ((isLater_iff t).mpr h1) (fun h => h2 ((isLast_iff t).mp h)) (iblk m c 0 t) (iblk m c 1 t)
      (totalAt m c (t.val - 1) (Nat.lt_of_le_of_lt (Nat.sub_le _ _) t.isLt)) := by
  obtain ⟨n, hn⟩ := t
  cases n with
  | zero => exact absurd h1 (by dsimp only; omega)
  | succ n => exact (dif_neg h2).trans rfl

theorem totalAt_last (c : Dev nD) (t : Fin cfg0.N) (h0 : ¬t.val % 16 = 0) (h1 : 1 ≤ t.val) (h2 : t.val % 16 = 15) :
    totalAt m c t.val t.isLt = cellLast c (grid0.coords t) (mPred t) (hPred t) (mGt t) (hGt t) (mTotal t) (hTotal t) mTable (Memref.isWhole_whole _)
      (fun h => h0 ((isFirst_iff t).mp h)) ((isLater_iff t).mpr h1) ((isLast_iff t).mpr h2) (iblk m c 0 t) (iblk m c 1 t)
      (totalAt m c (t.val - 1) (Nat.lt_of_le_of_lt (Nat.sub_le _ _) t.isLt)) := by
  obtain ⟨n, hn⟩ := t
  cases n with
  | zero => exact absurd h1 (by dsimp only; omega)
  | succ n => exact (dif_pos h2).trans rfl

/-! ## The proof data of the launch -/

/-- On core `c`: the arrays as the region finds them; after the body at point `t` each sample's rows at
    their block and the total's cell at `totalAt`; the launch's own invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => totalAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_pred (c : Dev nD) (t : Fin cfg0.N) : (dats m 0 c).after 0 t = iblk m c 0 t := by dsimp only [dats]
theorem after_gt (c : Dev nD) (t : Fin cfg0.N) : (dats m 0 c).after 1 t = iblk m c 1 t := by dsimp only [dats]
theorem after_total (c : Dev nD) (t : Fin cfg0.N) : (dats m 0 c).after 2 t = totalAt m c t.val t.isLt := by dsimp only [dats]

theorem before_pred (c : Dev nD) (t : Fin cfg0.N) (d) : (dats m 0 c).before 0 t d = iblk m c 0 t :=
  before0_0_of m (dats m 0 c) (A_eq m c 0) (after_pred m c) t d
theorem before_gt (c : Dev nD) (t : Fin cfg0.N) (d) : (dats m 0 c).before 1 t d = iblk m c 1 t :=
  before0_1_of m (dats m 0 c) (A_eq m c 1) (after_gt m c) t d

theorem live_total_all : ∀ i : grid0.Coords, cfg0.idle 2 i = false := by decide +kernel

/-- At a later point the total's cell holds what the body left at the point before: its buffer is written
    back only after the last point, and the window is live and whole. -/
theorem before_total_later (c : Dev nD) (t : Fin cfg0.N) (h1 : 1 ≤ t.val) (d) :
    (dats m 0 c).before 2 t d = totalAt m c (t.val - 1) (Nat.lt_of_le_of_lt (Nat.sub_le _ _) t.isLt) := by
  have hN : t.val < 16 := lt16 t.isLt
  rw [Dat.before_out_kept _ 2 rfl t (by omega) (Bool.eq_false_iff.mpr fun h => by have := (flush0_2 _).mp h; dsimp only at this; omega)
    live_total_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mPred t) fullShare ((dats m 0 c).before 0 t d))
    ∗ (∃ d, owns (c : Thread nD τ) (mGt t) fullShare ((dats m 0 c).before 1 t d))
    ∗ (∃ d, owns (c : Thread nD τ) (mTotal t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_pred, before_gt]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, inv_eq]
  rw [show (dats m 0 c).leavesExact 0 t = owns (c : Thread nD τ) (mPred t) fullShare (iblk m c 0 t) from by
      unfold Dat.leavesExact; rw [live_pred t, after_pred],
    show (dats m 0 c).leavesExact 1 t = owns (c : Thread nD τ) (mGt t) fullShare (iblk m c 1 t) from by
      unfold Dat.leavesExact; rw [live_gt t, after_gt],
    show (dats m 0 c).leavesExact 2 t = owns (c : Thread nD τ) (mTotal t) fullShare (totalAt m c t.val t.isLt) from by
      unfold Dat.leavesExact; rw [live_total t, after_total]]
  have hN : t.val < 16 := lt16 t.isLt
  by_cases h0 : t.val % 16 = 0
  · have h1 : ¬1 ≤ t.val := by omega
    have h2 : ¬t.val % 16 = 15 := by omega
    rw [totalAt_first m c t h0 h1 h2]
    unfold cellFirst
    iintro ⟨⟨HS0, Hg⟩, Ho, ⟨%d0, H0⟩, ⟨%d1, H1⟩, ⟨%d2, H2⟩⟩
    iapply ((runFirst c (grid0.coords t) (mPred t) (hPred t) (mGt t) (hGt t) (mTotal t) (hTotal t) mTable (Memref.isWhole_whole _) ((isFirst_iff t).mpr h0) (fun h => h1 ((isLater_iff t).mp h)) (fun h => h2 ((isLast_iff t).mp h)) (iblk m c 0 t) (iblk m c 1 t)).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hg]
    · isplitl [HS0]
      · iexact HS0
      iexact Hg
    isplitl [Ho]; · iexact Ho
    isplitl [H0]; · iexact H0
    isplitl [H1]; · iexact H1
    unfold owns; iexists _; isplitr
    swap; · iexact H2
    ipureintro; exact View.read_writes_of_cover _ _ _ _ _ (cover_first _ _ _ _ _ _ _ _ _ _ _ _ _ _ _)
  · have h1 : 1 ≤ t.val := by omega
    by_cases h2 : t.val % 16 = 15
    · rw [totalAt_last m c t h0 h1 h2]
      simp only [before_total_later m c t h1]
      unfold cellLast
      iintro ⟨⟨HS0, Hg⟩, Ho, ⟨%d0, H0⟩, ⟨%d1, H1⟩, ⟨%d2, H2⟩⟩
      iapply ((runLast c (grid0.coords t) (mPred t) (hPred t) (mGt t) (hGt t) (mTotal t) (hTotal t) mTable (Memref.isWhole_whole _) (fun h => h0 ((isFirst_iff t).mp h)) ((isLater_iff t).mpr h1) ((isLast_iff t).mpr h2) (iblk m c 0 t) (iblk m c 1 t) _).2 Set.univ _)
      isplitl [H0]; · iexact H0
      isplitl [H1]; · iexact H1
      isplitl [H2]; · iexact H2
      isplitl [HS0]; · iexact HS0
      iintro ⟨H0, H1, ⟨%e2, H2⟩, HS0⟩
      isplitl [HS0 Hg]
      · isplitl [HS0]
        · iexact HS0
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last _ _ _ _ _ _ _ _ _ _ _ _ _ _ _ _)
    · rw [totalAt_middle m c t h0 h1 h2]
      simp only [before_total_later m c t h1]
      unfold cellMiddle
      iintro ⟨⟨HS0, Hg⟩, Ho, ⟨%d0, H0⟩, ⟨%d1, H1⟩, ⟨%d2, H2⟩⟩
      iapply ((runMiddle c (grid0.coords t) (mPred t) (hPred t) (mGt t) (hGt t) (mTotal t) (hTotal t) mTable (Memref.isWhole_whole _) (fun h => h0 ((isFirst_iff t).mp h)) ((isLater_iff t).mpr h1) (fun h => h2 ((isLast_iff t).mp h)) (iblk m c 0 t) (iblk m c 1 t) _).2 Set.univ _)
      isplitl [H0]; · iexact H0
      isplitl [H1]; · iexact H1
      isplitl [H2]; · iexact H2
      isplitl [HS0]; · iexact HS0
      iintro ⟨H0, H1, ⟨%e2, H2⟩, HS0⟩
      isplitl [HS0 Hg]
      · isplitl [HS0]
        · iexact HS0
        iexact Hg
      isplitl [Ho]; · iexact Ho
      isplitl [H0]; · iexact H0
      isplitl [H1]; · iexact H1
      unfold owns; iexists _; isplitr
      swap; · iexact H2
      ipureintro; exact View.read_writes_of_cover _ _ _ _ _ (cover_middle _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run of the whole program, and the frame -/

set_option backward.isDefEq.respectTransparency.types false in
/-- Every weakly fair execution of the program terminates, with every array of the launch at what the
    proof data says was written back, and every other buffer at the host lines after the region applied
    to that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KCell.lean ====
/-
  What each case of the body leaves in the total's cell, in closed form.

  The sample's minimum over rotations is one term of the two samples' coordinate rows: the minimum of
  the four slabs' minima. At the first sample the cell is set to it; at a middle sample it is added
  to what the cell held; at the last sample it is added and the sum is scaled by 2^-15. Each case
  makes one store that covers the cell (the last case two, the second reading the first back), so
  the cell afterwards is that store's value.
-/
import proofs.«103642_g13554916786703_cont_week2b_739_36_alg».proof.Proof.KBody
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

theorem hz3 : (![0, 0, 0] : Fin 3 → Nat) = fun _ => 0 := funext fun a => by fin_cases a <;> rfl

/-- The sample's minimum over rotations, as the body computes it from the two coordinate rows. -/
abbrev partOf (c : Dev nD) (arg1 : Memref sig .tc .vmem S1x2x1024 .f32) (harg1 : arg1.IsWhole) (arg2 : Memref sig .tc .vmem S1x2x1024 .f32) (harg2 : arg2.IsWhole)
    (arg4 : Memref sig .tc .vmem S1024x1024 .f32) (x0 x1 : Vec F S1x2x1024 .f32) : FVec F S1x1 .f32 :=
  k0_pay1 (slabRun.sl.r_56 c arg1 harg1 arg2 harg2 arg4 x0 x1) (slabRun.sl.r_88 c arg1 harg1 arg2 harg2 arg4 x0 x1) (slabRun.sl.r_119 c arg1 harg1 arg2 harg2 arg4 x0 x1) (k0_pay300 k0_pay33 (slabRun.sl.v2514 c arg1 harg1 arg2 harg2 arg4 x0 x1))

/-- The cell after adding the sample's minimum to what it held. -/
abbrev addPart (c : Dev nD) (arg1 : Memref sig .tc .vmem S1x2x1024 .f32) (harg1 : arg1.IsWhole) (arg2 : Memref sig .tc .vmem S1x2x1024 .f32) (harg2 : arg2.IsWhole)
    (arg4 : Memref sig .tc .vmem S1024x1024 .f32) (x0 x1 : Vec F S1x2x1024 .f32) (xo : Vec F S1x1x1 .f32) : FVec F S1x1x1 .f32 :=
  shapeCast S1x1x1 (addf (shapeCast S1x1 xo shapeCasts_S1x1x1_S1x1) (partOf c arg1 harg1 arg2 harg2 arg4 x0 x1)) shapeCasts_S1x1_S1x1x1

/-- The first sample sets the cell to its minimum. -/
theorem cellFirst_eq (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : isFirst i) (hc1 : ¬isLater i) (hc2 : ¬isLast i) (x0 x1 : Vec F S1x2x1024 .f32) :
    cellFirst c i arg1 harg1 arg2 harg2 arg3 harg3 arg4 harg4 hc0 hc1 hc2 x0 x1 = shapeCast S1x1x1 (partOf c arg1 harg1 arg2 harg2 arg4 x0 x1) shapeCasts_S1x1_S1x1x1 := by
  unfold cellFirst
  rw [View.read_writes_eq_canon _ _ _ (cover_first c i arg1 harg1 arg2 harg2 arg3 harg3 arg4 harg4 hc0 hc1 hc2 x0 x1)]
  unfold runFirst
  dsimp only
  rw [View.canon_unit_zero hz3]
  rfl

/-- A middle sample adds its minimum to the cell. -/
theorem cellMiddle_eq (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : ¬isFirst i) (hc1 : isLater i) (hc2 : ¬isLast i) (x0 x1 : Vec F S1x2x1024 .f32) (xo : Vec F S1x1x1 .f32) :
    cellMiddle c i arg1 harg1 arg2 harg2 arg3 harg3 arg4 harg4 hc0 hc1 hc2 x0 x1 xo = addPart c arg1 harg1 arg2 harg2 arg4 x0 x1 xo := by
  unfold cellMiddle
  rw [View.read_writes_eq_canon _ _ _ (cover_middle c i arg1 harg1 arg2 harg2 arg3 harg3 arg4 harg4 hc0 hc1 hc2 x0 x1 xo)]
  unfold runMiddle
  dsimp only
  rw [View.canon_unit_zero hz3]
  unfold k0_pay3
  simp only [View.readAt_eq_ld, harg3.read_unread, View.ld_unit_zero (S := S1x1x1) hz3]

/-- The last sample adds its minimum and scales the sum. -/
theorem cellLast_eq (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : ¬isFirst i) (hc1 : isLater i) (hc2 : isLast i) (x0 x1 : Vec F S1x2x1024 .f32) (xo : Vec F S1x1x1 .f32) :
    cellLast c i arg1 harg1 arg2 harg2 arg3 harg3 arg4 harg4 hc0 hc1 hc2 x0 x1 xo = k0_pay4 (addPart c arg1 harg1 arg2 harg2 arg4 x0 x1 xo) := by
  unfold cellLast
  rw [View.read_writes_eq_canon _ _ _ (cover_last c i arg1 harg1 arg2 harg2 arg3 harg3 arg4 harg4 hc0 hc1 hc2 x0 x1 xo)]
  unfold runLast
  dsimp only
  rw [View.canon_cons_unit_zero (S := S1x1x1) hz3]
  refine congrArg k0_pay4 ?_
  unfold runLast.sl.v2533 runLast.sl.H2_1
  rw [View.readCov_unit_zero (S := S1x1x1) _ hz3]
  unfold k0_pay3
  simp only [View.readAt_eq_ld, harg3.read_unread, View.ld_unit_zero (S := S1x1x1) hz3]

end Cert.KernelIdeal.Hand

end
-- ==== Proof.KHost.lean ====
/-
  The host lines around the region, and the run with its result named.

  Before the region the two arguments are transposed to coordinate-major, sample by sample; window
  0 and window 1 stage sample t's two coordinate rows at point t, so entry (0, cc, j) of the block
  at point t is the argument's entry (t, j, cc). The total's one-cell array is written back once,
  after the last point, with what the body left there; after the region the cell is reshaped to
  the scalar result.
-/
import proofs.«103642_g13554916786703_cont_week2b_739_36_alg».proof.Proof.KCell
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]
variable (m : (ℓ : Loc nD τ sig) → Buf (Elt F) ℓ) (ρ : Dev nD → PrngReg)

/-! ## Before the region: the transposes, and the blocks read at an index -/

/-- Window 0's array is the first argument, transposed. -/
theorem V_pred (c : Dev nD) : (V m c main_call0_v0 : Vec F S16x2x1024 .f32)
    = transpose S16x2x1024 [0, 2, 1] (m ((c : Thread nD τ).loc main_arg0)) transposes_S16x1024x2_S16x2x1024_0_2_1 := by
  show StableHlo.after hostOps0 (fun b => m (c, b)) (Proc.devRef .tc main_call0_v0) = _
  after_results
  rfl

/-- Window 1's array is the second argument, transposed. -/
theorem V_gt (c : Dev nD) : (V m c main_call0_v1 : Vec F S16x2x1024 .f32)
    = transpose S16x2x1024 [0, 2, 1] (m ((c : Thread nD τ).loc main_arg1)) transposes_S16x1024x2_S16x2x1024_0_2_1 := by
  show StableHlo.after hostOps0 (fun b => m (c, b)) (Proc.devRef .tc main_call0_v1) = _
  after_results
  rfl

/-- At point t window 0 is on sample t, whole. -/
theorem idx_pred : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- At point t window 1 is on sample t, whole. -/
theorem idx_gt : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- A transposed argument at (b, cc, j) is the argument at (b, j, cc). -/
theorem transposed_apply (x : Vec F S16x1024x2 .f32) (b : Fin 16) (cc : Fin 2) (j : Fin 1024) :
    transpose S16x2x1024 [0, 2, 1] x transposes_S16x1024x2_S16x2x1024_0_2_1 (ix3 b cc j) = x (ix3 b j cc) :=
  transpose_apply _ _ _ (ix3 b cc j) (ix3 b j cc) (fun a => by
    match a with
    | ⟨0, _⟩ => rfl
    | ⟨1, _⟩ => rfl
    | ⟨2, _⟩ => rfl)

/-- Sample t's predicted coordinate cc of point j, as the body finds it at point t. -/
theorem iblk_pred_apply (c : Dev nD) (t : Fin cfg0.N) (cc : Fin 2) (j : Fin 1024) :
    iblk m c 0 t (ix3 0 cc j) = m ((c : Thread nD τ).loc main_arg0) (ix3 ⟨t.val, lt16 t.isLt⟩ j cc) := by
  refine Eq.trans ?_ ((congrFun (V_pred m c) _).trans (transposed_apply _ ⟨t.val, lt16 t.isLt⟩ cc j))
  unfold iblk
  rw [View.read_apply]
  show V m c main_call0_v0 _ = _
  congr 1
  funext a
  apply Fin.ext
  match a with
  | ⟨0, _⟩ => show win0_0.index t 0 * 1 + 1 * 0 = t.val; rw [(idx_pred t).1]; omega
  | ⟨1, _⟩ => show win0_0.index t 1 * 2 + 1 * cc.val = cc.val; rw [(idx_pred t).2.1]; omega
  | ⟨2, _⟩ => show win0_0.index t 2 * 1024 + 1 * j.val = j.val; rw [(idx_pred t).2.2]; omega

/-- Sample t's ground-truth coordinate cc of point j, as the body finds it at point t. -/
theorem iblk_gt_apply (c : Dev nD) (t : Fin cfg0.N) (cc : Fin 2) (j : Fin 1024) :
    iblk m c 1 t (ix3 0 cc j) = m ((c : Thread nD τ).loc main_arg1) (ix3 ⟨t.val, lt16 t.isLt⟩ j cc) := by
  refine Eq.trans ?_ ((congrFun (V_gt m c) _).trans (transposed_apply _ ⟨t.val, lt16 t.isLt⟩ cc j))
  unfold iblk
  rw [View.read_apply]
  show V m c main_call0_v1 _ = _
  congr 1
  funext a
  apply Fin.ext
  match a with
  | ⟨0, _⟩ => show win0_1.index t 0 * 1 + 1 * 0 = t.val; rw [(idx_gt t).1]; omega
  | ⟨1, _⟩ => show win0_1.index t 1 * 2 + 1 * cc.val = cc.val; rw [(idx_gt t).2.1]; omega
  | ⟨2, _⟩ => show win0_1.index t 2 * 1024 + 1 * j.val = j.val; rw [(idx_gt t).2.2]; omega

/-! ## After the last point: the one write-back, and the reshape -/

/-- What the total's cell holds after the last sample. -/
abbrev result (c : Dev nD) : Vec F S1x1x1 .f32 := totalAt m c 15 (by rw [show cfg0.N = 16 from N_0]; decide)

/-- The one write-back, after point 15, writes it: the array is its one block. -/
theorem flushed_eq (c : Dev nD) (t : Fin cfg0.N) (hf : (cfg0.win 2).flush t = true) :
    (dats m 0 c).flushed 2 t = ((cfg0.win 2).blk t).view.read (Elt F) (result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after_total]
  have hz' : (fun a => win0_2.index t0_15 a * main_call0_v2.ty.shape.size a) = fun _ => 0 := funext fun a => by fin_cases a <;> decide
  exact (Memref.read_access_unit_zero (Elt F) main_call0_v2 hz' (fun a => by rw [congrFun hz' a]; simp) (result m c)).symm

/-- So the total's array ends holding what the cell held after the last sample. -/
theorem final_total (c : Dev nD) : (dats m 0 c).arrAt 2 cfg0.N = result m c :=
  (dats m 0 c).arrAt_eq_of_cover 2 (result m c) (flushed_eq m c) fun i =>
    ⟨t0_15, (flush0_2 t0_15).mpr rfl, by
      show i ∈ ((View.whole main_call0_v2).slice (win0_2.rect t0_15)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega
      | ⟨2, _⟩ => show win0_2.index t0_15 2 * win0_2.size 2 ≤ (i 2 : Nat) ∧ (i 2 : Nat) < win0_2.index t0_15 2 * win0_2.size 2 + win0_2.xsize (grid0.coords t0_15) 2
                  rw [show win0_2.index t0_15 2 * win0_2.size 2 = 0 from by decide +kernel, show win0_2.xsize (grid0.coords t0_15) 2 = 1 from by decide +kernel]; omega⟩

/-- The scalar result is that cell, reshaped. -/
theorem tail_eq (c : Dev nD) : Pipeline.afterTail₀ cfgs (dats m) 0 (V0 m) [hostOps1] c main_v0
    = shapeCast S_ (result m c) shapeCasts_S1x1x1_S_ := by
  unfold Pipeline.afterTail₀
  show StableHlo.after hostOps1 _ (Proc.devRef .tc main_v0) = _
  after_results
  have hw := (Pipeline.withArrays_arr spec0 launch0.win.arr_inj c (V0 m c) (fun w => (dats m 0 c).arrAt w (cfgs 0).N) 2).trans (final_total m c)
  first
    | exact congrArg (fun A => shapeCast S_ A shapeCasts_S1x1x1_S_) hw
    | (funext i; exact congrFun (congrArg (fun A => shapeCast S_ A shapeCasts_S1x1x1_S_) hw) i)

/-- The run, read: the result at the reshaped cell, the arguments as launched. -/
theorem run_value : θ_run defs (onTc (τ := τ) (main (F := F))) ⟨m, fun _ => 0, ρ⟩ (fun r => ∀ c : Dev nD,
      r.2.mem ((c.tc : Thread nD τ).loc main_v0) = shapeCast S_ (result m c) shapeCasts_S1x1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.KLay.lean ====
/-
  Layout operations read at an index, as this kernel uses them.

  A lane roll is printed as two unit-stride slices of one array joined back in the other order:
  the columns from k on, then the columns before k. Read at column j that is the array at column
  (j + k) mod n: a circular shift. The eight rotated copies of a row are stacked along the
  sublanes; a one-row array is broadcast down eight rows; a load through a unit-stride rectangle
  reads the buffer at the rectangle's offset plus the coordinate.
-/
import Idealize.ShloMosaic.Lib.ValueIdx
import Idealize.ShloMosaic.Lib.Pipeline.Value
import Idealize.ShloMosaic.Lib.Pipeline.FrameBody

noncomputable section

namespace Cert.Lay

open Idealize.ShloMosaic Idealize.ShloMosaic.ValueIdx

variable {α : Type}

/-- A load through a unit-stride rectangle reads at offset + coordinate. -/
theorem ld_unit_apply {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k := by
  show X ((Rect.unit off size inb).idx y) = X k
  congr 1; funext a; apply Fin.ext
  rw [hk a]
  show off a + 1 * (y a).val = off a + (y a).val
  rw [Nat.one_mul]

/-- The columns from `B` on, then the columns before `B`: a circular shift by `B`. -/
theorem roll_apply {R N A B : Nat} (hN : A + B = N) (x : (⟨2, ![R, N]⟩ : Shape).Idx → α)
    (h1 : (⟨2, ![R, N]⟩ : Shape).Slices ![0, B] ⟨2, ![R, A]⟩) (h2 : (⟨2, ![R, N]⟩ : Shape).Slices ![0, 0] ⟨2, ![R, B]⟩)
    (hc : Shape.Concatenates [(⟨2, ![R, A]⟩ : Shape), ⟨2, ![R, B]⟩] ⟨2, ![R, N]⟩ 1) (a : Fin R) (j : Fin N) :
    concatenate ⟨2, ![R, N]⟩ 1 [⟨⟨2, ![R, A]⟩, extractStridedSlice ⟨2, ![R, A]⟩ ![0, B] x h1⟩,
        ⟨⟨2, ![R, B]⟩, extractStridedSlice ⟨2, ![R, B]⟩ ![0, 0] x h2⟩] hc (ix2 a j)
      = x (ix2 a ⟨(j.val + B) % N, Nat.mod_lt _ (by have := j.isLt; omega)⟩) := by
  have hjN := j.isLt
  by_cases hj : j.val < A
  · rw [concatenate_pair_apply_left 1 _ _ hc (ix2 a j) rfl (ix2 a ⟨j.val, hj⟩) (fun b => by fin_cases b <;> rfl)]
    refine extractStridedSlice_apply _ x h1 _ _ (fun b => ?_)
    fin_cases b
    · show a.val = 0 + a.val; omega
    · show (j.val + B) % N = B + j.val
      rw [Nat.mod_eq_of_lt (by omega)]; omega
  · have hj' : j.val - A < B := by omega
    rw [concatenate_pair_apply_right 1 _ _ hc (ix2 a j) rfl rfl (ix2 a ⟨j.val - A, hj'⟩)
      (fun b hb => by
        match b, hb with
        | ⟨0, _⟩, _ => rfl
        | ⟨1, _⟩, hb => exact absurd rfl hb) (by show (j.val - A) + A = j.val; omega)]
    refine extractStridedSlice_apply _ x h2 _ _ (fun b => ?_)
    fin_cases b
    · show a.val = 0 + a.val; omega
    · show (j.val + B) % N = 0 + (j.val - A)
      have : j.val + B = N + (j.val - A) := by omega
      rw [this, Nat.add_mod_left, Nat.mod_eq_of_lt (by omega)]; omega

/-- A one-row array broadcast down `R` rows reads its row. -/
theorem bcastRows_apply {R N : Nat} (x : (⟨2, ![1, N]⟩ : Shape).Idx → α) (h : (⟨2, ![1, N]⟩ : Shape).Broadcasts ⟨2, ![R, N]⟩)
    (a : Fin R) (j : Fin N) : broadcastTo ⟨2, ![R, N]⟩ x h (ix2 a j) = x (ix2 0 j) := by
  refine broadcastTo_apply x h _ _ (fun b => ?_)
  fin_cases b
  · rfl
  · show j.val = if N = 1 then 0 else j.val
    split
    · have := j.isLt; omega
    · rfl

/-- Eight one-row arrays stacked along the rows: row `a` reads the `a`-th. -/
theorem stack8_apply {N : Nat} (x0 x1 x2 x3 x4 x5 x6 x7 : (⟨2, ![1, N]⟩ : Shape).Idx → α)
    (hc : Shape.Concatenates [(⟨2, ![1, N]⟩ : Shape), (⟨2, ![1, N]⟩ : Shape), (⟨2, ![1, N]⟩ : Shape), (⟨2, ![1, N]⟩ : Shape), (⟨2, ![1, N]⟩ : Shape), (⟨2, ![1, N]⟩ : Shape), (⟨2, ![1, N]⟩ : Shape), (⟨2, ![1, N]⟩ : Shape)] ⟨2, ![8, N]⟩ 0) (a : Fin 8) (j : Fin N) :
    concatenate ⟨2, ![8, N]⟩ 0 [⟨(⟨2, ![1, N]⟩ : Shape), x0⟩, ⟨(⟨2, ![1, N]⟩ : Shape), x1⟩, ⟨(⟨2, ![1, N]⟩ : Shape), x2⟩, ⟨(⟨2, ![1, N]⟩ : Shape), x3⟩, ⟨(⟨2, ![1, N]⟩ : Shape), x4⟩, ⟨(⟨2, ![1, N]⟩ : Shape), x5⟩, ⟨(⟨2, ![1, N]⟩ : Shape), x6⟩, ⟨(⟨2, ![1, N]⟩ : Shape), x7⟩] hc (ix2 a j)
      = (![x0, x1, x2, x3, x4, x5, x6, x7] a) (ix2 0 j) := by
  have key : ∀ (k : Nat) (hk : k < 8) (xk : (⟨2, ![1, N]⟩ : Shape).Idx → α)
      (hx : [(⟨(⟨2, ![1, N]⟩ : Shape), x0⟩ : (s : Shape) × (s.Idx → α)), ⟨(⟨2, ![1, N]⟩ : Shape), x1⟩, ⟨(⟨2, ![1, N]⟩ : Shape), x2⟩, ⟨(⟨2, ![1, N]⟩ : Shape), x3⟩, ⟨(⟨2, ![1, N]⟩ : Shape), x4⟩, ⟨(⟨2, ![1, N]⟩ : Shape), x5⟩, ⟨(⟨2, ![1, N]⟩ : Shape), x6⟩, ⟨(⟨2, ![1, N]⟩ : Shape), x7⟩][k]'(by simpa using hk) = ⟨(⟨2, ![1, N]⟩ : Shape), xk⟩)
      (hpre : ((([(⟨(⟨2, ![1, N]⟩ : Shape), x0⟩ : (s : Shape) × (s.Idx → α)), ⟨(⟨2, ![1, N]⟩ : Shape), x1⟩, ⟨(⟨2, ![1, N]⟩ : Shape), x2⟩, ⟨(⟨2, ![1, N]⟩ : Shape), x3⟩, ⟨(⟨2, ![1, N]⟩ : Shape), x4⟩, ⟨(⟨2, ![1, N]⟩ : Shape), x5⟩, ⟨(⟨2, ![1, N]⟩ : Shape), x6⟩, ⟨(⟨2, ![1, N]⟩ : Shape), x7⟩].take k).map (·.1)).map
          fun s => if h : s.rank = (⟨2, ![8, N]⟩ : Shape).rank then s.size ((0 : Fin 2).cast h.symm) else 0).sum = k),
      concatenate ⟨2, ![8, N]⟩ 0 [⟨(⟨2, ![1, N]⟩ : Shape), x0⟩, ⟨(⟨2, ![1, N]⟩ : Shape), x1⟩, ⟨(⟨2, ![1, N]⟩ : Shape), x2⟩, ⟨(⟨2, ![1, N]⟩ : Shape), x3⟩, ⟨(⟨2, ![1, N]⟩ : Shape), x4⟩, ⟨(⟨2, ![1, N]⟩ : Shape), x5⟩, ⟨(⟨2, ![1, N]⟩ : Shape), x6⟩, ⟨(⟨2, ![1, N]⟩ : Shape), x7⟩] hc (ix2 ⟨k, hk⟩ j)
        = xk (ix2 0 j) := fun k hk xk hx hpre =>
    concatenate_apply_piece 0 [(⟨(⟨2, ![1, N]⟩ : Shape), x0⟩ : (s : Shape) × (s.Idx → α)), ⟨(⟨2, ![1, N]⟩ : Shape), x1⟩, ⟨(⟨2, ![1, N]⟩ : Shape), x2⟩, ⟨(⟨2, ![1, N]⟩ : Shape), x3⟩, ⟨(⟨2, ![1, N]⟩ : Shape), x4⟩, ⟨(⟨2, ![1, N]⟩ : Shape), x5⟩, ⟨(⟨2, ![1, N]⟩ : Shape), x6⟩, ⟨(⟨2, ![1, N]⟩ : Shape), x7⟩] hc (ix2 ⟨k, hk⟩ j) k (by simpa using hk) (⟨2, ![1, N]⟩ : Shape) xk hx rfl k hpre (ix2 0 j)
      (fun b hb => by
        match b, hb with
        | ⟨0, _⟩, hb => exact absurd rfl hb
        | ⟨1, _⟩, _ => rfl)
      (by show k + 0 = k; rfl)
  fin_cases a
  · exact key 0 (by decide) x0 rfl rfl
  · exact key 1 (by decide) x1 rfl rfl
  · exact key 2 (by decide) x2 rfl rfl
  · exact key 3 (by decide) x3 rfl rfl
  · exact key 4 (by decide) x4 rfl rfl
  · exact key 5 (by decide) x5 rfl rfl
  · exact key 6 (by decide) x6 rfl rfl
  · exact key 7 (by decide) x7 rfl rfl

end Cert.Lay

end
-- ==== Proof.Spec.lean ====
/-
  The polygon matching loss, as mathematics.

  A sample is 1024 predicted points and 1024 ground-truth points in the plane. At rotation i the
  prediction's point j is matched with the ground truth's point j + i (indices mod 1024), and the
  sample's loss at that rotation is the sum over points and coordinates of the smooth-L1 distance
  (beta = 1). The sample's loss is the minimum over the 1024 rotations of the mean over points; the
  result is the mean over the 16 samples.

  Two spellings of smooth-L1 meet here. The reference's: a*a/2 below 1, a - 1/2 from 1 on. The
  kernel's: m * (2a - m) with m = min(a, 1), which is twice that. And two arrangements of one sum:
  the kernel rotates the prediction by a multiple of 128 one way and the ground truth the other
  way, and sums over a full circle, which is the sum at the combined rotation.
-/
import Idealize.ShloMosaic.PureOps.Ideal

noncomputable section

namespace Cert.Spec

open Finset

/-- A point's index on the circle. -/
abbrev Pt := Fin 1024

/-- Smooth-L1 at distance `a`, as the reference spells it. -/
def sl1 (a : ℝ) : ℝ := if a < 1 then 0.5 * a * a else a - 0.5

/-- The kernel's spelling at distance `a`. -/
def sm2 (a : ℝ) : ℝ := min a 1 * (a + a - min a 1)

/-- The kernel's spelling is twice the reference's, in both branches. -/
theorem sm2_eq (a : ℝ) : sm2 a = 2 * sl1 a := by
  unfold sm2 sl1
  split_ifs with h
  · rw [min_eq_left h.le]; ring
  · rw [min_eq_right (not_lt.mp h)]; ring

/-- One sample's loss at rotation `i`, summed (not yet averaged) over points and coordinates. -/
def rot (p g : Pt → Fin 2 → ℝ) (i : Pt) : ℝ := ∑ j : Pt, ∑ c : Fin 2, sl1 |p j c - g (j + i) c|

/-- The kernel's row: with the prediction read `a` back and the ground truth `b` ahead, the sum over a
    full circle of the kernel's smooth-L1 over both coordinates is twice the loss at rotation `a + b`. -/
theorem kernel_row (p g : Pt → Fin 2 → ℝ) (a b : Pt) :
    ∑ j : Pt, (sm2 |p (j - a) 0 - g (j + b) 0| + sm2 |p (j - a) 1 - g (j + b) 1|) = 2 * rot p g (a + b) := by
  unfold rot
  rw [Finset.mul_sum]
  refine Fintype.sum_equiv (Equiv.subRight a) _ _ fun j => ?_
  simp only [Equiv.subRight_apply, Fin.sum_univ_two, sm2_eq]
  rw [show j - a + (a + b) = j + b by abel]
  ring

/-- The rotation held by row `ρ` of the kernel's table: row 64u + 8o + r holds rotation r + 8u + 128o. -/
def rowRot (ρ : Pt) : Pt := ⟨ρ.val % 8 + 8 * (ρ.val / 64) + 128 * ((ρ.val / 8) % 8), by have := ρ.isLt; omega⟩

/-- Every rotation is held by some row. -/
theorem rowRot_surjective : Function.Surjective rowRot := fun i => by
  have hi := i.isLt
  refine ⟨⟨64 * ((i.val / 8) % 16) + 8 * (i.val / 128) + i.val % 8, by omega⟩, Fin.ext ?_⟩
  simp only [rowRot]
  have h1 : (64 * ((i.val / 8) % 16) + 8 * (i.val / 128) + i.val % 8) % 8 = i.val % 8 := by omega
  have h2 : (64 * ((i.val / 8) % 16) + 8 * (i.val / 128) + i.val % 8) / 64 = (i.val / 8) % 16 := by omega
  have h3 : ((64 * ((i.val / 8) % 16) + 8 * (i.val / 128) + i.val % 8) / 8) % 8 = i.val / 128 := by omega
  rw [h1, h2, h3]; omega

/-- The minimum over rotations of a sample's loss. -/
def minRot (p g : Pt → Fin 2 → ℝ) : ℝ := Finset.univ.inf' Finset.univ_nonempty (rot p g)

/-- Scaling by a non-negative real goes through a minimum of finitely many reals, read as extended reals. -/
theorem inf_coe_mul {ι : Type} [Fintype ι] [Nonempty ι] (c : ℝ) (hc : 0 ≤ c) (f : ι → ℝ) :
    (Finset.univ.inf fun i => ((c * f i : ℝ) : EReal)) = ((c * Finset.univ.inf' Finset.univ_nonempty f : ℝ) : EReal) := by
  obtain ⟨i0, -, h0⟩ := Finset.exists_min_image Finset.univ f Finset.univ_nonempty
  have hinf : Finset.univ.inf' Finset.univ_nonempty f = f i0 :=
    le_antisymm (Finset.inf'_le _ (Finset.mem_univ i0)) (Finset.le_inf' _ _ fun i hi => h0 i hi)
  rw [hinf]
  exact le_antisymm (Finset.inf_le (Finset.mem_univ i0))
    (Finset.le_inf fun i hi => EReal.coe_le_coe_iff.mpr (mul_le_mul_of_nonneg_left (h0 i hi) hc))

/-- The loss: the mean over 16 samples of the minimum over rotations of the mean over 1024 points. -/
def loss (pred gt : Fin 16 → Pt → Fin 2 → ℝ) : ℝ := (∑ b : Fin 16, minRot (pred b) (gt b)) / 16384

end Cert.Spec

end
-- ==== Proof.KBase.lean ====
/-
  The arrays the body builds from one sample, read entry by entry (idealized kernel).

  The sample is real-valued: prediction p and ground truth g, points on a circle of 1024,
  two coordinates each. The body works coordinate-major. This module reads, in the order
  the body builds them, the prediction rows, the ground truth rows, the tile of eight
  shifted copies of a ground-truth row (row a is the row shifted by a), the prediction rows
  broadcast down eight rows and rotated back by multiples of 128, and the tile shifted
  further by 8 at each of sixteen steps. Every entry is p or g at a shifted index.
-/
import proofs.«103642_g13554916786703_cont_week2b_739_36_alg».proof.Proof.KSlabs
import proofs.«103642_g13554916786703_cont_week2b_739_36_alg».proof.Proof.KLay
import proofs.«103642_g13554916786703_cont_week2b_739_36_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Lay Cert.Spec

/-- The point `k` steps round the circle from point 0. -/
def pt (k : Nat) : Pt := ⟨k % 1024, Nat.mod_lt _ (by norm_num)⟩

theorem pt_val (k : Nat) : (pt k).val = k % 1024 := rfl

/-- A point's own index names it. -/
theorem pt_of_fin (j : Fin 1024) : pt j.val = j := Fin.ext (Nat.mod_eq_of_lt j.isLt)

/-- Shifting twice is shifting by the sum. -/
theorem pt_mod_add (a b : Nat) : pt (a % 1024 + b) = pt (a + b) := Fin.ext (by simp [pt_val, Nat.add_mod])

/-- A shift by 8 before a further shift. -/
theorem pt_step (j a K : Nat) : pt ((j + 8) % 1024 + (a + K)) = pt (j + (a + (K + 8))) :=
  Fin.ext (by simp only [pt_val]; omega)

variable (c : Dev nD)
variable (arg1 : Memref sig .tc .vmem S1x2x1024 .f32) (harg1 : arg1.IsWhole) (arg2 : Memref sig .tc .vmem S1x2x1024 .f32) (harg2 : arg2.IsWhole)
variable (x0 x1 : Vec Ideal S1x2x1024 .f32) (p g : Pt → Fin 2 → ℝ)

/-- What it means for a block to hold the sample's reals, coordinate-major. -/
def Holds (x : Vec Ideal S1x2x1024 .f32) (q : Pt → Fin 2 → ℝ) : Prop :=
  ∀ (cc : Fin 2) (j : Fin 1024), x (ix3 0 cc j) = ((q j cc : ℝ) : EReal)

/-- A coordinate row of a block, loaded and flattened. -/
theorem row_read (arg : Memref sig .tc .vmem S1x2x1024 .f32) (harg : arg.IsWhole) (x : Vec Ideal S1x2x1024 .f32)
    (cc : Fin 2) (k : Nat) (hk : k = cc.val) (inb) (hs : (Rect.unit (s := S1x2x1024) ![0, k, 0] S1x1x1024.size inb).shape.ShapeCasts S1x1024) (j : Fin 1024) :
    shapeCast S1x1024 (View.readAt (Elt Ideal) arg.view (Rect.unit (s := S1x2x1024) ![0, k, 0] S1x1x1024.size inb).toLoadRect (harg.unread x)) hs (ix2 0 j)
      = x (ix3 0 cc j) := by
  subst hk
  simp only [View.readAt_eq_ld, harg.read_unread]
  rw [shapeCast_apply _ _ (ix2 0 j) (ix3 0 0 j) (by simp only [Shape.rowMajor_val_two, Shape.rowMajor_val_three]; rfl)]
  refine ld_unit_apply _ _ _ _ _ _ (fun a => ?_)
  match a with
  | ⟨0, _⟩ => rfl
  | ⟨1, _⟩ => show cc.val = cc.val + 0; rfl
  | ⟨2, _⟩ => show j.val = 0 + j.val; omega

theorem px_apply (hp : Holds x0 p) (j : Fin 1024) : slabRun.sl.r c arg1 harg1 x0 (ix2 0 j) = ((p j 0 : ℝ) : EReal) := by
  unfold slabRun.sl.r k0_pay5
  exact (row_read arg1 harg1 x0 0 0 rfl _ _ j).trans (hp 0 j)

theorem py_apply (hp : Holds x0 p) (j : Fin 1024) : slabRun.sl.r_1 c arg1 harg1 x0 (ix2 0 j) = ((p j 1 : ℝ) : EReal) := by
  unfold slabRun.sl.r_1 k0_pay6
  exact (row_read arg1 harg1 x0 1 1 rfl _ _ j).trans (hp 1 j)

theorem gyrow_apply (hg : Holds x1 g) (j : Fin 1024) : slabRun.sl.r_2 c arg2 harg2 x1 (ix2 0 j) = ((g j 1 : ℝ) : EReal) := by
  unfold slabRun.sl.r_2 k0_pay7
  exact (row_read arg2 harg2 x1 1 1 rfl _ _ j).trans (hg 1 j)

/-! ## The payloads that move entries, read at an index (any float instance) -/

section Moves
variable {F : FTy → Type} [FloatOps F]

theorem bcast_x_apply (v : FVec F S1x1024 .f32) (a : Fin 8) (j : Fin 1024) : k0_pay17 v (ix2 a j) = v (ix2 0 j) := by
  unfold k0_pay17; rw [bcastRows_apply, shapeCast_self]
theorem bcast_y_apply (v : FVec F S1x1024 .f32) (a : Fin 8) (j : Fin 1024) : k0_pay18 v (ix2 a j) = v (ix2 0 j) := by
  unfold k0_pay18; rw [bcastRows_apply, shapeCast_self]
theorem back_x1_apply (v : FVec F S1x1024 .f32) (a : Fin 8) (j : Fin 1024) :
    k0_pay19 v (ix2 a j) = v (ix2 0 ⟨(j.val + 896) % 1024, Nat.mod_lt _ (by norm_num)⟩) := by
  unfold k0_pay19; rw [roll_apply (by norm_num), bcast_x_apply]
theorem back_y1_apply (v : FVec F S1x1024 .f32) (a : Fin 8) (j : Fin 1024) :
    k0_pay26 v (ix2 a j) = v (ix2 0 ⟨(j.val + 896) % 1024, Nat.mod_lt _ (by norm_num)⟩) := by
  unfold k0_pay26; rw [roll_apply (by norm_num), bcast_y_apply]
theorem back_x2_apply (v : FVec F S1x1024 .f32) (a : Fin 8) (j : Fin 1024) :
    k0_pay20 v (ix2 a j) = v (ix2 0 ⟨(j.val + 768) % 1024, Nat.mod_lt _ (by norm_num)⟩) := by
  unfold k0_pay20; rw [roll_apply (by norm_num), bcast_x_apply]
theorem back_y2_apply (v : FVec F S1x1024 .f32) (a : Fin 8) (j : Fin 1024) :
    k0_pay27 v (ix2 a j) = v (ix2 0 ⟨(j.val + 768) % 1024, Nat.mod_lt _ (by norm_num)⟩) := by
  unfold k0_pay27; rw [roll_apply (by norm_num), bcast_y_apply]
theorem back_x3_apply (v : FVec F S1x1024 .f32) (a : Fin 8) (j : Fin 1024) :
    k0_pay21 v (ix2 a j) = v (ix2 0 ⟨(j.val + 640) % 1024, Nat.mod_lt _ (by norm_num)⟩) := by
  unfold k0_pay21; rw [roll_apply (by norm_num), bcast_x_apply]
theorem back_y3_apply (v : FVec F S1x1024 .f32) (a : Fin 8) (j : Fin 1024) :
    k0_pay28 v (ix2 a j) = v (ix2 0 ⟨(j.val + 640) % 1024, Nat.mod_lt _ (by norm_num)⟩) := by
  unfold k0_pay28; rw [roll_apply (by norm_num), bcast_y_apply]
theorem back_x4_apply (v : FVec F S1x1024 .f32) (a : Fin 8) (j : Fin 1024) :
    k0_pay22 v (ix2 a j) = v (ix2 0 ⟨(j.val + 512) % 1024, Nat.mod_lt _ (by norm_num)⟩) := by
  unfold k0_pay22; rw [roll_apply (by norm_num), bcast_x_apply]
theorem back_y4_apply (v : FVec F S1x1024 .f32) (a : Fin 8) (j : Fin 1024) :
    k0_pay29 v (ix2 a j) = v (ix2 0 ⟨(j.val + 512) % 1024, Nat.mod_lt _ (by norm_num)⟩) := by
  unfold k0_pay29; rw [roll_apply (by norm_num), bcast_y_apply]
theorem back_x5_apply (v : FVec F S1x1024 .f32) (a : Fin 8) (j : Fin 1024) :
    k0_pay23 v (ix2 a j) = v (ix2 0 ⟨(j.val + 384) % 1024, Nat.mod_lt _ (by norm_num)⟩) := by
  unfold k0_pay23; rw [roll_apply (by norm_num), bcast_x_apply]
theorem back_y5_apply (v : FVec F S1x1024 .f32) (a : Fin 8) (j : Fin 1024) :
    k0_pay30 v (ix2 a j) = v (ix2 0 ⟨(j.val + 384) % 1024, Nat.mod_lt _ (by norm_num)⟩) := by
  unfold k0_pay30; rw [roll_apply (by norm_num), bcast_y_apply]
theorem back_x6_apply (v : FVec F S1x1024 .f32) (a : Fin 8) (j : Fin 1024) :
    k0_pay24 v (ix2 a j) = v (ix2 0 ⟨(j.val + 256) % 1024, Nat.mod_lt _ (by norm_num)⟩) := by
  unfold k0_pay24; rw [roll_apply (by norm_num), bcast_x_apply]
theorem back_y6_apply (v : FVec F S1x1024 .f32) (a : Fin 8) (j : Fin 1024) :
    k0_pay31 v (ix2 a j) = v (ix2 0 ⟨(j.val + 256) % 1024, Nat.mod_lt _ (by norm_num)⟩) := by
  unfold k0_pay31; rw [roll_apply (by norm_num), bcast_y_apply]
theorem back_x7_apply (v : FVec F S1x1024 .f32) (a : Fin 8) (j : Fin 1024) :
    k0_pay25 v (ix2 a j) = v (ix2 0 ⟨(j.val + 128) % 1024, Nat.mod_lt _ (by norm_num)⟩) := by
  unfold k0_pay25; rw [roll_apply (by norm_num), bcast_x_apply]
theorem back_y7_apply (v : FVec F S1x1024 .f32) (a : Fin 8) (j : Fin 1024) :
    k0_pay32 v (ix2 a j) = v (ix2 0 ⟨(j.val + 128) % 1024, Nat.mod_lt _ (by norm_num)⟩) := by
  unfold k0_pay32; rw [roll_apply (by norm_num), bcast_y_apply]
theorem step49_apply (v : FVec F S8x1024 .f32) (a : Fin 8) (j : Fin 1024) :
    k0_pay49 v (ix2 a j) = v (ix2 a ⟨(j.val + 8) % 1024, Nat.mod_lt _ (by norm_num)⟩) := by
  unfold k0_pay49; rw [roll_apply (by norm_num)]
theorem step64_apply (v : FVec F S8x1024 .f32) (a : Fin 8) (j : Fin 1024) :
    k0_pay64 v (ix2 a j) = v (ix2 a ⟨(j.val + 8) % 1024, Nat.mod_lt _ (by norm_num)⟩) := by
  unfold k0_pay64; rw [roll_apply (by norm_num)]
theorem step82_apply (v : FVec F S8x1024 .f32) (a : Fin 8) (j : Fin 1024) :
    k0_pay82 v (ix2 a j) = v (ix2 a ⟨(j.val + 8) % 1024, Nat.mod_lt _ (by norm_num)⟩) := by
  unfold k0_pay82; rw [roll_apply (by norm_num)]
theorem step100_apply (v : FVec F S8x1024 .f32) (a : Fin 8) (j : Fin 1024) :
    k0_pay100 v (ix2 a j) = v (ix2 a ⟨(j.val + 8) % 1024, Nat.mod_lt _ (by norm_num)⟩) := by
  unfold k0_pay100; rw [roll_apply (by norm_num)]
theorem step116_apply (v : FVec F S8x1024 .f32) (a : Fin 8) (j : Fin 1024) :
    k0_pay116 v (ix2 a j) = v (ix2 a ⟨(j.val + 8) % 1024, Nat.mod_lt _ (by norm_num)⟩) := by
  unfold k0_pay116; rw [roll_apply (by norm_num)]
theorem step151_apply (v : FVec F S8x1024 .f32) (a : Fin 8) (j : Fin 1024) :
    k0_pay151 v (ix2 a j) = v (ix2 a ⟨(j.val + 8) % 1024, Nat.mod_lt _ (by norm_num)⟩) := by
  unfold k0_pay151; rw [roll_apply (by norm_num)]
theorem step168_apply (v : FVec F S8x1024 .f32) (a : Fin 8) (j : Fin 1024) :
    k0_pay168 v (ix2 a j) = v (ix2 a ⟨(j.val + 8) % 1024, Nat.mod_lt _ (by norm_num)⟩) := by
  unfold k0_pay168; rw [roll_apply (by norm_num)]
theorem step184_apply (v : FVec F S8x1024 .f32) (a : Fin 8) (j : Fin 1024) :
    k0_pay184 v (ix2 a j) = v (ix2 a ⟨(j.val + 8) % 1024, Nat.mod_lt _ (by norm_num)⟩) := by
  unfold k0_pay184; rw [roll_apply (by norm_num)]
theorem step202_apply (v : FVec F S8x1024 .f32) (a : Fin 8) (j : Fin 1024) :
    k0_pay202 v (ix2 a j) = v (ix2 a ⟨(j.val + 8) % 1024, Nat.mod_lt _ (by norm_num)⟩) := by
  unfold k0_pay202; rw [roll_apply (by norm_num)]
theorem step235_apply (v : FVec F S8x1024 .f32) (a : Fin 8) (j : Fin 1024) :
    k0_pay235 v (ix2 a j) = v (ix2 a ⟨(j.val + 8) % 1024, Nat.mod_lt _ (by norm_num)⟩) := by
  unfold k0_pay235; rw [roll_apply (by norm_num)]
theorem step250_apply (v : FVec F S8x1024 .f32) (a : Fin 8) (j : Fin 1024) :
    k0_pay250 v (ix2 a j) = v (ix2 a ⟨(j.val + 8) % 1024, Nat.mod_lt _ (by norm_num)⟩) := by
  unfold k0_pay250; rw [roll_apply (by norm_num)]
theorem step268_apply (v : FVec F S8x1024 .f32) (a : Fin 8) (j : Fin 1024) :
    k0_pay268 v (ix2 a j) = v (ix2 a ⟨(j.val + 8) % 1024, Nat.mod_lt _ (by norm_num)⟩) := by
  unfold k0_pay268; rw [roll_apply (by norm_num)]
theorem step285_apply (v : FVec F S8x1024 .f32) (a : Fin 8) (j : Fin 1024) :
    k0_pay285 v (ix2 a j) = v (ix2 a ⟨(j.val + 8) % 1024, Nat.mod_lt _ (by norm_num)⟩) := by
  unfold k0_pay285; rw [roll_apply (by norm_num)]
theorem step50_apply (v : FVec F S8x1024 .f32) (a : Fin 8) (j : Fin 1024) :
    k0_pay50 v (ix2 a j) = v (ix2 a ⟨(j.val + 8) % 1024, Nat.mod_lt _ (by norm_num)⟩) := by
  unfold k0_pay50; rw [roll_apply (by norm_num)]
theorem step65_apply (v : FVec F S8x1024 .f32) (a : Fin 8) (j : Fin 1024) :
    k0_pay65 v (ix2 a j) = v (ix2 a ⟨(j.val + 8) % 1024, Nat.mod_lt _ (by norm_num)⟩) := by
  unfold k0_pay65; rw [roll_apply (by norm_num)]
theorem step83_apply (v : FVec F S8x1024 .f32) (a : Fin 8) (j : Fin 1024) :
    k0_pay83 v (ix2 a j) = v (ix2 a ⟨(j.val + 8) % 1024, Nat.mod_lt _ (by norm_num)⟩) := by
  unfold k0_pay83; rw [roll_apply (by norm_num)]
theorem step101_apply (v : FVec F S8x1024 .f32) (a : Fin 8) (j : Fin 1024) :
    k0_pay101 v (ix2 a j) = v (ix2 a ⟨(j.val + 8) % 1024, Nat.mod_lt _ (by norm_num)⟩) := by
  unfold k0_pay101; rw [roll_apply (by norm_num)]
theorem step117_apply (v : FVec F S8x1024 .f32) (a : Fin 8) (j : Fin 1024) :
    k0_pay117 v (ix2 a j) = v (ix2 a ⟨(j.val + 8) % 1024, Nat.mod_lt _ (by norm_num)⟩) := by
  unfold k0_pay117; rw [roll_apply (by norm_num)]
theorem step135_apply (v : FVec F S8x1024 .f32) (a : Fin 8) (j : Fin 1024) :
    k0_pay135 v (ix2 a j) = v (ix2 a ⟨(j.val + 8) % 1024, Nat.mod_lt _ (by norm_num)⟩) := by
  unfold k0_pay135; rw [roll_apply (by norm_num)]
theorem step152_apply (v : FVec F S8x1024 .f32) (a : Fin 8) (j : Fin 1024) :
    k0_pay152 v (ix2 a j) = v (ix2 a ⟨(j.val + 8) % 1024, Nat.mod_lt _ (by norm_num)⟩) := by
  unfold k0_pay152; rw [roll_apply (by norm_num)]
theorem step169_apply (v : FVec F S8x1024 .f32) (a : Fin 8) (j : Fin 1024) :
    k0_pay169 v (ix2 a j) = v (ix2 a ⟨(j.val + 8) % 1024, Nat.mod_lt _ (by norm_num)⟩) := by
  unfold k0_pay169; rw [roll_apply (by norm_num)]
theorem step185_apply (v : FVec F S8x1024 .f32) (a : Fin 8) (j : Fin 1024) :
    k0_pay185 v (ix2 a j) = v (ix2 a ⟨(j.val + 8) % 1024, Nat.mod_lt _ (by norm_num)⟩) := by
  unfold k0_pay185; rw [roll_apply (by norm_num)]
theorem step203_apply (v : FVec F S8x1024 .f32) (a : Fin 8) (j : Fin 1024) :
    k0_pay203 v (ix2 a j) = v (ix2 a ⟨(j.val + 8) % 1024, Nat.mod_lt _ (by norm_num)⟩) := by
  unfold k0_pay203; rw [roll_apply (by norm_num)]
theorem step219_apply (v : FVec F S8x1024 .f32) (a : Fin 8) (j : Fin 1024) :
    k0_pay219 v (ix2 a j) = v (ix2 a ⟨(j.val + 8) % 1024, Nat.mod_lt _ (by norm_num)⟩) := by
  unfold k0_pay219; rw [roll_apply (by norm_num)]
theorem step236_apply (v : FVec F S8x1024 .f32) (a : Fin 8) (j : Fin 1024) :
    k0_pay236 v (ix2 a j) = v (ix2 a ⟨(j.val + 8) % 1024, Nat.mod_lt _ (by norm_num)⟩) := by
  unfold k0_pay236; rw [roll_apply (by norm_num)]
theorem step251_apply (v : FVec F S8x1024 .f32) (a : Fin 8) (j : Fin 1024) :
    k0_pay251 v (ix2 a j) = v (ix2 a ⟨(j.val + 8) % 1024, Nat.mod_lt _ (by norm_num)⟩) := by
  unfold k0_pay251; rw [roll_apply (by norm_num)]
theorem step269_apply (v : FVec F S8x1024 .f32) (a : Fin 8) (j : Fin 1024) :
    k0_pay269 v (ix2 a j) = v (ix2 a ⟨(j.val + 8) % 1024, Nat.mod_lt _ (by norm_num)⟩) := by
  unfold k0_pay269; rw [roll_apply (by norm_num)]
theorem step286_apply (v : FVec F S8x1024 .f32) (a : Fin 8) (j : Fin 1024) :
    k0_pay286 v (ix2 a j) = v (ix2 a ⟨(j.val + 8) % 1024, Nat.mod_lt _ (by norm_num)⟩) := by
  unfold k0_pay286; rw [roll_apply (by norm_num)]
theorem step134_apply (v : FVec F S8x1024 .f32) (a : Fin 8) (j : Fin 1024) :
    k0_pay134 (k0_pay132 v) (k0_pay133 v) (ix2 a j) = v (ix2 a ⟨(j.val + 8) % 1024, Nat.mod_lt _ (by norm_num)⟩) := by
  unfold k0_pay134 k0_pay132 k0_pay133; rw [roll_apply (by norm_num)]
theorem step218_apply (v : FVec F S8x1024 .f32) (a : Fin 8) (j : Fin 1024) :
    k0_pay218 v (k0_pay217 v) (ix2 a j) = v (ix2 a ⟨(j.val + 8) % 1024, Nat.mod_lt _ (by norm_num)⟩) := by
  unfold k0_pay218 k0_pay217; rw [roll_apply (by norm_num)]

end Moves

/-! ## The arrays built from the sample -/

section Reads
variable {c arg1 harg1 arg2 harg2 x0 x1 p g}

theorem gx0_apply (hg : Holds x1 g) (a : Fin 8) (j : Fin 1024) :
    slabRun.sl.r_3 c arg2 harg2 x1 (ix2 a j) = ((g (pt (j.val + (a.val + 0))) 0 : ℝ) : EReal) := by
  unfold slabRun.sl.r_3 k0_pay8
  rw [stack8_apply]
  fin_cases a
  all_goals simp only [Fin.isValue, Matrix.cons_val_zero, Matrix.cons_val_one, Matrix.cons_val, Fin.zero_eta, Fin.mk_one, Fin.reduceFinMk]
  all_goals first
    | (rw [row_read arg2 harg2 x1 0 0 rfl _ _ j, hg 0 j]; simp only [Nat.add_zero, pt_of_fin])
    | (rw [roll_apply (by norm_num), row_read arg2 harg2 x1 0 0 rfl _ _ _, hg 0]; rfl)

theorem gy0_apply (hg : Holds x1 g) (a : Fin 8) (j : Fin 1024) :
    slabRun.sl.r_11 c arg2 harg2 x1 (ix2 a j) = ((g (pt (j.val + (a.val + 0))) 1 : ℝ) : EReal) := by
  unfold slabRun.sl.r_11 slabRun.sl.r_2 slabRun.sl.r_4 slabRun.sl.r_5 slabRun.sl.r_6 slabRun.sl.r_7 slabRun.sl.r_8 slabRun.sl.r_9 slabRun.sl.r_10
    k0_pay16 k0_pay9 k0_pay10 k0_pay11 k0_pay12 k0_pay13 k0_pay14 k0_pay15 k0_pay7
  rw [stack8_apply]
  fin_cases a
  all_goals simp only [Fin.isValue, Matrix.cons_val_zero, Matrix.cons_val_one, Matrix.cons_val, Fin.zero_eta, Fin.mk_one, Fin.reduceFinMk]
  all_goals first
    | (rw [row_read arg2 harg2 x1 1 1 rfl _ _ j, hg 1 j]; simp only [Nat.add_zero, pt_of_fin])
    | (rw [roll_apply (by norm_num), row_read arg2 harg2 x1 1 1 rfl _ _ _, hg 1]; rfl)

theorem px0_apply (hp : Holds x0 p) (a : Fin 8) (j : Fin 1024) :
    slabRun.sl.r_12 c arg1 harg1 x0 (ix2 a j) = ((p j 0 : ℝ) : EReal) := by
  unfold slabRun.sl.r_12; rw [bcast_x_apply, px_apply c arg1 harg1 x0 p hp]
theorem py0_apply (hp : Holds x0 p) (a : Fin 8) (j : Fin 1024) :
    slabRun.sl.r_13 c arg1 harg1 x0 (ix2 a j) = ((p j 1 : ℝ) : EReal) := by
  unfold slabRun.sl.r_13; rw [bcast_y_apply, py_apply c arg1 harg1 x0 p hp]
theorem px1_apply (hp : Holds x0 p) (a : Fin 8) (j : Fin 1024) :
    slabRun.sl.r_14 c arg1 harg1 x0 (ix2 a j) = ((p (pt (j.val + 896)) 0 : ℝ) : EReal) := by
  unfold slabRun.sl.r_14; rw [back_x1_apply, px_apply c arg1 harg1 x0 p hp]; rfl
theorem py1_apply (hp : Holds x0 p) (a : Fin 8) (j : Fin 1024) :
    slabRun.sl.r_21 c arg1 harg1 x0 (ix2 a j) = ((p (pt (j.val + 896)) 1 : ℝ) : EReal) := by
  unfold slabRun.sl.r_21; rw [back_y1_apply, py_apply c arg1 harg1 x0 p hp]; rfl
theorem px2_apply (hp : Holds x0 p) (a : Fin 8) (j : Fin 1024) :
    slabRun.sl.r_15 c arg1 harg1 x0 (ix2 a j) = ((p (pt (j.val + 768)) 0 : ℝ) : EReal) := by
  unfold slabRun.sl.r_15; rw [back_x2_apply, px_apply c arg1 harg1 x0 p hp]; rfl
theorem py2_apply (hp : Holds x0 p) (a : Fin 8) (j : Fin 1024) :
    slabRun.sl.r_22 c arg1 harg1 x0 (ix2 a j) = ((p (pt (j.val + 768)) 1 : ℝ) : EReal) := by
  unfold slabRun.sl.r_22; rw [back_y2_apply, py_apply c arg1 harg1 x0 p hp]; rfl
theorem px3_apply (hp : Holds x0 p) (a : Fin 8) (j : Fin 1024) :
    slabRun.sl.r_16 c arg1 harg1 x0 (ix2 a j) = ((p (pt (j.val + 640)) 0 : ℝ) : EReal) := by
  unfold slabRun.sl.r_16; rw [back_x3_apply, px_apply c arg1 harg1 x0 p hp]; rfl
theorem py3_apply (hp : Holds x0 p) (a : Fin 8) (j : Fin 1024) :
    slabRun.sl.r_23 c arg1 harg1 x0 (ix2 a j) = ((p (pt (j.val + 640)) 1 : ℝ) : EReal) := by
  unfold slabRun.sl.r_23; rw [back_y3_apply, py_apply c arg1 harg1 x0 p hp]; rfl
theorem px4_apply (hp : Holds x0 p) (a : Fin 8) (j : Fin 1024) :
    slabRun.sl.r_17 c arg1 harg1 x0 (ix2 a j) = ((p (pt (j.val + 512)) 0 : ℝ) : EReal) := by
  unfold slabRun.sl.r_17; rw [back_x4_apply, px_apply c arg1 harg1 x0 p hp]; rfl
theorem py4_apply (hp : Holds x0 p) (a : Fin 8) (j : Fin 1024) :
    slabRun.sl.r_24 c arg1 harg1 x0 (ix2 a j) = ((p (pt (j.val + 512)) 1 : ℝ) : EReal) := by
  unfold slabRun.sl.r_24; rw [back_y4_apply, py_apply c arg1 harg1 x0 p hp]; rfl
theorem px5_apply (hp : Holds x0 p) (a : Fin 8) (j : Fin 1024) :
    slabRun.sl.r_18 c arg1 harg1 x0 (ix2 a j) = ((p (pt (j.val + 384)) 0 : ℝ) : EReal) := by
  unfold slabRun.sl.r_18; rw [back_x5_apply, px_apply c arg1 harg1 x0 p hp]; rfl
theorem py5_apply (hp : Holds x0 p) (a : Fin 8) (j : Fin 1024) :
    slabRun.sl.r_25 c arg1 harg1 x0 (ix2 a j) = ((p (pt (j.val + 384)) 1 : ℝ) : EReal) := by
  unfold slabRun.sl.r_25; rw [back_y5_apply, py_apply c arg1 harg1 x0 p hp]; rfl
theorem px6_apply (hp : Holds x0 p) (a : Fin 8) (j : Fin 1024) :
    slabRun.sl.r_19 c arg1 harg1 x0 (ix2 a j) = ((p (pt (j.val + 256)) 0 : ℝ) : EReal) := by
  unfold slabRun.sl.r_19; rw [back_x6_apply, px_apply c arg1 harg1 x0 p hp]; rfl
theorem py6_apply (hp : Holds x0 p) (a : Fin 8) (j : Fin 1024) :
    slabRun.sl.r_26 c arg1 harg1 x0 (ix2 a j) = ((p (pt (j.val + 256)) 1 : ℝ) : EReal) := by
  unfold slabRun.sl.r_26; rw [back_y6_apply, py_apply c arg1 harg1 x0 p hp]; rfl
theorem px7_apply (hp : Holds x0 p) (a : Fin 8) (j : Fin 1024) :
    slabRun.sl.r_20 c arg1 harg1 x0 (ix2 a j) = ((p (pt (j.val + 128)) 0 : ℝ) : EReal) := by
  unfold slabRun.sl.r_20; rw [back_x7_apply, px_apply c arg1 harg1 x0 p hp]; rfl
theorem py7_apply (hp : Holds x0 p) (a : Fin 8) (j : Fin 1024) :
    slabRun.sl.r_27 c arg1 harg1 x0 (ix2 a j) = ((p (pt (j.val + 128)) 1 : ℝ) : EReal) := by
  unfold slabRun.sl.r_27; rw [back_y7_apply, py_apply c arg1 harg1 x0 p hp]; rfl
theorem gx1_apply (hg : Holds x1 g) (a : Fin 8) (j : Fin 1024) :
    slabRun.sl.r_33 c arg2 harg2 x1 (ix2 a j) = ((g (pt (j.val + (a.val + 8))) 0 : ℝ) : EReal) := by
  unfold slabRun.sl.r_33; rw [step49_apply, gx0_apply hg, pt_mod_add, show j.val + 8 + (a.val + 0) = j.val + (a.val + 8) from by omega]
theorem gy1_apply (hg : Holds x1 g) (a : Fin 8) (j : Fin 1024) :
    slabRun.sl.r_34 c arg2 harg2 x1 (ix2 a j) = ((g (pt (j.val + (a.val + 8))) 1 : ℝ) : EReal) := by
  unfold slabRun.sl.r_34; rw [step50_apply, gy0_apply hg, pt_mod_add, show j.val + 8 + (a.val + 0) = j.val + (a.val + 8) from by omega]
theorem gx2_apply (hg : Holds x1 g) (a : Fin 8) (j : Fin 1024) :
    slabRun.sl.r_40 c arg2 harg2 x1 (ix2 a j) = ((g (pt (j.val + (a.val + 16))) 0 : ℝ) : EReal) := by
  unfold slabRun.sl.r_40; rw [step64_apply, gx1_apply hg, pt_mod_add, show j.val + 8 + (a.val + 8) = j.val + (a.val + 16) from by omega]
theorem gy2_apply (hg : Holds x1 g) (a : Fin 8) (j : Fin 1024) :
    slabRun.sl.r_41 c arg2 harg2 x1 (ix2 a j) = ((g (pt (j.val + (a.val + 16))) 1 : ℝ) : EReal) := by
  unfold slabRun.sl.r_41; rw [step65_apply, gy1_apply hg, pt_mod_add, show j.val + 8 + (a.val + 8) = j.val + (a.val + 16) from by omega]
theorem gx3_apply (hg : Holds x1 g) (a : Fin 8) (j : Fin 1024) :
    slabRun.sl.r_48 c arg2 harg2 x1 (ix2 a j) = ((g (pt (j.val + (a.val + 24))) 0 : ℝ) : EReal) := by
  unfold slabRun.sl.r_48; rw [step82_apply, gx2_apply hg, pt_mod_add, show j.val + 8 + (a.val + 16) = j.val + (a.val + 24) from by omega]
theorem gy3_apply (hg : Holds x1 g) (a : Fin 8) (j : Fin 1024) :
    slabRun.sl.r_49 c arg2 harg2 x1 (ix2 a j) = ((g (pt (j.val + (a.val + 24))) 1 : ℝ) : EReal) := by
  unfold slabRun.sl.r_49; rw [step83_apply, gy2_apply hg, pt_mod_add, show j.val + 8 + (a.val + 16) = j.val + (a.val + 24) from by omega]
theorem gx4_apply (hg : Holds x1 g) (a : Fin 8) (j : Fin 1024) :
    slabRun.sl.r_57 c arg2 harg2 x1 (ix2 a j) = ((g (pt (j.val + (a.val + 32))) 0 : ℝ) : EReal) := by
  unfold slabRun.sl.r_57; rw [step100_apply, gx3_apply hg, pt_mod_add, show j.val + 8 + (a.val + 24) = j.val + (a.val + 32) from by omega]
theorem gy4_apply (hg : Holds x1 g) (a : Fin 8) (j : Fin 1024) :
    slabRun.sl.r_58 c arg2 harg2 x1 (ix2 a j) = ((g (pt (j.val + (a.val + 32))) 1 : ℝ) : EReal) := by
  unfold slabRun.sl.r_58; rw [step101_apply, gy3_apply hg, pt_mod_add, show j.val + 8 + (a.val + 24) = j.val + (a.val + 32) from by omega]
theorem gx5_apply (hg : Holds x1 g) (a : Fin 8) (j : Fin 1024) :
    slabRun.sl.r_64 c arg2 harg2 x1 (ix2 a j) = ((g (pt (j.val + (a.val + 40))) 0 : ℝ) : EReal) := by
  unfold slabRun.sl.r_64; rw [step116_apply, gx4_apply hg, pt_mod_add, show j.val + 8 + (a.val + 32) = j.val + (a.val + 40) from by omega]
theorem gy5_apply (hg : Holds x1 g) (a : Fin 8) (j : Fin 1024) :
    slabRun.sl.r_65 c arg2 harg2 x1 (ix2 a j) = ((g (pt (j.val + (a.val + 40))) 1 : ℝ) : EReal) := by
  unfold slabRun.sl.r_65; rw [step117_apply, gy4_apply hg, pt_mod_add, show j.val + 8 + (a.val + 32) = j.val + (a.val + 40) from by omega]
theorem gx6_apply (hg : Holds x1 g) (a : Fin 8) (j : Fin 1024) :
    slabRun.sl.r_73 c arg2 harg2 x1 (ix2 a j) = ((g (pt (j.val + (a.val + 48))) 0 : ℝ) : EReal) := by
  unfold slabRun.sl.r_73 slabRun.sl.r_71 slabRun.sl.r_72; rw [step134_apply, gx5_apply hg, pt_mod_add, show j.val + 8 + (a.val + 40) = j.val + (a.val + 48) from by omega]
theorem gy6_apply (hg : Holds x1 g) (a : Fin 8) (j : Fin 1024) :
    slabRun.sl.r_74 c arg2 harg2 x1 (ix2 a j) = ((g (pt (j.val + (a.val + 48))) 1 : ℝ) : EReal) := by
  unfold slabRun.sl.r_74; rw [step135_apply, gy5_apply hg, pt_mod_add, show j.val + 8 + (a.val + 40) = j.val + (a.val + 48) from by omega]
theorem gx7_apply (hg : Holds x1 g) (a : Fin 8) (j : Fin 1024) :
    slabRun.sl.r_81 c arg2 harg2 x1 (ix2 a j) = ((g (pt (j.val + (a.val + 56))) 0 : ℝ) : EReal) := by
  unfold slabRun.sl.r_81; rw [step151_apply, gx6_apply hg, pt_mod_add, show j.val + 8 + (a.val + 48) = j.val + (a.val + 56) from by omega]
theorem gy7_apply (hg : Holds x1 g) (a : Fin 8) (j : Fin 1024) :
    slabRun.sl.r_82 c arg2 harg2 x1 (ix2 a j) = ((g (pt (j.val + (a.val + 56))) 1 : ℝ) : EReal) := by
  unfold slabRun.sl.r_82; rw [step152_apply, gy6_apply hg, pt_mod_add, show j.val + 8 + (a.val + 48) = j.val + (a.val + 56) from by omega]
theorem gx8_apply (hg : Holds x1 g) (a : Fin 8) (j : Fin 1024) :
    slabRun.sl.r_89 c arg2 harg2 x1 (ix2 a j) = ((g (pt (j.val + (a.val + 64))) 0 : ℝ) : EReal) := by
  unfold slabRun.sl.r_89; rw [step168_apply, gx7_apply hg, pt_mod_add, show j.val + 8 + (a.val + 56) = j.val + (a.val + 64) from by omega]
theorem gy8_apply (hg : Holds x1 g) (a : Fin 8) (j : Fin 1024) :
    slabRun.sl.r_90 c arg2 harg2 x1 (ix2 a j) = ((g (pt (j.val + (a.val + 64))) 1 : ℝ) : EReal) := by
  unfold slabRun.sl.r_90; rw [step169_apply, gy7_apply hg, pt_mod_add, show j.val + 8 + (a.val + 56) = j.val + (a.val + 64) from by omega]
theorem gx9_apply (hg : Holds x1 g) (a : Fin 8) (j : Fin 1024) :
    slabRun.sl.r_96 c arg2 harg2 x1 (ix2 a j) = ((g (pt (j.val + (a.val + 72))) 0 : ℝ) : EReal) := by
  unfold slabRun.sl.r_96; rw [step184_apply, gx8_apply hg, pt_mod_add, show j.val + 8 + (a.val + 64) = j.val + (a.val + 72) from by omega]
theorem gy9_apply (hg : Holds x1 g) (a : Fin 8) (j : Fin 1024) :
    slabRun.sl.r_97 c arg2 harg2 x1 (ix2 a j) = ((g (pt (j.val + (a.val + 72))) 1 : ℝ) : EReal) := by
  unfold slabRun.sl.r_97; rw [step185_apply, gy8_apply hg, pt_mod_add, show j.val + 8 + (a.val + 64) = j.val + (a.val + 72) from by omega]
theorem gx10_apply (hg : Holds x1 g) (a : Fin 8) (j : Fin 1024) :
    slabRun.sl.r_104 c arg2 harg2 x1 (ix2 a j) = ((g (pt (j.val + (a.val + 80))) 0 : ℝ) : EReal) := by
  unfold slabRun.sl.r_104; rw [step202_apply, gx9_apply hg, pt_mod_add, show j.val + 8 + (a.val + 72) = j.val + (a.val + 80) from by omega]
theorem gy10_apply (hg : Holds x1 g) (a : Fin 8) (j : Fin 1024) :
    slabRun.sl.r_105 c arg2 harg2 x1 (ix2 a j) = ((g (pt (j.val + (a.val + 80))) 1 : ℝ) : EReal) := by
  unfold slabRun.sl.r_105; rw [step203_apply, gy9_apply hg, pt_mod_add, show j.val + 8 + (a.val + 72) = j.val + (a.val + 80) from by omega]
theorem gx11_apply (hg : Holds x1 g) (a : Fin 8) (j : Fin 1024) :
    slabRun.sl.r_112 c arg2 harg2 x1 (ix2 a j) = ((g (pt (j.val + (a.val + 88))) 0 : ℝ) : EReal) := by
  unfold slabRun.sl.r_112 slabRun.sl.r_111; rw [step218_apply, gx10_apply hg, pt_mod_add, show j.val + 8 + (a.val + 80) = j.val + (a.val + 88) from by omega]
theorem gy11_apply (hg : Holds x1 g) (a : Fin 8) (j : Fin 1024) :
    slabRun.sl.r_113 c arg2 harg2 x1 (ix2 a j) = ((g (pt (j.val + (a.val + 88))) 1 : ℝ) : EReal) := by
  unfold slabRun.sl.r_113; rw [step219_apply, gy10_apply hg, pt_mod_add, show j.val + 8 + (a.val + 80) = j.val + (a.val + 88) from by omega]
theorem gx12_apply (hg : Holds x1 g) (a : Fin 8) (j : Fin 1024) :
    slabRun.sl.r_120 c arg2 harg2 x1 (ix2 a j) = ((g (pt (j.val + (a.val + 96))) 0 : ℝ) : EReal) := by
  unfold slabRun.sl.r_120; rw [step235_apply, gx11_apply hg, pt_mod_add, show j.val + 8 + (a.val + 88) = j.val + (a.val + 96) from by omega]
theorem gy12_apply (hg : Holds x1 g) (a : Fin 8) (j : Fin 1024) :
    slabRun.sl.r_121 c arg2 harg2 x1 (ix2 a j) = ((g (pt (j.val + (a.val + 96))) 1 : ℝ) : EReal) := by
  unfold slabRun.sl.r_121; rw [step236_apply, gy11_apply hg, pt_mod_add, show j.val + 8 + (a.val + 88) = j.val + (a.val + 96) from by omega]
theorem gx13_apply (hg : Holds x1 g) (a : Fin 8) (j : Fin 1024) :
    slabRun.sl.r_127 c arg2 harg2 x1 (ix2 a j) = ((g (pt (j.val + (a.val + 104))) 0 : ℝ) : EReal) := by
  unfold slabRun.sl.r_127; rw [step250_apply, gx12_apply hg, pt_mod_add, show j.val + 8 + (a.val + 96) = j.val + (a.val + 104) from by omega]
theorem gy13_apply (hg : Holds x1 g) (a : Fin 8) (j : Fin 1024) :
    slabRun.sl.r_128 c arg2 harg2 x1 (ix2 a j) = ((g (pt (j.val + (a.val + 104))) 1 : ℝ) : EReal) := by
  unfold slabRun.sl.r_128; rw [step251_apply, gy12_apply hg, pt_mod_add, show j.val + 8 + (a.val + 96) = j.val + (a.val + 104) from by omega]
theorem gx14_apply (hg : Holds x1 g) (a : Fin 8) (j : Fin 1024) :
    slabRun.sl.r_135 c arg2 harg2 x1 (ix2 a j) = ((g (pt (j.val + (a.val + 112))) 0 : ℝ) : EReal) := by
  unfold slabRun.sl.r_135; rw [step268_apply, gx13_apply hg, pt_mod_add, show j.val + 8 + (a.val + 104) = j.val + (a.val + 112) from by omega]
theorem gy14_apply (hg : Holds x1 g) (a : Fin 8) (j : Fin 1024) :
    slabRun.sl.r_136 c arg2 harg2 x1 (ix2 a j) = ((g (pt (j.val + (a.val + 112))) 1 : ℝ) : EReal) := by
  unfold slabRun.sl.r_136; rw [step269_apply, gy13_apply hg, pt_mod_add, show j.val + 8 + (a.val + 104) = j.val + (a.val + 112) from by omega]
theorem gx15_apply (hg : Holds x1 g) (a : Fin 8) (j : Fin 1024) :
    slabRun.sl.r_143 c arg2 harg2 x1 (ix2 a j) = ((g (pt (j.val + (a.val + 120))) 0 : ℝ) : EReal) := by
  unfold slabRun.sl.r_143; rw [step285_apply, gx14_apply hg, pt_mod_add, show j.val + 8 + (a.val + 112) = j.val + (a.val + 120) from by omega]
theorem gy15_apply (hg : Holds x1 g) (a : Fin 8) (j : Fin 1024) :
    slabRun.sl.r_144 c arg2 harg2 x1 (ix2 a j) = ((g (pt (j.val + (a.val + 120))) 1 : ℝ) : EReal) := by
  unfold slabRun.sl.r_144; rw [step286_apply, gy14_apply hg, pt_mod_add, show j.val + 8 + (a.val + 112) = j.val + (a.val + 120) from by omega]

end Reads

end Cert.KernelIdeal.Hand

end
-- ==== Proof.Consts.lean ====
/-
  The float literals the two programs spell, as the extended reals they denote: 0, 1/2, 1, 16,
  1024, 2^-15 (which is 1/(2*1024*16)), and +infinity. Stated once, here.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_half : Ideal.ofBits .f32 0x3F000000#32 = ((0.5 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_16 : Ideal.ofBits .f32 0x41800000#32 = ((16 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- The kernel's final scale, 1/(2 * 1024 * 16), is the dyadic 2^-15 exactly. -/
theorem ofBits_scale : Ideal.ofBits .f32 0x38000000#32 = ((1 / 32768 : ℝ) : EReal) := by
  simp [Ideal.ofBits, Ideal.ieee, -EReal.coe_mul]; norm_num

theorem ofBits_top : Ideal.ofBits .f32 0x7F800000#32 = ⊤ := by
  simp [Ideal.ofBits, Ideal.ieee]

end Cert.Consts

end
-- ==== Proof.KTotal.lean ====
/-
  The running total over the 16 samples, and the kernel's result.

  Suppose the two arguments hold real numbers, and suppose that at every point the minimum the
  body computes from a sample's two coordinate rows is twice that sample's minimum over rotations
  of the summed smooth-L1 distance (this is what the table of per-rotation terms gives; it is a
  hypothesis here and is discharged where the table's value is known). Then by induction on the
  point: after point n < 15 the total's cell holds twice the sum of the minima of samples 0..n;
  after point 15 it holds that sum over all 16 samples scaled by 2^-15, which is the loss, since
  2 / 32768 = 1 / 16384 = 1 / (1024 * 16).
-/
import proofs.«103642_g13554916786703_cont_week2b_739_36_alg».proof.Proof.KHost
import proofs.«103642_g13554916786703_cont_week2b_739_36_alg».proof.Proof.KBase
import proofs.«103642_g13554916786703_cont_week2b_739_36_alg».proof.Proof.Consts
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Spec

variable (m : (ℓ : Loc nD τ sig) → Buf (Elt Ideal) ℓ)
variable (pred gt : Fin 16 → Pt → Fin 2 → ℝ)

/-! ## The partial sums -/

/-- Sample b's minimum over rotations (0 beyond the 16 samples). -/
def sampleMin (b : ℕ) : ℝ := if h : b < 16 then minRot (pred ⟨b, h⟩) (gt ⟨b, h⟩) else 0

theorem sampleMin_of_lt {b : ℕ} (h : b < 16) : sampleMin pred gt b = minRot (pred ⟨b, h⟩) (gt ⟨b, h⟩) := dif_pos h

/-- Twice the sum of the minima of samples 0..n: what the total's cell holds after point n < 15. -/
def acc (n : ℕ) : ℝ := ∑ b ∈ Finset.range (n + 1), 2 * sampleMin pred gt b

theorem acc_zero : acc pred gt 0 = 2 * sampleMin pred gt 0 := by simp [acc]

theorem acc_succ (n : ℕ) : acc pred gt (n + 1) = acc pred gt n + 2 * sampleMin pred gt (n + 1) := Finset.sum_range_succ _ _

/-- Scaled by 2^-15, twice the sum over all 16 samples is the loss. -/
theorem acc_last : acc pred gt 15 * (1 / 32768) = loss pred gt := by
  unfold acc loss
  rw [← Finset.mul_sum, Finset.sum_range (fun b => sampleMin pred gt b)]
  have h : ∀ b : Fin 16, sampleMin pred gt b.val = minRot (pred b) (gt b) := fun b => sampleMin_of_lt pred gt b.isLt
  simp only [h]
  ring

/-! ## The blocks hold the samples -/

variable (c : Dev nD)
variable (hp : ∀ (b : Fin 16) (j : Fin 1024) (cc : Fin 2), m ((c : Thread nD τ).loc main_arg0) (ix3 b j cc) = ((pred b j cc : ℝ) : EReal))
variable (hg : ∀ (b : Fin 16) (j : Fin 1024) (cc : Fin 2), m ((c : Thread nD τ).loc main_arg1) (ix3 b j cc) = ((gt b j cc : ℝ) : EReal))
variable (hpart : ∀ (c : Dev nD) (arg1 : Memref sig .tc .vmem S1x2x1024 .f32) (harg1 : arg1.IsWhole) (arg2 : Memref sig .tc .vmem S1x2x1024 .f32) (harg2 : arg2.IsWhole)
    (arg4 : Memref sig .tc .vmem S1024x1024 .f32) (x0 x1 : Vec Ideal S1x2x1024 .f32) (p g : Pt → Fin 2 → ℝ), Holds x0 p → Holds x1 g →
    partOf c arg1 harg1 arg2 harg2 arg4 x0 x1 (ix2 0 0) = ((2 * minRot p g : ℝ) : EReal))

include hp in
theorem holds_pred (t : Fin cfg0.N) : Holds (iblk m c 0 t) (pred ⟨t.val, lt16 t.isLt⟩) :=
  fun cc j => (iblk_pred_apply m c t cc j).trans (hp _ j cc)

include hg in
theorem holds_gt (t : Fin cfg0.N) : Holds (iblk m c 1 t) (gt ⟨t.val, lt16 t.isLt⟩) :=
  fun cc j => (iblk_gt_apply m c t cc j).trans (hg _ j cc)

/-! ## The cell's one entry, case by case -/

theorem cellCast_apply (P : FVec Ideal S1x1 .f32) : shapeCast S1x1x1 P shapeCasts_S1x1_S1x1x1 (ix3 0 0 0) = P (ix2 0 0) :=
  shapeCast_apply _ _ (ix3 0 0 0) (ix2 0 0) (by simp only [Shape.rowMajor_val_two, Shape.rowMajor_val_three]; rfl)

theorem pairCast_apply (v : Vec Ideal S1x1x1 .f32) : shapeCast S1x1 v shapeCasts_S1x1x1_S1x1 (ix2 0 0) = v (ix3 0 0 0) :=
  shapeCast_apply _ _ (ix2 0 0) (ix3 0 0 0) (by simp only [Shape.rowMajor_val_two, Shape.rowMajor_val_three]; rfl)

theorem addPart_apply (c : Dev nD) (arg1 : Memref sig .tc .vmem S1x2x1024 .f32) (harg1 : arg1.IsWhole) (arg2 : Memref sig .tc .vmem S1x2x1024 .f32) (harg2 : arg2.IsWhole)
    (arg4 : Memref sig .tc .vmem S1024x1024 .f32) (x0 x1 : Vec Ideal S1x2x1024 .f32) (xo : Vec Ideal S1x1x1 .f32) :
    addPart c arg1 harg1 arg2 harg2 arg4 x0 x1 xo (ix3 0 0 0) = xo (ix3 0 0 0) + partOf c arg1 harg1 arg2 harg2 arg4 x0 x1 (ix2 0 0) := by
  show shapeCast S1x1x1 (addf (shapeCast S1x1 xo shapeCasts_S1x1x1_S1x1) (partOf c arg1 harg1 arg2 harg2 arg4 x0 x1)) shapeCasts_S1x1_S1x1x1 (ix3 0 0 0) = _
  rw [cellCast_apply, addf_apply, pairCast_apply]

/-- The last case's scaling, at the cell's entry: times 2^-15. -/
theorem scale_apply (v : Vec Ideal S1x1x1 .f32) : k0_pay4 (F := Ideal) v (ix3 0 0 0) = v (ix3 0 0 0) * (((1 / 32768 : ℝ) : ℝ) : EReal) := by
  unfold k0_pay4
  rw [cellCast_apply, mulf_apply, pairCast_apply, broadcast_apply]
  show v (ix3 0 0 0) * Ideal.ofBits .f32 0x38000000#32 = _
  rw [Cert.Consts.ofBits_scale]

/-! ## The running total -/

include hp hg hpart in
/-- At point t the body's minimum is twice sample t's minimum over rotations. -/
theorem part_at (t : Fin cfg0.N) :
    partOf c (mPred t) (hPred t) (mGt t) (hGt t) mTable (iblk m c 0 t) (iblk m c 1 t) (ix2 0 0)
      = ((2 * minRot (pred ⟨t.val, lt16 t.isLt⟩) (gt ⟨t.val, lt16 t.isLt⟩) : ℝ) : EReal) :=
  hpart _ _ _ _ _ _ _ _ _ _ (holds_pred m pred c hp t) (holds_gt m gt c hg t)

include hp hg hpart in
/-- After point n < 15 the cell holds twice the sum of the minima so far; after point 15, the loss. -/
theorem total_val : ∀ (n : ℕ) (hn : n < cfg0.N),
    (n < 15 → totalAt m c n hn (ix3 0 0 0) = ((acc pred gt n : ℝ) : EReal))
    ∧ (n = 15 → totalAt m c n hn (ix3 0 0 0) = ((loss pred gt : ℝ) : EReal))
  | 0, hn => ⟨fun _ => by
      rw [totalAt_first m c ⟨0, hn⟩ rfl (by dsimp only; omega) (by dsimp only; omega), cellFirst_eq, cellCast_apply,
        part_at m pred gt c hp hg hpart ⟨0, hn⟩, acc_zero, sampleMin_of_lt pred gt (lt16 hn)],
    fun h => absurd h (by decide)⟩
  | n + 1, hn => by
    have hN := lt16 hn
    have ih := (total_val n (Nat.lt_of_succ_lt hn)).1 (by omega)
    have hpart' := part_at m pred gt c hp hg hpart ⟨n + 1, hn⟩
    refine ⟨fun hlt => ?_, fun heq => ?_⟩
    · have h2 : ¬(n + 1) % 16 = 15 := by omega
      rw [totalAt_middle m c ⟨n + 1, hn⟩ (by dsimp only; omega) (by dsimp only; omega) h2, cellMiddle_eq, addPart_apply]
      show totalAt m c n _ (ix3 0 0 0) + _ = _
      rw [ih, hpart', acc_succ, sampleMin_of_lt pred gt hN, ← EReal.coe_add]
    · have h2 : (n + 1) % 16 = 15 := by omega
      rw [totalAt_last m c ⟨n + 1, hn⟩ (by dsimp only; omega) (by dsimp only; omega) h2, cellLast_eq, scale_apply, addPart_apply]
      show (totalAt m c n _ (ix3 0 0 0) + _) * _ = _
      rw [ih, hpart', ← EReal.coe_add, ← EReal.coe_mul, ← acc_last pred gt, ← heq, acc_succ, sampleMin_of_lt pred gt hN]

include hp hg hpart in
/-- The kernel's result is the loss. -/
theorem result_val : shapeCast S_ (result m c) shapeCasts_S1x1x1_S_ = fun _ => ((loss pred gt : ℝ) : EReal) := by
  funext i
  rw [shapeCast_apply _ _ i (ix3 0 0 0) (by simp only [Shape.rowMajor_val_three]; rfl)]
  exact (total_val m pred gt c hp hg hpart 15 _).2 rfl

end Cert.KernelIdeal.Hand

end
-- ==== Proof.KCoe.lean ====
/-
  Coerced reals under the kernel's arithmetic.

  On real numbers read as extended reals, the kernel's spelling of smooth-L1,
  m * (|d| + |d| - m) with m = min(|d|, 1) and |d| spelled max(d, -d), is the real function of
  the module of definitions, coerced.
-/
import Idealize.ShloMosaic.PureOps.Ideal
import Idealize.ShloMosaic.Lib.ValueIdx
import proofs.«103642_g13554916786703_cont_week2b_739_36_alg».proof.Proof.Spec
import proofs.«103642_g13554916786703_cont_week2b_739_36_alg».proof.Proof.Consts

noncomputable section

namespace Cert.KernelIdeal.Hand

open Idealize.ShloMosaic Cert.Spec

theorem absf_apply {s : Shape} {φ : FTy} (a : FVec Ideal s φ) (i : s.Idx) : absf a i = max (a i) (-(a i)) := rfl

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

/-- The kernel's smooth-L1 on two coerced reals is the real one, coerced. -/
theorem sm2_coe (a b : ℝ) :
    min (max ((a : EReal) - (b : EReal)) (-((a : EReal) - (b : EReal)))) (FloatOps.ofBits (F := Ideal) .f32 1065353216#32)
        * (max ((a : EReal) - (b : EReal)) (-((a : EReal) - (b : EReal))) + max ((a : EReal) - (b : EReal)) (-((a : EReal) - (b : EReal)))
          - min (max ((a : EReal) - (b : EReal)) (-((a : EReal) - (b : EReal)))) (FloatOps.ofBits (F := Ideal) .f32 1065353216#32))
      = ((sm2 |a - b| : ℝ) : EReal) := by
  rw [Ideal.ofBits_def, show (1065353216#32 : BitVec 32) = 0x3F800000#32 from rfl, Cert.Consts.ofBits_one]
  simp only [← EReal.coe_sub, ← EReal.coe_neg, ← coe_max', ← coe_min', ← EReal.coe_add, ← EReal.coe_mul, ← abs_eq_max_neg]
  rfl

end Cert.KernelIdeal.Hand

end
-- ==== Proof.KBlk0.lean ====
/-
  The table's rows 0 to 255, block by block (idealized kernel).

  Each store writes eight rows of the table: row a of the block at row R holds, at column j, the
  kernel's smooth-L1 of the two coordinates of the prediction's point j rotated back by 128 o
  against the ground truth's point j + a + 8 u, where R = 64 u + 8 o. Every block's payload is
  the same arithmetic over a different pair of the arrays read before; reading it at (a, j)
  gives that value on the sample's reals.
-/
import proofs.«103642_g13554916786703_cont_week2b_739_36_alg».proof.Proof.KBase
import proofs.«103642_g13554916786703_cont_week2b_739_36_alg».proof.Proof.KCoe

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Lay Cert.Spec

variable {c : Dev nD}
variable {arg1 : Memref sig .tc .vmem S1x2x1024 .f32} {harg1 : arg1.IsWhole} {arg2 : Memref sig .tc .vmem S1x2x1024 .f32} {harg2 : arg2.IsWhole}
variable {x0 x1 : Vec Ideal S1x2x1024 .f32} {p g : Pt → Fin 2 → ℝ}

theorem blk0_apply (hp : Holds x0 p) (hg : Holds x1 g) (a : Fin 8) (j : Fin 1024) :
    (k0_pay37 (slabRun.sl.r_11 c arg2 harg2 x1) (slabRun.sl.r_13 c arg1 harg1 x0) (slabRun.sl.r_28 c arg1 harg1 arg2 harg2 x0 x1) (slabRun.sl.r_29 c arg1 harg1 arg2 harg2 x0 x1)) (ix2 a j)
      = ((sm2 |p j 0 - g (pt (j.val + (a.val + 0))) 0| + sm2 |p j 1 - g (pt (j.val + (a.val + 0))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk8_apply (hp : Holds x0 p) (hg : Holds x1 g) (a : Fin 8) (j : Fin 1024) :
    (k0_pay38 (slabRun.sl.r_3 c arg2 harg2 x1) (slabRun.sl.r_11 c arg2 harg2 x1) (slabRun.sl.r_14 c arg1 harg1 x0) (slabRun.sl.r_21 c arg1 harg1 x0)) (ix2 a j)
      = ((sm2 |p (pt (j.val + 896)) 0 - g (pt (j.val + (a.val + 0))) 0| + sm2 |p (pt (j.val + 896)) 1 - g (pt (j.val + (a.val + 0))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk16_apply (hp : Holds x0 p) (hg : Holds x1 g) (a : Fin 8) (j : Fin 1024) :
    (k0_pay40 (slabRun.sl.r_30 c arg1 harg1 arg2 harg2 x0 x1)) (ix2 a j)
      = ((sm2 |p (pt (j.val + 768)) 0 - g (pt (j.val + (a.val + 0))) 0| + sm2 |p (pt (j.val + 768)) 1 - g (pt (j.val + (a.val + 0))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk24_apply (hp : Holds x0 p) (hg : Holds x1 g) (a : Fin 8) (j : Fin 1024) :
    (k0_pay41 (slabRun.sl.r_3 c arg2 harg2 x1) (slabRun.sl.r_11 c arg2 harg2 x1) (slabRun.sl.r_16 c arg1 harg1 x0) (slabRun.sl.r_23 c arg1 harg1 x0)) (ix2 a j)
      = ((sm2 |p (pt (j.val + 640)) 0 - g (pt (j.val + (a.val + 0))) 0| + sm2 |p (pt (j.val + 640)) 1 - g (pt (j.val + (a.val + 0))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk32_apply (hp : Holds x0 p) (hg : Holds x1 g) (a : Fin 8) (j : Fin 1024) :
    (k0_pay42 (slabRun.sl.r_3 c arg2 harg2 x1) (slabRun.sl.r_11 c arg2 harg2 x1) (slabRun.sl.r_17 c arg1 harg1 x0) (slabRun.sl.r_24 c arg1 harg1 x0)) (ix2 a j)
      = ((sm2 |p (pt (j.val + 512)) 0 - g (pt (j.val + (a.val + 0))) 0| + sm2 |p (pt (j.val + 512)) 1 - g (pt (j.val + (a.val + 0))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk40_apply (hp : Holds x0 p) (hg : Holds x1 g) (a : Fin 8) (j : Fin 1024) :
    (k0_pay46 (slabRun.sl.r_31 c arg1 harg1 arg2 harg2 x0 x1) (slabRun.sl.r_32 c arg1 harg1 arg2 harg2 x0 x1) k0_pay45) (ix2 a j)
      = ((sm2 |p (pt (j.val + 384)) 0 - g (pt (j.val + (a.val + 0))) 0| + sm2 |p (pt (j.val + 384)) 1 - g (pt (j.val + (a.val + 0))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk48_apply (hp : Holds x0 p) (hg : Holds x1 g) (a : Fin 8) (j : Fin 1024) :
    (k0_pay47 (slabRun.sl.r_3 c arg2 harg2 x1) (slabRun.sl.r_11 c arg2 harg2 x1) (slabRun.sl.r_19 c arg1 harg1 x0) (slabRun.sl.r_26 c arg1 harg1 x0)) (ix2 a j)
      = ((sm2 |p (pt (j.val + 256)) 0 - g (pt (j.val + (a.val + 0))) 0| + sm2 |p (pt (j.val + 256)) 1 - g (pt (j.val + (a.val + 0))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk56_apply (hp : Holds x0 p) (hg : Holds x1 g) (a : Fin 8) (j : Fin 1024) :
    (k0_pay48 (slabRun.sl.r_3 c arg2 harg2 x1) (slabRun.sl.r_11 c arg2 harg2 x1) (slabRun.sl.r_20 c arg1 harg1 x0) (slabRun.sl.r_27 c arg1 harg1 x0)) (ix2 a j)
      = ((sm2 |p (pt (j.val + 128)) 0 - g (pt (j.val + (a.val + 0))) 0| + sm2 |p (pt (j.val + 128)) 1 - g (pt (j.val + (a.val + 0))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk64_apply (hp : Holds x0 p) (hg : Holds x1 g) (a : Fin 8) (j : Fin 1024) :
    (k0_pay51 (slabRun.sl.r_11 c arg2 harg2 x1) (slabRun.sl.r_12 c arg1 harg1 x0) (slabRun.sl.r_13 c arg1 harg1 x0) (slabRun.sl.r_33 c arg2 harg2 x1)) (ix2 a j)
      = ((sm2 |p j 0 - g (pt (j.val + (a.val + 8))) 0| + sm2 |p j 1 - g (pt (j.val + (a.val + 8))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk72_apply (hp : Holds x0 p) (hg : Holds x1 g) (a : Fin 8) (j : Fin 1024) :
    (k0_pay52 (slabRun.sl.r_11 c arg2 harg2 x1) (slabRun.sl.r_14 c arg1 harg1 x0) (slabRun.sl.r_21 c arg1 harg1 x0) (slabRun.sl.r_33 c arg2 harg2 x1)) (ix2 a j)
      = ((sm2 |p (pt (j.val + 896)) 0 - g (pt (j.val + (a.val + 8))) 0| + sm2 |p (pt (j.val + 896)) 1 - g (pt (j.val + (a.val + 8))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk80_apply (hp : Holds x0 p) (hg : Holds x1 g) (a : Fin 8) (j : Fin 1024) :
    (k0_pay55 (slabRun.sl.r_35 c arg1 harg1 arg2 harg2 x0 x1) (slabRun.sl.r_36 c arg1 harg1 arg2 harg2 x0 x1) slabRun.sl.cst_42) (ix2 a j)
      = ((sm2 |p (pt (j.val + 768)) 0 - g (pt (j.val + (a.val + 8))) 0| + sm2 |p (pt (j.val + 768)) 1 - g (pt (j.val + (a.val + 8))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk88_apply (hp : Holds x0 p) (hg : Holds x1 g) (a : Fin 8) (j : Fin 1024) :
    (k0_pay56 (slabRun.sl.r_16 c arg1 harg1 x0) (slabRun.sl.r_23 c arg1 harg1 x0) (slabRun.sl.r_33 c arg2 harg2 x1) (slabRun.sl.r_34 c arg2 harg2 x1)) (ix2 a j)
      = ((sm2 |p (pt (j.val + 640)) 0 - g (pt (j.val + (a.val + 8))) 0| + sm2 |p (pt (j.val + 640)) 1 - g (pt (j.val + (a.val + 8))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk96_apply (hp : Holds x0 p) (hg : Holds x1 g) (a : Fin 8) (j : Fin 1024) :
    (k0_pay57 (slabRun.sl.r_17 c arg1 harg1 x0) (slabRun.sl.r_24 c arg1 harg1 x0) (slabRun.sl.r_33 c arg2 harg2 x1) (slabRun.sl.r_34 c arg2 harg2 x1)) (ix2 a j)
      = ((sm2 |p (pt (j.val + 512)) 0 - g (pt (j.val + (a.val + 8))) 0| + sm2 |p (pt (j.val + 512)) 1 - g (pt (j.val + (a.val + 8))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk104_apply (hp : Holds x0 p) (hg : Holds x1 g) (a : Fin 8) (j : Fin 1024) :
    (k0_pay59 (slabRun.sl.r_25 c arg1 harg1 x0) (slabRun.sl.r_34 c arg2 harg2 x1) (slabRun.sl.r_37 c arg1 harg1 arg2 harg2 x0 x1)) (ix2 a j)
      = ((sm2 |p (pt (j.val + 384)) 0 - g (pt (j.val + (a.val + 8))) 0| + sm2 |p (pt (j.val + 384)) 1 - g (pt (j.val + (a.val + 8))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk112_apply (hp : Holds x0 p) (hg : Holds x1 g) (a : Fin 8) (j : Fin 1024) :
    (k0_pay60 (slabRun.sl.r_19 c arg1 harg1 x0) (slabRun.sl.r_26 c arg1 harg1 x0) (slabRun.sl.r_33 c arg2 harg2 x1) (slabRun.sl.r_34 c arg2 harg2 x1)) (ix2 a j)
      = ((sm2 |p (pt (j.val + 256)) 0 - g (pt (j.val + (a.val + 8))) 0| + sm2 |p (pt (j.val + 256)) 1 - g (pt (j.val + (a.val + 8))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk120_apply (hp : Holds x0 p) (hg : Holds x1 g) (a : Fin 8) (j : Fin 1024) :
    (k0_pay63 (slabRun.sl.r_38 c arg1 harg1 arg2 harg2 x0 x1) (slabRun.sl.r_39 c arg1 harg1 arg2 harg2 x0 x1)) (ix2 a j)
      = ((sm2 |p (pt (j.val + 128)) 0 - g (pt (j.val + (a.val + 8))) 0| + sm2 |p (pt (j.val + 128)) 1 - g (pt (j.val + (a.val + 8))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk128_apply (hp : Holds x0 p) (hg : Holds x1 g) (a : Fin 8) (j : Fin 1024) :
    (k0_pay66 (slabRun.sl.r_12 c arg1 harg1 x0) (slabRun.sl.r_13 c arg1 harg1 x0) (slabRun.sl.r_33 c arg2 harg2 x1) (slabRun.sl.r_34 c arg2 harg2 x1)) (ix2 a j)
      = ((sm2 |p j 0 - g (pt (j.val + (a.val + 16))) 0| + sm2 |p j 1 - g (pt (j.val + (a.val + 16))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk136_apply (hp : Holds x0 p) (hg : Holds x1 g) (a : Fin 8) (j : Fin 1024) :
    (k0_pay67 (slabRun.sl.r_14 c arg1 harg1 x0) (slabRun.sl.r_21 c arg1 harg1 x0) (slabRun.sl.r_33 c arg2 harg2 x1) (slabRun.sl.r_34 c arg2 harg2 x1)) (ix2 a j)
      = ((sm2 |p (pt (j.val + 896)) 0 - g (pt (j.val + (a.val + 16))) 0| + sm2 |p (pt (j.val + 896)) 1 - g (pt (j.val + (a.val + 16))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk144_apply (hp : Holds x0 p) (hg : Holds x1 g) (a : Fin 8) (j : Fin 1024) :
    (k0_pay69 (slabRun.sl.r_22 c arg1 harg1 x0) (slabRun.sl.r_41 c arg2 harg2 x1) (slabRun.sl.r_42 c arg1 harg1 arg2 harg2 x0 x1)) (ix2 a j)
      = ((sm2 |p (pt (j.val + 768)) 0 - g (pt (j.val + (a.val + 16))) 0| + sm2 |p (pt (j.val + 768)) 1 - g (pt (j.val + (a.val + 16))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk152_apply (hp : Holds x0 p) (hg : Holds x1 g) (a : Fin 8) (j : Fin 1024) :
    (k0_pay70 (slabRun.sl.r_16 c arg1 harg1 x0) (slabRun.sl.r_23 c arg1 harg1 x0) (slabRun.sl.r_40 c arg2 harg2 x1) (slabRun.sl.r_41 c arg2 harg2 x1)) (ix2 a j)
      = ((sm2 |p (pt (j.val + 640)) 0 - g (pt (j.val + (a.val + 16))) 0| + sm2 |p (pt (j.val + 640)) 1 - g (pt (j.val + (a.val + 16))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk160_apply (hp : Holds x0 p) (hg : Holds x1 g) (a : Fin 8) (j : Fin 1024) :
    (k0_pay75 (slabRun.sl.r_43 c arg1 harg1 arg2 harg2 x0 x1) (slabRun.sl.r_44 c arg1 harg1 arg2 harg2 x0 x1) (slabRun.sl.r_45 c arg1 harg1 arg2 harg2 x0 x1)) (ix2 a j)
      = ((sm2 |p (pt (j.val + 512)) 0 - g (pt (j.val + (a.val + 16))) 0| + sm2 |p (pt (j.val + 512)) 1 - g (pt (j.val + (a.val + 16))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk168_apply (hp : Holds x0 p) (hg : Holds x1 g) (a : Fin 8) (j : Fin 1024) :
    (k0_pay76 (slabRun.sl.r_18 c arg1 harg1 x0) (slabRun.sl.r_25 c arg1 harg1 x0) (slabRun.sl.r_40 c arg2 harg2 x1) (slabRun.sl.r_41 c arg2 harg2 x1)) (ix2 a j)
      = ((sm2 |p (pt (j.val + 384)) 0 - g (pt (j.val + (a.val + 16))) 0| + sm2 |p (pt (j.val + 384)) 1 - g (pt (j.val + (a.val + 16))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk176_apply (hp : Holds x0 p) (hg : Holds x1 g) (a : Fin 8) (j : Fin 1024) :
    (k0_pay77 (slabRun.sl.r_19 c arg1 harg1 x0) (slabRun.sl.r_26 c arg1 harg1 x0) (slabRun.sl.r_40 c arg2 harg2 x1) (slabRun.sl.r_41 c arg2 harg2 x1)) (ix2 a j)
      = ((sm2 |p (pt (j.val + 256)) 0 - g (pt (j.val + (a.val + 16))) 0| + sm2 |p (pt (j.val + 256)) 1 - g (pt (j.val + (a.val + 16))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk184_apply (hp : Holds x0 p) (hg : Holds x1 g) (a : Fin 8) (j : Fin 1024) :
    (k0_pay81 (slabRun.sl.r_27 c arg1 harg1 x0) (slabRun.sl.r_41 c arg2 harg2 x1) (slabRun.sl.r_46 c arg1 harg1 arg2 harg2 x0 x1) (slabRun.sl.r_47 c arg1 harg1 arg2 harg2 x0 x1)) (ix2 a j)
      = ((sm2 |p (pt (j.val + 128)) 0 - g (pt (j.val + (a.val + 16))) 0| + sm2 |p (pt (j.val + 128)) 1 - g (pt (j.val + (a.val + 16))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk192_apply (hp : Holds x0 p) (hg : Holds x1 g) (a : Fin 8) (j : Fin 1024) :
    (k0_pay84 (slabRun.sl.r_12 c arg1 harg1 x0) (slabRun.sl.r_13 c arg1 harg1 x0) (slabRun.sl.r_40 c arg2 harg2 x1) (slabRun.sl.r_41 c arg2 harg2 x1)) (ix2 a j)
      = ((sm2 |p j 0 - g (pt (j.val + (a.val + 24))) 0| + sm2 |p j 1 - g (pt (j.val + (a.val + 24))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk200_apply (hp : Holds x0 p) (hg : Holds x1 g) (a : Fin 8) (j : Fin 1024) :
    (k0_pay89 (slabRun.sl.r_50 c arg1 harg1 arg2 harg2 x0 x1) (slabRun.sl.r_51 c arg1 harg1 arg2 harg2 x0 x1) (slabRun.sl.r_52 c arg1 harg1 arg2 harg2 x0 x1)) (ix2 a j)
      = ((sm2 |p (pt (j.val + 896)) 0 - g (pt (j.val + (a.val + 24))) 0| + sm2 |p (pt (j.val + 896)) 1 - g (pt (j.val + (a.val + 24))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk208_apply (hp : Holds x0 p) (hg : Holds x1 g) (a : Fin 8) (j : Fin 1024) :
    (k0_pay90 (slabRun.sl.r_15 c arg1 harg1 x0) (slabRun.sl.r_22 c arg1 harg1 x0) (slabRun.sl.r_48 c arg2 harg2 x1) (slabRun.sl.r_49 c arg2 harg2 x1)) (ix2 a j)
      = ((sm2 |p (pt (j.val + 768)) 0 - g (pt (j.val + (a.val + 24))) 0| + sm2 |p (pt (j.val + 768)) 1 - g (pt (j.val + (a.val + 24))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk216_apply (hp : Holds x0 p) (hg : Holds x1 g) (a : Fin 8) (j : Fin 1024) :
    (k0_pay91 (slabRun.sl.r_16 c arg1 harg1 x0) (slabRun.sl.r_23 c arg1 harg1 x0) (slabRun.sl.r_48 c arg2 harg2 x1) (slabRun.sl.r_49 c arg2 harg2 x1)) (ix2 a j)
      = ((sm2 |p (pt (j.val + 640)) 0 - g (pt (j.val + (a.val + 24))) 0| + sm2 |p (pt (j.val + 640)) 1 - g (pt (j.val + (a.val + 24))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk224_apply (hp : Holds x0 p) (hg : Holds x1 g) (a : Fin 8) (j : Fin 1024) :
    (k0_pay94 (slabRun.sl.r_24 c arg1 harg1 x0) (slabRun.sl.r_49 c arg2 harg2 x1) (slabRun.sl.r_53 c arg1 harg1 arg2 harg2 x0 x1) (slabRun.sl.r_54 c arg1 harg1 arg2 harg2 x0 x1)) (ix2 a j)
      = ((sm2 |p (pt (j.val + 512)) 0 - g (pt (j.val + (a.val + 24))) 0| + sm2 |p (pt (j.val + 512)) 1 - g (pt (j.val + (a.val + 24))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk232_apply (hp : Holds x0 p) (hg : Holds x1 g) (a : Fin 8) (j : Fin 1024) :
    (k0_pay95 (slabRun.sl.r_18 c arg1 harg1 x0) (slabRun.sl.r_25 c arg1 harg1 x0) (slabRun.sl.r_48 c arg2 harg2 x1) (slabRun.sl.r_49 c arg2 harg2 x1)) (ix2 a j)
      = ((sm2 |p (pt (j.val + 384)) 0 - g (pt (j.val + (a.val + 24))) 0| + sm2 |p (pt (j.val + 384)) 1 - g (pt (j.val + (a.val + 24))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk240_apply (hp : Holds x0 p) (hg : Holds x1 g) (a : Fin 8) (j : Fin 1024) :
    (k0_pay97 (slabRun.sl.r_55 c arg1 harg1 arg2 harg2 x0 x1)) (ix2 a j)
      = ((sm2 |p (pt (j.val + 256)) 0 - g (pt (j.val + (a.val + 24))) 0| + sm2 |p (pt (j.val + 256)) 1 - g (pt (j.val + (a.val + 24))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk248_apply (hp : Holds x0 p) (hg : Holds x1 g) (a : Fin 8) (j : Fin 1024) :
    (k0_pay98 (slabRun.sl.r_20 c arg1 harg1 x0) (slabRun.sl.r_27 c arg1 harg1 x0) (slabRun.sl.r_48 c arg2 harg2 x1) (slabRun.sl.r_49 c arg2 harg2 x1)) (ix2 a j)
      = ((sm2 |p (pt (j.val + 128)) 0 - g (pt (j.val + (a.val + 24))) 0| + sm2 |p (pt (j.val + 128)) 1 - g (pt (j.val + (a.val + 24))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

end Cert.KernelIdeal.Hand

end
-- ==== Proof.KTableDef.lean ====
/-
  The table of per-rotation terms, as a function (idealized kernel).

  Entry (row, column) of the 1024 x 1024 table: with row = 64 u + 8 o + r, the kernel's smooth-L1
  of the two coordinates of the prediction's point (column - 128 o) against the ground truth's
  point (column + r + 8 u).
-/
import proofs.«103642_g13554916786703_cont_week2b_739_36_alg».proof.Proof.KBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Spec

/-- The table's entry at row `ρ`, column `j`, on the sample's reals. -/
def cellVal (p g : Pt → Fin 2 → ℝ) (ρ j : Nat) : ℝ :=
  sm2 |p (pt (j + (1024 - 128 * ((ρ / 8) % 8)))) 0 - g (pt (j + (ρ % 8 + 8 * (ρ / 64)))) 0|
    + sm2 |p (pt (j + (1024 - 128 * ((ρ / 8) % 8)))) 1 - g (pt (j + (ρ % 8 + 8 * (ρ / 64)))) 1|

/-- The table. -/
def table (p g : Pt → Fin 2 → ℝ) : S1024x1024.Idx → EReal := fun y => ((cellVal p g (y 0).val (y 1).val : ℝ) : EReal)

/-- A full turn is no shift. -/
theorem pt_add_1024 (j : Fin 1024) : pt (j.val + 1024) = j := Fin.ext (by simp [pt_val, j.isLt, Nat.mod_eq_of_lt])

end Cert.KernelIdeal.Hand

end
-- ==== Proof.KPiece0.lean ====
/-
  The pieces stored into rows 0 to 255 of the table are blocks of the table function
  (idealized kernel): each store's payload, read at its local index, is the table at the index the
  store's rectangle places it.
-/
import proofs.«103642_g13554916786703_cont_week2b_739_36_alg».proof.Proof.KBlk0
import proofs.«103642_g13554916786703_cont_week2b_739_36_alg».proof.Proof.KTableDef

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Lay Cert.Spec

variable {c : Dev nD}
variable {arg1 : Memref sig .tc .vmem S1x2x1024 .f32} {harg1 : arg1.IsWhole} {arg2 : Memref sig .tc .vmem S1x2x1024 .f32} {harg2 : arg2.IsWhole}
variable {x0 x1 : Vec Ideal S1x2x1024 .f32} {p g : Pt → Fin 2 → ℝ}

theorem piece0 (hp : Holds x0 p) (hg : Holds x1 g) (x : (Rect.unit (s := S1024x1024) ![0, 0] S8x1024.size inb_S1024x1024_S8x1024_0_0).shape.Idx) :
    (k0_pay37 (slabRun.sl.r_11 c arg2 harg2 x1) (slabRun.sl.r_13 c arg1 harg1 x0) (slabRun.sl.r_28 c arg1 harg1 arg2 harg2 x0 x1) (slabRun.sl.r_29 c arg1 harg1 arg2 harg2 x0 x1)) x = table p g ((Rect.unit (s := S1024x1024) ![0, 0] S8x1024.size inb_S1024x1024_S8x1024_0_0).emb x) := by
  obtain ⟨a, j, rfl⟩ : ∃ (a : Fin 8) (j : Fin 1024), x = ix2 a j := ⟨x 0, x 1, eq_ix2 x⟩
  rw [blk0_apply hp hg a j]
  show _ = ((cellVal p g (0 + 1 * a.val) (0 + 1 * j.val) : ℝ) : EReal)
  have ha := a.isLt
  simp only [cellVal, Nat.one_mul, Nat.zero_add]
  rw [show ((a.val) / 8) % 8 = 0 from by omega, show (a.val) % 8 = a.val from by omega, show (a.val) / 64 = 0 from by omega]
  all_goals simp only [Nat.reduceMul, Nat.reduceSub, pt_add_1024]

theorem piece8 (hp : Holds x0 p) (hg : Holds x1 g) (x : (Rect.unit (s := S1024x1024) ![8, 0] S8x1024.size inb_S1024x1024_S8x1024_8_0).shape.Idx) :
    (k0_pay38 (slabRun.sl.r_3 c arg2 harg2 x1) (slabRun.sl.r_11 c arg2 harg2 x1) (slabRun.sl.r_14 c arg1 harg1 x0) (slabRun.sl.r_21 c arg1 harg1 x0)) x = table p g ((Rect.unit (s := S1024x1024) ![8, 0] S8x1024.size inb_S1024x1024_S8x1024_8_0).emb x) := by
  obtain ⟨a, j, rfl⟩ : ∃ (a : Fin 8) (j : Fin 1024), x = ix2 a j := ⟨x 0, x 1, eq_ix2 x⟩
  rw [blk8_apply hp hg a j]
  show _ = ((cellVal p g (8 + 1 * a.val) (0 + 1 * j.val) : ℝ) : EReal)
  have ha := a.isLt
  simp only [cellVal, Nat.one_mul, Nat.zero_add]
  rw [show ((8 + a.val) / 8) % 8 = 1 from by omega, show (8 + a.val) % 8 = a.val from by omega, show (8 + a.val) / 64 = 0 from by omega]
  all_goals simp only [Nat.reduceMul, Nat.reduceSub, pt_add_1024]

theorem piece16 (hp : Holds x0 p) (hg : Holds x1 g) (x : (Rect.unit (s := S1024x1024) ![16, 0] S8x1024.size inb_S1024x1024_S8x1024_16_0).shape.Idx) :
    (k0_pay40 (slabRun.sl.r_30 c arg1 harg1 arg2 harg2 x0 x1)) x = table p g ((Rect.unit (s := S1024x1024) ![16, 0] S8x1024.size inb_S1024x1024_S8x1024_16_0).emb x) := by
  obtain ⟨a, j, rfl⟩ : ∃ (a : Fin 8) (j : Fin 1024), x = ix2 a j := ⟨x 0, x 1, eq_ix2 x⟩
  rw [blk16_apply hp hg a j]
  show _ = ((cellVal p g (16 + 1 * a.val) (0 + 1 * j.val) : ℝ) : EReal)
  have ha := a.isLt
  simp only [cellVal, Nat.one_mul, Nat.zero_add]
  rw [show ((16 + a.val) / 8) % 8 = 2 from by omega, show (16 + a.val) % 8 = a.val from by omega, show (16 + a.val) / 64 = 0 from by omega]
  all_goals simp only [Nat.reduceMul, Nat.reduceSub, pt_add_1024]

theorem piece24 (hp : Holds x0 p) (hg : Holds x1 g) (x : (Rect.unit (s := S1024x1024) ![24, 0] S8x1024.size inb_S1024x1024_S8x1024_24_0).shape.Idx) :
    (k0_pay41 (slabRun.sl.r_3 c arg2 harg2 x1) (slabRun.sl.r_11 c arg2 harg2 x1) (slabRun.sl.r_16 c arg1 harg1 x0) (slabRun.sl.r_23 c arg1 harg1 x0)) x = table p g ((Rect.unit (s := S1024x1024) ![24, 0] S8x1024.size inb_S1024x1024_S8x1024_24_0).emb x) := by
  obtain ⟨a, j, rfl⟩ : ∃ (a : Fin 8) (j : Fin 1024), x = ix2 a j := ⟨x 0, x 1, eq_ix2 x⟩
  rw [blk24_apply hp hg a j]
  show _ = ((cellVal p g (24 + 1 * a.val) (0 + 1 * j.val) : ℝ) : EReal)
  have ha := a.isLt
  simp only [cellVal, Nat.one_mul, Nat.zero_add]
  rw [show ((24 + a.val) / 8) % 8 = 3 from by omega, show (24 + a.val) % 8 = a.val from by omega, show (24 + a.val) / 64 = 0 from by omega]
  all_goals simp only [Nat.reduceMul, Nat.reduceSub, pt_add_1024]

theorem piece32 (hp : Holds x0 p) (hg : Holds x1 g) (x : (Rect.unit (s := S1024x1024) ![32, 0] S8x1024.size inb_S1024x1024_S8x1024_32_0).shape.Idx) :
    (k0_pay42 (slabRun.sl.r_3 c arg2 harg2 x1) (slabRun.sl.r_11 c arg2 harg2 x1) (slabRun.sl.r_17 c arg1 harg1 x0) (slabRun.sl.r_24 c arg1 harg1 x0)) x = table p g ((Rect.unit (s := S1024x1024) ![32, 0] S8x1024.size inb_S1024x1024_S8x1024_32_0).emb x) := by
  obtain ⟨a, j, rfl⟩ : ∃ (a : Fin 8) (j : Fin 1024), x = ix2 a j := ⟨x 0, x 1, eq_ix2 x⟩
  rw [blk32_apply hp hg a j]
  show _ = ((cellVal p g (32 + 1 * a.val) (0 + 1 * j.val) : ℝ) : EReal)
  have ha := a.isLt
  simp only [cellVal, Nat.one_mul, Nat.zero_add]
  rw [show ((32 + a.val) / 8) % 8 = 4 from by omega, show (32 + a.val) % 8 = a.val from by omega, show (32 + a.val) / 64 = 0 from by omega]
  all_goals simp only [Nat.reduceMul, Nat.reduceSub, pt_add_1024]

theorem piece40 (hp : Holds x0 p) (hg : Holds x1 g) (x : (Rect.unit (s := S1024x1024) ![40, 0] S8x1024.size inb_S1024x1024_S8x1024_40_0).shape.Idx) :
    (k0_pay46 (slabRun.sl.r_31 c arg1 harg1 arg2 harg2 x0 x1) (slabRun.sl.r_32 c arg1 harg1 arg2 harg2 x0 x1) k0_pay45) x = table p g ((Rect.unit (s := S1024x1024) ![40, 0] S8x1024.size inb_S1024x1024_S8x1024_40_0).emb x) := by
  obtain ⟨a, j, rfl⟩ : ∃ (a : Fin 8) (j : Fin 1024), x = ix2 a j := ⟨x 0, x 1, eq_ix2 x⟩
  rw [blk40_apply hp hg a j]
  show _ = ((cellVal p g (40 + 1 * a.val) (0 + 1 * j.val) : ℝ) : EReal)
  have ha := a.isLt
  simp only [cellVal, Nat.one_mul, Nat.zero_add]
  rw [show ((40 + a.val) / 8) % 8 = 5 from by omega, show (40 + a.val) % 8 = a.val from by omega, show (40 + a.val) / 64 = 0 from by omega]
  all_goals simp only [Nat.reduceMul, Nat.reduceSub, pt_add_1024]

theorem piece48 (hp : Holds x0 p) (hg : Holds x1 g) (x : (Rect.unit (s := S1024x1024) ![48, 0] S8x1024.size inb_S1024x1024_S8x1024_48_0).shape.Idx) :
    (k0_pay47 (slabRun.sl.r_3 c arg2 harg2 x1) (slabRun.sl.r_11 c arg2 harg2 x1) (slabRun.sl.r_19 c arg1 harg1 x0) (slabRun.sl.r_26 c arg1 harg1 x0)) x = table p g ((Rect.unit (s := S1024x1024) ![48, 0] S8x1024.size inb_S1024x1024_S8x1024_48_0).emb x) := by
  obtain ⟨a, j, rfl⟩ : ∃ (a : Fin 8) (j : Fin 1024), x = ix2 a j := ⟨x 0, x 1, eq_ix2 x⟩
  rw [blk48_apply hp hg a j]
  show _ = ((cellVal p g (48 + 1 * a.val) (0 + 1 * j.val) : ℝ) : EReal)
  have ha := a.isLt
  simp only [cellVal, Nat.one_mul, Nat.zero_add]
  rw [show ((48 + a.val) / 8) % 8 = 6 from by omega, show (48 + a.val) % 8 = a.val from by omega, show (48 + a.val) / 64 = 0 from by omega]
  all_goals simp only [Nat.reduceMul, Nat.reduceSub, pt_add_1024]

theorem piece56 (hp : Holds x0 p) (hg : Holds x1 g) (x : (Rect.unit (s := S1024x1024) ![56, 0] S8x1024.size inb_S1024x1024_S8x1024_56_0).shape.Idx) :
    (k0_pay48 (slabRun.sl.r_3 c arg2 harg2 x1) (slabRun.sl.r_11 c arg2 harg2 x1) (slabRun.sl.r_20 c arg1 harg1 x0) (slabRun.sl.r_27 c arg1 harg1 x0)) x = table p g ((Rect.unit (s := S1024x1024) ![56, 0] S8x1024.size inb_S1024x1024_S8x1024_56_0).emb x) := by
  obtain ⟨a, j, rfl⟩ : ∃ (a : Fin 8) (j : Fin 1024), x = ix2 a j := ⟨x 0, x 1, eq_ix2 x⟩
  rw [blk56_apply hp hg a j]
  show _ = ((cellVal p g (56 + 1 * a.val) (0 + 1 * j.val) : ℝ) : EReal)
  have ha := a.isLt
  simp only [cellVal, Nat.one_mul, Nat.zero_add]
  rw [show ((56 + a.val) / 8) % 8 = 7 from by omega, show (56 + a.val) % 8 = a.val from by omega, show (56 + a.val) / 64 = 0 from by omega]
  all_goals simp only [Nat.reduceMul, Nat.reduceSub, pt_add_1024]

theorem piece64 (hp : Holds x0 p) (hg : Holds x1 g) (x : (Rect.unit (s := S1024x1024) ![64, 0] S8x1024.size inb_S1024x1024_S8x1024_64_0).shape.Idx) :
    (k0_pay51 (slabRun.sl.r_11 c arg2 harg2 x1) (slabRun.sl.r_12 c arg1 harg1 x0) (slabRun.sl.r_13 c arg1 harg1 x0) (slabRun.sl.r_33 c arg2 harg2 x1)) x = table p g ((Rect.unit (s := S1024x1024) ![64, 0] S8x1024.size inb_S1024x1024_S8x1024_64_0).emb x) := by
  obtain ⟨a, j, rfl⟩ : ∃ (a : Fin 8) (j : Fin 1024), x = ix2 a j := ⟨x 0, x 1, eq_ix2 x⟩
  rw [blk64_apply hp hg a j]
  show _ = ((cellVal p g (64 + 1 * a.val) (0 + 1 * j.val) : ℝ) : EReal)
  have ha := a.isLt
  simp only [cellVal, Nat.one_mul, Nat.zero_add]
  rw [show ((64 + a.val) / 8) % 8 = 0 from by omega, show (64 + a.val) % 8 = a.val from by omega, show (64 + a.val) / 64 = 1 from by omega]
  all_goals simp only [Nat.reduceMul, Nat.reduceSub, pt_add_1024]

theorem piece72 (hp : Holds x0 p) (hg : Holds x1 g) (x : (Rect.unit (s := S1024x1024) ![72, 0] S8x1024.size inb_S1024x1024_S8x1024_72_0).shape.Idx) :
    (k0_pay52 (slabRun.sl.r_11 c arg2 harg2 x1) (slabRun.sl.r_14 c arg1 harg1 x0) (slabRun.sl.r_21 c arg1 harg1 x0) (slabRun.sl.r_33 c arg2 harg2 x1)) x = table p g ((Rect.unit (s := S1024x1024) ![72, 0] S8x1024.size inb_S1024x1024_S8x1024_72_0).emb x) := by
  obtain ⟨a, j, rfl⟩ : ∃ (a : Fin 8) (j : Fin 1024), x = ix2 a j := ⟨x 0, x 1, eq_ix2 x⟩
  rw [blk72_apply hp hg a j]
  show _ = ((cellVal p g (72 + 1 * a.val) (0 + 1 * j.val) : ℝ) : EReal)
  have ha := a.isLt
  simp only [cellVal, Nat.one_mul, Nat.zero_add]
  rw [show ((72 + a.val) / 8) % 8 = 1 from by omega, show (72 + a.val) % 8 = a.val from by omega, show (72 + a.val) / 64 = 1 from by omega]
  all_goals simp only [Nat.reduceMul, Nat.reduceSub, pt_add_1024]

theorem piece80 (hp : Holds x0 p) (hg : Holds x1 g) (x : (Rect.unit (s := S1024x1024) ![80, 0] S8x1024.size inb_S1024x1024_S8x1024_80_0).shape.Idx) :
    (k0_pay55 (slabRun.sl.r_35 c arg1 harg1 arg2 harg2 x0 x1) (slabRun.sl.r_36 c arg1 harg1 arg2 harg2 x0 x1) slabRun.sl.cst_42) x = table p g ((Rect.unit (s := S1024x1024) ![80, 0] S8x1024.size inb_S1024x1024_S8x1024_80_0).emb x) := by
  obtain ⟨a, j, rfl⟩ : ∃ (a : Fin 8) (j : Fin 1024), x = ix2 a j := ⟨x 0, x 1, eq_ix2 x⟩
  rw [blk80_apply hp hg a j]
  show _ = ((cellVal p g (80 + 1 * a.val) (0 + 1 * j.val) : ℝ) : EReal)
  have ha := a.isLt
  simp only [cellVal, Nat.one_mul, Nat.zero_add]
  rw [show ((80 + a.val) / 8) % 8 = 2 from by omega, show (80 + a.val) % 8 = a.val from by omega, show (80 + a.val) / 64 = 1 from by omega]
  all_goals simp only [Nat.reduceMul, Nat.reduceSub, pt_add_1024]

theorem piece88 (hp : Holds x0 p) (hg : Holds x1 g) (x : (Rect.unit (s := S1024x1024) ![88, 0] S8x1024.size inb_S1024x1024_S8x1024_88_0).shape.Idx) :
    (k0_pay56 (slabRun.sl.r_16 c arg1 harg1 x0) (slabRun.sl.r_23 c arg1 harg1 x0) (slabRun.sl.r_33 c arg2 harg2 x1) (slabRun.sl.r_34 c arg2 harg2 x1)) x = table p g ((Rect.unit (s := S1024x1024) ![88, 0] S8x1024.size inb_S1024x1024_S8x1024_88_0).emb x) := by
  obtain ⟨a, j, rfl⟩ : ∃ (a : Fin 8) (j : Fin 1024), x = ix2 a j := ⟨x 0, x 1, eq_ix2 x⟩
  rw [blk88_apply hp hg a j]
  show _ = ((cellVal p g (88 + 1 * a.val) (0 + 1 * j.val) : ℝ) : EReal)
  have ha := a.isLt
  simp only [cellVal, Nat.one_mul, Nat.zero_add]
  rw [show ((88 + a.val) / 8) % 8 = 3 from by omega, show (88 + a.val) % 8 = a.val from by omega, show (88 + a.val) / 64 = 1 from by omega]
  all_goals simp only [Nat.reduceMul, Nat.reduceSub, pt_add_1024]

theorem piece96 (hp : Holds x0 p) (hg : Holds x1 g) (x : (Rect.unit (s := S1024x1024) ![96, 0] S8x1024.size inb_S1024x1024_S8x1024_96_0).shape.Idx) :
    (k0_pay57 (slabRun.sl.r_17 c arg1 harg1 x0) (slabRun.sl.r_24 c arg1 harg1 x0) (slabRun.sl.r_33 c arg2 harg2 x1) (slabRun.sl.r_34 c arg2 harg2 x1)) x = table p g ((Rect.unit (s := S1024x1024) ![96, 0] S8x1024.size inb_S1024x1024_S8x1024_96_0).emb x) := by
  obtain ⟨a, j, rfl⟩ : ∃ (a : Fin 8) (j : Fin 1024), x = ix2 a j := ⟨x 0, x 1, eq_ix2 x⟩
  rw [blk96_apply hp hg a j]
  show _ = ((cellVal p g (96 + 1 * a.val) (0 + 1 * j.val) : ℝ) : EReal)
  have ha := a.isLt
  simp only [cellVal, Nat.one_mul, Nat.zero_add]
  rw [show ((96 + a.val) / 8) % 8 = 4 from by omega, show (96 + a.val) % 8 = a.val from by omega, show (96 + a.val) / 64 = 1 from by omega]
  all_goals simp only [Nat.reduceMul, Nat.reduceSub, pt_add_1024]

theorem piece104 (hp : Holds x0 p) (hg : Holds x1 g) (x : (Rect.unit (s := S1024x1024) ![104, 0] S8x1024.size inb_S1024x1024_S8x1024_104_0).shape.Idx) :
    (k0_pay59 (slabRun.sl.r_25 c arg1 harg1 x0) (slabRun.sl.r_34 c arg2 harg2 x1) (slabRun.sl.r_37 c arg1 harg1 arg2 harg2 x0 x1)) x = table p g ((Rect.unit (s := S1024x1024) ![104, 0] S8x1024.size inb_S1024x1024_S8x1024_104_0).emb x) := by
  obtain ⟨a, j, rfl⟩ : ∃ (a : Fin 8) (j : Fin 1024), x = ix2 a j := ⟨x 0, x 1, eq_ix2 x⟩
  rw [blk104_apply hp hg a j]
  show _ = ((cellVal p g (104 + 1 * a.val) (0 + 1 * j.val) : ℝ) : EReal)
  have ha := a.isLt
  simp only [cellVal, Nat.one_mul, Nat.zero_add]
  rw [show ((104 + a.val) / 8) % 8 = 5 from by omega, show (104 + a.val) % 8 = a.val from by omega, show (104 + a.val) / 64 = 1 from by omega]
  all_goals simp only [Nat.reduceMul, Nat.reduceSub, pt_add_1024]

theorem piece112 (hp : Holds x0 p) (hg : Holds x1 g) (x : (Rect.unit (s := S1024x1024) ![112, 0] S8x1024.size inb_S1024x1024_S8x1024_112_0).shape.Idx) :
    (k0_pay60 (slabRun.sl.r_19 c arg1 harg1 x0) (slabRun.sl.r_26 c arg1 harg1 x0) (slabRun.sl.r_33 c arg2 harg2 x1) (slabRun.sl.r_34 c arg2 harg2 x1)) x = table p g ((Rect.unit (s := S1024x1024) ![112, 0] S8x1024.size inb_S1024x1024_S8x1024_112_0).emb x) := by
  obtain ⟨a, j, rfl⟩ : ∃ (a : Fin 8) (j : Fin 1024), x = ix2 a j := ⟨x 0, x 1, eq_ix2 x⟩
  rw [blk112_apply hp hg a j]
  show _ = ((cellVal p g (112 + 1 * a.val) (0 + 1 * j.val) : ℝ) : EReal)
  have ha := a.isLt
  simp only [cellVal, Nat.one_mul, Nat.zero_add]
  rw [show ((112 + a.val) / 8) % 8 = 6 from by omega, show (112 + a.val) % 8 = a.val from by omega, show (112 + a.val) / 64 = 1 from by omega]
  all_goals simp only [Nat.reduceMul, Nat.reduceSub, pt_add_1024]

theorem piece120 (hp : Holds x0 p) (hg : Holds x1 g) (x : (Rect.unit (s := S1024x1024) ![120, 0] S8x1024.size inb_S1024x1024_S8x1024_120_0).shape.Idx) :
    (k0_pay63 (slabRun.sl.r_38 c arg1 harg1 arg2 harg2 x0 x1) (slabRun.sl.r_39 c arg1 harg1 arg2 harg2 x0 x1)) x = table p g ((Rect.unit (s := S1024x1024) ![120, 0] S8x1024.size inb_S1024x1024_S8x1024_120_0).emb x) := by
  obtain ⟨a, j, rfl⟩ : ∃ (a : Fin 8) (j : Fin 1024), x = ix2 a j := ⟨x 0, x 1, eq_ix2 x⟩
  rw [blk120_apply hp hg a j]
  show _ = ((cellVal p g (120 + 1 * a.val) (0 + 1 * j.val) : ℝ) : EReal)
  have ha := a.isLt
  simp only [cellVal, Nat.one_mul, Nat.zero_add]
  rw [show ((120 + a.val) / 8) % 8 = 7 from by omega, show (120 + a.val) % 8 = a.val from by omega, show (120 + a.val) / 64 = 1 from by omega]
  all_goals simp only [Nat.reduceMul, Nat.reduceSub, pt_add_1024]

theorem piece128 (hp : Holds x0 p) (hg : Holds x1 g) (x : (Rect.unit (s := S1024x1024) ![128, 0] S8x1024.size inb_S1024x1024_S8x1024_128_0).shape.Idx) :
    (k0_pay66 (slabRun.sl.r_12 c arg1 harg1 x0) (slabRun.sl.r_13 c arg1 harg1 x0) (slabRun.sl.r_33 c arg2 harg2 x1) (slabRun.sl.r_34 c arg2 harg2 x1)) x = table p g ((Rect.unit (s := S1024x1024) ![128, 0] S8x1024.size inb_S1024x1024_S8x1024_128_0).emb x) := by
  obtain ⟨a, j, rfl⟩ : ∃ (a : Fin 8) (j : Fin 1024), x = ix2 a j := ⟨x 0, x 1, eq_ix2 x⟩
  rw [blk128_apply hp hg a j]
  show _ = ((cellVal p g (128 + 1 * a.val) (0 + 1 * j.val) : ℝ) : EReal)
  have ha := a.isLt
  simp only [cellVal, Nat.one_mul, Nat.zero_add]
  rw [show ((128 + a.val) / 8) % 8 = 0 from by omega, show (128 + a.val) % 8 = a.val from by omega, show (128 + a.val) / 64 = 2 from by omega]
  all_goals simp only [Nat.reduceMul, Nat.reduceSub, pt_add_1024]

theorem piece136 (hp : Holds x0 p) (hg : Holds x1 g) (x : (Rect.unit (s := S1024x1024) ![136, 0] S8x1024.size inb_S1024x1024_S8x1024_136_0).shape.Idx) :
    (k0_pay67 (slabRun.sl.r_14 c arg1 harg1 x0) (slabRun.sl.r_21 c arg1 harg1 x0) (slabRun.sl.r_33 c arg2 harg2 x1) (slabRun.sl.r_34 c arg2 harg2 x1)) x = table p g ((Rect.unit (s := S1024x1024) ![136, 0] S8x1024.size inb_S1024x1024_S8x1024_136_0).emb x) := by
  obtain ⟨a, j, rfl⟩ : ∃ (a : Fin 8) (j : Fin 1024), x = ix2 a j := ⟨x 0, x 1, eq_ix2 x⟩
  rw [blk136_apply hp hg a j]
  show _ = ((cellVal p g (136 + 1 * a.val) (0 + 1 * j.val) : ℝ) : EReal)
  have ha := a.isLt
  simp only [cellVal, Nat.one_mul, Nat.zero_add]
  rw [show ((136 + a.val) / 8) % 8 = 1 from by omega, show (136 + a.val) % 8 = a.val from by omega, show (136 + a.val) / 64 = 2 from by omega]
  all_goals simp only [Nat.reduceMul, Nat.reduceSub, pt_add_1024]

theorem piece144 (hp : Holds x0 p) (hg : Holds x1 g) (x : (Rect.unit (s := S1024x1024) ![144, 0] S8x1024.size inb_S1024x1024_S8x1024_144_0).shape.Idx) :
    (k0_pay69 (slabRun.sl.r_22 c arg1 harg1 x0) (slabRun.sl.r_41 c arg2 harg2 x1) (slabRun.sl.r_42 c arg1 harg1 arg2 harg2 x0 x1)) x = table p g ((Rect.unit (s := S1024x1024) ![144, 0] S8x1024.size inb_S1024x1024_S8x1024_144_0).emb x) := by
  obtain ⟨a, j, rfl⟩ : ∃ (a : Fin 8) (j : Fin 1024), x = ix2 a j := ⟨x 0, x 1, eq_ix2 x⟩
  rw [blk144_apply hp hg a j]
  show _ = ((cellVal p g (144 + 1 * a.val) (0 + 1 * j.val) : ℝ) : EReal)
  have ha := a.isLt
  simp only [cellVal, Nat.one_mul, Nat.zero_add]
  rw [show ((144 + a.val) / 8) % 8 = 2 from by omega, show (144 + a.val) % 8 = a.val from by omega, show (144 + a.val) / 64 = 2 from by omega]
  all_goals simp only [Nat.reduceMul, Nat.reduceSub, pt_add_1024]

theorem piece152 (hp : Holds x0 p) (hg : Holds x1 g) (x : (Rect.unit (s := S1024x1024) ![152, 0] S8x1024.size inb_S1024x1024_S8x1024_152_0).shape.Idx) :
    (k0_pay70 (slabRun.sl.r_16 c arg1 harg1 x0) (slabRun.sl.r_23 c arg1 harg1 x0) (slabRun.sl.r_40 c arg2 harg2 x1) (slabRun.sl.r_41 c arg2 harg2 x1)) x = table p g ((Rect.unit (s := S1024x1024) ![152, 0] S8x1024.size inb_S1024x1024_S8x1024_152_0).emb x) := by
  obtain ⟨a, j, rfl⟩ : ∃ (a : Fin 8) (j : Fin 1024), x = ix2 a j := ⟨x 0, x 1, eq_ix2 x⟩
  rw [blk152_apply hp hg a j]
  show _ = ((cellVal p g (152 + 1 * a.val) (0 + 1 * j.val) : ℝ) : EReal)
  have ha := a.isLt
  simp only [cellVal, Nat.one_mul, Nat.zero_add]
  rw [show ((152 + a.val) / 8) % 8 = 3 from by omega, show (152 + a.val) % 8 = a.val from by omega, show (152 + a.val) / 64 = 2 from by omega]
  all_goals simp only [Nat.reduceMul, Nat.reduceSub, pt_add_1024]

theorem piece160 (hp : Holds x0 p) (hg : Holds x1 g) (x : (Rect.unit (s := S1024x1024) ![160, 0] S8x1024.size inb_S1024x1024_S8x1024_160_0).shape.Idx) :
    (k0_pay75 (slabRun.sl.r_43 c arg1 harg1 arg2 harg2 x0 x1) (slabRun.sl.r_44 c arg1 harg1 arg2 harg2 x0 x1) (slabRun.sl.r_45 c arg1 harg1 arg2 harg2 x0 x1)) x = table p g ((Rect.unit (s := S1024x1024) ![160, 0] S8x1024.size inb_S1024x1024_S8x1024_160_0).emb x) := by
  obtain ⟨a, j, rfl⟩ : ∃ (a : Fin 8) (j : Fin 1024), x = ix2 a j := ⟨x 0, x 1, eq_ix2 x⟩
  rw [blk160_apply hp hg a j]
  show _ = ((cellVal p g (160 + 1 * a.val) (0 + 1 * j.val) : ℝ) : EReal)
  have ha := a.isLt
  simp only [cellVal, Nat.one_mul, Nat.zero_add]
  rw [show ((160 + a.val) / 8) % 8 = 4 from by omega, show (160 + a.val) % 8 = a.val from by omega, show (160 + a.val) / 64 = 2 from by omega]
  all_goals simp only [Nat.reduceMul, Nat.reduceSub, pt_add_1024]

theorem piece168 (hp : Holds x0 p) (hg : Holds x1 g) (x : (Rect.unit (s := S1024x1024) ![168, 0] S8x1024.size inb_S1024x1024_S8x1024_168_0).shape.Idx) :
    (k0_pay76 (slabRun.sl.r_18 c arg1 harg1 x0) (slabRun.sl.r_25 c arg1 harg1 x0) (slabRun.sl.r_40 c arg2 harg2 x1) (slabRun.sl.r_41 c arg2 harg2 x1)) x = table p g ((Rect.unit (s := S1024x1024) ![168, 0] S8x1024.size inb_S1024x1024_S8x1024_168_0).emb x) := by
  obtain ⟨a, j, rfl⟩ : ∃ (a : Fin 8) (j : Fin 1024), x = ix2 a j := ⟨x 0, x 1, eq_ix2 x⟩
  rw [blk168_apply hp hg a j]
  show _ = ((cellVal p g (168 + 1 * a.val) (0 + 1 * j.val) : ℝ) : EReal)
  have ha := a.isLt
  simp only [cellVal, Nat.one_mul, Nat.zero_add]
  rw [show ((168 + a.val) / 8) % 8 = 5 from by omega, show (168 + a.val) % 8 = a.val from by omega, show (168 + a.val) / 64 = 2 from by omega]
  all_goals simp only [Nat.reduceMul, Nat.reduceSub, pt_add_1024]

theorem piece176 (hp : Holds x0 p) (hg : Holds x1 g) (x : (Rect.unit (s := S1024x1024) ![176, 0] S8x1024.size inb_S1024x1024_S8x1024_176_0).shape.Idx) :
    (k0_pay77 (slabRun.sl.r_19 c arg1 harg1 x0) (slabRun.sl.r_26 c arg1 harg1 x0) (slabRun.sl.r_40 c arg2 harg2 x1) (slabRun.sl.r_41 c arg2 harg2 x1)) x = table p g ((Rect.unit (s := S1024x1024) ![176, 0] S8x1024.size inb_S1024x1024_S8x1024_176_0).emb x) := by
  obtain ⟨a, j, rfl⟩ : ∃ (a : Fin 8) (j : Fin 1024), x = ix2 a j := ⟨x 0, x 1, eq_ix2 x⟩
  rw [blk176_apply hp hg a j]
  show _ = ((cellVal p g (176 + 1 * a.val) (0 + 1 * j.val) : ℝ) : EReal)
  have ha := a.isLt
  simp only [cellVal, Nat.one_mul, Nat.zero_add]
  rw [show ((176 + a.val) / 8) % 8 = 6 from by omega, show (176 + a.val) % 8 = a.val from by omega, show (176 + a.val) / 64 = 2 from by omega]
  all_goals simp only [Nat.reduceMul, Nat.reduceSub, pt_add_1024]

theorem piece184 (hp : Holds x0 p) (hg : Holds x1 g) (x : (Rect.unit (s := S1024x1024) ![184, 0] S8x1024.size inb_S1024x1024_S8x1024_184_0).shape.Idx) :
    (k0_pay81 (slabRun.sl.r_27 c arg1 harg1 x0) (slabRun.sl.r_41 c arg2 harg2 x1) (slabRun.sl.r_46 c arg1 harg1 arg2 harg2 x0 x1) (slabRun.sl.r_47 c arg1 harg1 arg2 harg2 x0 x1)) x = table p g ((Rect.unit (s := S1024x1024) ![184, 0] S8x1024.size inb_S1024x1024_S8x1024_184_0).emb x) := by
  obtain ⟨a, j, rfl⟩ : ∃ (a : Fin 8) (j : Fin 1024), x = ix2 a j := ⟨x 0, x 1, eq_ix2 x⟩
  rw [blk184_apply hp hg a j]
  show _ = ((cellVal p g (184 + 1 * a.val) (0 + 1 * j.val) : ℝ) : EReal)
  have ha := a.isLt
  simp only [cellVal, Nat.one_mul, Nat.zero_add]
  rw [show ((184 + a.val) / 8) % 8 = 7 from by omega, show (184 + a.val) % 8 = a.val from by omega, show (184 + a.val) / 64 = 2 from by omega]
  all_goals simp only [Nat.reduceMul, Nat.reduceSub, pt_add_1024]

theorem piece192 (hp : Holds x0 p) (hg : Holds x1 g) (x : (Rect.unit (s := S1024x1024) ![192, 0] S8x1024.size inb_S1024x1024_S8x1024_192_0).shape.Idx) :
    (k0_pay84 (slabRun.sl.r_12 c arg1 harg1 x0) (slabRun.sl.r_13 c arg1 harg1 x0) (slabRun.sl.r_40 c arg2 harg2 x1) (slabRun.sl.r_41 c arg2 harg2 x1)) x = table p g ((Rect.unit (s := S1024x1024) ![192, 0] S8x1024.size inb_S1024x1024_S8x1024_192_0).emb x) := by
  obtain ⟨a, j, rfl⟩ : ∃ (a : Fin 8) (j : Fin 1024), x = ix2 a j := ⟨x 0, x 1, eq_ix2 x⟩
  rw [blk192_apply hp hg a j]
  show _ = ((cellVal p g (192 + 1 * a.val) (0 + 1 * j.val) : ℝ) : EReal)
  have ha := a.isLt
  simp only [cellVal, Nat.one_mul, Nat.zero_add]
  rw [show ((192 + a.val) / 8) % 8 = 0 from by omega, show (192 + a.val) % 8 = a.val from by omega, show (192 + a.val) / 64 = 3 from by omega]
  all_goals simp only [Nat.reduceMul, Nat.reduceSub, pt_add_1024]

theorem piece200 (hp : Holds x0 p) (hg : Holds x1 g) (x : (Rect.unit (s := S1024x1024) ![200, 0] S8x1024.size inb_S1024x1024_S8x1024_200_0).shape.Idx) :
    (k0_pay89 (slabRun.sl.r_50 c arg1 harg1 arg2 harg2 x0 x1) (slabRun.sl.r_51 c arg1 harg1 arg2 harg2 x0 x1) (slabRun.sl.r_52 c arg1 harg1 arg2 harg2 x0 x1)) x = table p g ((Rect.unit (s := S1024x1024) ![200, 0] S8x1024.size inb_S1024x1024_S8x1024_200_0).emb x) := by
  obtain ⟨a, j, rfl⟩ : ∃ (a : Fin 8) (j : Fin 1024), x = ix2 a j := ⟨x 0, x 1, eq_ix2 x⟩
  rw [blk200_apply hp hg a j]
  show _ = ((cellVal p g (200 + 1 * a.val) (0 + 1 * j.val) : ℝ) : EReal)
  have ha := a.isLt
  simp only [cellVal, Nat.one_mul, Nat.zero_add]
  rw [show ((200 + a.val) / 8) % 8 = 1 from by omega, show (200 + a.val) % 8 = a.val from by omega, show (200 + a.val) / 64 = 3 from by omega]
  all_goals simp only [Nat.reduceMul, Nat.reduceSub, pt_add_1024]

theorem piece208 (hp : Holds x0 p) (hg : Holds x1 g) (x : (Rect.unit (s := S1024x1024) ![208, 0] S8x1024.size inb_S1024x1024_S8x1024_208_0).shape.Idx) :
    (k0_pay90 (slabRun.sl.r_15 c arg1 harg1 x0) (slabRun.sl.r_22 c arg1 harg1 x0) (slabRun.sl.r_48 c arg2 harg2 x1) (slabRun.sl.r_49 c arg2 harg2 x1)) x = table p g ((Rect.unit (s := S1024x1024) ![208, 0] S8x1024.size inb_S1024x1024_S8x1024_208_0).emb x) := by
  obtain ⟨a, j, rfl⟩ : ∃ (a : Fin 8) (j : Fin 1024), x = ix2 a j := ⟨x 0, x 1, eq_ix2 x⟩
  rw [blk208_apply hp hg a j]
  show _ = ((cellVal p g (208 + 1 * a.val) (0 + 1 * j.val) : ℝ) : EReal)
  have ha := a.isLt
  simp only [cellVal, Nat.one_mul, Nat.zero_add]
  rw [show ((208 + a.val) / 8) % 8 = 2 from by omega, show (208 + a.val) % 8 = a.val from by omega, show (208 + a.val) / 64 = 3 from by omega]
  all_goals simp only [Nat.reduceMul, Nat.reduceSub, pt_add_1024]

theorem piece216 (hp : Holds x0 p) (hg : Holds x1 g) (x : (Rect.unit (s := S1024x1024) ![216, 0] S8x1024.size inb_S1024x1024_S8x1024_216_0).shape.Idx) :
    (k0_pay91 (slabRun.sl.r_16 c arg1 harg1 x0) (slabRun.sl.r_23 c arg1 harg1 x0) (slabRun.sl.r_48 c arg2 harg2 x1) (slabRun.sl.r_49 c arg2 harg2 x1)) x = table p g ((Rect.unit (s := S1024x1024) ![216, 0] S8x1024.size inb_S1024x1024_S8x1024_216_0).emb x) := by
  obtain ⟨a, j, rfl⟩ : ∃ (a : Fin 8) (j : Fin 1024), x = ix2 a j := ⟨x 0, x 1, eq_ix2 x⟩
  rw [blk216_apply hp hg a j]
  show _ = ((cellVal p g (216 + 1 * a.val) (0 + 1 * j.val) : ℝ) : EReal)
  have ha := a.isLt
  simp only [cellVal, Nat.one_mul, Nat.zero_add]
  rw [show ((216 + a.val) / 8) % 8 = 3 from by omega, show (216 + a.val) % 8 = a.val from by omega, show (216 + a.val) / 64 = 3 from by omega]
  all_goals simp only [Nat.reduceMul, Nat.reduceSub, pt_add_1024]

theorem piece224 (hp : Holds x0 p) (hg : Holds x1 g) (x : (Rect.unit (s := S1024x1024) ![224, 0] S8x1024.size inb_S1024x1024_S8x1024_224_0).shape.Idx) :
    (k0_pay94 (slabRun.sl.r_24 c arg1 harg1 x0) (slabRun.sl.r_49 c arg2 harg2 x1) (slabRun.sl.r_53 c arg1 harg1 arg2 harg2 x0 x1) (slabRun.sl.r_54 c arg1 harg1 arg2 harg2 x0 x1)) x = table p g ((Rect.unit (s := S1024x1024) ![224, 0] S8x1024.size inb_S1024x1024_S8x1024_224_0).emb x) := by
  obtain ⟨a, j, rfl⟩ : ∃ (a : Fin 8) (j : Fin 1024), x = ix2 a j := ⟨x 0, x 1, eq_ix2 x⟩
  rw [blk224_apply hp hg a j]
  show _ = ((cellVal p g (224 + 1 * a.val) (0 + 1 * j.val) : ℝ) : EReal)
  have ha := a.isLt
  simp only [cellVal, Nat.one_mul, Nat.zero_add]
  rw [show ((224 + a.val) / 8) % 8 = 4 from by omega, show (224 + a.val) % 8 = a.val from by omega, show (224 + a.val) / 64 = 3 from by omega]
  all_goals simp only [Nat.reduceMul, Nat.reduceSub, pt_add_1024]

theorem piece232 (hp : Holds x0 p) (hg : Holds x1 g) (x : (Rect.unit (s := S1024x1024) ![232, 0] S8x1024.size inb_S1024x1024_S8x1024_232_0).shape.Idx) :
    (k0_pay95 (slabRun.sl.r_18 c arg1 harg1 x0) (slabRun.sl.r_25 c arg1 harg1 x0) (slabRun.sl.r_48 c arg2 harg2 x1) (slabRun.sl.r_49 c arg2 harg2 x1)) x = table p g ((Rect.unit (s := S1024x1024) ![232, 0] S8x1024.size inb_S1024x1024_S8x1024_232_0).emb x) := by
  obtain ⟨a, j, rfl⟩ : ∃ (a : Fin 8) (j : Fin 1024), x = ix2 a j := ⟨x 0, x 1, eq_ix2 x⟩
  rw [blk232_apply hp hg a j]
  show _ = ((cellVal p g (232 + 1 * a.val) (0 + 1 * j.val) : ℝ) : EReal)
  have ha := a.isLt
  simp only [cellVal, Nat.one_mul, Nat.zero_add]
  rw [show ((232 + a.val) / 8) % 8 = 5 from by omega, show (232 + a.val) % 8 = a.val from by omega, show (232 + a.val) / 64 = 3 from by omega]
  all_goals simp only [Nat.reduceMul, Nat.reduceSub, pt_add_1024]

theorem piece240 (hp : Holds x0 p) (hg : Holds x1 g) (x : (Rect.unit (s := S1024x1024) ![240, 0] S8x1024.size inb_S1024x1024_S8x1024_240_0).shape.Idx) :
    (k0_pay97 (slabRun.sl.r_55 c arg1 harg1 arg2 harg2 x0 x1)) x = table p g ((Rect.unit (s := S1024x1024) ![240, 0] S8x1024.size inb_S1024x1024_S8x1024_240_0).emb x) := by
  obtain ⟨a, j, rfl⟩ : ∃ (a : Fin 8) (j : Fin 1024), x = ix2 a j := ⟨x 0, x 1, eq_ix2 x⟩
  rw [blk240_apply hp hg a j]
  show _ = ((cellVal p g (240 + 1 * a.val) (0 + 1 * j.val) : ℝ) : EReal)
  have ha := a.isLt
  simp only [cellVal, Nat.one_mul, Nat.zero_add]
  rw [show ((240 + a.val) / 8) % 8 = 6 from by omega, show (240 + a.val) % 8 = a.val from by omega, show (240 + a.val) / 64 = 3 from by omega]
  all_goals simp only [Nat.reduceMul, Nat.reduceSub, pt_add_1024]

theorem piece248 (hp : Holds x0 p) (hg : Holds x1 g) (x : (Rect.unit (s := S1024x1024) ![248, 0] S8x1024.size inb_S1024x1024_S8x1024_248_0).shape.Idx) :
    (k0_pay98 (slabRun.sl.r_20 c arg1 harg1 x0) (slabRun.sl.r_27 c arg1 harg1 x0) (slabRun.sl.r_48 c arg2 harg2 x1) (slabRun.sl.r_49 c arg2 harg2 x1)) x = table p g ((Rect.unit (s := S1024x1024) ![248, 0] S8x1024.size inb_S1024x1024_S8x1024_248_0).emb x) := by
  obtain ⟨a, j, rfl⟩ : ∃ (a : Fin 8) (j : Fin 1024), x = ix2 a j := ⟨x 0, x 1, eq_ix2 x⟩
  rw [blk248_apply hp hg a j]
  show _ = ((cellVal p g (248 + 1 * a.val) (0 + 1 * j.val) : ℝ) : EReal)
  have ha := a.isLt
  simp only [cellVal, Nat.one_mul, Nat.zero_add]
  rw [show ((248 + a.val) / 8) % 8 = 7 from by omega, show (248 + a.val) % 8 = a.val from by omega, show (248 + a.val) / 64 = 3 from by omega]
  all_goals simp only [Nat.reduceMul, Nat.reduceSub, pt_add_1024]

end Cert.KernelIdeal.Hand

end
-- ==== Proof.KBlk1.lean ====
/-
  The table's rows 256 to 511, block by block (idealized kernel).

  Each store writes eight rows of the table: row a of the block at row R holds, at column j, the
  kernel's smooth-L1 of the two coordinates of the prediction's point j rotated back by 128 o
  against the ground truth's point j + a + 8 u, where R = 64 u + 8 o. Every block's payload is
  the same arithmetic over a different pair of the arrays read before; reading it at (a, j)
  gives that value on the sample's reals.
-/
import proofs.«103642_g13554916786703_cont_week2b_739_36_alg».proof.Proof.KBase
import proofs.«103642_g13554916786703_cont_week2b_739_36_alg».proof.Proof.KCoe

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Lay Cert.Spec

variable {c : Dev nD}
variable {arg1 : Memref sig .tc .vmem S1x2x1024 .f32} {harg1 : arg1.IsWhole} {arg2 : Memref sig .tc .vmem S1x2x1024 .f32} {harg2 : arg2.IsWhole}
variable {x0 x1 : Vec Ideal S1x2x1024 .f32} {p g : Pt → Fin 2 → ℝ}

theorem blk256_apply (hp : Holds x0 p) (hg : Holds x1 g) (a : Fin 8) (j : Fin 1024) :
    (k0_pay104 (slabRun.sl.r_59 c arg1 harg1 arg2 harg2 x0 x1) (slabRun.sl.r_60 c arg1 harg1 arg2 harg2 x0 x1)) (ix2 a j)
      = ((sm2 |p j 0 - g (pt (j.val + (a.val + 32))) 0| + sm2 |p j 1 - g (pt (j.val + (a.val + 32))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk264_apply (hp : Holds x0 p) (hg : Holds x1 g) (a : Fin 8) (j : Fin 1024) :
    (k0_pay105 (slabRun.sl.r_14 c arg1 harg1 x0) (slabRun.sl.r_21 c arg1 harg1 x0) (slabRun.sl.r_57 c arg2 harg2 x1) (slabRun.sl.r_58 c arg2 harg2 x1)) (ix2 a j)
      = ((sm2 |p (pt (j.val + 896)) 0 - g (pt (j.val + (a.val + 32))) 0| + sm2 |p (pt (j.val + 896)) 1 - g (pt (j.val + (a.val + 32))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk272_apply (hp : Holds x0 p) (hg : Holds x1 g) (a : Fin 8) (j : Fin 1024) :
    (k0_pay106 (slabRun.sl.r_15 c arg1 harg1 x0) (slabRun.sl.r_22 c arg1 harg1 x0) (slabRun.sl.r_57 c arg2 harg2 x1) (slabRun.sl.r_58 c arg2 harg2 x1)) (ix2 a j)
      = ((sm2 |p (pt (j.val + 768)) 0 - g (pt (j.val + (a.val + 32))) 0| + sm2 |p (pt (j.val + 768)) 1 - g (pt (j.val + (a.val + 32))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk280_apply (hp : Holds x0 p) (hg : Holds x1 g) (a : Fin 8) (j : Fin 1024) :
    (k0_pay110 (slabRun.sl.r_23 c arg1 harg1 x0) (slabRun.sl.r_58 c arg2 harg2 x1) (slabRun.sl.r_61 c arg1 harg1 arg2 harg2 x0 x1) (slabRun.sl.r_62 c arg1 harg1 arg2 harg2 x0 x1)) (ix2 a j)
      = ((sm2 |p (pt (j.val + 640)) 0 - g (pt (j.val + (a.val + 32))) 0| + sm2 |p (pt (j.val + 640)) 1 - g (pt (j.val + (a.val + 32))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk288_apply (hp : Holds x0 p) (hg : Holds x1 g) (a : Fin 8) (j : Fin 1024) :
    (k0_pay111 (slabRun.sl.r_17 c arg1 harg1 x0) (slabRun.sl.r_24 c arg1 harg1 x0) (slabRun.sl.r_57 c arg2 harg2 x1) (slabRun.sl.r_58 c arg2 harg2 x1)) (ix2 a j)
      = ((sm2 |p (pt (j.val + 512)) 0 - g (pt (j.val + (a.val + 32))) 0| + sm2 |p (pt (j.val + 512)) 1 - g (pt (j.val + (a.val + 32))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk296_apply (hp : Holds x0 p) (hg : Holds x1 g) (a : Fin 8) (j : Fin 1024) :
    (k0_pay113 (slabRun.sl.r_63 c arg1 harg1 arg2 harg2 x0 x1)) (ix2 a j)
      = ((sm2 |p (pt (j.val + 384)) 0 - g (pt (j.val + (a.val + 32))) 0| + sm2 |p (pt (j.val + 384)) 1 - g (pt (j.val + (a.val + 32))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk304_apply (hp : Holds x0 p) (hg : Holds x1 g) (a : Fin 8) (j : Fin 1024) :
    (k0_pay114 (slabRun.sl.r_19 c arg1 harg1 x0) (slabRun.sl.r_26 c arg1 harg1 x0) (slabRun.sl.r_57 c arg2 harg2 x1) (slabRun.sl.r_58 c arg2 harg2 x1)) (ix2 a j)
      = ((sm2 |p (pt (j.val + 256)) 0 - g (pt (j.val + (a.val + 32))) 0| + sm2 |p (pt (j.val + 256)) 1 - g (pt (j.val + (a.val + 32))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk312_apply (hp : Holds x0 p) (hg : Holds x1 g) (a : Fin 8) (j : Fin 1024) :
    (k0_pay115 (slabRun.sl.r_20 c arg1 harg1 x0) (slabRun.sl.r_27 c arg1 harg1 x0) (slabRun.sl.r_57 c arg2 harg2 x1) (slabRun.sl.r_58 c arg2 harg2 x1)) (ix2 a j)
      = ((sm2 |p (pt (j.val + 128)) 0 - g (pt (j.val + (a.val + 32))) 0| + sm2 |p (pt (j.val + 128)) 1 - g (pt (j.val + (a.val + 32))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk320_apply (hp : Holds x0 p) (hg : Holds x1 g) (a : Fin 8) (j : Fin 1024) :
    (k0_pay121 (slabRun.sl.r_13 c arg1 harg1 x0) (slabRun.sl.r_65 c arg2 harg2 x1) (slabRun.sl.r_66 c arg1 harg1 arg2 harg2 x0 x1) (slabRun.sl.r_67 c arg1 harg1 arg2 harg2 x0 x1)) (ix2 a j)
      = ((sm2 |p j 0 - g (pt (j.val + (a.val + 40))) 0| + sm2 |p j 1 - g (pt (j.val + (a.val + 40))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk328_apply (hp : Holds x0 p) (hg : Holds x1 g) (a : Fin 8) (j : Fin 1024) :
    (k0_pay122 (slabRun.sl.r_14 c arg1 harg1 x0) (slabRun.sl.r_21 c arg1 harg1 x0) (slabRun.sl.r_64 c arg2 harg2 x1) (slabRun.sl.r_65 c arg2 harg2 x1)) (ix2 a j)
      = ((sm2 |p (pt (j.val + 896)) 0 - g (pt (j.val + (a.val + 40))) 0| + sm2 |p (pt (j.val + 896)) 1 - g (pt (j.val + (a.val + 40))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk336_apply (hp : Holds x0 p) (hg : Holds x1 g) (a : Fin 8) (j : Fin 1024) :
    (k0_pay124 (slabRun.sl.r_68 c arg1 harg1 arg2 harg2 x0 x1)) (ix2 a j)
      = ((sm2 |p (pt (j.val + 768)) 0 - g (pt (j.val + (a.val + 40))) 0| + sm2 |p (pt (j.val + 768)) 1 - g (pt (j.val + (a.val + 40))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk344_apply (hp : Holds x0 p) (hg : Holds x1 g) (a : Fin 8) (j : Fin 1024) :
    (k0_pay125 (slabRun.sl.r_16 c arg1 harg1 x0) (slabRun.sl.r_23 c arg1 harg1 x0) (slabRun.sl.r_64 c arg2 harg2 x1) (slabRun.sl.r_65 c arg2 harg2 x1)) (ix2 a j)
      = ((sm2 |p (pt (j.val + 640)) 0 - g (pt (j.val + (a.val + 40))) 0| + sm2 |p (pt (j.val + 640)) 1 - g (pt (j.val + (a.val + 40))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk352_apply (hp : Holds x0 p) (hg : Holds x1 g) (a : Fin 8) (j : Fin 1024) :
    (k0_pay126 (slabRun.sl.r_17 c arg1 harg1 x0) (slabRun.sl.r_24 c arg1 harg1 x0) (slabRun.sl.r_64 c arg2 harg2 x1) (slabRun.sl.r_65 c arg2 harg2 x1)) (ix2 a j)
      = ((sm2 |p (pt (j.val + 512)) 0 - g (pt (j.val + (a.val + 40))) 0| + sm2 |p (pt (j.val + 512)) 1 - g (pt (j.val + (a.val + 40))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk360_apply (hp : Holds x0 p) (hg : Holds x1 g) (a : Fin 8) (j : Fin 1024) :
    (k0_pay129 (slabRun.sl.r_69 c arg1 harg1 arg2 harg2 x0 x1) (slabRun.sl.r_70 c arg1 harg1 arg2 harg2 x0 x1) slabRun.sl.cst_42) (ix2 a j)
      = ((sm2 |p (pt (j.val + 384)) 0 - g (pt (j.val + (a.val + 40))) 0| + sm2 |p (pt (j.val + 384)) 1 - g (pt (j.val + (a.val + 40))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk368_apply (hp : Holds x0 p) (hg : Holds x1 g) (a : Fin 8) (j : Fin 1024) :
    (k0_pay130 (slabRun.sl.r_19 c arg1 harg1 x0) (slabRun.sl.r_26 c arg1 harg1 x0) (slabRun.sl.r_64 c arg2 harg2 x1) (slabRun.sl.r_65 c arg2 harg2 x1)) (ix2 a j)
      = ((sm2 |p (pt (j.val + 256)) 0 - g (pt (j.val + (a.val + 40))) 0| + sm2 |p (pt (j.val + 256)) 1 - g (pt (j.val + (a.val + 40))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk376_apply (hp : Holds x0 p) (hg : Holds x1 g) (a : Fin 8) (j : Fin 1024) :
    (k0_pay131 (slabRun.sl.r_20 c arg1 harg1 x0) (slabRun.sl.r_27 c arg1 harg1 x0) (slabRun.sl.r_64 c arg2 harg2 x1) (slabRun.sl.r_65 c arg2 harg2 x1)) (ix2 a j)
      = ((sm2 |p (pt (j.val + 128)) 0 - g (pt (j.val + (a.val + 40))) 0| + sm2 |p (pt (j.val + 128)) 1 - g (pt (j.val + (a.val + 40))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk384_apply (hp : Holds x0 p) (hg : Holds x1 g) (a : Fin 8) (j : Fin 1024) :
    (k0_pay136 (slabRun.sl.r_12 c arg1 harg1 x0) (slabRun.sl.r_13 c arg1 harg1 x0) (slabRun.sl.r_65 c arg2 harg2 x1) (slabRun.sl.r_71 c arg2 harg2 x1) (slabRun.sl.r_72 c arg2 harg2 x1)) (ix2 a j)
      = ((sm2 |p j 0 - g (pt (j.val + (a.val + 48))) 0| + sm2 |p j 1 - g (pt (j.val + (a.val + 48))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk392_apply (hp : Holds x0 p) (hg : Holds x1 g) (a : Fin 8) (j : Fin 1024) :
    (k0_pay137 (slabRun.sl.r_14 c arg1 harg1 x0) (slabRun.sl.r_21 c arg1 harg1 x0) (slabRun.sl.r_65 c arg2 harg2 x1) (slabRun.sl.r_71 c arg2 harg2 x1) (slabRun.sl.r_72 c arg2 harg2 x1)) (ix2 a j)
      = ((sm2 |p (pt (j.val + 896)) 0 - g (pt (j.val + (a.val + 48))) 0| + sm2 |p (pt (j.val + 896)) 1 - g (pt (j.val + (a.val + 48))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk400_apply (hp : Holds x0 p) (hg : Holds x1 g) (a : Fin 8) (j : Fin 1024) :
    (k0_pay140 (slabRun.sl.r_75 c arg1 harg1 arg2 harg2 x0 x1) (slabRun.sl.r_76 c arg1 harg1 arg2 harg2 x0 x1)) (ix2 a j)
      = ((sm2 |p (pt (j.val + 768)) 0 - g (pt (j.val + (a.val + 48))) 0| + sm2 |p (pt (j.val + 768)) 1 - g (pt (j.val + (a.val + 48))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk408_apply (hp : Holds x0 p) (hg : Holds x1 g) (a : Fin 8) (j : Fin 1024) :
    (k0_pay141 (slabRun.sl.r_16 c arg1 harg1 x0) (slabRun.sl.r_23 c arg1 harg1 x0) (slabRun.sl.r_73 c arg2 harg2 x1) (slabRun.sl.r_74 c arg2 harg2 x1)) (ix2 a j)
      = ((sm2 |p (pt (j.val + 640)) 0 - g (pt (j.val + (a.val + 48))) 0| + sm2 |p (pt (j.val + 640)) 1 - g (pt (j.val + (a.val + 48))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk416_apply (hp : Holds x0 p) (hg : Holds x1 g) (a : Fin 8) (j : Fin 1024) :
    (k0_pay142 (slabRun.sl.r_17 c arg1 harg1 x0) (slabRun.sl.r_24 c arg1 harg1 x0) (slabRun.sl.r_73 c arg2 harg2 x1) (slabRun.sl.r_74 c arg2 harg2 x1)) (ix2 a j)
      = ((sm2 |p (pt (j.val + 512)) 0 - g (pt (j.val + (a.val + 48))) 0| + sm2 |p (pt (j.val + 512)) 1 - g (pt (j.val + (a.val + 48))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk424_apply (hp : Holds x0 p) (hg : Holds x1 g) (a : Fin 8) (j : Fin 1024) :
    (k0_pay144 (slabRun.sl.r_25 c arg1 harg1 x0) (slabRun.sl.r_74 c arg2 harg2 x1) (slabRun.sl.r_77 c arg1 harg1 arg2 harg2 x0 x1)) (ix2 a j)
      = ((sm2 |p (pt (j.val + 384)) 0 - g (pt (j.val + (a.val + 48))) 0| + sm2 |p (pt (j.val + 384)) 1 - g (pt (j.val + (a.val + 48))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk432_apply (hp : Holds x0 p) (hg : Holds x1 g) (a : Fin 8) (j : Fin 1024) :
    (k0_pay145 (slabRun.sl.r_19 c arg1 harg1 x0) (slabRun.sl.r_26 c arg1 harg1 x0) (slabRun.sl.r_73 c arg2 harg2 x1) (slabRun.sl.r_74 c arg2 harg2 x1)) (ix2 a j)
      = ((sm2 |p (pt (j.val + 256)) 0 - g (pt (j.val + (a.val + 48))) 0| + sm2 |p (pt (j.val + 256)) 1 - g (pt (j.val + (a.val + 48))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk440_apply (hp : Holds x0 p) (hg : Holds x1 g) (a : Fin 8) (j : Fin 1024) :
    (k0_pay150 (slabRun.sl.r_78 c arg1 harg1 arg2 harg2 x0 x1) (slabRun.sl.r_79 c arg1 harg1 arg2 harg2 x0 x1) (slabRun.sl.r_80 c arg1 harg1 arg2 harg2 x0 x1)) (ix2 a j)
      = ((sm2 |p (pt (j.val + 128)) 0 - g (pt (j.val + (a.val + 48))) 0| + sm2 |p (pt (j.val + 128)) 1 - g (pt (j.val + (a.val + 48))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk448_apply (hp : Holds x0 p) (hg : Holds x1 g) (a : Fin 8) (j : Fin 1024) :
    (k0_pay153 (slabRun.sl.r_12 c arg1 harg1 x0) (slabRun.sl.r_13 c arg1 harg1 x0) (slabRun.sl.r_73 c arg2 harg2 x1) (slabRun.sl.r_74 c arg2 harg2 x1)) (ix2 a j)
      = ((sm2 |p j 0 - g (pt (j.val + (a.val + 56))) 0| + sm2 |p j 1 - g (pt (j.val + (a.val + 56))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk456_apply (hp : Holds x0 p) (hg : Holds x1 g) (a : Fin 8) (j : Fin 1024) :
    (k0_pay154 (slabRun.sl.r_14 c arg1 harg1 x0) (slabRun.sl.r_21 c arg1 harg1 x0) (slabRun.sl.r_73 c arg2 harg2 x1) (slabRun.sl.r_74 c arg2 harg2 x1)) (ix2 a j)
      = ((sm2 |p (pt (j.val + 896)) 0 - g (pt (j.val + (a.val + 56))) 0| + sm2 |p (pt (j.val + 896)) 1 - g (pt (j.val + (a.val + 56))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk464_apply (hp : Holds x0 p) (hg : Holds x1 g) (a : Fin 8) (j : Fin 1024) :
    (k0_pay155 (slabRun.sl.r_15 c arg1 harg1 x0) (slabRun.sl.r_22 c arg1 harg1 x0) (slabRun.sl.r_81 c arg2 harg2 x1) (slabRun.sl.r_82 c arg2 harg2 x1)) (ix2 a j)
      = ((sm2 |p (pt (j.val + 768)) 0 - g (pt (j.val + (a.val + 56))) 0| + sm2 |p (pt (j.val + 768)) 1 - g (pt (j.val + (a.val + 56))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk472_apply (hp : Holds x0 p) (hg : Holds x1 g) (a : Fin 8) (j : Fin 1024) :
    (k0_pay156 (slabRun.sl.r_16 c arg1 harg1 x0) (slabRun.sl.r_23 c arg1 harg1 x0) (slabRun.sl.r_81 c arg2 harg2 x1) (slabRun.sl.r_82 c arg2 harg2 x1)) (ix2 a j)
      = ((sm2 |p (pt (j.val + 640)) 0 - g (pt (j.val + (a.val + 56))) 0| + sm2 |p (pt (j.val + 640)) 1 - g (pt (j.val + (a.val + 56))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk480_apply (hp : Holds x0 p) (hg : Holds x1 g) (a : Fin 8) (j : Fin 1024) :
    (k0_pay161 (slabRun.sl.r_83 c arg1 harg1 arg2 harg2 x0 x1) (slabRun.sl.r_84 c arg1 harg1 arg2 harg2 x0 x1) (slabRun.sl.r_85 c arg1 harg1 arg2 harg2 x0 x1)) (ix2 a j)
      = ((sm2 |p (pt (j.val + 512)) 0 - g (pt (j.val + (a.val + 56))) 0| + sm2 |p (pt (j.val + 512)) 1 - g (pt (j.val + (a.val + 56))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk488_apply (hp : Holds x0 p) (hg : Holds x1 g) (a : Fin 8) (j : Fin 1024) :
    (k0_pay162 (slabRun.sl.r_18 c arg1 harg1 x0) (slabRun.sl.r_25 c arg1 harg1 x0) (slabRun.sl.r_81 c arg2 harg2 x1) (slabRun.sl.r_82 c arg2 harg2 x1)) (ix2 a j)
      = ((sm2 |p (pt (j.val + 384)) 0 - g (pt (j.val + (a.val + 56))) 0| + sm2 |p (pt (j.val + 384)) 1 - g (pt (j.val + (a.val + 56))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk496_apply (hp : Holds x0 p) (hg : Holds x1 g) (a : Fin 8) (j : Fin 1024) :
    (k0_pay163 (slabRun.sl.r_19 c arg1 harg1 x0) (slabRun.sl.r_26 c arg1 harg1 x0) (slabRun.sl.r_81 c arg2 harg2 x1) (slabRun.sl.r_82 c arg2 harg2 x1)) (ix2 a j)
      = ((sm2 |p (pt (j.val + 256)) 0 - g (pt (j.val + (a.val + 56))) 0| + sm2 |p (pt (j.val + 256)) 1 - g (pt (j.val + (a.val + 56))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk504_apply (hp : Holds x0 p) (hg : Holds x1 g) (a : Fin 8) (j : Fin 1024) :
    (k0_pay166 (slabRun.sl.r_27 c arg1 harg1 x0) (slabRun.sl.r_82 c arg2 harg2 x1) (slabRun.sl.r_86 c arg1 harg1 arg2 harg2 x0 x1) (slabRun.sl.r_87 c arg1 harg1 arg2 harg2 x0 x1)) (ix2 a j)
      = ((sm2 |p (pt (j.val + 128)) 0 - g (pt (j.val + (a.val + 56))) 0| + sm2 |p (pt (j.val + 128)) 1 - g (pt (j.val + (a.val + 56))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

end Cert.KernelIdeal.Hand

end
-- ==== Proof.KPiece1.lean ====
/-
  The pieces stored into rows 256 to 511 of the table are blocks of the table function
  (idealized kernel): each store's payload, read at its local index, is the table at the index the
  store's rectangle places it.
-/
import proofs.«103642_g13554916786703_cont_week2b_739_36_alg».proof.Proof.KBlk1
import proofs.«103642_g13554916786703_cont_week2b_739_36_alg».proof.Proof.KTableDef

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Lay Cert.Spec

variable {c : Dev nD}
variable {arg1 : Memref sig .tc .vmem S1x2x1024 .f32} {harg1 : arg1.IsWhole} {arg2 : Memref sig .tc .vmem S1x2x1024 .f32} {harg2 : arg2.IsWhole}
variable {x0 x1 : Vec Ideal S1x2x1024 .f32} {p g : Pt → Fin 2 → ℝ}

theorem piece256 (hp : Holds x0 p) (hg : Holds x1 g) (x : (Rect.unit (s := S1024x1024) ![256, 0] S8x1024.size inb_S1024x1024_S8x1024_256_0).shape.Idx) :
    (k0_pay104 (slabRun.sl.r_59 c arg1 harg1 arg2 harg2 x0 x1) (slabRun.sl.r_60 c arg1 harg1 arg2 harg2 x0 x1)) x = table p g ((Rect.unit (s := S1024x1024) ![256, 0] S8x1024.size inb_S1024x1024_S8x1024_256_0).emb x) := by
  obtain ⟨a, j, rfl⟩ : ∃ (a : Fin 8) (j : Fin 1024), x = ix2 a j := ⟨x 0, x 1, eq_ix2 x⟩
  rw [blk256_apply hp hg a j]
  show _ = ((cellVal p g (256 + 1 * a.val) (0 + 1 * j.val) : ℝ) : EReal)
  have ha := a.isLt
  simp only [cellVal, Nat.one_mul, Nat.zero_add]
  rw [show ((256 + a.val) / 8) % 8 = 0 from by omega, show (256 + a.val) % 8 = a.val from by omega, show (256 + a.val) / 64 = 4 from by omega]
  all_goals simp only [Nat.reduceMul, Nat.reduceSub, pt_add_1024]

theorem piece264 (hp : Holds x0 p) (hg : Holds x1 g) (x : (Rect.unit (s := S1024x1024) ![264, 0] S8x1024.size inb_S1024x1024_S8x1024_264_0).shape.Idx) :
    (k0_pay105 (slabRun.sl.r_14 c arg1 harg1 x0) (slabRun.sl.r_21 c arg1 harg1 x0) (slabRun.sl.r_57 c arg2 harg2 x1) (slabRun.sl.r_58 c arg2 harg2 x1)) x = table p g ((Rect.unit (s := S1024x1024) ![264, 0] S8x1024.size inb_S1024x1024_S8x1024_264_0).emb x) := by
  obtain ⟨a, j, rfl⟩ : ∃ (a : Fin 8) (j : Fin 1024), x = ix2 a j := ⟨x 0, x 1, eq_ix2 x⟩
  rw [blk264_apply hp hg a j]
  show _ = ((cellVal p g (264 + 1 * a.val) (0 + 1 * j.val) : ℝ) : EReal)
  have ha := a.isLt
  simp only [cellVal, Nat.one_mul, Nat.zero_add]
  rw [show ((264 + a.val) / 8) % 8 = 1 from by omega, show (264 + a.val) % 8 = a.val from by omega, show (264 + a.val) / 64 = 4 from by omega]
  all_goals simp only [Nat.reduceMul, Nat.reduceSub, pt_add_1024]

theorem piece272 (hp : Holds x0 p) (hg : Holds x1 g) (x : (Rect.unit (s := S1024x1024) ![272, 0] S8x1024.size inb_S1024x1024_S8x1024_272_0).shape.Idx) :
    (k0_pay106 (slabRun.sl.r_15 c arg1 harg1 x0) (slabRun.sl.r_22 c arg1 harg1 x0) (slabRun.sl.r_57 c arg2 harg2 x1) (slabRun.sl.r_58 c arg2 harg2 x1)) x = table p g ((Rect.unit (s := S1024x1024) ![272, 0] S8x1024.size inb_S1024x1024_S8x1024_272_0).emb x) := by
  obtain ⟨a, j, rfl⟩ : ∃ (a : Fin 8) (j : Fin 1024), x = ix2 a j := ⟨x 0, x 1, eq_ix2 x⟩
  rw [blk272_apply hp hg a j]
  show _ = ((cellVal p g (272 + 1 * a.val) (0 + 1 * j.val) : ℝ) : EReal)
  have ha := a.isLt
  simp only [cellVal, Nat.one_mul, Nat.zero_add]
  rw [show ((272 + a.val) / 8) % 8 = 2 from by omega, show (272 + a.val) % 8 = a.val from by omega, show (272 + a.val) / 64 = 4 from by omega]
  all_goals simp only [Nat.reduceMul, Nat.reduceSub, pt_add_1024]

theorem piece280 (hp : Holds x0 p) (hg : Holds x1 g) (x : (Rect.unit (s := S1024x1024) ![280, 0] S8x1024.size inb_S1024x1024_S8x1024_280_0).shape.Idx) :
    (k0_pay110 (slabRun.sl.r_23 c arg1 harg1 x0) (slabRun.sl.r_58 c arg2 harg2 x1) (slabRun.sl.r_61 c arg1 harg1 arg2 harg2 x0 x1) (slabRun.sl.r_62 c arg1 harg1 arg2 harg2 x0 x1)) x = table p g ((Rect.unit (s := S1024x1024) ![280, 0] S8x1024.size inb_S1024x1024_S8x1024_280_0).emb x) := by
  obtain ⟨a, j, rfl⟩ : ∃ (a : Fin 8) (j : Fin 1024), x = ix2 a j := ⟨x 0, x 1, eq_ix2 x⟩
  rw [blk280_apply hp hg a j]
  show _ = ((cellVal p g (280 + 1 * a.val) (0 + 1 * j.val) : ℝ) : EReal)
  have ha := a.isLt
  simp only [cellVal, Nat.one_mul, Nat.zero_add]
  rw [show ((280 + a.val) / 8) % 8 = 3 from by omega, show (280 + a.val) % 8 = a.val from by omega, show (280 + a.val) / 64 = 4 from by omega]
  all_goals simp only [Nat.reduceMul, Nat.reduceSub, pt_add_1024]

theorem piece288 (hp : Holds x0 p) (hg : Holds x1 g) (x : (Rect.unit (s := S1024x1024) ![288, 0] S8x1024.size inb_S1024x1024_S8x1024_288_0).shape.Idx) :
    (k0_pay111 (slabRun.sl.r_17 c arg1 harg1 x0) (slabRun.sl.r_24 c arg1 harg1 x0) (slabRun.sl.r_57 c arg2 harg2 x1) (slabRun.sl.r_58 c arg2 harg2 x1)) x = table p g ((Rect.unit (s := S1024x1024) ![288, 0] S8x1024.size inb_S1024x1024_S8x1024_288_0).emb x) := by
  obtain ⟨a, j, rfl⟩ : ∃ (a : Fin 8) (j : Fin 1024), x = ix2 a j := ⟨x 0, x 1, eq_ix2 x⟩
  rw [blk288_apply hp hg a j]
  show _ = ((cellVal p g (288 + 1 * a.val) (0 + 1 * j.val) : ℝ) : EReal)
  have ha := a.isLt
  simp only [cellVal, Nat.one_mul, Nat.zero_add]
  rw [show ((288 + a.val) / 8) % 8 = 4 from by omega, show (288 + a.val) % 8 = a.val from by omega, show (288 + a.val) / 64 = 4 from by omega]
  all_goals simp only [Nat.reduceMul, Nat.reduceSub, pt_add_1024]

theorem piece296 (hp : Holds x0 p) (hg : Holds x1 g) (x : (Rect.unit (s := S1024x1024) ![296, 0] S8x1024.size inb_S1024x1024_S8x1024_296_0).shape.Idx) :
    (k0_pay113 (slabRun.sl.r_63 c arg1 harg1 arg2 harg2 x0 x1)) x = table p g ((Rect.unit (s := S1024x1024) ![296, 0] S8x1024.size inb_S1024x1024_S8x1024_296_0).emb x) := by
  obtain ⟨a, j, rfl⟩ : ∃ (a : Fin 8) (j : Fin 1024), x = ix2 a j := ⟨x 0, x 1, eq_ix2 x⟩
  rw [blk296_apply hp hg a j]
  show _ = ((cellVal p g (296 + 1 * a.val) (0 + 1 * j.val) : ℝ) : EReal)
  have ha := a.isLt
  simp only [cellVal, Nat.one_mul, Nat.zero_add]
  rw [show ((296 + a.val) / 8) % 8 = 5 from by omega, show (296 + a.val) % 8 = a.val from by omega, show (296 + a.val) / 64 = 4 from by omega]
  all_goals simp only [Nat.reduceMul, Nat.reduceSub, pt_add_1024]

theorem piece304 (hp : Holds x0 p) (hg : Holds x1 g) (x : (Rect.unit (s := S1024x1024) ![304, 0] S8x1024.size inb_S1024x1024_S8x1024_304_0).shape.Idx) :
    (k0_pay114 (slabRun.sl.r_19 c arg1 harg1 x0) (slabRun.sl.r_26 c arg1 harg1 x0) (slabRun.sl.r_57 c arg2 harg2 x1) (slabRun.sl.r_58 c arg2 harg2 x1)) x = table p g ((Rect.unit (s := S1024x1024) ![304, 0] S8x1024.size inb_S1024x1024_S8x1024_304_0).emb x) := by
  obtain ⟨a, j, rfl⟩ : ∃ (a : Fin 8) (j : Fin 1024), x = ix2 a j := ⟨x 0, x 1, eq_ix2 x⟩
  rw [blk304_apply hp hg a j]
  show _ = ((cellVal p g (304 + 1 * a.val) (0 + 1 * j.val) : ℝ) : EReal)
  have ha := a.isLt
  simp only [cellVal, Nat.one_mul, Nat.zero_add]
  rw [show ((304 + a.val) / 8) % 8 = 6 from by omega, show (304 + a.val) % 8 = a.val from by omega, show (304 + a.val) / 64 = 4 from by omega]
  all_goals simp only [Nat.reduceMul, Nat.reduceSub, pt_add_1024]

theorem piece312 (hp : Holds x0 p) (hg : Holds x1 g) (x : (Rect.unit (s := S1024x1024) ![312, 0] S8x1024.size inb_S1024x1024_S8x1024_312_0).shape.Idx) :
    (k0_pay115 (slabRun.sl.r_20 c arg1 harg1 x0) (slabRun.sl.r_27 c arg1 harg1 x0) (slabRun.sl.r_57 c arg2 harg2 x1) (slabRun.sl.r_58 c arg2 harg2 x1)) x = table p g ((Rect.unit (s := S1024x1024) ![312, 0] S8x1024.size inb_S1024x1024_S8x1024_312_0).emb x) := by
  obtain ⟨a, j, rfl⟩ : ∃ (a : Fin 8) (j : Fin 1024), x = ix2 a j := ⟨x 0, x 1, eq_ix2 x⟩
  rw [blk312_apply hp hg a j]
  show _ = ((cellVal p g (312 + 1 * a.val) (0 + 1 * j.val) : ℝ) : EReal)
  have ha := a.isLt
  simp only [cellVal, Nat.one_mul, Nat.zero_add]
  rw [show ((312 + a.val) / 8) % 8 = 7 from by omega, show (312 + a.val) % 8 = a.val from by omega, show (312 + a.val) / 64 = 4 from by omega]
  all_goals simp only [Nat.reduceMul, Nat.reduceSub, pt_add_1024]

theorem piece320 (hp : Holds x0 p) (hg : Holds x1 g) (x : (Rect.unit (s := S1024x1024) ![320, 0] S8x1024.size inb_S1024x1024_S8x1024_320_0).shape.Idx) :
    (k0_pay121 (slabRun.sl.r_13 c arg1 harg1 x0) (slabRun.sl.r_65 c arg2 harg2 x1) (slabRun.sl.r_66 c arg1 harg1 arg2 harg2 x0 x1) (slabRun.sl.r_67 c arg1 harg1 arg2 harg2 x0 x1)) x = table p g ((Rect.unit (s := S1024x1024) ![320, 0] S8x1024.size inb_S1024x1024_S8x1024_320_0).emb x) := by
  obtain ⟨a, j, rfl⟩ : ∃ (a : Fin 8) (j : Fin 1024), x = ix2 a j := ⟨x 0, x 1, eq_ix2 x⟩
  rw [blk320_apply hp hg a j]
  show _ = ((cellVal p g (320 + 1 * a.val) (0 + 1 * j.val) : ℝ) : EReal)
  have ha := a.isLt
  simp only [cellVal, Nat.one_mul, Nat.zero_add]
  rw [show ((320 + a.val) / 8) % 8 = 0 from by omega, show (320 + a.val) % 8 = a.val from by omega, show (320 + a.val) / 64 = 5 from by omega]
  all_goals simp only [Nat.reduceMul, Nat.reduceSub, pt_add_1024]

theorem piece328 (hp : Holds x0 p) (hg : Holds x1 g) (x : (Rect.unit (s := S1024x1024) ![328, 0] S8x1024.size inb_S1024x1024_S8x1024_328_0).shape.Idx) :
    (k0_pay122 (slabRun.sl.r_14 c arg1 harg1 x0) (slabRun.sl.r_21 c arg1 harg1 x0) (slabRun.sl.r_64 c arg2 harg2 x1) (slabRun.sl.r_65 c arg2 harg2 x1)) x = table p g ((Rect.unit (s := S1024x1024) ![328, 0] S8x1024.size inb_S1024x1024_S8x1024_328_0).emb x) := by
  obtain ⟨a, j, rfl⟩ : ∃ (a : Fin 8) (j : Fin 1024), x = ix2 a j := ⟨x 0, x 1, eq_ix2 x⟩
  rw [blk328_apply hp hg a j]
  show _ = ((cellVal p g (328 + 1 * a.val) (0 + 1 * j.val) : ℝ) : EReal)
  have ha := a.isLt
  simp only [cellVal, Nat.one_mul, Nat.zero_add]
  rw [show ((328 + a.val) / 8) % 8 = 1 from by omega, show (328 + a.val) % 8 = a.val from by omega, show (328 + a.val) / 64 = 5 from by omega]
  all_goals simp only [Nat.reduceMul, Nat.reduceSub, pt_add_1024]

theorem piece336 (hp : Holds x0 p) (hg : Holds x1 g) (x : (Rect.unit (s := S1024x1024) ![336, 0] S8x1024.size inb_S1024x1024_S8x1024_336_0).shape.Idx) :
    (k0_pay124 (slabRun.sl.r_68 c arg1 harg1 arg2 harg2 x0 x1)) x = table p g ((Rect.unit (s := S1024x1024) ![336, 0] S8x1024.size inb_S1024x1024_S8x1024_336_0).emb x) := by
  obtain ⟨a, j, rfl⟩ : ∃ (a : Fin 8) (j : Fin 1024), x = ix2 a j := ⟨x 0, x 1, eq_ix2 x⟩
  rw [blk336_apply hp hg a j]
  show _ = ((cellVal p g (336 + 1 * a.val) (0 + 1 * j.val) : ℝ) : EReal)
  have ha := a.isLt
  simp only [cellVal, Nat.one_mul, Nat.zero_add]
  rw [show ((336 + a.val) / 8) % 8 = 2 from by omega, show (336 + a.val) % 8 = a.val from by omega, show (336 + a.val) / 64 = 5 from by omega]
  all_goals simp only [Nat.reduceMul, Nat.reduceSub, pt_add_1024]

theorem piece344 (hp : Holds x0 p) (hg : Holds x1 g) (x : (Rect.unit (s := S1024x1024) ![344, 0] S8x1024.size inb_S1024x1024_S8x1024_344_0).shape.Idx) :
    (k0_pay125 (slabRun.sl.r_16 c arg1 harg1 x0) (slabRun.sl.r_23 c arg1 harg1 x0) (slabRun.sl.r_64 c arg2 harg2 x1) (slabRun.sl.r_65 c arg2 harg2 x1)) x = table p g ((Rect.unit (s := S1024x1024) ![344, 0] S8x1024.size inb_S1024x1024_S8x1024_344_0).emb x) := by
  obtain ⟨a, j, rfl⟩ : ∃ (a : Fin 8) (j : Fin 1024), x = ix2 a j := ⟨x 0, x 1, eq_ix2 x⟩
  rw [blk344_apply hp hg a j]
  show _ = ((cellVal p g (344 + 1 * a.val) (0 + 1 * j.val) : ℝ) : EReal)
  have ha := a.isLt
  simp only [cellVal, Nat.one_mul, Nat.zero_add]
  rw [show ((344 + a.val) / 8) % 8 = 3 from by omega, show (344 + a.val) % 8 = a.val from by omega, show (344 + a.val) / 64 = 5 from by omega]
  all_goals simp only [Nat.reduceMul, Nat.reduceSub, pt_add_1024]

theorem piece352 (hp : Holds x0 p) (hg : Holds x1 g) (x : (Rect.unit (s := S1024x1024) ![352, 0] S8x1024.size inb_S1024x1024_S8x1024_352_0).shape.Idx) :
    (k0_pay126 (slabRun.sl.r_17 c arg1 harg1 x0) (slabRun.sl.r_24 c arg1 harg1 x0) (slabRun.sl.r_64 c arg2 harg2 x1) (slabRun.sl.r_65 c arg2 harg2 x1)) x = table p g ((Rect.unit (s := S1024x1024) ![352, 0] S8x1024.size inb_S1024x1024_S8x1024_352_0).emb x) := by
  obtain ⟨a, j, rfl⟩ : ∃ (a : Fin 8) (j : Fin 1024), x = ix2 a j := ⟨x 0, x 1, eq_ix2 x⟩
  rw [blk352_apply hp hg a j]
  show _ = ((cellVal p g (352 + 1 * a.val) (0 + 1 * j.val) : ℝ) : EReal)
  have ha := a.isLt
  simp only [cellVal, Nat.one_mul, Nat.zero_add]
  rw [show ((352 + a.val) / 8) % 8 = 4 from by omega, show (352 + a.val) % 8 = a.val from by omega, show (352 + a.val) / 64 = 5 from by omega]
  all_goals simp only [Nat.reduceMul, Nat.reduceSub, pt_add_1024]

theorem piece360 (hp : Holds x0 p) (hg : Holds x1 g) (x : (Rect.unit (s := S1024x1024) ![360, 0] S8x1024.size inb_S1024x1024_S8x1024_360_0).shape.Idx) :
    (k0_pay129 (slabRun.sl.r_69 c arg1 harg1 arg2 harg2 x0 x1) (slabRun.sl.r_70 c arg1 harg1 arg2 harg2 x0 x1) slabRun.sl.cst_42) x = table p g ((Rect.unit (s := S1024x1024) ![360, 0] S8x1024.size inb_S1024x1024_S8x1024_360_0).emb x) := by
  obtain ⟨a, j, rfl⟩ : ∃ (a : Fin 8) (j : Fin 1024), x = ix2 a j := ⟨x 0, x 1, eq_ix2 x⟩
  rw [blk360_apply hp hg a j]
  show _ = ((cellVal p g (360 + 1 * a.val) (0 + 1 * j.val) : ℝ) : EReal)
  have ha := a.isLt
  simp only [cellVal, Nat.one_mul, Nat.zero_add]
  rw [show ((360 + a.val) / 8) % 8 = 5 from by omega, show (360 + a.val) % 8 = a.val from by omega, show (360 + a.val) / 64 = 5 from by omega]
  all_goals simp only [Nat.reduceMul, Nat.reduceSub, pt_add_1024]

theorem piece368 (hp : Holds x0 p) (hg : Holds x1 g) (x : (Rect.unit (s := S1024x1024) ![368, 0] S8x1024.size inb_S1024x1024_S8x1024_368_0).shape.Idx) :
    (k0_pay130 (slabRun.sl.r_19 c arg1 harg1 x0) (slabRun.sl.r_26 c arg1 harg1 x0) (slabRun.sl.r_64 c arg2 harg2 x1) (slabRun.sl.r_65 c arg2 harg2 x1)) x = table p g ((Rect.unit (s := S1024x1024) ![368, 0] S8x1024.size inb_S1024x1024_S8x1024_368_0).emb x) := by
  obtain ⟨a, j, rfl⟩ : ∃ (a : Fin 8) (j : Fin 1024), x = ix2 a j := ⟨x 0, x 1, eq_ix2 x⟩
  rw [blk368_apply hp hg a j]
  show _ = ((cellVal p g (368 + 1 * a.val) (0 + 1 * j.val) : ℝ) : EReal)
  have ha := a.isLt
  simp only [cellVal, Nat.one_mul, Nat.zero_add]
  rw [show ((368 + a.val) / 8) % 8 = 6 from by omega, show (368 + a.val) % 8 = a.val from by omega, show (368 + a.val) / 64 = 5 from by omega]
  all_goals simp only [Nat.reduceMul, Nat.reduceSub, pt_add_1024]

theorem piece376 (hp : Holds x0 p) (hg : Holds x1 g) (x : (Rect.unit (s := S1024x1024) ![376, 0] S8x1024.size inb_S1024x1024_S8x1024_376_0).shape.Idx) :
    (k0_pay131 (slabRun.sl.r_20 c arg1 harg1 x0) (slabRun.sl.r_27 c arg1 harg1 x0) (slabRun.sl.r_64 c arg2 harg2 x1) (slabRun.sl.r_65 c arg2 harg2 x1)) x = table p g ((Rect.unit (s := S1024x1024) ![376, 0] S8x1024.size inb_S1024x1024_S8x1024_376_0).emb x) := by
  obtain ⟨a, j, rfl⟩ : ∃ (a : Fin 8) (j : Fin 1024), x = ix2 a j := ⟨x 0, x 1, eq_ix2 x⟩
  rw [blk376_apply hp hg a j]
  show _ = ((cellVal p g (376 + 1 * a.val) (0 + 1 * j.val) : ℝ) : EReal)
  have ha := a.isLt
  simp only [cellVal, Nat.one_mul, Nat.zero_add]
  rw [show ((376 + a.val) / 8) % 8 = 7 from by omega, show (376 + a.val) % 8 = a.val from by omega, show (376 + a.val) / 64 = 5 from by omega]
  all_goals simp only [Nat.reduceMul, Nat.reduceSub, pt_add_1024]

theorem piece384 (hp : Holds x0 p) (hg : Holds x1 g) (x : (Rect.unit (s := S1024x1024) ![384, 0] S8x1024.size inb_S1024x1024_S8x1024_384_0).shape.Idx) :
    (k0_pay136 (slabRun.sl.r_12 c arg1 harg1 x0) (slabRun.sl.r_13 c arg1 harg1 x0) (slabRun.sl.r_65 c arg2 harg2 x1) (slabRun.sl.r_71 c arg2 harg2 x1) (slabRun.sl.r_72 c arg2 harg2 x1)) x = table p g ((Rect.unit (s := S1024x1024) ![384, 0] S8x1024.size inb_S1024x1024_S8x1024_384_0).emb x) := by
  obtain ⟨a, j, rfl⟩ : ∃ (a : Fin 8) (j : Fin 1024), x = ix2 a j := ⟨x 0, x 1, eq_ix2 x⟩
  rw [blk384_apply hp hg a j]
  show _ = ((cellVal p g (384 + 1 * a.val) (0 + 1 * j.val) : ℝ) : EReal)
  have ha := a.isLt
  simp only [cellVal, Nat.one_mul, Nat.zero_add]
  rw [show ((384 + a.val) / 8) % 8 = 0 from by omega, show (384 + a.val) % 8 = a.val from by omega, show (384 + a.val) / 64 = 6 from by omega]
  all_goals simp only [Nat.reduceMul, Nat.reduceSub, pt_add_1024]

theorem piece392 (hp : Holds x0 p) (hg : Holds x1 g) (x : (Rect.unit (s := S1024x1024) ![392, 0] S8x1024.size inb_S1024x1024_S8x1024_392_0).shape.Idx) :
    (k0_pay137 (slabRun.sl.r_14 c arg1 harg1 x0) (slabRun.sl.r_21 c arg1 harg1 x0) (slabRun.sl.r_65 c arg2 harg2 x1) (slabRun.sl.r_71 c arg2 harg2 x1) (slabRun.sl.r_72 c arg2 harg2 x1)) x = table p g ((Rect.unit (s := S1024x1024) ![392, 0] S8x1024.size inb_S1024x1024_S8x1024_392_0).emb x) := by
  obtain ⟨a, j, rfl⟩ : ∃ (a : Fin 8) (j : Fin 1024), x = ix2 a j := ⟨x 0, x 1, eq_ix2 x⟩
  rw [blk392_apply hp hg a j]
  show _ = ((cellVal p g (392 + 1 * a.val) (0 + 1 * j.val) : ℝ) : EReal)
  have ha := a.isLt
  simp only [cellVal, Nat.one_mul, Nat.zero_add]
  rw [show ((392 + a.val) / 8) % 8 = 1 from by omega, show (392 + a.val) % 8 = a.val from by omega, show (392 + a.val) / 64 = 6 from by omega]
  all_goals simp only [Nat.reduceMul, Nat.reduceSub, pt_add_1024]

theorem piece400 (hp : Holds x0 p) (hg : Holds x1 g) (x : (Rect.unit (s := S1024x1024) ![400, 0] S8x1024.size inb_S1024x1024_S8x1024_400_0).shape.Idx) :
    (k0_pay140 (slabRun.sl.r_75 c arg1 harg1 arg2 harg2 x0 x1) (slabRun.sl.r_76 c arg1 harg1 arg2 harg2 x0 x1)) x = table p g ((Rect.unit (s := S1024x1024) ![400, 0] S8x1024.size inb_S1024x1024_S8x1024_400_0).emb x) := by
  obtain ⟨a, j, rfl⟩ : ∃ (a : Fin 8) (j : Fin 1024), x = ix2 a j := ⟨x 0, x 1, eq_ix2 x⟩
  rw [blk400_apply hp hg a j]
  show _ = ((cellVal p g (400 + 1 * a.val) (0 + 1 * j.val) : ℝ) : EReal)
  have ha := a.isLt
  simp only [cellVal, Nat.one_mul, Nat.zero_add]
  rw [show ((400 + a.val) / 8) % 8 = 2 from by omega, show (400 + a.val) % 8 = a.val from by omega, show (400 + a.val) / 64 = 6 from by omega]
  all_goals simp only [Nat.reduceMul, Nat.reduceSub, pt_add_1024]

theorem piece408 (hp : Holds x0 p) (hg : Holds x1 g) (x : (Rect.unit (s := S1024x1024) ![408, 0] S8x1024.size inb_S1024x1024_S8x1024_408_0).shape.Idx) :
    (k0_pay141 (slabRun.sl.r_16 c arg1 harg1 x0) (slabRun.sl.r_23 c arg1 harg1 x0) (slabRun.sl.r_73 c arg2 harg2 x1) (slabRun.sl.r_74 c arg2 harg2 x1)) x = table p g ((Rect.unit (s := S1024x1024) ![408, 0] S8x1024.size inb_S1024x1024_S8x1024_408_0).emb x) := by
  obtain ⟨a, j, rfl⟩ : ∃ (a : Fin 8) (j : Fin 1024), x = ix2 a j := ⟨x 0, x 1, eq_ix2 x⟩
  rw [blk408_apply hp hg a j]
  show _ = ((cellVal p g (408 + 1 * a.val) (0 + 1 * j.val) : ℝ) : EReal)
  have ha := a.isLt
  simp only [cellVal, Nat.one_mul, Nat.zero_add]
  rw [show ((408 + a.val) / 8) % 8 = 3 from by omega, show (408 + a.val) % 8 = a.val from by omega, show (408 + a.val) / 64 = 6 from by omega]
  all_goals simp only [Nat.reduceMul, Nat.reduceSub, pt_add_1024]

theorem piece416 (hp : Holds x0 p) (hg : Holds x1 g) (x : (Rect.unit (s := S1024x1024) ![416, 0] S8x1024.size inb_S1024x1024_S8x1024_416_0).shape.Idx) :
    (k0_pay142 (slabRun.sl.r_17 c arg1 harg1 x0) (slabRun.sl.r_24 c arg1 harg1 x0) (slabRun.sl.r_73 c arg2 harg2 x1) (slabRun.sl.r_74 c arg2 harg2 x1)) x = table p g ((Rect.unit (s := S1024x1024) ![416, 0] S8x1024.size inb_S1024x1024_S8x1024_416_0).emb x) := by
  obtain ⟨a, j, rfl⟩ : ∃ (a : Fin 8) (j : Fin 1024), x = ix2 a j := ⟨x 0, x 1, eq_ix2 x⟩
  rw [blk416_apply hp hg a j]
  show _ = ((cellVal p g (416 + 1 * a.val) (0 + 1 * j.val) : ℝ) : EReal)
  have ha := a.isLt
  simp only [cellVal, Nat.one_mul, Nat.zero_add]
  rw [show ((416 + a.val) / 8) % 8 = 4 from by omega, show (416 + a.val) % 8 = a.val from by omega, show (416 + a.val) / 64 = 6 from by omega]
  all_goals simp only [Nat.reduceMul, Nat.reduceSub, pt_add_1024]

theorem piece424 (hp : Holds x0 p) (hg : Holds x1 g) (x : (Rect.unit (s := S1024x1024) ![424, 0] S8x1024.size inb_S1024x1024_S8x1024_424_0).shape.Idx) :
    (k0_pay144 (slabRun.sl.r_25 c arg1 harg1 x0) (slabRun.sl.r_74 c arg2 harg2 x1) (slabRun.sl.r_77 c arg1 harg1 arg2 harg2 x0 x1)) x = table p g ((Rect.unit (s := S1024x1024) ![424, 0] S8x1024.size inb_S1024x1024_S8x1024_424_0).emb x) := by
  obtain ⟨a, j, rfl⟩ : ∃ (a : Fin 8) (j : Fin 1024), x = ix2 a j := ⟨x 0, x 1, eq_ix2 x⟩
  rw [blk424_apply hp hg a j]
  show _ = ((cellVal p g (424 + 1 * a.val) (0 + 1 * j.val) : ℝ) : EReal)
  have ha := a.isLt
  simp only [cellVal, Nat.one_mul, Nat.zero_add]
  rw [show ((424 + a.val) / 8) % 8 = 5 from by omega, show (424 + a.val) % 8 = a.val from by omega, show (424 + a.val) / 64 = 6 from by omega]
  all_goals simp only [Nat.reduceMul, Nat.reduceSub, pt_add_1024]

theorem piece432 (hp : Holds x0 p) (hg : Holds x1 g) (x : (Rect.unit (s := S1024x1024) ![432, 0] S8x1024.size inb_S1024x1024_S8x1024_432_0).shape.Idx) :
    (k0_pay145 (slabRun.sl.r_19 c arg1 harg1 x0) (slabRun.sl.r_26 c arg1 harg1 x0) (slabRun.sl.r_73 c arg2 harg2 x1) (slabRun.sl.r_74 c arg2 harg2 x1)) x = table p g ((Rect.unit (s := S1024x1024) ![432, 0] S8x1024.size inb_S1024x1024_S8x1024_432_0).emb x) := by
  obtain ⟨a, j, rfl⟩ : ∃ (a : Fin 8) (j : Fin 1024), x = ix2 a j := ⟨x 0, x 1, eq_ix2 x⟩
  rw [blk432_apply hp hg a j]
  show _ = ((cellVal p g (432 + 1 * a.val) (0 + 1 * j.val) : ℝ) : EReal)
  have ha := a.isLt
  simp only [cellVal, Nat.one_mul, Nat.zero_add]
  rw [show ((432 + a.val) / 8) % 8 = 6 from by omega, show (432 + a.val) % 8 = a.val from by omega, show (432 + a.val) / 64 = 6 from by omega]
  all_goals simp only [Nat.reduceMul, Nat.reduceSub, pt_add_1024]

theorem piece440 (hp : Holds x0 p) (hg : Holds x1 g) (x : (Rect.unit (s := S1024x1024) ![440, 0] S8x1024.size inb_S1024x1024_S8x1024_440_0).shape.Idx) :
    (k0_pay150 (slabRun.sl.r_78 c arg1 harg1 arg2 harg2 x0 x1) (slabRun.sl.r_79 c arg1 harg1 arg2 harg2 x0 x1) (slabRun.sl.r_80 c arg1 harg1 arg2 harg2 x0 x1)) x = table p g ((Rect.unit (s := S1024x1024) ![440, 0] S8x1024.size inb_S1024x1024_S8x1024_440_0).emb x) := by
  obtain ⟨a, j, rfl⟩ : ∃ (a : Fin 8) (j : Fin 1024), x = ix2 a j := ⟨x 0, x 1, eq_ix2 x⟩
  rw [blk440_apply hp hg a j]
  show _ = ((cellVal p g (440 + 1 * a.val) (0 + 1 * j.val) : ℝ) : EReal)
  have ha := a.isLt
  simp only [cellVal, Nat.one_mul, Nat.zero_add]
  rw [show ((440 + a.val) / 8) % 8 = 7 from by omega, show (440 + a.val) % 8 = a.val from by omega, show (440 + a.val) / 64 = 6 from by omega]
  all_goals simp only [Nat.reduceMul, Nat.reduceSub, pt_add_1024]

theorem piece448 (hp : Holds x0 p) (hg : Holds x1 g) (x : (Rect.unit (s := S1024x1024) ![448, 0] S8x1024.size inb_S1024x1024_S8x1024_448_0).shape.Idx) :
    (k0_pay153 (slabRun.sl.r_12 c arg1 harg1 x0) (slabRun.sl.r_13 c arg1 harg1 x0) (slabRun.sl.r_73 c arg2 harg2 x1) (slabRun.sl.r_74 c arg2 harg2 x1)) x = table p g ((Rect.unit (s := S1024x1024) ![448, 0] S8x1024.size inb_S1024x1024_S8x1024_448_0).emb x) := by
  obtain ⟨a, j, rfl⟩ : ∃ (a : Fin 8) (j : Fin 1024), x = ix2 a j := ⟨x 0, x 1, eq_ix2 x⟩
  rw [blk448_apply hp hg a j]
  show _ = ((cellVal p g (448 + 1 * a.val) (0 + 1 * j.val) : ℝ) : EReal)
  have ha := a.isLt
  simp only [cellVal, Nat.one_mul, Nat.zero_add]
  rw [show ((448 + a.val) / 8) % 8 = 0 from by omega, show (448 + a.val) % 8 = a.val from by omega, show (448 + a.val) / 64 = 7 from by omega]
  all_goals simp only [Nat.reduceMul, Nat.reduceSub, pt_add_1024]

theorem piece456 (hp : Holds x0 p) (hg : Holds x1 g) (x : (Rect.unit (s := S1024x1024) ![456, 0] S8x1024.size inb_S1024x1024_S8x1024_456_0).shape.Idx) :
    (k0_pay154 (slabRun.sl.r_14 c arg1 harg1 x0) (slabRun.sl.r_21 c arg1 harg1 x0) (slabRun.sl.r_73 c arg2 harg2 x1) (slabRun.sl.r_74 c arg2 harg2 x1)) x = table p g ((Rect.unit (s := S1024x1024) ![456, 0] S8x1024.size inb_S1024x1024_S8x1024_456_0).emb x) := by
  obtain ⟨a, j, rfl⟩ : ∃ (a : Fin 8) (j : Fin 1024), x = ix2 a j := ⟨x 0, x 1, eq_ix2 x⟩
  rw [blk456_apply hp hg a j]
  show _ = ((cellVal p g (456 + 1 * a.val) (0 + 1 * j.val) : ℝ) : EReal)
  have ha := a.isLt
  simp only [cellVal, Nat.one_mul, Nat.zero_add]
  rw [show ((456 + a.val) / 8) % 8 = 1 from by omega, show (456 + a.val) % 8 = a.val from by omega, show (456 + a.val) / 64 = 7 from by omega]
  all_goals simp only [Nat.reduceMul, Nat.reduceSub, pt_add_1024]

theorem piece464 (hp : Holds x0 p) (hg : Holds x1 g) (x : (Rect.unit (s := S1024x1024) ![464, 0] S8x1024.size inb_S1024x1024_S8x1024_464_0).shape.Idx) :
    (k0_pay155 (slabRun.sl.r_15 c arg1 harg1 x0) (slabRun.sl.r_22 c arg1 harg1 x0) (slabRun.sl.r_81 c arg2 harg2 x1) (slabRun.sl.r_82 c arg2 harg2 x1)) x = table p g ((Rect.unit (s := S1024x1024) ![464, 0] S8x1024.size inb_S1024x1024_S8x1024_464_0).emb x) := by
  obtain ⟨a, j, rfl⟩ : ∃ (a : Fin 8) (j : Fin 1024), x = ix2 a j := ⟨x 0, x 1, eq_ix2 x⟩
  rw [blk464_apply hp hg a j]
  show _ = ((cellVal p g (464 + 1 * a.val) (0 + 1 * j.val) : ℝ) : EReal)
  have ha := a.isLt
  simp only [cellVal, Nat.one_mul, Nat.zero_add]
  rw [show ((464 + a.val) / 8) % 8 = 2 from by omega, show (464 + a.val) % 8 = a.val from by omega, show (464 + a.val) / 64 = 7 from by omega]
  all_goals simp only [Nat.reduceMul, Nat.reduceSub, pt_add_1024]

theorem piece472 (hp : Holds x0 p) (hg : Holds x1 g) (x : (Rect.unit (s := S1024x1024) ![472, 0] S8x1024.size inb_S1024x1024_S8x1024_472_0).shape.Idx) :
    (k0_pay156 (slabRun.sl.r_16 c arg1 harg1 x0) (slabRun.sl.r_23 c arg1 harg1 x0) (slabRun.sl.r_81 c arg2 harg2 x1) (slabRun.sl.r_82 c arg2 harg2 x1)) x = table p g ((Rect.unit (s := S1024x1024) ![472, 0] S8x1024.size inb_S1024x1024_S8x1024_472_0).emb x) := by
  obtain ⟨a, j, rfl⟩ : ∃ (a : Fin 8) (j : Fin 1024), x = ix2 a j := ⟨x 0, x 1, eq_ix2 x⟩
  rw [blk472_apply hp hg a j]
  show _ = ((cellVal p g (472 + 1 * a.val) (0 + 1 * j.val) : ℝ) : EReal)
  have ha := a.isLt
  simp only [cellVal, Nat.one_mul, Nat.zero_add]
  rw [show ((472 + a.val) / 8) % 8 = 3 from by omega, show (472 + a.val) % 8 = a.val from by omega, show (472 + a.val) / 64 = 7 from by omega]
  all_goals simp only [Nat.reduceMul, Nat.reduceSub, pt_add_1024]

theorem piece480 (hp : Holds x0 p) (hg : Holds x1 g) (x : (Rect.unit (s := S1024x1024) ![480, 0] S8x1024.size inb_S1024x1024_S8x1024_480_0).shape.Idx) :
    (k0_pay161 (slabRun.sl.r_83 c arg1 harg1 arg2 harg2 x0 x1) (slabRun.sl.r_84 c arg1 harg1 arg2 harg2 x0 x1) (slabRun.sl.r_85 c arg1 harg1 arg2 harg2 x0 x1)) x = table p g ((Rect.unit (s := S1024x1024) ![480, 0] S8x1024.size inb_S1024x1024_S8x1024_480_0).emb x) := by
  obtain ⟨a, j, rfl⟩ : ∃ (a : Fin 8) (j : Fin 1024), x = ix2 a j := ⟨x 0, x 1, eq_ix2 x⟩
  rw [blk480_apply hp hg a j]
  show _ = ((cellVal p g (480 + 1 * a.val) (0 + 1 * j.val) : ℝ) : EReal)
  have ha := a.isLt
  simp only [cellVal, Nat.one_mul, Nat.zero_add]
  rw [show ((480 + a.val) / 8) % 8 = 4 from by omega, show (480 + a.val) % 8 = a.val from by omega, show (480 + a.val) / 64 = 7 from by omega]
  all_goals simp only [Nat.reduceMul, Nat.reduceSub, pt_add_1024]

theorem piece488 (hp : Holds x0 p) (hg : Holds x1 g) (x : (Rect.unit (s := S1024x1024) ![488, 0] S8x1024.size inb_S1024x1024_S8x1024_488_0).shape.Idx) :
    (k0_pay162 (slabRun.sl.r_18 c arg1 harg1 x0) (slabRun.sl.r_25 c arg1 harg1 x0) (slabRun.sl.r_81 c arg2 harg2 x1) (slabRun.sl.r_82 c arg2 harg2 x1)) x = table p g ((Rect.unit (s := S1024x1024) ![488, 0] S8x1024.size inb_S1024x1024_S8x1024_488_0).emb x) := by
  obtain ⟨a, j, rfl⟩ : ∃ (a : Fin 8) (j : Fin 1024), x = ix2 a j := ⟨x 0, x 1, eq_ix2 x⟩
  rw [blk488_apply hp hg a j]
  show _ = ((cellVal p g (488 + 1 * a.val) (0 + 1 * j.val) : ℝ) : EReal)
  have ha := a.isLt
  simp only [cellVal, Nat.one_mul, Nat.zero_add]
  rw [show ((488 + a.val) / 8) % 8 = 5 from by omega, show (488 + a.val) % 8 = a.val from by omega, show (488 + a.val) / 64 = 7 from by omega]
  all_goals simp only [Nat.reduceMul, Nat.reduceSub, pt_add_1024]

theorem piece496 (hp : Holds x0 p) (hg : Holds x1 g) (x : (Rect.unit (s := S1024x1024) ![496, 0] S8x1024.size inb_S1024x1024_S8x1024_496_0).shape.Idx) :
    (k0_pay163 (slabRun.sl.r_19 c arg1 harg1 x0) (slabRun.sl.r_26 c arg1 harg1 x0) (slabRun.sl.r_81 c arg2 harg2 x1) (slabRun.sl.r_82 c arg2 harg2 x1)) x = table p g ((Rect.unit (s := S1024x1024) ![496, 0] S8x1024.size inb_S1024x1024_S8x1024_496_0).emb x) := by
  obtain ⟨a, j, rfl⟩ : ∃ (a : Fin 8) (j : Fin 1024), x = ix2 a j := ⟨x 0, x 1, eq_ix2 x⟩
  rw [blk496_apply hp hg a j]
  show _ = ((cellVal p g (496 + 1 * a.val) (0 + 1 * j.val) : ℝ) : EReal)
  have ha := a.isLt
  simp only [cellVal, Nat.one_mul, Nat.zero_add]
  rw [show ((496 + a.val) / 8) % 8 = 6 from by omega, show (496 + a.val) % 8 = a.val from by omega, show (496 + a.val) / 64 = 7 from by omega]
  all_goals simp only [Nat.reduceMul, Nat.reduceSub, pt_add_1024]

theorem piece504 (hp : Holds x0 p) (hg : Holds x1 g) (x : (Rect.unit (s := S1024x1024) ![504, 0] S8x1024.size inb_S1024x1024_S8x1024_504_0).shape.Idx) :
    (k0_pay166 (slabRun.sl.r_27 c arg1 harg1 x0) (slabRun.sl.r_82 c arg2 harg2 x1) (slabRun.sl.r_86 c arg1 harg1 arg2 harg2 x0 x1) (slabRun.sl.r_87 c arg1 harg1 arg2 harg2 x0 x1)) x = table p g ((Rect.unit (s := S1024x1024) ![504, 0] S8x1024.size inb_S1024x1024_S8x1024_504_0).emb x) := by
  obtain ⟨a, j, rfl⟩ : ∃ (a : Fin 8) (j : Fin 1024), x = ix2 a j := ⟨x 0, x 1, eq_ix2 x⟩
  rw [blk504_apply hp hg a j]
  show _ = ((cellVal p g (504 + 1 * a.val) (0 + 1 * j.val) : ℝ) : EReal)
  have ha := a.isLt
  simp only [cellVal, Nat.one_mul, Nat.zero_add]
  rw [show ((504 + a.val) / 8) % 8 = 7 from by omega, show (504 + a.val) % 8 = a.val from by omega, show (504 + a.val) / 64 = 7 from by omega]
  all_goals simp only [Nat.reduceMul, Nat.reduceSub, pt_add_1024]

end Cert.KernelIdeal.Hand

end
-- ==== Proof.KBlk2.lean ====
/-
  The table's rows 512 to 767, block by block (idealized kernel).

  Each store writes eight rows of the table: row a of the block at row R holds, at column j, the
  kernel's smooth-L1 of the two coordinates of the prediction's point j rotated back by 128 o
  against the ground truth's point j + a + 8 u, where R = 64 u + 8 o. Every block's payload is
  the same arithmetic over a different pair of the arrays read before; reading it at (a, j)
  gives that value on the sample's reals.
-/
import proofs.«103642_g13554916786703_cont_week2b_739_36_alg».proof.Proof.KBase
import proofs.«103642_g13554916786703_cont_week2b_739_36_alg».proof.Proof.KCoe

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Lay Cert.Spec

variable {c : Dev nD}
variable {arg1 : Memref sig .tc .vmem S1x2x1024 .f32} {harg1 : arg1.IsWhole} {arg2 : Memref sig .tc .vmem S1x2x1024 .f32} {harg2 : arg2.IsWhole}
variable {x0 x1 : Vec Ideal S1x2x1024 .f32} {p g : Pt → Fin 2 → ℝ}

theorem blk512_apply (hp : Holds x0 p) (hg : Holds x1 g) (a : Fin 8) (j : Fin 1024) :
    (k0_pay170 (slabRun.sl.r_12 c arg1 harg1 x0) (slabRun.sl.r_13 c arg1 harg1 x0) (slabRun.sl.r_81 c arg2 harg2 x1) (slabRun.sl.r_82 c arg2 harg2 x1)) (ix2 a j)
      = ((sm2 |p j 0 - g (pt (j.val + (a.val + 64))) 0| + sm2 |p j 1 - g (pt (j.val + (a.val + 64))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk520_apply (hp : Holds x0 p) (hg : Holds x1 g) (a : Fin 8) (j : Fin 1024) :
    (k0_pay172 (slabRun.sl.r_21 c arg1 harg1 x0) (slabRun.sl.r_90 c arg2 harg2 x1) (slabRun.sl.r_91 c arg1 harg1 arg2 harg2 x0 x1)) (ix2 a j)
      = ((sm2 |p (pt (j.val + 896)) 0 - g (pt (j.val + (a.val + 64))) 0| + sm2 |p (pt (j.val + 896)) 1 - g (pt (j.val + (a.val + 64))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk528_apply (hp : Holds x0 p) (hg : Holds x1 g) (a : Fin 8) (j : Fin 1024) :
    (k0_pay173 (slabRun.sl.r_15 c arg1 harg1 x0) (slabRun.sl.r_22 c arg1 harg1 x0) (slabRun.sl.r_89 c arg2 harg2 x1) (slabRun.sl.r_90 c arg2 harg2 x1)) (ix2 a j)
      = ((sm2 |p (pt (j.val + 768)) 0 - g (pt (j.val + (a.val + 64))) 0| + sm2 |p (pt (j.val + 768)) 1 - g (pt (j.val + (a.val + 64))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk536_apply (hp : Holds x0 p) (hg : Holds x1 g) (a : Fin 8) (j : Fin 1024) :
    (k0_pay176 (slabRun.sl.r_92 c arg1 harg1 arg2 harg2 x0 x1) (slabRun.sl.r_93 c arg1 harg1 arg2 harg2 x0 x1)) (ix2 a j)
      = ((sm2 |p (pt (j.val + 640)) 0 - g (pt (j.val + (a.val + 64))) 0| + sm2 |p (pt (j.val + 640)) 1 - g (pt (j.val + (a.val + 64))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk544_apply (hp : Holds x0 p) (hg : Holds x1 g) (a : Fin 8) (j : Fin 1024) :
    (k0_pay177 (slabRun.sl.r_17 c arg1 harg1 x0) (slabRun.sl.r_24 c arg1 harg1 x0) (slabRun.sl.r_89 c arg2 harg2 x1) (slabRun.sl.r_90 c arg2 harg2 x1)) (ix2 a j)
      = ((sm2 |p (pt (j.val + 512)) 0 - g (pt (j.val + (a.val + 64))) 0| + sm2 |p (pt (j.val + 512)) 1 - g (pt (j.val + (a.val + 64))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk552_apply (hp : Holds x0 p) (hg : Holds x1 g) (a : Fin 8) (j : Fin 1024) :
    (k0_pay178 (slabRun.sl.r_18 c arg1 harg1 x0) (slabRun.sl.r_25 c arg1 harg1 x0) (slabRun.sl.r_89 c arg2 harg2 x1) (slabRun.sl.r_90 c arg2 harg2 x1)) (ix2 a j)
      = ((sm2 |p (pt (j.val + 384)) 0 - g (pt (j.val + (a.val + 64))) 0| + sm2 |p (pt (j.val + 384)) 1 - g (pt (j.val + (a.val + 64))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk560_apply (hp : Holds x0 p) (hg : Holds x1 g) (a : Fin 8) (j : Fin 1024) :
    (k0_pay182 (slabRun.sl.r_26 c arg1 harg1 x0) (slabRun.sl.r_90 c arg2 harg2 x1) (slabRun.sl.r_94 c arg1 harg1 arg2 harg2 x0 x1) (slabRun.sl.r_95 c arg1 harg1 arg2 harg2 x0 x1)) (ix2 a j)
      = ((sm2 |p (pt (j.val + 256)) 0 - g (pt (j.val + (a.val + 64))) 0| + sm2 |p (pt (j.val + 256)) 1 - g (pt (j.val + (a.val + 64))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk568_apply (hp : Holds x0 p) (hg : Holds x1 g) (a : Fin 8) (j : Fin 1024) :
    (k0_pay183 (slabRun.sl.r_20 c arg1 harg1 x0) (slabRun.sl.r_27 c arg1 harg1 x0) (slabRun.sl.r_89 c arg2 harg2 x1) (slabRun.sl.r_90 c arg2 harg2 x1)) (ix2 a j)
      = ((sm2 |p (pt (j.val + 128)) 0 - g (pt (j.val + (a.val + 64))) 0| + sm2 |p (pt (j.val + 128)) 1 - g (pt (j.val + (a.val + 64))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk576_apply (hp : Holds x0 p) (hg : Holds x1 g) (a : Fin 8) (j : Fin 1024) :
    (k0_pay190 (slabRun.sl.r_98 c arg1 harg1 arg2 harg2 x0 x1) (slabRun.sl.r_99 c arg1 harg1 arg2 harg2 x0 x1) (slabRun.sl.r_100 c arg1 harg1 arg2 harg2 x0 x1)) (ix2 a j)
      = ((sm2 |p j 0 - g (pt (j.val + (a.val + 72))) 0| + sm2 |p j 1 - g (pt (j.val + (a.val + 72))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk584_apply (hp : Holds x0 p) (hg : Holds x1 g) (a : Fin 8) (j : Fin 1024) :
    (k0_pay191 (slabRun.sl.r_14 c arg1 harg1 x0) (slabRun.sl.r_21 c arg1 harg1 x0) (slabRun.sl.r_96 c arg2 harg2 x1) (slabRun.sl.r_97 c arg2 harg2 x1)) (ix2 a j)
      = ((sm2 |p (pt (j.val + 896)) 0 - g (pt (j.val + (a.val + 72))) 0| + sm2 |p (pt (j.val + 896)) 1 - g (pt (j.val + (a.val + 72))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk592_apply (hp : Holds x0 p) (hg : Holds x1 g) (a : Fin 8) (j : Fin 1024) :
    (k0_pay192 (slabRun.sl.r_15 c arg1 harg1 x0) (slabRun.sl.r_22 c arg1 harg1 x0) (slabRun.sl.r_96 c arg2 harg2 x1) (slabRun.sl.r_97 c arg2 harg2 x1)) (ix2 a j)
      = ((sm2 |p (pt (j.val + 768)) 0 - g (pt (j.val + (a.val + 72))) 0| + sm2 |p (pt (j.val + 768)) 1 - g (pt (j.val + (a.val + 72))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk600_apply (hp : Holds x0 p) (hg : Holds x1 g) (a : Fin 8) (j : Fin 1024) :
    (k0_pay196 (slabRun.sl.r_23 c arg1 harg1 x0) (slabRun.sl.r_97 c arg2 harg2 x1) (slabRun.sl.r_101 c arg1 harg1 arg2 harg2 x0 x1) (slabRun.sl.r_102 c arg1 harg1 arg2 harg2 x0 x1)) (ix2 a j)
      = ((sm2 |p (pt (j.val + 640)) 0 - g (pt (j.val + (a.val + 72))) 0| + sm2 |p (pt (j.val + 640)) 1 - g (pt (j.val + (a.val + 72))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk608_apply (hp : Holds x0 p) (hg : Holds x1 g) (a : Fin 8) (j : Fin 1024) :
    (k0_pay197 (slabRun.sl.r_17 c arg1 harg1 x0) (slabRun.sl.r_24 c arg1 harg1 x0) (slabRun.sl.r_96 c arg2 harg2 x1) (slabRun.sl.r_97 c arg2 harg2 x1)) (ix2 a j)
      = ((sm2 |p (pt (j.val + 512)) 0 - g (pt (j.val + (a.val + 72))) 0| + sm2 |p (pt (j.val + 512)) 1 - g (pt (j.val + (a.val + 72))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk616_apply (hp : Holds x0 p) (hg : Holds x1 g) (a : Fin 8) (j : Fin 1024) :
    (k0_pay199 (slabRun.sl.r_103 c arg1 harg1 arg2 harg2 x0 x1)) (ix2 a j)
      = ((sm2 |p (pt (j.val + 384)) 0 - g (pt (j.val + (a.val + 72))) 0| + sm2 |p (pt (j.val + 384)) 1 - g (pt (j.val + (a.val + 72))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk624_apply (hp : Holds x0 p) (hg : Holds x1 g) (a : Fin 8) (j : Fin 1024) :
    (k0_pay200 (slabRun.sl.r_19 c arg1 harg1 x0) (slabRun.sl.r_26 c arg1 harg1 x0) (slabRun.sl.r_96 c arg2 harg2 x1) (slabRun.sl.r_97 c arg2 harg2 x1)) (ix2 a j)
      = ((sm2 |p (pt (j.val + 256)) 0 - g (pt (j.val + (a.val + 72))) 0| + sm2 |p (pt (j.val + 256)) 1 - g (pt (j.val + (a.val + 72))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk632_apply (hp : Holds x0 p) (hg : Holds x1 g) (a : Fin 8) (j : Fin 1024) :
    (k0_pay201 (slabRun.sl.r_20 c arg1 harg1 x0) (slabRun.sl.r_27 c arg1 harg1 x0) (slabRun.sl.r_96 c arg2 harg2 x1) (slabRun.sl.r_97 c arg2 harg2 x1)) (ix2 a j)
      = ((sm2 |p (pt (j.val + 128)) 0 - g (pt (j.val + (a.val + 72))) 0| + sm2 |p (pt (j.val + 128)) 1 - g (pt (j.val + (a.val + 72))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk640_apply (hp : Holds x0 p) (hg : Holds x1 g) (a : Fin 8) (j : Fin 1024) :
    (k0_pay206 (slabRun.sl.r_13 c arg1 harg1 x0) (slabRun.sl.r_105 c arg2 harg2 x1) (slabRun.sl.r_106 c arg1 harg1 arg2 harg2 x0 x1) (slabRun.sl.r_107 c arg1 harg1 arg2 harg2 x0 x1)) (ix2 a j)
      = ((sm2 |p j 0 - g (pt (j.val + (a.val + 80))) 0| + sm2 |p j 1 - g (pt (j.val + (a.val + 80))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk648_apply (hp : Holds x0 p) (hg : Holds x1 g) (a : Fin 8) (j : Fin 1024) :
    (k0_pay207 (slabRun.sl.r_14 c arg1 harg1 x0) (slabRun.sl.r_21 c arg1 harg1 x0) (slabRun.sl.r_104 c arg2 harg2 x1) (slabRun.sl.r_105 c arg2 harg2 x1)) (ix2 a j)
      = ((sm2 |p (pt (j.val + 896)) 0 - g (pt (j.val + (a.val + 80))) 0| + sm2 |p (pt (j.val + 896)) 1 - g (pt (j.val + (a.val + 80))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk656_apply (hp : Holds x0 p) (hg : Holds x1 g) (a : Fin 8) (j : Fin 1024) :
    (k0_pay209 (slabRun.sl.r_108 c arg1 harg1 arg2 harg2 x0 x1)) (ix2 a j)
      = ((sm2 |p (pt (j.val + 768)) 0 - g (pt (j.val + (a.val + 80))) 0| + sm2 |p (pt (j.val + 768)) 1 - g (pt (j.val + (a.val + 80))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk664_apply (hp : Holds x0 p) (hg : Holds x1 g) (a : Fin 8) (j : Fin 1024) :
    (k0_pay210 (slabRun.sl.r_16 c arg1 harg1 x0) (slabRun.sl.r_23 c arg1 harg1 x0) (slabRun.sl.r_104 c arg2 harg2 x1) (slabRun.sl.r_105 c arg2 harg2 x1)) (ix2 a j)
      = ((sm2 |p (pt (j.val + 640)) 0 - g (pt (j.val + (a.val + 80))) 0| + sm2 |p (pt (j.val + 640)) 1 - g (pt (j.val + (a.val + 80))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk672_apply (hp : Holds x0 p) (hg : Holds x1 g) (a : Fin 8) (j : Fin 1024) :
    (k0_pay211 (slabRun.sl.r_17 c arg1 harg1 x0) (slabRun.sl.r_24 c arg1 harg1 x0) (slabRun.sl.r_104 c arg2 harg2 x1) (slabRun.sl.r_105 c arg2 harg2 x1)) (ix2 a j)
      = ((sm2 |p (pt (j.val + 512)) 0 - g (pt (j.val + (a.val + 80))) 0| + sm2 |p (pt (j.val + 512)) 1 - g (pt (j.val + (a.val + 80))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk680_apply (hp : Holds x0 p) (hg : Holds x1 g) (a : Fin 8) (j : Fin 1024) :
    (k0_pay214 (slabRun.sl.r_109 c arg1 harg1 arg2 harg2 x0 x1) (slabRun.sl.r_110 c arg1 harg1 arg2 harg2 x0 x1)) (ix2 a j)
      = ((sm2 |p (pt (j.val + 384)) 0 - g (pt (j.val + (a.val + 80))) 0| + sm2 |p (pt (j.val + 384)) 1 - g (pt (j.val + (a.val + 80))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk688_apply (hp : Holds x0 p) (hg : Holds x1 g) (a : Fin 8) (j : Fin 1024) :
    (k0_pay215 (slabRun.sl.r_19 c arg1 harg1 x0) (slabRun.sl.r_26 c arg1 harg1 x0) (slabRun.sl.r_104 c arg2 harg2 x1) (slabRun.sl.r_105 c arg2 harg2 x1)) (ix2 a j)
      = ((sm2 |p (pt (j.val + 256)) 0 - g (pt (j.val + (a.val + 80))) 0| + sm2 |p (pt (j.val + 256)) 1 - g (pt (j.val + (a.val + 80))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk696_apply (hp : Holds x0 p) (hg : Holds x1 g) (a : Fin 8) (j : Fin 1024) :
    (k0_pay216 (slabRun.sl.r_20 c arg1 harg1 x0) (slabRun.sl.r_27 c arg1 harg1 x0) (slabRun.sl.r_104 c arg2 harg2 x1) (slabRun.sl.r_105 c arg2 harg2 x1)) (ix2 a j)
      = ((sm2 |p (pt (j.val + 128)) 0 - g (pt (j.val + (a.val + 80))) 0| + sm2 |p (pt (j.val + 128)) 1 - g (pt (j.val + (a.val + 80))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk704_apply (hp : Holds x0 p) (hg : Holds x1 g) (a : Fin 8) (j : Fin 1024) :
    (k0_pay220 (slabRun.sl.r_12 c arg1 harg1 x0) (slabRun.sl.r_13 c arg1 harg1 x0) (slabRun.sl.r_104 c arg2 harg2 x1) (slabRun.sl.r_105 c arg2 harg2 x1) (slabRun.sl.r_111 c arg2 harg2 x1)) (ix2 a j)
      = ((sm2 |p j 0 - g (pt (j.val + (a.val + 88))) 0| + sm2 |p j 1 - g (pt (j.val + (a.val + 88))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk712_apply (hp : Holds x0 p) (hg : Holds x1 g) (a : Fin 8) (j : Fin 1024) :
    (k0_pay221 (slabRun.sl.r_14 c arg1 harg1 x0) (slabRun.sl.r_21 c arg1 harg1 x0) (slabRun.sl.r_104 c arg2 harg2 x1) (slabRun.sl.r_105 c arg2 harg2 x1) (slabRun.sl.r_111 c arg2 harg2 x1)) (ix2 a j)
      = ((sm2 |p (pt (j.val + 896)) 0 - g (pt (j.val + (a.val + 88))) 0| + sm2 |p (pt (j.val + 896)) 1 - g (pt (j.val + (a.val + 88))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk720_apply (hp : Holds x0 p) (hg : Holds x1 g) (a : Fin 8) (j : Fin 1024) :
    (k0_pay224 (slabRun.sl.r_114 c arg1 harg1 arg2 harg2 x0 x1) (slabRun.sl.r_115 c arg1 harg1 arg2 harg2 x0 x1)) (ix2 a j)
      = ((sm2 |p (pt (j.val + 768)) 0 - g (pt (j.val + (a.val + 88))) 0| + sm2 |p (pt (j.val + 768)) 1 - g (pt (j.val + (a.val + 88))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk728_apply (hp : Holds x0 p) (hg : Holds x1 g) (a : Fin 8) (j : Fin 1024) :
    (k0_pay225 (slabRun.sl.r_16 c arg1 harg1 x0) (slabRun.sl.r_23 c arg1 harg1 x0) (slabRun.sl.r_112 c arg2 harg2 x1) (slabRun.sl.r_113 c arg2 harg2 x1)) (ix2 a j)
      = ((sm2 |p (pt (j.val + 640)) 0 - g (pt (j.val + (a.val + 88))) 0| + sm2 |p (pt (j.val + 640)) 1 - g (pt (j.val + (a.val + 88))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk736_apply (hp : Holds x0 p) (hg : Holds x1 g) (a : Fin 8) (j : Fin 1024) :
    (k0_pay226 (slabRun.sl.r_17 c arg1 harg1 x0) (slabRun.sl.r_24 c arg1 harg1 x0) (slabRun.sl.r_112 c arg2 harg2 x1) (slabRun.sl.r_113 c arg2 harg2 x1)) (ix2 a j)
      = ((sm2 |p (pt (j.val + 512)) 0 - g (pt (j.val + (a.val + 88))) 0| + sm2 |p (pt (j.val + 512)) 1 - g (pt (j.val + (a.val + 88))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk744_apply (hp : Holds x0 p) (hg : Holds x1 g) (a : Fin 8) (j : Fin 1024) :
    (k0_pay227 (slabRun.sl.r_18 c arg1 harg1 x0) (slabRun.sl.r_25 c arg1 harg1 x0) (slabRun.sl.r_112 c arg2 harg2 x1) (slabRun.sl.r_113 c arg2 harg2 x1)) (ix2 a j)
      = ((sm2 |p (pt (j.val + 384)) 0 - g (pt (j.val + (a.val + 88))) 0| + sm2 |p (pt (j.val + 384)) 1 - g (pt (j.val + (a.val + 88))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk752_apply (hp : Holds x0 p) (hg : Holds x1 g) (a : Fin 8) (j : Fin 1024) :
    (k0_pay228 (slabRun.sl.r_19 c arg1 harg1 x0) (slabRun.sl.r_26 c arg1 harg1 x0) (slabRun.sl.r_112 c arg2 harg2 x1) (slabRun.sl.r_113 c arg2 harg2 x1)) (ix2 a j)
      = ((sm2 |p (pt (j.val + 256)) 0 - g (pt (j.val + (a.val + 88))) 0| + sm2 |p (pt (j.val + 256)) 1 - g (pt (j.val + (a.val + 88))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk760_apply (hp : Holds x0 p) (hg : Holds x1 g) (a : Fin 8) (j : Fin 1024) :
    (k0_pay233 (slabRun.sl.r_116 c arg1 harg1 arg2 harg2 x0 x1) (slabRun.sl.r_117 c arg1 harg1 arg2 harg2 x0 x1) (slabRun.sl.r_118 c arg1 harg1 arg2 harg2 x0 x1)) (ix2 a j)
      = ((sm2 |p (pt (j.val + 128)) 0 - g (pt (j.val + (a.val + 88))) 0| + sm2 |p (pt (j.val + 128)) 1 - g (pt (j.val + (a.val + 88))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

end Cert.KernelIdeal.Hand

end
-- ==== Proof.KPiece2.lean ====
/-
  The pieces stored into rows 512 to 767 of the table are blocks of the table function
  (idealized kernel): each store's payload, read at its local index, is the table at the index the
  store's rectangle places it.
-/
import proofs.«103642_g13554916786703_cont_week2b_739_36_alg».proof.Proof.KBlk2
import proofs.«103642_g13554916786703_cont_week2b_739_36_alg».proof.Proof.KTableDef

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Lay Cert.Spec

variable {c : Dev nD}
variable {arg1 : Memref sig .tc .vmem S1x2x1024 .f32} {harg1 : arg1.IsWhole} {arg2 : Memref sig .tc .vmem S1x2x1024 .f32} {harg2 : arg2.IsWhole}
variable {x0 x1 : Vec Ideal S1x2x1024 .f32} {p g : Pt → Fin 2 → ℝ}

theorem piece512 (hp : Holds x0 p) (hg : Holds x1 g) (x : (Rect.unit (s := S1024x1024) ![512, 0] S8x1024.size inb_S1024x1024_S8x1024_512_0).shape.Idx) :
    (k0_pay170 (slabRun.sl.r_12 c arg1 harg1 x0) (slabRun.sl.r_13 c arg1 harg1 x0) (slabRun.sl.r_81 c arg2 harg2 x1) (slabRun.sl.r_82 c arg2 harg2 x1)) x = table p g ((Rect.unit (s := S1024x1024) ![512, 0] S8x1024.size inb_S1024x1024_S8x1024_512_0).emb x) := by
  obtain ⟨a, j, rfl⟩ : ∃ (a : Fin 8) (j : Fin 1024), x = ix2 a j := ⟨x 0, x 1, eq_ix2 x⟩
  rw [blk512_apply hp hg a j]
  show _ = ((cellVal p g (512 + 1 * a.val) (0 + 1 * j.val) : ℝ) : EReal)
  have ha := a.isLt
  simp only [cellVal, Nat.one_mul, Nat.zero_add]
  rw [show ((512 + a.val) / 8) % 8 = 0 from by omega, show (512 + a.val) % 8 = a.val from by omega, show (512 + a.val) / 64 = 8 from by omega]
  all_goals simp only [Nat.reduceMul, Nat.reduceSub, pt_add_1024]

theorem piece520 (hp : Holds x0 p) (hg : Holds x1 g) (x : (Rect.unit (s := S1024x1024) ![520, 0] S8x1024.size inb_S1024x1024_S8x1024_520_0).shape.Idx) :
    (k0_pay172 (slabRun.sl.r_21 c arg1 harg1 x0) (slabRun.sl.r_90 c arg2 harg2 x1) (slabRun.sl.r_91 c arg1 harg1 arg2 harg2 x0 x1)) x = table p g ((Rect.unit (s := S1024x1024) ![520, 0] S8x1024.size inb_S1024x1024_S8x1024_520_0).emb x) := by
  obtain ⟨a, j, rfl⟩ : ∃ (a : Fin 8) (j : Fin 1024), x = ix2 a j := ⟨x 0, x 1, eq_ix2 x⟩
  rw [blk520_apply hp hg a j]
  show _ = ((cellVal p g (520 + 1 * a.val) (0 + 1 * j.val) : ℝ) : EReal)
  have ha := a.isLt
  simp only [cellVal, Nat.one_mul, Nat.zero_add]
  rw [show ((520 + a.val) / 8) % 8 = 1 from by omega, show (520 + a.val) % 8 = a.val from by omega, show (520 + a.val) / 64 = 8 from by omega]
  all_goals simp only [Nat.reduceMul, Nat.reduceSub, pt_add_1024]

theorem piece528 (hp : Holds x0 p) (hg : Holds x1 g) (x : (Rect.unit (s := S1024x1024) ![528, 0] S8x1024.size inb_S1024x1024_S8x1024_528_0).shape.Idx) :
    (k0_pay173 (slabRun.sl.r_15 c arg1 harg1 x0) (slabRun.sl.r_22 c arg1 harg1 x0) (slabRun.sl.r_89 c arg2 harg2 x1) (slabRun.sl.r_90 c arg2 harg2 x1)) x = table p g ((Rect.unit (s := S1024x1024) ![528, 0] S8x1024.size inb_S1024x1024_S8x1024_528_0).emb x) := by
  obtain ⟨a, j, rfl⟩ : ∃ (a : Fin 8) (j : Fin 1024), x = ix2 a j := ⟨x 0, x 1, eq_ix2 x⟩
  rw [blk528_apply hp hg a j]
  show _ = ((cellVal p g (528 + 1 * a.val) (0 + 1 * j.val) : ℝ) : EReal)
  have ha := a.isLt
  simp only [cellVal, Nat.one_mul, Nat.zero_add]
  rw [show ((528 + a.val) / 8) % 8 = 2 from by omega, show (528 + a.val) % 8 = a.val from by omega, show (528 + a.val) / 64 = 8 from by omega]
  all_goals simp only [Nat.reduceMul, Nat.reduceSub, pt_add_1024]

theorem piece536 (hp : Holds x0 p) (hg : Holds x1 g) (x : (Rect.unit (s := S1024x1024) ![536, 0] S8x1024.size inb_S1024x1024_S8x1024_536_0).shape.Idx) :
    (k0_pay176 (slabRun.sl.r_92 c arg1 harg1 arg2 harg2 x0 x1) (slabRun.sl.r_93 c arg1 harg1 arg2 harg2 x0 x1)) x = table p g ((Rect.unit (s := S1024x1024) ![536, 0] S8x1024.size inb_S1024x1024_S8x1024_536_0).emb x) := by
  obtain ⟨a, j, rfl⟩ : ∃ (a : Fin 8) (j : Fin 1024), x = ix2 a j := ⟨x 0, x 1, eq_ix2 x⟩
  rw [blk536_apply hp hg a j]
  show _ = ((cellVal p g (536 + 1 * a.val) (0 + 1 * j.val) : ℝ) : EReal)
  have ha := a.isLt
  simp only [cellVal, Nat.one_mul, Nat.zero_add]
  rw [show ((536 + a.val) / 8) % 8 = 3 from by omega, show (536 + a.val) % 8 = a.val from by omega, show (536 + a.val) / 64 = 8 from by omega]
  all_goals simp only [Nat.reduceMul, Nat.reduceSub, pt_add_1024]

theorem piece544 (hp : Holds x0 p) (hg : Holds x1 g) (x : (Rect.unit (s := S1024x1024) ![544, 0] S8x1024.size inb_S1024x1024_S8x1024_544_0).shape.Idx) :
    (k0_pay177 (slabRun.sl.r_17 c arg1 harg1 x0) (slabRun.sl.r_24 c arg1 harg1 x0) (slabRun.sl.r_89 c arg2 harg2 x1) (slabRun.sl.r_90 c arg2 harg2 x1)) x = table p g ((Rect.unit (s := S1024x1024) ![544, 0] S8x1024.size inb_S1024x1024_S8x1024_544_0).emb x) := by
  obtain ⟨a, j, rfl⟩ : ∃ (a : Fin 8) (j : Fin 1024), x = ix2 a j := ⟨x 0, x 1, eq_ix2 x⟩
  rw [blk544_apply hp hg a j]
  show _ = ((cellVal p g (544 + 1 * a.val) (0 + 1 * j.val) : ℝ) : EReal)
  have ha := a.isLt
  simp only [cellVal, Nat.one_mul, Nat.zero_add]
  rw [show ((544 + a.val) / 8) % 8 = 4 from by omega, show (544 + a.val) % 8 = a.val from by omega, show (544 + a.val) / 64 = 8 from by omega]
  all_goals simp only [Nat.reduceMul, Nat.reduceSub, pt_add_1024]

theorem piece552 (hp : Holds x0 p) (hg : Holds x1 g) (x : (Rect.unit (s := S1024x1024) ![552, 0] S8x1024.size inb_S1024x1024_S8x1024_552_0).shape.Idx) :
    (k0_pay178 (slabRun.sl.r_18 c arg1 harg1 x0) (slabRun.sl.r_25 c arg1 harg1 x0) (slabRun.sl.r_89 c arg2 harg2 x1) (slabRun.sl.r_90 c arg2 harg2 x1)) x = table p g ((Rect.unit (s := S1024x1024) ![552, 0] S8x1024.size inb_S1024x1024_S8x1024_552_0).emb x) := by
  obtain ⟨a, j, rfl⟩ : ∃ (a : Fin 8) (j : Fin 1024), x = ix2 a j := ⟨x 0, x 1, eq_ix2 x⟩
  rw [blk552_apply hp hg a j]
  show _ = ((cellVal p g (552 + 1 * a.val) (0 + 1 * j.val) : ℝ) : EReal)
  have ha := a.isLt
  simp only [cellVal, Nat.one_mul, Nat.zero_add]
  rw [show ((552 + a.val) / 8) % 8 = 5 from by omega, show (552 + a.val) % 8 = a.val from by omega, show (552 + a.val) / 64 = 8 from by omega]
  all_goals simp only [Nat.reduceMul, Nat.reduceSub, pt_add_1024]

theorem piece560 (hp : Holds x0 p) (hg : Holds x1 g) (x : (Rect.unit (s := S1024x1024) ![560, 0] S8x1024.size inb_S1024x1024_S8x1024_560_0).shape.Idx) :
    (k0_pay182 (slabRun.sl.r_26 c arg1 harg1 x0) (slabRun.sl.r_90 c arg2 harg2 x1) (slabRun.sl.r_94 c arg1 harg1 arg2 harg2 x0 x1) (slabRun.sl.r_95 c arg1 harg1 arg2 harg2 x0 x1)) x = table p g ((Rect.unit (s := S1024x1024) ![560, 0] S8x1024.size inb_S1024x1024_S8x1024_560_0).emb x) := by
  obtain ⟨a, j, rfl⟩ : ∃ (a : Fin 8) (j : Fin 1024), x = ix2 a j := ⟨x 0, x 1, eq_ix2 x⟩
  rw [blk560_apply hp hg a j]
  show _ = ((cellVal p g (560 + 1 * a.val) (0 + 1 * j.val) : ℝ) : EReal)
  have ha := a.isLt
  simp only [cellVal, Nat.one_mul, Nat.zero_add]
  rw [show ((560 + a.val) / 8) % 8 = 6 from by omega, show (560 + a.val) % 8 = a.val from by omega, show (560 + a.val) / 64 = 8 from by omega]
  all_goals simp only [Nat.reduceMul, Nat.reduceSub, pt_add_1024]

theorem piece568 (hp : Holds x0 p) (hg : Holds x1 g) (x : (Rect.unit (s := S1024x1024) ![568, 0] S8x1024.size inb_S1024x1024_S8x1024_568_0).shape.Idx) :
    (k0_pay183 (slabRun.sl.r_20 c arg1 harg1 x0) (slabRun.sl.r_27 c arg1 harg1 x0) (slabRun.sl.r_89 c arg2 harg2 x1) (slabRun.sl.r_90 c arg2 harg2 x1)) x = table p g ((Rect.unit (s := S1024x1024) ![568, 0] S8x1024.size inb_S1024x1024_S8x1024_568_0).emb x) := by
  obtain ⟨a, j, rfl⟩ : ∃ (a : Fin 8) (j : Fin 1024), x = ix2 a j := ⟨x 0, x 1, eq_ix2 x⟩
  rw [blk568_apply hp hg a j]
  show _ = ((cellVal p g (568 + 1 * a.val) (0 + 1 * j.val) : ℝ) : EReal)
  have ha := a.isLt
  simp only [cellVal, Nat.one_mul, Nat.zero_add]
  rw [show ((568 + a.val) / 8) % 8 = 7 from by omega, show (568 + a.val) % 8 = a.val from by omega, show (568 + a.val) / 64 = 8 from by omega]
  all_goals simp only [Nat.reduceMul, Nat.reduceSub, pt_add_1024]

theorem piece576 (hp : Holds x0 p) (hg : Holds x1 g) (x : (Rect.unit (s := S1024x1024) ![576, 0] S8x1024.size inb_S1024x1024_S8x1024_576_0).shape.Idx) :
    (k0_pay190 (slabRun.sl.r_98 c arg1 harg1 arg2 harg2 x0 x1) (slabRun.sl.r_99 c arg1 harg1 arg2 harg2 x0 x1) (slabRun.sl.r_100 c arg1 harg1 arg2 harg2 x0 x1)) x = table p g ((Rect.unit (s := S1024x1024) ![576, 0] S8x1024.size inb_S1024x1024_S8x1024_576_0).emb x) := by
  obtain ⟨a, j, rfl⟩ : ∃ (a : Fin 8) (j : Fin 1024), x = ix2 a j := ⟨x 0, x 1, eq_ix2 x⟩
  rw [blk576_apply hp hg a j]
  show _ = ((cellVal p g (576 + 1 * a.val) (0 + 1 * j.val) : ℝ) : EReal)
  have ha := a.isLt
  simp only [cellVal, Nat.one_mul, Nat.zero_add]
  rw [show ((576 + a.val) / 8) % 8 = 0 from by omega, show (576 + a.val) % 8 = a.val from by omega, show (576 + a.val) / 64 = 9 from by omega]
  all_goals simp only [Nat.reduceMul, Nat.reduceSub, pt_add_1024]

theorem piece584 (hp : Holds x0 p) (hg : Holds x1 g) (x : (Rect.unit (s := S1024x1024) ![584, 0] S8x1024.size inb_S1024x1024_S8x1024_584_0).shape.Idx) :
    (k0_pay191 (slabRun.sl.r_14 c arg1 harg1 x0) (slabRun.sl.r_21 c arg1 harg1 x0) (slabRun.sl.r_96 c arg2 harg2 x1) (slabRun.sl.r_97 c arg2 harg2 x1)) x = table p g ((Rect.unit (s := S1024x1024) ![584, 0] S8x1024.size inb_S1024x1024_S8x1024_584_0).emb x) := by
  obtain ⟨a, j, rfl⟩ : ∃ (a : Fin 8) (j : Fin 1024), x = ix2 a j := ⟨x 0, x 1, eq_ix2 x⟩
  rw [blk584_apply hp hg a j]
  show _ = ((cellVal p g (584 + 1 * a.val) (0 + 1 * j.val) : ℝ) : EReal)
  have ha := a.isLt
  simp only [cellVal, Nat.one_mul, Nat.zero_add]
  rw [show ((584 + a.val) / 8) % 8 = 1 from by omega, show (584 + a.val) % 8 = a.val from by omega, show (584 + a.val) / 64 = 9 from by omega]
  all_goals simp only [Nat.reduceMul, Nat.reduceSub, pt_add_1024]

theorem piece592 (hp : Holds x0 p) (hg : Holds x1 g) (x : (Rect.unit (s := S1024x1024) ![592, 0] S8x1024.size inb_S1024x1024_S8x1024_592_0).shape.Idx) :
    (k0_pay192 (slabRun.sl.r_15 c arg1 harg1 x0) (slabRun.sl.r_22 c arg1 harg1 x0) (slabRun.sl.r_96 c arg2 harg2 x1) (slabRun.sl.r_97 c arg2 harg2 x1)) x = table p g ((Rect.unit (s := S1024x1024) ![592, 0] S8x1024.size inb_S1024x1024_S8x1024_592_0).emb x) := by
  obtain ⟨a, j, rfl⟩ : ∃ (a : Fin 8) (j : Fin 1024), x = ix2 a j := ⟨x 0, x 1, eq_ix2 x⟩
  rw [blk592_apply hp hg a j]
  show _ = ((cellVal p g (592 + 1 * a.val) (0 + 1 * j.val) : ℝ) : EReal)
  have ha := a.isLt
  simp only [cellVal, Nat.one_mul, Nat.zero_add]
  rw [show ((592 + a.val) / 8) % 8 = 2 from by omega, show (592 + a.val) % 8 = a.val from by omega, show (592 + a.val) / 64 = 9 from by omega]
  all_goals simp only [Nat.reduceMul, Nat.reduceSub, pt_add_1024]

theorem piece600 (hp : Holds x0 p) (hg : Holds x1 g) (x : (Rect.unit (s := S1024x1024) ![600, 0] S8x1024.size inb_S1024x1024_S8x1024_600_0).shape.Idx) :
    (k0_pay196 (slabRun.sl.r_23 c arg1 harg1 x0) (slabRun.sl.r_97 c arg2 harg2 x1) (slabRun.sl.r_101 c arg1 harg1 arg2 harg2 x0 x1) (slabRun.sl.r_102 c arg1 harg1 arg2 harg2 x0 x1)) x = table p g ((Rect.unit (s := S1024x1024) ![600, 0] S8x1024.size inb_S1024x1024_S8x1024_600_0).emb x) := by
  obtain ⟨a, j, rfl⟩ : ∃ (a : Fin 8) (j : Fin 1024), x = ix2 a j := ⟨x 0, x 1, eq_ix2 x⟩
  rw [blk600_apply hp hg a j]
  show _ = ((cellVal p g (600 + 1 * a.val) (0 + 1 * j.val) : ℝ) : EReal)
  have ha := a.isLt
  simp only [cellVal, Nat.one_mul, Nat.zero_add]
  rw [show ((600 + a.val) / 8) % 8 = 3 from by omega, show (600 + a.val) % 8 = a.val from by omega, show (600 + a.val) / 64 = 9 from by omega]
  all_goals simp only [Nat.reduceMul, Nat.reduceSub, pt_add_1024]

theorem piece608 (hp : Holds x0 p) (hg : Holds x1 g) (x : (Rect.unit (s := S1024x1024) ![608, 0] S8x1024.size inb_S1024x1024_S8x1024_608_0).shape.Idx) :
    (k0_pay197 (slabRun.sl.r_17 c arg1 harg1 x0) (slabRun.sl.r_24 c arg1 harg1 x0) (slabRun.sl.r_96 c arg2 harg2 x1) (slabRun.sl.r_97 c arg2 harg2 x1)) x = table p g ((Rect.unit (s := S1024x1024) ![608, 0] S8x1024.size inb_S1024x1024_S8x1024_608_0).emb x) := by
  obtain ⟨a, j, rfl⟩ : ∃ (a : Fin 8) (j : Fin 1024), x = ix2 a j := ⟨x 0, x 1, eq_ix2 x⟩
  rw [blk608_apply hp hg a j]
  show _ = ((cellVal p g (608 + 1 * a.val) (0 + 1 * j.val) : ℝ) : EReal)
  have ha := a.isLt
  simp only [cellVal, Nat.one_mul, Nat.zero_add]
  rw [show ((608 + a.val) / 8) % 8 = 4 from by omega, show (608 + a.val) % 8 = a.val from by omega, show (608 + a.val) / 64 = 9 from by omega]
  all_goals simp only [Nat.reduceMul, Nat.reduceSub, pt_add_1024]

theorem piece616 (hp : Holds x0 p) (hg : Holds x1 g) (x : (Rect.unit (s := S1024x1024) ![616, 0] S8x1024.size inb_S1024x1024_S8x1024_616_0).shape.Idx) :
    (k0_pay199 (slabRun.sl.r_103 c arg1 harg1 arg2 harg2 x0 x1)) x = table p g ((Rect.unit (s := S1024x1024) ![616, 0] S8x1024.size inb_S1024x1024_S8x1024_616_0).emb x) := by
  obtain ⟨a, j, rfl⟩ : ∃ (a : Fin 8) (j : Fin 1024), x = ix2 a j := ⟨x 0, x 1, eq_ix2 x⟩
  rw [blk616_apply hp hg a j]
  show _ = ((cellVal p g (616 + 1 * a.val) (0 + 1 * j.val) : ℝ) : EReal)
  have ha := a.isLt
  simp only [cellVal, Nat.one_mul, Nat.zero_add]
  rw [show ((616 + a.val) / 8) % 8 = 5 from by omega, show (616 + a.val) % 8 = a.val from by omega, show (616 + a.val) / 64 = 9 from by omega]
  all_goals simp only [Nat.reduceMul, Nat.reduceSub, pt_add_1024]

theorem piece624 (hp : Holds x0 p) (hg : Holds x1 g) (x : (Rect.unit (s := S1024x1024) ![624, 0] S8x1024.size inb_S1024x1024_S8x1024_624_0).shape.Idx) :
    (k0_pay200 (slabRun.sl.r_19 c arg1 harg1 x0) (slabRun.sl.r_26 c arg1 harg1 x0) (slabRun.sl.r_96 c arg2 harg2 x1) (slabRun.sl.r_97 c arg2 harg2 x1)) x = table p g ((Rect.unit (s := S1024x1024) ![624, 0] S8x1024.size inb_S1024x1024_S8x1024_624_0).emb x) := by
  obtain ⟨a, j, rfl⟩ : ∃ (a : Fin 8) (j : Fin 1024), x = ix2 a j := ⟨x 0, x 1, eq_ix2 x⟩
  rw [blk624_apply hp hg a j]
  show _ = ((cellVal p g (624 + 1 * a.val) (0 + 1 * j.val) : ℝ) : EReal)
  have ha := a.isLt
  simp only [cellVal, Nat.one_mul, Nat.zero_add]
  rw [show ((624 + a.val) / 8) % 8 = 6 from by omega, show (624 + a.val) % 8 = a.val from by omega, show (624 + a.val) / 64 = 9 from by omega]
  all_goals simp only [Nat.reduceMul, Nat.reduceSub, pt_add_1024]

theorem piece632 (hp : Holds x0 p) (hg : Holds x1 g) (x : (Rect.unit (s := S1024x1024) ![632, 0] S8x1024.size inb_S1024x1024_S8x1024_632_0).shape.Idx) :
    (k0_pay201 (slabRun.sl.r_20 c arg1 harg1 x0) (slabRun.sl.r_27 c arg1 harg1 x0) (slabRun.sl.r_96 c arg2 harg2 x1) (slabRun.sl.r_97 c arg2 harg2 x1)) x = table p g ((Rect.unit (s := S1024x1024) ![632, 0] S8x1024.size inb_S1024x1024_S8x1024_632_0).emb x) := by
  obtain ⟨a, j, rfl⟩ : ∃ (a : Fin 8) (j : Fin 1024), x = ix2 a j := ⟨x 0, x 1, eq_ix2 x⟩
  rw [blk632_apply hp hg a j]
  show _ = ((cellVal p g (632 + 1 * a.val) (0 + 1 * j.val) : ℝ) : EReal)
  have ha := a.isLt
  simp only [cellVal, Nat.one_mul, Nat.zero_add]
  rw [show ((632 + a.val) / 8) % 8 = 7 from by omega, show (632 + a.val) % 8 = a.val from by omega, show (632 + a.val) / 64 = 9 from by omega]
  all_goals simp only [Nat.reduceMul, Nat.reduceSub, pt_add_1024]

theorem piece640 (hp : Holds x0 p) (hg : Holds x1 g) (x : (Rect.unit (s := S1024x1024) ![640, 0] S8x1024.size inb_S1024x1024_S8x1024_640_0).shape.Idx) :
    (k0_pay206 (slabRun.sl.r_13 c arg1 harg1 x0) (slabRun.sl.r_105 c arg2 harg2 x1) (slabRun.sl.r_106 c arg1 harg1 arg2 harg2 x0 x1) (slabRun.sl.r_107 c arg1 harg1 arg2 harg2 x0 x1)) x = table p g ((Rect.unit (s := S1024x1024) ![640, 0] S8x1024.size inb_S1024x1024_S8x1024_640_0).emb x) := by
  obtain ⟨a, j, rfl⟩ : ∃ (a : Fin 8) (j : Fin 1024), x = ix2 a j := ⟨x 0, x 1, eq_ix2 x⟩
  rw [blk640_apply hp hg a j]
  show _ = ((cellVal p g (640 + 1 * a.val) (0 + 1 * j.val) : ℝ) : EReal)
  have ha := a.isLt
  simp only [cellVal, Nat.one_mul, Nat.zero_add]
  rw [show ((640 + a.val) / 8) % 8 = 0 from by omega, show (640 + a.val) % 8 = a.val from by omega, show (640 + a.val) / 64 = 10 from by omega]
  all_goals simp only [Nat.reduceMul, Nat.reduceSub, pt_add_1024]

theorem piece648 (hp : Holds x0 p) (hg : Holds x1 g) (x : (Rect.unit (s := S1024x1024) ![648, 0] S8x1024.size inb_S1024x1024_S8x1024_648_0).shape.Idx) :
    (k0_pay207 (slabRun.sl.r_14 c arg1 harg1 x0) (slabRun.sl.r_21 c arg1 harg1 x0) (slabRun.sl.r_104 c arg2 harg2 x1) (slabRun.sl.r_105 c arg2 harg2 x1)) x = table p g ((Rect.unit (s := S1024x1024) ![648, 0] S8x1024.size inb_S1024x1024_S8x1024_648_0).emb x) := by
  obtain ⟨a, j, rfl⟩ : ∃ (a : Fin 8) (j : Fin 1024), x = ix2 a j := ⟨x 0, x 1, eq_ix2 x⟩
  rw [blk648_apply hp hg a j]
  show _ = ((cellVal p g (648 + 1 * a.val) (0 + 1 * j.val) : ℝ) : EReal)
  have ha := a.isLt
  simp only [cellVal, Nat.one_mul, Nat.zero_add]
  rw [show ((648 + a.val) / 8) % 8 = 1 from by omega, show (648 + a.val) % 8 = a.val from by omega, show (648 + a.val) / 64 = 10 from by omega]
  all_goals simp only [Nat.reduceMul, Nat.reduceSub, pt_add_1024]

theorem piece656 (hp : Holds x0 p) (hg : Holds x1 g) (x : (Rect.unit (s := S1024x1024) ![656, 0] S8x1024.size inb_S1024x1024_S8x1024_656_0).shape.Idx) :
    (k0_pay209 (slabRun.sl.r_108 c arg1 harg1 arg2 harg2 x0 x1)) x = table p g ((Rect.unit (s := S1024x1024) ![656, 0] S8x1024.size inb_S1024x1024_S8x1024_656_0).emb x) := by
  obtain ⟨a, j, rfl⟩ : ∃ (a : Fin 8) (j : Fin 1024), x = ix2 a j := ⟨x 0, x 1, eq_ix2 x⟩
  rw [blk656_apply hp hg a j]
  show _ = ((cellVal p g (656 + 1 * a.val) (0 + 1 * j.val) : ℝ) : EReal)
  have ha := a.isLt
  simp only [cellVal, Nat.one_mul, Nat.zero_add]
  rw [show ((656 + a.val) / 8) % 8 = 2 from by omega, show (656 + a.val) % 8 = a.val from by omega, show (656 + a.val) / 64 = 10 from by omega]
  all_goals simp only [Nat.reduceMul, Nat.reduceSub, pt_add_1024]

theorem piece664 (hp : Holds x0 p) (hg : Holds x1 g) (x : (Rect.unit (s := S1024x1024) ![664, 0] S8x1024.size inb_S1024x1024_S8x1024_664_0).shape.Idx) :
    (k0_pay210 (slabRun.sl.r_16 c arg1 harg1 x0) (slabRun.sl.r_23 c arg1 harg1 x0) (slabRun.sl.r_104 c arg2 harg2 x1) (slabRun.sl.r_105 c arg2 harg2 x1)) x = table p g ((Rect.unit (s := S1024x1024) ![664, 0] S8x1024.size inb_S1024x1024_S8x1024_664_0).emb x) := by
  obtain ⟨a, j, rfl⟩ : ∃ (a : Fin 8) (j : Fin 1024), x = ix2 a j := ⟨x 0, x 1, eq_ix2 x⟩
  rw [blk664_apply hp hg a j]
  show _ = ((cellVal p g (664 + 1 * a.val) (0 + 1 * j.val) : ℝ) : EReal)
  have ha := a.isLt
  simp only [cellVal, Nat.one_mul, Nat.zero_add]
  rw [show ((664 + a.val) / 8) % 8 = 3 from by omega, show (664 + a.val) % 8 = a.val from by omega, show (664 + a.val) / 64 = 10 from by omega]
  all_goals simp only [Nat.reduceMul, Nat.reduceSub, pt_add_1024]

theorem piece672 (hp : Holds x0 p) (hg : Holds x1 g) (x : (Rect.unit (s := S1024x1024) ![672, 0] S8x1024.size inb_S1024x1024_S8x1024_672_0).shape.Idx) :
    (k0_pay211 (slabRun.sl.r_17 c arg1 harg1 x0) (slabRun.sl.r_24 c arg1 harg1 x0) (slabRun.sl.r_104 c arg2 harg2 x1) (slabRun.sl.r_105 c arg2 harg2 x1)) x = table p g ((Rect.unit (s := S1024x1024) ![672, 0] S8x1024.size inb_S1024x1024_S8x1024_672_0).emb x) := by
  obtain ⟨a, j, rfl⟩ : ∃ (a : Fin 8) (j : Fin 1024), x = ix2 a j := ⟨x 0, x 1, eq_ix2 x⟩
  rw [blk672_apply hp hg a j]
  show _ = ((cellVal p g (672 + 1 * a.val) (0 + 1 * j.val) : ℝ) : EReal)
  have ha := a.isLt
  simp only [cellVal, Nat.one_mul, Nat.zero_add]
  rw [show ((672 + a.val) / 8) % 8 = 4 from by omega, show (672 + a.val) % 8 = a.val from by omega, show (672 + a.val) / 64 = 10 from by omega]
  all_goals simp only [Nat.reduceMul, Nat.reduceSub, pt_add_1024]

theorem piece680 (hp : Holds x0 p) (hg : Holds x1 g) (x : (Rect.unit (s := S1024x1024) ![680, 0] S8x1024.size inb_S1024x1024_S8x1024_680_0).shape.Idx) :
    (k0_pay214 (slabRun.sl.r_109 c arg1 harg1 arg2 harg2 x0 x1) (slabRun.sl.r_110 c arg1 harg1 arg2 harg2 x0 x1)) x = table p g ((Rect.unit (s := S1024x1024) ![680, 0] S8x1024.size inb_S1024x1024_S8x1024_680_0).emb x) := by
  obtain ⟨a, j, rfl⟩ : ∃ (a : Fin 8) (j : Fin 1024), x = ix2 a j := ⟨x 0, x 1, eq_ix2 x⟩
  rw [blk680_apply hp hg a j]
  show _ = ((cellVal p g (680 + 1 * a.val) (0 + 1 * j.val) : ℝ) : EReal)
  have ha := a.isLt
  simp only [cellVal, Nat.one_mul, Nat.zero_add]
  rw [show ((680 + a.val) / 8) % 8 = 5 from by omega, show (680 + a.val) % 8 = a.val from by omega, show (680 + a.val) / 64 = 10 from by omega]
  all_goals simp only [Nat.reduceMul, Nat.reduceSub, pt_add_1024]

theorem piece688 (hp : Holds x0 p) (hg : Holds x1 g) (x : (Rect.unit (s := S1024x1024) ![688, 0] S8x1024.size inb_S1024x1024_S8x1024_688_0).shape.Idx) :
    (k0_pay215 (slabRun.sl.r_19 c arg1 harg1 x0) (slabRun.sl.r_26 c arg1 harg1 x0) (slabRun.sl.r_104 c arg2 harg2 x1) (slabRun.sl.r_105 c arg2 harg2 x1)) x = table p g ((Rect.unit (s := S1024x1024) ![688, 0] S8x1024.size inb_S1024x1024_S8x1024_688_0).emb x) := by
  obtain ⟨a, j, rfl⟩ : ∃ (a : Fin 8) (j : Fin 1024), x = ix2 a j := ⟨x 0, x 1, eq_ix2 x⟩
  rw [blk688_apply hp hg a j]
  show _ = ((cellVal p g (688 + 1 * a.val) (0 + 1 * j.val) : ℝ) : EReal)
  have ha := a.isLt
  simp only [cellVal, Nat.one_mul, Nat.zero_add]
  rw [show ((688 + a.val) / 8) % 8 = 6 from by omega, show (688 + a.val) % 8 = a.val from by omega, show (688 + a.val) / 64 = 10 from by omega]
  all_goals simp only [Nat.reduceMul, Nat.reduceSub, pt_add_1024]

theorem piece696 (hp : Holds x0 p) (hg : Holds x1 g) (x : (Rect.unit (s := S1024x1024) ![696, 0] S8x1024.size inb_S1024x1024_S8x1024_696_0).shape.Idx) :
    (k0_pay216 (slabRun.sl.r_20 c arg1 harg1 x0) (slabRun.sl.r_27 c arg1 harg1 x0) (slabRun.sl.r_104 c arg2 harg2 x1) (slabRun.sl.r_105 c arg2 harg2 x1)) x = table p g ((Rect.unit (s := S1024x1024) ![696, 0] S8x1024.size inb_S1024x1024_S8x1024_696_0).emb x) := by
  obtain ⟨a, j, rfl⟩ : ∃ (a : Fin 8) (j : Fin 1024), x = ix2 a j := ⟨x 0, x 1, eq_ix2 x⟩
  rw [blk696_apply hp hg a j]
  show _ = ((cellVal p g (696 + 1 * a.val) (0 + 1 * j.val) : ℝ) : EReal)
  have ha := a.isLt
  simp only [cellVal, Nat.one_mul, Nat.zero_add]
  rw [show ((696 + a.val) / 8) % 8 = 7 from by omega, show (696 + a.val) % 8 = a.val from by omega, show (696 + a.val) / 64 = 10 from by omega]
  all_goals simp only [Nat.reduceMul, Nat.reduceSub, pt_add_1024]

theorem piece704 (hp : Holds x0 p) (hg : Holds x1 g) (x : (Rect.unit (s := S1024x1024) ![704, 0] S8x1024.size inb_S1024x1024_S8x1024_704_0).shape.Idx) :
    (k0_pay220 (slabRun.sl.r_12 c arg1 harg1 x0) (slabRun.sl.r_13 c arg1 harg1 x0) (slabRun.sl.r_104 c arg2 harg2 x1) (slabRun.sl.r_105 c arg2 harg2 x1) (slabRun.sl.r_111 c arg2 harg2 x1)) x = table p g ((Rect.unit (s := S1024x1024) ![704, 0] S8x1024.size inb_S1024x1024_S8x1024_704_0).emb x) := by
  obtain ⟨a, j, rfl⟩ : ∃ (a : Fin 8) (j : Fin 1024), x = ix2 a j := ⟨x 0, x 1, eq_ix2 x⟩
  rw [blk704_apply hp hg a j]
  show _ = ((cellVal p g (704 + 1 * a.val) (0 + 1 * j.val) : ℝ) : EReal)
  have ha := a.isLt
  simp only [cellVal, Nat.one_mul, Nat.zero_add]
  rw [show ((704 + a.val) / 8) % 8 = 0 from by omega, show (704 + a.val) % 8 = a.val from by omega, show (704 + a.val) / 64 = 11 from by omega]
  all_goals simp only [Nat.reduceMul, Nat.reduceSub, pt_add_1024]

theorem piece712 (hp : Holds x0 p) (hg : Holds x1 g) (x : (Rect.unit (s := S1024x1024) ![712, 0] S8x1024.size inb_S1024x1024_S8x1024_712_0).shape.Idx) :
    (k0_pay221 (slabRun.sl.r_14 c arg1 harg1 x0) (slabRun.sl.r_21 c arg1 harg1 x0) (slabRun.sl.r_104 c arg2 harg2 x1) (slabRun.sl.r_105 c arg2 harg2 x1) (slabRun.sl.r_111 c arg2 harg2 x1)) x = table p g ((Rect.unit (s := S1024x1024) ![712, 0] S8x1024.size inb_S1024x1024_S8x1024_712_0).emb x) := by
  obtain ⟨a, j, rfl⟩ : ∃ (a : Fin 8) (j : Fin 1024), x = ix2 a j := ⟨x 0, x 1, eq_ix2 x⟩
  rw [blk712_apply hp hg a j]
  show _ = ((cellVal p g (712 + 1 * a.val) (0 + 1 * j.val) : ℝ) : EReal)
  have ha := a.isLt
  simp only [cellVal, Nat.one_mul, Nat.zero_add]
  rw [show ((712 + a.val) / 8) % 8 = 1 from by omega, show (712 + a.val) % 8 = a.val from by omega, show (712 + a.val) / 64 = 11 from by omega]
  all_goals simp only [Nat.reduceMul, Nat.reduceSub, pt_add_1024]

theorem piece720 (hp : Holds x0 p) (hg : Holds x1 g) (x : (Rect.unit (s := S1024x1024) ![720, 0] S8x1024.size inb_S1024x1024_S8x1024_720_0).shape.Idx) :
    (k0_pay224 (slabRun.sl.r_114 c arg1 harg1 arg2 harg2 x0 x1) (slabRun.sl.r_115 c arg1 harg1 arg2 harg2 x0 x1)) x = table p g ((Rect.unit (s := S1024x1024) ![720, 0] S8x1024.size inb_S1024x1024_S8x1024_720_0).emb x) := by
  obtain ⟨a, j, rfl⟩ : ∃ (a : Fin 8) (j : Fin 1024), x = ix2 a j := ⟨x 0, x 1, eq_ix2 x⟩
  rw [blk720_apply hp hg a j]
  show _ = ((cellVal p g (720 + 1 * a.val) (0 + 1 * j.val) : ℝ) : EReal)
  have ha := a.isLt
  simp only [cellVal, Nat.one_mul, Nat.zero_add]
  rw [show ((720 + a.val) / 8) % 8 = 2 from by omega, show (720 + a.val) % 8 = a.val from by omega, show (720 + a.val) / 64 = 11 from by omega]
  all_goals simp only [Nat.reduceMul, Nat.reduceSub, pt_add_1024]

theorem piece728 (hp : Holds x0 p) (hg : Holds x1 g) (x : (Rect.unit (s := S1024x1024) ![728, 0] S8x1024.size inb_S1024x1024_S8x1024_728_0).shape.Idx) :
    (k0_pay225 (slabRun.sl.r_16 c arg1 harg1 x0) (slabRun.sl.r_23 c arg1 harg1 x0) (slabRun.sl.r_112 c arg2 harg2 x1) (slabRun.sl.r_113 c arg2 harg2 x1)) x = table p g ((Rect.unit (s := S1024x1024) ![728, 0] S8x1024.size inb_S1024x1024_S8x1024_728_0).emb x) := by
  obtain ⟨a, j, rfl⟩ : ∃ (a : Fin 8) (j : Fin 1024), x = ix2 a j := ⟨x 0, x 1, eq_ix2 x⟩
  rw [blk728_apply hp hg a j]
  show _ = ((cellVal p g (728 + 1 * a.val) (0 + 1 * j.val) : ℝ) : EReal)
  have ha := a.isLt
  simp only [cellVal, Nat.one_mul, Nat.zero_add]
  rw [show ((728 + a.val) / 8) % 8 = 3 from by omega, show (728 + a.val) % 8 = a.val from by omega, show (728 + a.val) / 64 = 11 from by omega]
  all_goals simp only [Nat.reduceMul, Nat.reduceSub, pt_add_1024]

theorem piece736 (hp : Holds x0 p) (hg : Holds x1 g) (x : (Rect.unit (s := S1024x1024) ![736, 0] S8x1024.size inb_S1024x1024_S8x1024_736_0).shape.Idx) :
    (k0_pay226 (slabRun.sl.r_17 c arg1 harg1 x0) (slabRun.sl.r_24 c arg1 harg1 x0) (slabRun.sl.r_112 c arg2 harg2 x1) (slabRun.sl.r_113 c arg2 harg2 x1)) x = table p g ((Rect.unit (s := S1024x1024) ![736, 0] S8x1024.size inb_S1024x1024_S8x1024_736_0).emb x) := by
  obtain ⟨a, j, rfl⟩ : ∃ (a : Fin 8) (j : Fin 1024), x = ix2 a j := ⟨x 0, x 1, eq_ix2 x⟩
  rw [blk736_apply hp hg a j]
  show _ = ((cellVal p g (736 + 1 * a.val) (0 + 1 * j.val) : ℝ) : EReal)
  have ha := a.isLt
  simp only [cellVal, Nat.one_mul, Nat.zero_add]
  rw [show ((736 + a.val) / 8) % 8 = 4 from by omega, show (736 + a.val) % 8 = a.val from by omega, show (736 + a.val) / 64 = 11 from by omega]
  all_goals simp only [Nat.reduceMul, Nat.reduceSub, pt_add_1024]

theorem piece744 (hp : Holds x0 p) (hg : Holds x1 g) (x : (Rect.unit (s := S1024x1024) ![744, 0] S8x1024.size inb_S1024x1024_S8x1024_744_0).shape.Idx) :
    (k0_pay227 (slabRun.sl.r_18 c arg1 harg1 x0) (slabRun.sl.r_25 c arg1 harg1 x0) (slabRun.sl.r_112 c arg2 harg2 x1) (slabRun.sl.r_113 c arg2 harg2 x1)) x = table p g ((Rect.unit (s := S1024x1024) ![744, 0] S8x1024.size inb_S1024x1024_S8x1024_744_0).emb x) := by
  obtain ⟨a, j, rfl⟩ : ∃ (a : Fin 8) (j : Fin 1024), x = ix2 a j := ⟨x 0, x 1, eq_ix2 x⟩
  rw [blk744_apply hp hg a j]
  show _ = ((cellVal p g (744 + 1 * a.val) (0 + 1 * j.val) : ℝ) : EReal)
  have ha := a.isLt
  simp only [cellVal, Nat.one_mul, Nat.zero_add]
  rw [show ((744 + a.val) / 8) % 8 = 5 from by omega, show (744 + a.val) % 8 = a.val from by omega, show (744 + a.val) / 64 = 11 from by omega]
  all_goals simp only [Nat.reduceMul, Nat.reduceSub, pt_add_1024]

theorem piece752 (hp : Holds x0 p) (hg : Holds x1 g) (x : (Rect.unit (s := S1024x1024) ![752, 0] S8x1024.size inb_S1024x1024_S8x1024_752_0).shape.Idx) :
    (k0_pay228 (slabRun.sl.r_19 c arg1 harg1 x0) (slabRun.sl.r_26 c arg1 harg1 x0) (slabRun.sl.r_112 c arg2 harg2 x1) (slabRun.sl.r_113 c arg2 harg2 x1)) x = table p g ((Rect.unit (s := S1024x1024) ![752, 0] S8x1024.size inb_S1024x1024_S8x1024_752_0).emb x) := by
  obtain ⟨a, j, rfl⟩ : ∃ (a : Fin 8) (j : Fin 1024), x = ix2 a j := ⟨x 0, x 1, eq_ix2 x⟩
  rw [blk752_apply hp hg a j]
  show _ = ((cellVal p g (752 + 1 * a.val) (0 + 1 * j.val) : ℝ) : EReal)
  have ha := a.isLt
  simp only [cellVal, Nat.one_mul, Nat.zero_add]
  rw [show ((752 + a.val) / 8) % 8 = 6 from by omega, show (752 + a.val) % 8 = a.val from by omega, show (752 + a.val) / 64 = 11 from by omega]
  all_goals simp only [Nat.reduceMul, Nat.reduceSub, pt_add_1024]

theorem piece760 (hp : Holds x0 p) (hg : Holds x1 g) (x : (Rect.unit (s := S1024x1024) ![760, 0] S8x1024.size inb_S1024x1024_S8x1024_760_0).shape.Idx) :
    (k0_pay233 (slabRun.sl.r_116 c arg1 harg1 arg2 harg2 x0 x1) (slabRun.sl.r_117 c arg1 harg1 arg2 harg2 x0 x1) (slabRun.sl.r_118 c arg1 harg1 arg2 harg2 x0 x1)) x = table p g ((Rect.unit (s := S1024x1024) ![760, 0] S8x1024.size inb_S1024x1024_S8x1024_760_0).emb x) := by
  obtain ⟨a, j, rfl⟩ : ∃ (a : Fin 8) (j : Fin 1024), x = ix2 a j := ⟨x 0, x 1, eq_ix2 x⟩
  rw [blk760_apply hp hg a j]
  show _ = ((cellVal p g (760 + 1 * a.val) (0 + 1 * j.val) : ℝ) : EReal)
  have ha := a.isLt
  simp only [cellVal, Nat.one_mul, Nat.zero_add]
  rw [show ((760 + a.val) / 8) % 8 = 7 from by omega, show (760 + a.val) % 8 = a.val from by omega, show (760 + a.val) / 64 = 11 from by omega]
  all_goals simp only [Nat.reduceMul, Nat.reduceSub, pt_add_1024]

end Cert.KernelIdeal.Hand

end
-- ==== Proof.KBlk3.lean ====
/-
  The table's rows 768 to 1023, block by block (idealized kernel).

  Each store writes eight rows of the table: row a of the block at row R holds, at column j, the
  kernel's smooth-L1 of the two coordinates of the prediction's point j rotated back by 128 o
  against the ground truth's point j + a + 8 u, where R = 64 u + 8 o. Every block's payload is
  the same arithmetic over a different pair of the arrays read before; reading it at (a, j)
  gives that value on the sample's reals.
-/
import proofs.«103642_g13554916786703_cont_week2b_739_36_alg».proof.Proof.KBase
import proofs.«103642_g13554916786703_cont_week2b_739_36_alg».proof.Proof.KCoe

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Lay Cert.Spec

variable {c : Dev nD}
variable {arg1 : Memref sig .tc .vmem S1x2x1024 .f32} {harg1 : arg1.IsWhole} {arg2 : Memref sig .tc .vmem S1x2x1024 .f32} {harg2 : arg2.IsWhole}
variable {x0 x1 : Vec Ideal S1x2x1024 .f32} {p g : Pt → Fin 2 → ℝ}

theorem blk768_apply (hp : Holds x0 p) (hg : Holds x1 g) (a : Fin 8) (j : Fin 1024) :
    (k0_pay237 (slabRun.sl.r_12 c arg1 harg1 x0) (slabRun.sl.r_13 c arg1 harg1 x0) (slabRun.sl.r_112 c arg2 harg2 x1) (slabRun.sl.r_113 c arg2 harg2 x1)) (ix2 a j)
      = ((sm2 |p j 0 - g (pt (j.val + (a.val + 96))) 0| + sm2 |p j 1 - g (pt (j.val + (a.val + 96))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk776_apply (hp : Holds x0 p) (hg : Holds x1 g) (a : Fin 8) (j : Fin 1024) :
    (k0_pay240 (slabRun.sl.r_122 c arg1 harg1 arg2 harg2 x0 x1) (slabRun.sl.r_123 c arg1 harg1 arg2 harg2 x0 x1) slabRun.sl.cst_42) (ix2 a j)
      = ((sm2 |p (pt (j.val + 896)) 0 - g (pt (j.val + (a.val + 96))) 0| + sm2 |p (pt (j.val + 896)) 1 - g (pt (j.val + (a.val + 96))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk784_apply (hp : Holds x0 p) (hg : Holds x1 g) (a : Fin 8) (j : Fin 1024) :
    (k0_pay241 (slabRun.sl.r_15 c arg1 harg1 x0) (slabRun.sl.r_22 c arg1 harg1 x0) (slabRun.sl.r_120 c arg2 harg2 x1) (slabRun.sl.r_121 c arg2 harg2 x1)) (ix2 a j)
      = ((sm2 |p (pt (j.val + 768)) 0 - g (pt (j.val + (a.val + 96))) 0| + sm2 |p (pt (j.val + 768)) 1 - g (pt (j.val + (a.val + 96))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk792_apply (hp : Holds x0 p) (hg : Holds x1 g) (a : Fin 8) (j : Fin 1024) :
    (k0_pay242 (slabRun.sl.r_16 c arg1 harg1 x0) (slabRun.sl.r_23 c arg1 harg1 x0) (slabRun.sl.r_120 c arg2 harg2 x1) (slabRun.sl.r_121 c arg2 harg2 x1)) (ix2 a j)
      = ((sm2 |p (pt (j.val + 640)) 0 - g (pt (j.val + (a.val + 96))) 0| + sm2 |p (pt (j.val + 640)) 1 - g (pt (j.val + (a.val + 96))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk800_apply (hp : Holds x0 p) (hg : Holds x1 g) (a : Fin 8) (j : Fin 1024) :
    (k0_pay244 (slabRun.sl.r_24 c arg1 harg1 x0) (slabRun.sl.r_121 c arg2 harg2 x1) (slabRun.sl.r_124 c arg1 harg1 arg2 harg2 x0 x1)) (ix2 a j)
      = ((sm2 |p (pt (j.val + 512)) 0 - g (pt (j.val + (a.val + 96))) 0| + sm2 |p (pt (j.val + 512)) 1 - g (pt (j.val + (a.val + 96))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk808_apply (hp : Holds x0 p) (hg : Holds x1 g) (a : Fin 8) (j : Fin 1024) :
    (k0_pay245 (slabRun.sl.r_18 c arg1 harg1 x0) (slabRun.sl.r_25 c arg1 harg1 x0) (slabRun.sl.r_120 c arg2 harg2 x1) (slabRun.sl.r_121 c arg2 harg2 x1)) (ix2 a j)
      = ((sm2 |p (pt (j.val + 384)) 0 - g (pt (j.val + (a.val + 96))) 0| + sm2 |p (pt (j.val + 384)) 1 - g (pt (j.val + (a.val + 96))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk816_apply (hp : Holds x0 p) (hg : Holds x1 g) (a : Fin 8) (j : Fin 1024) :
    (k0_pay248 (slabRun.sl.r_125 c arg1 harg1 arg2 harg2 x0 x1) (slabRun.sl.r_126 c arg1 harg1 arg2 harg2 x0 x1)) (ix2 a j)
      = ((sm2 |p (pt (j.val + 256)) 0 - g (pt (j.val + (a.val + 96))) 0| + sm2 |p (pt (j.val + 256)) 1 - g (pt (j.val + (a.val + 96))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk824_apply (hp : Holds x0 p) (hg : Holds x1 g) (a : Fin 8) (j : Fin 1024) :
    (k0_pay249 (slabRun.sl.r_20 c arg1 harg1 x0) (slabRun.sl.r_27 c arg1 harg1 x0) (slabRun.sl.r_120 c arg2 harg2 x1) (slabRun.sl.r_121 c arg2 harg2 x1)) (ix2 a j)
      = ((sm2 |p (pt (j.val + 128)) 0 - g (pt (j.val + (a.val + 96))) 0| + sm2 |p (pt (j.val + 128)) 1 - g (pt (j.val + (a.val + 96))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk832_apply (hp : Holds x0 p) (hg : Holds x1 g) (a : Fin 8) (j : Fin 1024) :
    (k0_pay252 (slabRun.sl.r_12 c arg1 harg1 x0) (slabRun.sl.r_13 c arg1 harg1 x0) (slabRun.sl.r_120 c arg2 harg2 x1) (slabRun.sl.r_121 c arg2 harg2 x1)) (ix2 a j)
      = ((sm2 |p j 0 - g (pt (j.val + (a.val + 104))) 0| + sm2 |p j 1 - g (pt (j.val + (a.val + 104))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk840_apply (hp : Holds x0 p) (hg : Holds x1 g) (a : Fin 8) (j : Fin 1024) :
    (k0_pay254 (slabRun.sl.r_21 c arg1 harg1 x0) (slabRun.sl.r_128 c arg2 harg2 x1) (slabRun.sl.r_129 c arg1 harg1 arg2 harg2 x0 x1)) (ix2 a j)
      = ((sm2 |p (pt (j.val + 896)) 0 - g (pt (j.val + (a.val + 104))) 0| + sm2 |p (pt (j.val + 896)) 1 - g (pt (j.val + (a.val + 104))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk848_apply (hp : Holds x0 p) (hg : Holds x1 g) (a : Fin 8) (j : Fin 1024) :
    (k0_pay255 (slabRun.sl.r_15 c arg1 harg1 x0) (slabRun.sl.r_22 c arg1 harg1 x0) (slabRun.sl.r_127 c arg2 harg2 x1) (slabRun.sl.r_128 c arg2 harg2 x1)) (ix2 a j)
      = ((sm2 |p (pt (j.val + 768)) 0 - g (pt (j.val + (a.val + 104))) 0| + sm2 |p (pt (j.val + 768)) 1 - g (pt (j.val + (a.val + 104))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk856_apply (hp : Holds x0 p) (hg : Holds x1 g) (a : Fin 8) (j : Fin 1024) :
    (k0_pay260 (slabRun.sl.r_130 c arg1 harg1 arg2 harg2 x0 x1) (slabRun.sl.r_131 c arg1 harg1 arg2 harg2 x0 x1) (slabRun.sl.r_132 c arg1 harg1 arg2 harg2 x0 x1)) (ix2 a j)
      = ((sm2 |p (pt (j.val + 640)) 0 - g (pt (j.val + (a.val + 104))) 0| + sm2 |p (pt (j.val + 640)) 1 - g (pt (j.val + (a.val + 104))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk864_apply (hp : Holds x0 p) (hg : Holds x1 g) (a : Fin 8) (j : Fin 1024) :
    (k0_pay261 (slabRun.sl.r_17 c arg1 harg1 x0) (slabRun.sl.r_24 c arg1 harg1 x0) (slabRun.sl.r_127 c arg2 harg2 x1) (slabRun.sl.r_128 c arg2 harg2 x1)) (ix2 a j)
      = ((sm2 |p (pt (j.val + 512)) 0 - g (pt (j.val + (a.val + 104))) 0| + sm2 |p (pt (j.val + 512)) 1 - g (pt (j.val + (a.val + 104))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk872_apply (hp : Holds x0 p) (hg : Holds x1 g) (a : Fin 8) (j : Fin 1024) :
    (k0_pay262 (slabRun.sl.r_18 c arg1 harg1 x0) (slabRun.sl.r_25 c arg1 harg1 x0) (slabRun.sl.r_127 c arg2 harg2 x1) (slabRun.sl.r_128 c arg2 harg2 x1)) (ix2 a j)
      = ((sm2 |p (pt (j.val + 384)) 0 - g (pt (j.val + (a.val + 104))) 0| + sm2 |p (pt (j.val + 384)) 1 - g (pt (j.val + (a.val + 104))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk880_apply (hp : Holds x0 p) (hg : Holds x1 g) (a : Fin 8) (j : Fin 1024) :
    (k0_pay266 (slabRun.sl.r_26 c arg1 harg1 x0) (slabRun.sl.r_128 c arg2 harg2 x1) (slabRun.sl.r_133 c arg1 harg1 arg2 harg2 x0 x1) (slabRun.sl.r_134 c arg1 harg1 arg2 harg2 x0 x1)) (ix2 a j)
      = ((sm2 |p (pt (j.val + 256)) 0 - g (pt (j.val + (a.val + 104))) 0| + sm2 |p (pt (j.val + 256)) 1 - g (pt (j.val + (a.val + 104))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk888_apply (hp : Holds x0 p) (hg : Holds x1 g) (a : Fin 8) (j : Fin 1024) :
    (k0_pay267 (slabRun.sl.r_20 c arg1 harg1 x0) (slabRun.sl.r_27 c arg1 harg1 x0) (slabRun.sl.r_127 c arg2 harg2 x1) (slabRun.sl.r_128 c arg2 harg2 x1)) (ix2 a j)
      = ((sm2 |p (pt (j.val + 128)) 0 - g (pt (j.val + (a.val + 104))) 0| + sm2 |p (pt (j.val + 128)) 1 - g (pt (j.val + (a.val + 104))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk896_apply (hp : Holds x0 p) (hg : Holds x1 g) (a : Fin 8) (j : Fin 1024) :
    (k0_pay274 (slabRun.sl.r_137 c arg1 harg1 arg2 harg2 x0 x1) (slabRun.sl.r_138 c arg1 harg1 arg2 harg2 x0 x1) (slabRun.sl.r_139 c arg1 harg1 arg2 harg2 x0 x1)) (ix2 a j)
      = ((sm2 |p j 0 - g (pt (j.val + (a.val + 112))) 0| + sm2 |p j 1 - g (pt (j.val + (a.val + 112))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk904_apply (hp : Holds x0 p) (hg : Holds x1 g) (a : Fin 8) (j : Fin 1024) :
    (k0_pay275 (slabRun.sl.r_14 c arg1 harg1 x0) (slabRun.sl.r_21 c arg1 harg1 x0) (slabRun.sl.r_135 c arg2 harg2 x1) (slabRun.sl.r_136 c arg2 harg2 x1)) (ix2 a j)
      = ((sm2 |p (pt (j.val + 896)) 0 - g (pt (j.val + (a.val + 112))) 0| + sm2 |p (pt (j.val + 896)) 1 - g (pt (j.val + (a.val + 112))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk912_apply (hp : Holds x0 p) (hg : Holds x1 g) (a : Fin 8) (j : Fin 1024) :
    (k0_pay276 (slabRun.sl.r_15 c arg1 harg1 x0) (slabRun.sl.r_22 c arg1 harg1 x0) (slabRun.sl.r_135 c arg2 harg2 x1) (slabRun.sl.r_136 c arg2 harg2 x1)) (ix2 a j)
      = ((sm2 |p (pt (j.val + 768)) 0 - g (pt (j.val + (a.val + 112))) 0| + sm2 |p (pt (j.val + 768)) 1 - g (pt (j.val + (a.val + 112))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk920_apply (hp : Holds x0 p) (hg : Holds x1 g) (a : Fin 8) (j : Fin 1024) :
    (k0_pay279 (slabRun.sl.r_23 c arg1 harg1 x0) (slabRun.sl.r_136 c arg2 harg2 x1) (slabRun.sl.r_140 c arg1 harg1 arg2 harg2 x0 x1) (slabRun.sl.r_141 c arg1 harg1 arg2 harg2 x0 x1)) (ix2 a j)
      = ((sm2 |p (pt (j.val + 640)) 0 - g (pt (j.val + (a.val + 112))) 0| + sm2 |p (pt (j.val + 640)) 1 - g (pt (j.val + (a.val + 112))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk928_apply (hp : Holds x0 p) (hg : Holds x1 g) (a : Fin 8) (j : Fin 1024) :
    (k0_pay280 (slabRun.sl.r_17 c arg1 harg1 x0) (slabRun.sl.r_24 c arg1 harg1 x0) (slabRun.sl.r_135 c arg2 harg2 x1) (slabRun.sl.r_136 c arg2 harg2 x1)) (ix2 a j)
      = ((sm2 |p (pt (j.val + 512)) 0 - g (pt (j.val + (a.val + 112))) 0| + sm2 |p (pt (j.val + 512)) 1 - g (pt (j.val + (a.val + 112))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk936_apply (hp : Holds x0 p) (hg : Holds x1 g) (a : Fin 8) (j : Fin 1024) :
    (k0_pay282 (slabRun.sl.r_142 c arg1 harg1 arg2 harg2 x0 x1)) (ix2 a j)
      = ((sm2 |p (pt (j.val + 384)) 0 - g (pt (j.val + (a.val + 112))) 0| + sm2 |p (pt (j.val + 384)) 1 - g (pt (j.val + (a.val + 112))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk944_apply (hp : Holds x0 p) (hg : Holds x1 g) (a : Fin 8) (j : Fin 1024) :
    (k0_pay283 (slabRun.sl.r_19 c arg1 harg1 x0) (slabRun.sl.r_26 c arg1 harg1 x0) (slabRun.sl.r_135 c arg2 harg2 x1) (slabRun.sl.r_136 c arg2 harg2 x1)) (ix2 a j)
      = ((sm2 |p (pt (j.val + 256)) 0 - g (pt (j.val + (a.val + 112))) 0| + sm2 |p (pt (j.val + 256)) 1 - g (pt (j.val + (a.val + 112))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk952_apply (hp : Holds x0 p) (hg : Holds x1 g) (a : Fin 8) (j : Fin 1024) :
    (k0_pay284 (slabRun.sl.r_20 c arg1 harg1 x0) (slabRun.sl.r_27 c arg1 harg1 x0) (slabRun.sl.r_135 c arg2 harg2 x1) (slabRun.sl.r_136 c arg2 harg2 x1)) (ix2 a j)
      = ((sm2 |p (pt (j.val + 128)) 0 - g (pt (j.val + (a.val + 112))) 0| + sm2 |p (pt (j.val + 128)) 1 - g (pt (j.val + (a.val + 112))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk960_apply (hp : Holds x0 p) (hg : Holds x1 g) (a : Fin 8) (j : Fin 1024) :
    (k0_pay289 (slabRun.sl.r_13 c arg1 harg1 x0) (slabRun.sl.r_144 c arg2 harg2 x1) (slabRun.sl.r_145 c arg1 harg1 arg2 harg2 x0 x1) k0_pay288) (ix2 a j)
      = ((sm2 |p j 0 - g (pt (j.val + (a.val + 120))) 0| + sm2 |p j 1 - g (pt (j.val + (a.val + 120))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk968_apply (hp : Holds x0 p) (hg : Holds x1 g) (a : Fin 8) (j : Fin 1024) :
    (k0_pay290 (slabRun.sl.r_14 c arg1 harg1 x0) (slabRun.sl.r_21 c arg1 harg1 x0) (slabRun.sl.r_143 c arg2 harg2 x1) (slabRun.sl.r_144 c arg2 harg2 x1)) (ix2 a j)
      = ((sm2 |p (pt (j.val + 896)) 0 - g (pt (j.val + (a.val + 120))) 0| + sm2 |p (pt (j.val + 896)) 1 - g (pt (j.val + (a.val + 120))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk976_apply (hp : Holds x0 p) (hg : Holds x1 g) (a : Fin 8) (j : Fin 1024) :
    (k0_pay292 (slabRun.sl.r_146 c arg1 harg1 arg2 harg2 x0 x1)) (ix2 a j)
      = ((sm2 |p (pt (j.val + 768)) 0 - g (pt (j.val + (a.val + 120))) 0| + sm2 |p (pt (j.val + 768)) 1 - g (pt (j.val + (a.val + 120))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk984_apply (hp : Holds x0 p) (hg : Holds x1 g) (a : Fin 8) (j : Fin 1024) :
    (k0_pay293 (slabRun.sl.r_16 c arg1 harg1 x0) (slabRun.sl.r_23 c arg1 harg1 x0) (slabRun.sl.r_143 c arg2 harg2 x1) (slabRun.sl.r_144 c arg2 harg2 x1)) (ix2 a j)
      = ((sm2 |p (pt (j.val + 640)) 0 - g (pt (j.val + (a.val + 120))) 0| + sm2 |p (pt (j.val + 640)) 1 - g (pt (j.val + (a.val + 120))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk992_apply (hp : Holds x0 p) (hg : Holds x1 g) (a : Fin 8) (j : Fin 1024) :
    (k0_pay294 (slabRun.sl.r_17 c arg1 harg1 x0) (slabRun.sl.r_24 c arg1 harg1 x0) (slabRun.sl.r_143 c arg2 harg2 x1) (slabRun.sl.r_144 c arg2 harg2 x1)) (ix2 a j)
      = ((sm2 |p (pt (j.val + 512)) 0 - g (pt (j.val + (a.val + 120))) 0| + sm2 |p (pt (j.val + 512)) 1 - g (pt (j.val + (a.val + 120))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk1000_apply (hp : Holds x0 p) (hg : Holds x1 g) (a : Fin 8) (j : Fin 1024) :
    (k0_pay297 (slabRun.sl.r_147 c arg1 harg1 arg2 harg2 x0 x1) (slabRun.sl.r_148 c arg1 harg1 arg2 harg2 x0 x1)) (ix2 a j)
      = ((sm2 |p (pt (j.val + 384)) 0 - g (pt (j.val + (a.val + 120))) 0| + sm2 |p (pt (j.val + 384)) 1 - g (pt (j.val + (a.val + 120))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk1008_apply (hp : Holds x0 p) (hg : Holds x1 g) (a : Fin 8) (j : Fin 1024) :
    (k0_pay298 (slabRun.sl.r_19 c arg1 harg1 x0) (slabRun.sl.r_26 c arg1 harg1 x0) (slabRun.sl.r_143 c arg2 harg2 x1) (slabRun.sl.r_144 c arg2 harg2 x1)) (ix2 a j)
      = ((sm2 |p (pt (j.val + 256)) 0 - g (pt (j.val + (a.val + 120))) 0| + sm2 |p (pt (j.val + 256)) 1 - g (pt (j.val + (a.val + 120))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

theorem blk1016_apply (hp : Holds x0 p) (hg : Holds x1 g) (a : Fin 8) (j : Fin 1024) :
    (k0_pay299 (slabRun.sl.r_20 c arg1 harg1 x0) (slabRun.sl.r_27 c arg1 harg1 x0) (slabRun.sl.r_143 c arg2 harg2 x1) (slabRun.sl.r_144 c arg2 harg2 x1)) (ix2 a j)
      = ((sm2 |p (pt (j.val + 128)) 0 - g (pt (j.val + (a.val + 120))) 0| + sm2 |p (pt (j.val + 128)) 1 - g (pt (j.val + (a.val + 120))) 1| : ℝ) : EReal) := by
  simp only [k0_pay34, k0_pay35, k0_pay36, k0_pay37, k0_pay38, k0_pay39, k0_pay40, k0_pay41, k0_pay42, k0_pay43, k0_pay44, k0_pay45, k0_pay46, k0_pay47, k0_pay48, k0_pay51, k0_pay52, k0_pay53, k0_pay54, k0_pay55, k0_pay56, k0_pay57, k0_pay58, k0_pay59, k0_pay60, k0_pay61, k0_pay62, k0_pay63, k0_pay66, k0_pay67, k0_pay68, k0_pay69, k0_pay70, k0_pay71, k0_pay72, k0_pay73, k0_pay74, k0_pay75, k0_pay76, k0_pay77, k0_pay78, k0_pay79, k0_pay80, k0_pay81, k0_pay84, k0_pay85, k0_pay86, k0_pay87, k0_pay88, k0_pay89, k0_pay90, k0_pay91, k0_pay92, k0_pay93, k0_pay94, k0_pay95, k0_pay96, k0_pay97, k0_pay98, k0_pay102, k0_pay103, k0_pay104, k0_pay105, k0_pay106, k0_pay107, k0_pay108, k0_pay109, k0_pay110, k0_pay111, k0_pay112, k0_pay113, k0_pay114, k0_pay115, k0_pay118, k0_pay119, k0_pay120, k0_pay121, k0_pay122, k0_pay123, k0_pay124, k0_pay125, k0_pay126, k0_pay127, k0_pay128, k0_pay129, k0_pay130, k0_pay131, k0_pay136, k0_pay137, k0_pay138, k0_pay139, k0_pay140, k0_pay141, k0_pay142, k0_pay143, k0_pay144, k0_pay145, k0_pay146, k0_pay147, k0_pay148, k0_pay149, k0_pay150, k0_pay153, k0_pay154, k0_pay155, k0_pay156, k0_pay157, k0_pay158, k0_pay159, k0_pay160, k0_pay161, k0_pay162, k0_pay163, k0_pay164, k0_pay165, k0_pay166, k0_pay170, k0_pay171, k0_pay172, k0_pay173, k0_pay174, k0_pay175, k0_pay176, k0_pay177, k0_pay178, k0_pay179, k0_pay180, k0_pay181, k0_pay182, k0_pay183, k0_pay186, k0_pay187, k0_pay188, k0_pay189, k0_pay190, k0_pay191, k0_pay192, k0_pay193, k0_pay194, k0_pay195, k0_pay196, k0_pay197, k0_pay198, k0_pay199, k0_pay200, k0_pay201, k0_pay204, k0_pay205, k0_pay206, k0_pay207, k0_pay208, k0_pay209, k0_pay210, k0_pay211, k0_pay212, k0_pay213, k0_pay214, k0_pay215, k0_pay216, k0_pay220, k0_pay221, k0_pay222, k0_pay223, k0_pay224, k0_pay225, k0_pay226, k0_pay227, k0_pay228, k0_pay229, k0_pay230, k0_pay231, k0_pay232, k0_pay233, k0_pay237, k0_pay238, k0_pay239, k0_pay240, k0_pay241, k0_pay242, k0_pay243, k0_pay244, k0_pay245, k0_pay246, k0_pay247, k0_pay248, k0_pay249, k0_pay252, k0_pay253, k0_pay254, k0_pay255, k0_pay256, k0_pay257, k0_pay258, k0_pay259, k0_pay260, k0_pay261, k0_pay262, k0_pay263, k0_pay264, k0_pay265, k0_pay266, k0_pay267, k0_pay270, k0_pay271, k0_pay272, k0_pay273, k0_pay274, k0_pay275, k0_pay276, k0_pay277, k0_pay278, k0_pay279, k0_pay280, k0_pay281, k0_pay282, k0_pay283, k0_pay284, k0_pay287, k0_pay288, k0_pay289, k0_pay290, k0_pay291, k0_pay292, k0_pay293, k0_pay294, k0_pay295, k0_pay296, k0_pay297, k0_pay298, k0_pay299, slabRun.sl.r_28, slabRun.sl.r_29, slabRun.sl.r_30, slabRun.sl.r_31, slabRun.sl.r_32, slabRun.sl.r_35, slabRun.sl.r_36, slabRun.sl.r_37, slabRun.sl.r_38, slabRun.sl.r_39, slabRun.sl.r_42, slabRun.sl.r_43, slabRun.sl.r_44, slabRun.sl.r_45, slabRun.sl.r_46, slabRun.sl.r_47, slabRun.sl.r_50, slabRun.sl.r_51, slabRun.sl.r_52, slabRun.sl.r_53, slabRun.sl.r_54, slabRun.sl.r_55, slabRun.sl.r_59, slabRun.sl.r_60, slabRun.sl.r_61, slabRun.sl.r_62, slabRun.sl.r_63, slabRun.sl.r_66, slabRun.sl.r_67, slabRun.sl.r_68, slabRun.sl.r_69, slabRun.sl.r_70, slabRun.sl.r_71, slabRun.sl.r_72, slabRun.sl.r_75, slabRun.sl.r_76, slabRun.sl.r_77, slabRun.sl.r_78, slabRun.sl.r_79, slabRun.sl.r_80, slabRun.sl.r_83, slabRun.sl.r_84, slabRun.sl.r_85, slabRun.sl.r_86, slabRun.sl.r_87, slabRun.sl.r_91, slabRun.sl.r_92, slabRun.sl.r_93, slabRun.sl.r_94, slabRun.sl.r_95, slabRun.sl.r_98, slabRun.sl.r_99, slabRun.sl.r_100, slabRun.sl.r_101, slabRun.sl.r_102, slabRun.sl.r_103, slabRun.sl.r_106, slabRun.sl.r_107, slabRun.sl.r_108, slabRun.sl.r_109, slabRun.sl.r_110, slabRun.sl.r_111, slabRun.sl.r_114, slabRun.sl.r_115, slabRun.sl.r_116, slabRun.sl.r_117, slabRun.sl.r_118, slabRun.sl.r_122, slabRun.sl.r_123, slabRun.sl.r_124, slabRun.sl.r_125, slabRun.sl.r_126, slabRun.sl.r_129, slabRun.sl.r_130, slabRun.sl.r_131, slabRun.sl.r_132, slabRun.sl.r_133, slabRun.sl.r_134, slabRun.sl.r_137, slabRun.sl.r_138, slabRun.sl.r_139, slabRun.sl.r_140, slabRun.sl.r_141, slabRun.sl.r_142, slabRun.sl.r_145, slabRun.sl.r_146, slabRun.sl.r_147, slabRun.sl.r_148, slabRun.sl.cst_42,
    mulf_apply, addf_apply, subf_apply, minimumf_apply, absf_apply, broadcast_apply, shapeCast_self,
    bcast_x_apply, bcast_y_apply, back_x1_apply, back_y1_apply, back_x2_apply, back_y2_apply, back_x3_apply, back_y3_apply, back_x4_apply, back_y4_apply, back_x5_apply, back_y5_apply, back_x6_apply, back_y6_apply, back_x7_apply, back_y7_apply, step49_apply, step64_apply, step82_apply, step100_apply, step116_apply, step151_apply, step168_apply, step184_apply, step202_apply, step235_apply, step250_apply, step268_apply, step285_apply, step50_apply, step65_apply, step83_apply, step101_apply, step117_apply, step135_apply, step152_apply, step169_apply, step185_apply, step203_apply, step219_apply, step236_apply, step251_apply, step269_apply, step286_apply, step134_apply, step218_apply,
    px_apply c arg1 harg1 x0 p hp, py_apply c arg1 harg1 x0 p hp, px0_apply hp, py0_apply hp, px1_apply hp, py1_apply hp, px2_apply hp, py2_apply hp, px3_apply hp, py3_apply hp, px4_apply hp, py4_apply hp, px5_apply hp, py5_apply hp, px6_apply hp, py6_apply hp, px7_apply hp, py7_apply hp,
    gx0_apply hg, gy0_apply hg, gx1_apply hg, gy1_apply hg, gx2_apply hg, gy2_apply hg, gx3_apply hg, gy3_apply hg, gx4_apply hg, gy4_apply hg, gx5_apply hg, gy5_apply hg, gx6_apply hg, gy6_apply hg, gx7_apply hg, gy7_apply hg, gx8_apply hg, gy8_apply hg, gx9_apply hg, gy9_apply hg, gx10_apply hg, gy10_apply hg, gx11_apply hg, gy11_apply hg, gx12_apply hg, gy12_apply hg, gx13_apply hg, gy13_apply hg, gx14_apply hg, gy14_apply hg, gx15_apply hg, gy15_apply hg]
  rw [sm2_coe, sm2_coe, ← EReal.coe_add]
  all_goals simp only [pt_step, Nat.reduceAdd]

end Cert.KernelIdeal.Hand

end
-- ==== Proof.KPiece3.lean ====
/-
  The pieces stored into rows 768 to 1023 of the table are blocks of the table function
  (idealized kernel): each store's payload, read at its local index, is the table at the index the
  store's rectangle places it.
-/
import proofs.«103642_g13554916786703_cont_week2b_739_36_alg».proof.Proof.KBlk3
import proofs.«103642_g13554916786703_cont_week2b_739_36_alg».proof.Proof.KTableDef

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Lay Cert.Spec

variable {c : Dev nD}
variable {arg1 : Memref sig .tc .vmem S1x2x1024 .f32} {harg1 : arg1.IsWhole} {arg2 : Memref sig .tc .vmem S1x2x1024 .f32} {harg2 : arg2.IsWhole}
variable {x0 x1 : Vec Ideal S1x2x1024 .f32} {p g : Pt → Fin 2 → ℝ}

theorem piece768 (hp : Holds x0 p) (hg : Holds x1 g) (x : (Rect.unit (s := S1024x1024) ![768, 0] S8x1024.size inb_S1024x1024_S8x1024_768_0).shape.Idx) :
    (k0_pay237 (slabRun.sl.r_12 c arg1 harg1 x0) (slabRun.sl.r_13 c arg1 harg1 x0) (slabRun.sl.r_112 c arg2 harg2 x1) (slabRun.sl.r_113 c arg2 harg2 x1)) x = table p g ((Rect.unit (s := S1024x1024) ![768, 0] S8x1024.size inb_S1024x1024_S8x1024_768_0).emb x) := by
  obtain ⟨a, j, rfl⟩ : ∃ (a : Fin 8) (j : Fin 1024), x = ix2 a j := ⟨x 0, x 1, eq_ix2 x⟩
  rw [blk768_apply hp hg a j]
  show _ = ((cellVal p g (768 + 1 * a.val) (0 + 1 * j.val) : ℝ) : EReal)
  have ha := a.isLt
  simp only [cellVal, Nat.one_mul, Nat.zero_add]
  rw [show ((768 + a.val) / 8) % 8 = 0 from by omega, show (768 + a.val) % 8 = a.val from by omega, show (768 + a.val) / 64 = 12 from by omega]
  all_goals simp only [Nat.reduceMul, Nat.reduceSub, pt_add_1024]

theorem piece776 (hp : Holds x0 p) (hg : Holds x1 g) (x : (Rect.unit (s := S1024x1024) ![776, 0] S8x1024.size inb_S1024x1024_S8x1024_776_0).shape.Idx) :
    (k0_pay240 (slabRun.sl.r_122 c arg1 harg1 arg2 harg2 x0 x1) (slabRun.sl.r_123 c arg1 harg1 arg2 harg2 x0 x1) slabRun.sl.cst_42) x = table p g ((Rect.unit (s := S1024x1024) ![776, 0] S8x1024.size inb_S1024x1024_S8x1024_776_0).emb x) := by
  obtain ⟨a, j, rfl⟩ : ∃ (a : Fin 8) (j : Fin 1024), x = ix2 a j := ⟨x 0, x 1, eq_ix2 x⟩
  rw [blk776_apply hp hg a j]
  show _ = ((cellVal p g (776 + 1 * a.val) (0 + 1 * j.val) : ℝ) : EReal)
  have ha := a.isLt
  simp only [cellVal, Nat.one_mul, Nat.zero_add]
  rw [show ((776 + a.val) / 8) % 8 = 1 from by omega, show (776 + a.val) % 8 = a.val from by omega, show (776 + a.val) / 64 = 12 from by omega]
  all_goals simp only [Nat.reduceMul, Nat.reduceSub, pt_add_1024]

theorem piece784 (hp : Holds x0 p) (hg : Holds x1 g) (x : (Rect.unit (s := S1024x1024) ![784, 0] S8x1024.size inb_S1024x1024_S8x1024_784_0).shape.Idx) :
    (k0_pay241 (slabRun.sl.r_15 c arg1 harg1 x0) (slabRun.sl.r_22 c arg1 harg1 x0) (slabRun.sl.r_120 c arg2 harg2 x1) (slabRun.sl.r_121 c arg2 harg2 x1)) x = table p g ((Rect.unit (s := S1024x1024) ![784, 0] S8x1024.size inb_S1024x1024_S8x1024_784_0).emb x) := by
  obtain ⟨a, j, rfl⟩ : ∃ (a : Fin 8) (j : Fin 1024), x = ix2 a j := ⟨x 0, x 1, eq_ix2 x⟩
  rw [blk784_apply hp hg a j]
  show _ = ((cellVal p g (784 + 1 * a.val) (0 + 1 * j.val) : ℝ) : EReal)
  have ha := a.isLt
  simp only [cellVal, Nat.one_mul, Nat.zero_add]
  rw [show ((784 + a.val) / 8) % 8 = 2 from by omega, show (784 + a.val) % 8 = a.val from by omega, show (784 + a.val) / 64 = 12 from by omega]
  all_goals simp only [Nat.reduceMul, Nat.reduceSub, pt_add_1024]

theorem piece792 (hp : Holds x0 p) (hg : Holds x1 g) (x : (Rect.unit (s := S1024x1024) ![792, 0] S8x1024.size inb_S1024x1024_S8x1024_792_0).shape.Idx) :
    (k0_pay242 (slabRun.sl.r_16 c arg1 harg1 x0) (slabRun.sl.r_23 c arg1 harg1 x0) (slabRun.sl.r_120 c arg2 harg2 x1) (slabRun.sl.r_121 c arg2 harg2 x1)) x = table p g ((Rect.unit (s := S1024x1024) ![792, 0] S8x1024.size inb_S1024x1024_S8x1024_792_0).emb x) := by
  obtain ⟨a, j, rfl⟩ : ∃ (a : Fin 8) (j : Fin 1024), x = ix2 a j := ⟨x 0, x 1, eq_ix2 x⟩
  rw [blk792_apply hp hg a j]
  show _ = ((cellVal p g (792 + 1 * a.val) (0 + 1 * j.val) : ℝ) : EReal)
  have ha := a.isLt
  simp only [cellVal, Nat.one_mul, Nat.zero_add]
  rw [show ((792 + a.val) / 8) % 8 = 3 from by omega, show (792 + a.val) % 8 = a.val from by omega, show (792 + a.val) / 64 = 12 from by omega]
  all_goals simp only [Nat.reduceMul, Nat.reduceSub, pt_add_1024]

theorem piece800 (hp : Holds x0 p) (hg : Holds x1 g) (x : (Rect.unit (s := S1024x1024) ![800, 0] S8x1024.size inb_S1024x1024_S8x1024_800_0).shape.Idx) :
    (k0_pay244 (slabRun.sl.r_24 c arg1 harg1 x0) (slabRun.sl.r_121 c arg2 harg2 x1) (slabRun.sl.r_124 c arg1 harg1 arg2 harg2 x0 x1)) x = table p g ((Rect.unit (s := S1024x1024) ![800, 0] S8x1024.size inb_S1024x1024_S8x1024_800_0).emb x) := by
  obtain ⟨a, j, rfl⟩ : ∃ (a : Fin 8) (j : Fin 1024), x = ix2 a j := ⟨x 0, x 1, eq_ix2 x⟩
  rw [blk800_apply hp hg a j]
  show _ = ((cellVal p g (800 + 1 * a.val) (0 + 1 * j.val) : ℝ) : EReal)
  have ha := a.isLt
  simp only [cellVal, Nat.one_mul, Nat.zero_add]
  rw [show ((800 + a.val) / 8) % 8 = 4 from by omega, show (800 + a.val) % 8 = a.val from by omega, show (800 + a.val) / 64 = 12 from by omega]
  all_goals simp only [Nat.reduceMul, Nat.reduceSub, pt_add_1024]

theorem piece808 (hp : Holds x0 p) (hg : Holds x1 g) (x : (Rect.unit (s := S1024x1024) ![808, 0] S8x1024.size inb_S1024x1024_S8x1024_808_0).shape.Idx) :
    (k0_pay245 (slabRun.sl.r_18 c arg1 harg1 x0) (slabRun.sl.r_25 c arg1 harg1 x0) (slabRun.sl.r_120 c arg2 harg2 x1) (slabRun.sl.r_121 c arg2 harg2 x1)) x = table p g ((Rect.unit (s := S1024x1024) ![808, 0] S8x1024.size inb_S1024x1024_S8x1024_808_0).emb x) := by
  obtain ⟨a, j, rfl⟩ : ∃ (a : Fin 8) (j : Fin 1024), x = ix2 a j := ⟨x 0, x 1, eq_ix2 x⟩
  rw [blk808_apply hp hg a j]
  show _ = ((cellVal p g (808 + 1 * a.val) (0 + 1 * j.val) : ℝ) : EReal)
  have ha := a.isLt
  simp only [cellVal, Nat.one_mul, Nat.zero_add]
  rw [show ((808 + a.val) / 8) % 8 = 5 from by omega, show (808 + a.val) % 8 = a.val from by omega, show (808 + a.val) / 64 = 12 from by omega]
  all_goals simp only [Nat.reduceMul, Nat.reduceSub, pt_add_1024]

theorem piece816 (hp : Holds x0 p) (hg : Holds x1 g) (x : (Rect.unit (s := S1024x1024) ![816, 0] S8x1024.size inb_S1024x1024_S8x1024_816_0).shape.Idx) :
    (k0_pay248 (slabRun.sl.r_125 c arg1 harg1 arg2 harg2 x0 x1) (slabRun.sl.r_126 c arg1 harg1 arg2 harg2 x0 x1)) x = table p g ((Rect.unit (s := S1024x1024) ![816, 0] S8x1024.size inb_S1024x1024_S8x1024_816_0).emb x) := by
  obtain ⟨a, j, rfl⟩ : ∃ (a : Fin 8) (j : Fin 1024), x = ix2 a j := ⟨x 0, x 1, eq_ix2 x⟩
  rw [blk816_apply hp hg a j]
  show _ = ((cellVal p g (816 + 1 * a.val) (0 + 1 * j.val) : ℝ) : EReal)
  have ha := a.isLt
  simp only [cellVal, Nat.one_mul, Nat.zero_add]
  rw [show ((816 + a.val) / 8) % 8 = 6 from by omega, show (816 + a.val) % 8 = a.val from by omega, show (816 + a.val) / 64 = 12 from by omega]
  all_goals simp only [Nat.reduceMul, Nat.reduceSub, pt_add_1024]

theorem piece824 (hp : Holds x0 p) (hg : Holds x1 g) (x : (Rect.unit (s := S1024x1024) ![824, 0] S8x1024.size inb_S1024x1024_S8x1024_824_0).shape.Idx) :
    (k0_pay249 (slabRun.sl.r_20 c arg1 harg1 x0) (slabRun.sl.r_27 c arg1 harg1 x0) (slabRun.sl.r_120 c arg2 harg2 x1) (slabRun.sl.r_121 c arg2 harg2 x1)) x = table p g ((Rect.unit (s := S1024x1024) ![824, 0] S8x1024.size inb_S1024x1024_S8x1024_824_0).emb x) := by
  obtain ⟨a, j, rfl⟩ : ∃ (a : Fin 8) (j : Fin 1024), x = ix2 a j := ⟨x 0, x 1, eq_ix2 x⟩
  rw [blk824_apply hp hg a j]
  show _ = ((cellVal p g (824 + 1 * a.val) (0 + 1 * j.val) : ℝ) : EReal)
  have ha := a.isLt
  simp only [cellVal, Nat.one_mul, Nat.zero_add]
  rw [show ((824 + a.val) / 8) % 8 = 7 from by omega, show (824 + a.val) % 8 = a.val from by omega, show (824 + a.val) / 64 = 12 from by omega]
  all_goals simp only [Nat.reduceMul, Nat.reduceSub, pt_add_1024]

theorem piece832 (hp : Holds x0 p) (hg : Holds x1 g) (x : (Rect.unit (s := S1024x1024) ![832, 0] S8x1024.size inb_S1024x1024_S8x1024_832_0).shape.Idx) :
    (k0_pay252 (slabRun.sl.r_12 c arg1 harg1 x0) (slabRun.sl.r_13 c arg1 harg1 x0) (slabRun.sl.r_120 c arg2 harg2 x1) (slabRun.sl.r_121 c arg2 harg2 x1)) x = table p g ((Rect.unit (s := S1024x1024) ![832, 0] S8x1024.size inb_S1024x1024_S8x1024_832_0).emb x) := by
  obtain ⟨a, j, rfl⟩ : ∃ (a : Fin 8) (j : Fin 1024), x = ix2 a j := ⟨x 0, x 1, eq_ix2 x⟩
  rw [blk832_apply hp hg a j]
  show _ = ((cellVal p g (832 + 1 * a.val) (0 + 1 * j.val) : ℝ) : EReal)
  have ha := a.isLt
  simp only [cellVal, Nat.one_mul, Nat.zero_add]
  rw [show ((832 + a.val) / 8) % 8 = 0 from by omega, show (832 + a.val) % 8 = a.val from by omega, show (832 + a.val) / 64 = 13 from by omega]
  all_goals simp only [Nat.reduceMul, Nat.reduceSub, pt_add_1024]

theorem piece840 (hp : Holds x0 p) (hg : Holds x1 g) (x : (Rect.unit (s := S1024x1024) ![840, 0] S8x1024.size inb_S1024x1024_S8x1024_840_0).shape.Idx) :
    (k0_pay254 (slabRun.sl.r_21 c arg1 harg1 x0) (slabRun.sl.r_128 c arg2 harg2 x1) (slabRun.sl.r_129 c arg1 harg1 arg2 harg2 x0 x1)) x = table p g ((Rect.unit (s := S1024x1024) ![840, 0] S8x1024.size inb_S1024x1024_S8x1024_840_0).emb x) := by
  obtain ⟨a, j, rfl⟩ : ∃ (a : Fin 8) (j : Fin 1024), x = ix2 a j := ⟨x 0, x 1, eq_ix2 x⟩
  rw [blk840_apply hp hg a j]
  show _ = ((cellVal p g (840 + 1 * a.val) (0 + 1 * j.val) : ℝ) : EReal)
  have ha := a.isLt
  simp only [cellVal, Nat.one_mul, Nat.zero_add]
  rw [show ((840 + a.val) / 8) % 8 = 1 from by omega, show (840 + a.val) % 8 = a.val from by omega, show (840 + a.val) / 64 = 13 from by omega]
  all_goals simp only [Nat.reduceMul, Nat.reduceSub, pt_add_1024]

theorem piece848 (hp : Holds x0 p) (hg : Holds x1 g) (x : (Rect.unit (s := S1024x1024) ![848, 0] S8x1024.size inb_S1024x1024_S8x1024_848_0).shape.Idx) :
    (k0_pay255 (slabRun.sl.r_15 c arg1 harg1 x0) (slabRun.sl.r_22 c arg1 harg1 x0) (slabRun.sl.r_127 c arg2 harg2 x1) (slabRun.sl.r_128 c arg2 harg2 x1)) x = table p g ((Rect.unit (s := S1024x1024) ![848, 0] S8x1024.size inb_S1024x1024_S8x1024_848_0).emb x) := by
  obtain ⟨a, j, rfl⟩ : ∃ (a : Fin 8) (j : Fin 1024), x = ix2 a j := ⟨x 0, x 1, eq_ix2 x⟩
  rw [blk848_apply hp hg a j]
  show _ = ((cellVal p g (848 + 1 * a.val) (0 + 1 * j.val) : ℝ) : EReal)
  have ha := a.isLt
  simp only [cellVal, Nat.one_mul, Nat.zero_add]
  rw [show ((848 + a.val) / 8) % 8 = 2 from by omega, show (848 + a.val) % 8 = a.val from by omega, show (848 + a.val) / 64 = 13 from by omega]
  all_goals simp only [Nat.reduceMul, Nat.reduceSub, pt_add_1024]

theorem piece856 (hp : Holds x0 p) (hg : Holds x1 g) (x : (Rect.unit (s := S1024x1024) ![856, 0] S8x1024.size inb_S1024x1024_S8x1024_856_0).shape.Idx) :
    (k0_pay260 (slabRun.sl.r_130 c arg1 harg1 arg2 harg2 x0 x1) (slabRun.sl.r_131 c arg1 harg1 arg2 harg2 x0 x1) (slabRun.sl.r_132 c arg1 harg1 arg2 harg2 x0 x1)) x = table p g ((Rect.unit (s := S1024x1024) ![856, 0] S8x1024.size inb_S1024x1024_S8x1024_856_0).emb x) := by
  obtain ⟨a, j, rfl⟩ : ∃ (a : Fin 8) (j : Fin 1024), x = ix2 a j := ⟨x 0, x 1, eq_ix2 x⟩
  rw [blk856_apply hp hg a j]
  show _ = ((cellVal p g (856 + 1 * a.val) (0 + 1 * j.val) : ℝ) : EReal)
  have ha := a.isLt
  simp only [cellVal, Nat.one_mul, Nat.zero_add]
  rw [show ((856 + a.val) / 8) % 8 = 3 from by omega, show (856 + a.val) % 8 = a.val from by omega, show (856 + a.val) / 64 = 13 from by omega]
  all_goals simp only [Nat.reduceMul, Nat.reduceSub, pt_add_1024]

theorem piece864 (hp : Holds x0 p) (hg : Holds x1 g) (x : (Rect.unit (s := S1024x1024) ![864, 0] S8x1024.size inb_S1024x1024_S8x1024_864_0).shape.Idx) :
    (k0_pay261 (slabRun.sl.r_17 c arg1 harg1 x0) (slabRun.sl.r_24 c arg1 harg1 x0) (slabRun.sl.r_127 c arg2 harg2 x1) (slabRun.sl.r_128 c arg2 harg2 x1)) x = table p g ((Rect.unit (s := S1024x1024) ![864, 0] S8x1024.size inb_S1024x1024_S8x1024_864_0).emb x) := by
  obtain ⟨a, j, rfl⟩ : ∃ (a : Fin 8) (j : Fin 1024), x = ix2 a j := ⟨x 0, x 1, eq_ix2 x⟩
  rw [blk864_apply hp hg a j]
  show _ = ((cellVal p g (864 + 1 * a.val) (0 + 1 * j.val) : ℝ) : EReal)
  have ha := a.isLt
  simp only [cellVal, Nat.one_mul, Nat.zero_add]
  rw [show ((864 + a.val) / 8) % 8 = 4 from by omega, show (864 + a.val) % 8 = a.val from by omega, show (864 + a.val) / 64 = 13 from by omega]
  all_goals simp only [Nat.reduceMul, Nat.reduceSub, pt_add_1024]

theorem piece872 (hp : Holds x0 p) (hg : Holds x1 g) (x : (Rect.unit (s := S1024x1024) ![872, 0] S8x1024.size inb_S1024x1024_S8x1024_872_0).shape.Idx) :
    (k0_pay262 (slabRun.sl.r_18 c arg1 harg1 x0) (slabRun.sl.r_25 c arg1 harg1 x0) (slabRun.sl.r_127 c arg2 harg2 x1) (slabRun.sl.r_128 c arg2 harg2 x1)) x = table p g ((Rect.unit (s := S1024x1024) ![872, 0] S8x1024.size inb_S1024x1024_S8x1024_872_0).emb x) := by
  obtain ⟨a, j, rfl⟩ : ∃ (a : Fin 8) (j : Fin 1024), x = ix2 a j := ⟨x 0, x 1, eq_ix2 x⟩
  rw [blk872_apply hp hg a j]
  show _ = ((cellVal p g (872 + 1 * a.val) (0 + 1 * j.val) : ℝ) : EReal)
  have ha := a.isLt
  simp only [cellVal, Nat.one_mul, Nat.zero_add]
  rw [show ((872 + a.val) / 8) % 8 = 5 from by omega, show (872 + a.val) % 8 = a.val from by omega, show (872 + a.val) / 64 = 13 from by omega]
  all_goals simp only [Nat.reduceMul, Nat.reduceSub, pt_add_1024]

theorem piece880 (hp : Holds x0 p) (hg : Holds x1 g) (x : (Rect.unit (s := S1024x1024) ![880, 0] S8x1024.size inb_S1024x1024_S8x1024_880_0).shape.Idx) :
    (k0_pay266 (slabRun.sl.r_26 c arg1 harg1 x0) (slabRun.sl.r_128 c arg2 harg2 x1) (slabRun.sl.r_133 c arg1 harg1 arg2 harg2 x0 x1) (slabRun.sl.r_134 c arg1 harg1 arg2 harg2 x0 x1)) x = table p g ((Rect.unit (s := S1024x1024) ![880, 0] S8x1024.size inb_S1024x1024_S8x1024_880_0).emb x) := by
  obtain ⟨a, j, rfl⟩ : ∃ (a : Fin 8) (j : Fin 1024), x = ix2 a j := ⟨x 0, x 1, eq_ix2 x⟩
  rw [blk880_apply hp hg a j]
  show _ = ((cellVal p g (880 + 1 * a.val) (0 + 1 * j.val) : ℝ) : EReal)
  have ha := a.isLt
  simp only [cellVal, Nat.one_mul, Nat.zero_add]
  rw [show ((880 + a.val) / 8) % 8 = 6 from by omega, show (880 + a.val) % 8 = a.val from by omega, show (880 + a.val) / 64 = 13 from by omega]
  all_goals simp only [Nat.reduceMul, Nat.reduceSub, pt_add_1024]

theorem piece888 (hp : Holds x0 p) (hg : Holds x1 g) (x : (Rect.unit (s := S1024x1024) ![888, 0] S8x1024.size inb_S1024x1024_S8x1024_888_0).shape.Idx) :
    (k0_pay267 (slabRun.sl.r_20 c arg1 harg1 x0) (slabRun.sl.r_27 c arg1 harg1 x0) (slabRun.sl.r_127 c arg2 harg2 x1) (slabRun.sl.r_128 c arg2 harg2 x1)) x = table p g ((Rect.unit (s := S1024x1024) ![888, 0] S8x1024.size inb_S1024x1024_S8x1024_888_0).emb x) := by
  obtain ⟨a, j, rfl⟩ : ∃ (a : Fin 8) (j : Fin 1024), x = ix2 a j := ⟨x 0, x 1, eq_ix2 x⟩
  rw [blk888_apply hp hg a j]
  show _ = ((cellVal p g (888 + 1 * a.val) (0 + 1 * j.val) : ℝ) : EReal)
  have ha := a.isLt
  simp only [cellVal, Nat.one_mul, Nat.zero_add]
  rw [show ((888 + a.val) / 8) % 8 = 7 from by omega, show (888 + a.val) % 8 = a.val from by omega, show (888 + a.val) / 64 = 13 from by omega]
  all_goals simp only [Nat.reduceMul, Nat.reduceSub, pt_add_1024]

theorem piece896 (hp : Holds x0 p) (hg : Holds x1 g) (x : (Rect.unit (s := S1024x1024) ![896, 0] S8x1024.size inb_S1024x1024_S8x1024_896_0).shape.Idx) :
    (k0_pay274 (slabRun.sl.r_137 c arg1 harg1 arg2 harg2 x0 x1) (slabRun.sl.r_138 c arg1 harg1 arg2 harg2 x0 x1) (slabRun.sl.r_139 c arg1 harg1 arg2 harg2 x0 x1)) x = table p g ((Rect.unit (s := S1024x1024) ![896, 0] S8x1024.size inb_S1024x1024_S8x1024_896_0).emb x) := by
  obtain ⟨a, j, rfl⟩ : ∃ (a : Fin 8) (j : Fin 1024), x = ix2 a j := ⟨x 0, x 1, eq_ix2 x⟩
  rw [blk896_apply hp hg a j]
  show _ = ((cellVal p g (896 + 1 * a.val) (0 + 1 * j.val) : ℝ) : EReal)
  have ha := a.isLt
  simp only [cellVal, Nat.one_mul, Nat.zero_add]
  rw [show ((896 + a.val) / 8) % 8 = 0 from by omega, show (896 + a.val) % 8 = a.val from by omega, show (896 + a.val) / 64 = 14 from by omega]
  all_goals simp only [Nat.reduceMul, Nat.reduceSub, pt_add_1024]

theorem piece904 (hp : Holds x0 p) (hg : Holds x1 g) (x : (Rect.unit (s := S1024x1024) ![904, 0] S8x1024.size inb_S1024x1024_S8x1024_904_0).shape.Idx) :
    (k0_pay275 (slabRun.sl.r_14 c arg1 harg1 x0) (slabRun.sl.r_21 c arg1 harg1 x0) (slabRun.sl.r_135 c arg2 harg2 x1) (slabRun.sl.r_136 c arg2 harg2 x1)) x = table p g ((Rect.unit (s := S1024x1024) ![904, 0] S8x1024.size inb_S1024x1024_S8x1024_904_0).emb x) := by
  obtain ⟨a, j, rfl⟩ : ∃ (a : Fin 8) (j : Fin 1024), x = ix2 a j := ⟨x 0, x 1, eq_ix2 x⟩
  rw [blk904_apply hp hg a j]
  show _ = ((cellVal p g (904 + 1 * a.val) (0 + 1 * j.val) : ℝ) : EReal)
  have ha := a.isLt
  simp only [cellVal, Nat.one_mul, Nat.zero_add]
  rw [show ((904 + a.val) / 8) % 8 = 1 from by omega, show (904 + a.val) % 8 = a.val from by omega, show (904 + a.val) / 64 = 14 from by omega]
  all_goals simp only [Nat.reduceMul, Nat.reduceSub, pt_add_1024]

theorem piece912 (hp : Holds x0 p) (hg : Holds x1 g) (x : (Rect.unit (s := S1024x1024) ![912, 0] S8x1024.size inb_S1024x1024_S8x1024_912_0).shape.Idx) :
    (k0_pay276 (slabRun.sl.r_15 c arg1 harg1 x0) (slabRun.sl.r_22 c arg1 harg1 x0) (slabRun.sl.r_135 c arg2 harg2 x1) (slabRun.sl.r_136 c arg2 harg2 x1)) x = table p g ((Rect.unit (s := S1024x1024) ![912, 0] S8x1024.size inb_S1024x1024_S8x1024_912_0).emb x) := by
  obtain ⟨a, j, rfl⟩ : ∃ (a : Fin 8) (j : Fin 1024), x = ix2 a j := ⟨x 0, x 1, eq_ix2 x⟩
  rw [blk912_apply hp hg a j]
  show _ = ((cellVal p g (912 + 1 * a.val) (0 + 1 * j.val) : ℝ) : EReal)
  have ha := a.isLt
  simp only [cellVal, Nat.one_mul, Nat.zero_add]
  rw [show ((912 + a.val) / 8) % 8 = 2 from by omega, show (912 + a.val) % 8 = a.val from by omega, show (912 + a.val) / 64 = 14 from by omega]
  all_goals simp only [Nat.reduceMul, Nat.reduceSub, pt_add_1024]

theorem piece920 (hp : Holds x0 p) (hg : Holds x1 g) (x : (Rect.unit (s := S1024x1024) ![920, 0] S8x1024.size inb_S1024x1024_S8x1024_920_0).shape.Idx) :
    (k0_pay279 (slabRun.sl.r_23 c arg1 harg1 x0) (slabRun.sl.r_136 c arg2 harg2 x1) (slabRun.sl.r_140 c arg1 harg1 arg2 harg2 x0 x1) (slabRun.sl.r_141 c arg1 harg1 arg2 harg2 x0 x1)) x = table p g ((Rect.unit (s := S1024x1024) ![920, 0] S8x1024.size inb_S1024x1024_S8x1024_920_0).emb x) := by
  obtain ⟨a, j, rfl⟩ : ∃ (a : Fin 8) (j : Fin 1024), x = ix2 a j := ⟨x 0, x 1, eq_ix2 x⟩
  rw [blk920_apply hp hg a j]
  show _ = ((cellVal p g (920 + 1 * a.val) (0 + 1 * j.val) : ℝ) : EReal)
  have ha := a.isLt
  simp only [cellVal, Nat.one_mul, Nat.zero_add]
  rw [show ((920 + a.val) / 8) % 8 = 3 from by omega, show (920 + a.val) % 8 = a.val from by omega, show (920 + a.val) / 64 = 14 from by omega]
  all_goals simp only [Nat.reduceMul, Nat.reduceSub, pt_add_1024]

theorem piece928 (hp : Holds x0 p) (hg : Holds x1 g) (x : (Rect.unit (s := S1024x1024) ![928, 0] S8x1024.size inb_S1024x1024_S8x1024_928_0).shape.Idx) :
    (k0_pay280 (slabRun.sl.r_17 c arg1 harg1 x0) (slabRun.sl.r_24 c arg1 harg1 x0) (slabRun.sl.r_135 c arg2 harg2 x1) (slabRun.sl.r_136 c arg2 harg2 x1)) x = table p g ((Rect.unit (s := S1024x1024) ![928, 0] S8x1024.size inb_S1024x1024_S8x1024_928_0).emb x) := by
  obtain ⟨a, j, rfl⟩ : ∃ (a : Fin 8) (j : Fin 1024), x = ix2 a j := ⟨x 0, x 1, eq_ix2 x⟩
  rw [blk928_apply hp hg a j]
  show _ = ((cellVal p g (928 + 1 * a.val) (0 + 1 * j.val) : ℝ) : EReal)
  have ha := a.isLt
  simp only [cellVal, Nat.one_mul, Nat.zero_add]
  rw [show ((928 + a.val) / 8) % 8 = 4 from by omega, show (928 + a.val) % 8 = a.val from by omega, show (928 + a.val) / 64 = 14 from by omega]
  all_goals simp only [Nat.reduceMul, Nat.reduceSub, pt_add_1024]

theorem piece936 (hp : Holds x0 p) (hg : Holds x1 g) (x : (Rect.unit (s := S1024x1024) ![936, 0] S8x1024.size inb_S1024x1024_S8x1024_936_0).shape.Idx) :
    (k0_pay282 (slabRun.sl.r_142 c arg1 harg1 arg2 harg2 x0 x1)) x = table p g ((Rect.unit (s := S1024x1024) ![936, 0] S8x1024.size inb_S1024x1024_S8x1024_936_0).emb x) := by
  obtain ⟨a, j, rfl⟩ : ∃ (a : Fin 8) (j : Fin 1024), x = ix2 a j := ⟨x 0, x 1, eq_ix2 x⟩
  rw [blk936_apply hp hg a j]
  show _ = ((cellVal p g (936 + 1 * a.val) (0 + 1 * j.val) : ℝ) : EReal)
  have ha := a.isLt
  simp only [cellVal, Nat.one_mul, Nat.zero_add]
  rw [show ((936 + a.val) / 8) % 8 = 5 from by omega, show (936 + a.val) % 8 = a.val from by omega, show (936 + a.val) / 64 = 14 from by omega]
  all_goals simp only [Nat.reduceMul, Nat.reduceSub, pt_add_1024]

theorem piece944 (hp : Holds x0 p) (hg : Holds x1 g) (x : (Rect.unit (s := S1024x1024) ![944, 0] S8x1024.size inb_S1024x1024_S8x1024_944_0).shape.Idx) :
    (k0_pay283 (slabRun.sl.r_19 c arg1 harg1 x0) (slabRun.sl.r_26 c arg1 harg1 x0) (slabRun.sl.r_135 c arg2 harg2 x1) (slabRun.sl.r_136 c arg2 harg2 x1)) x = table p g ((Rect.unit (s := S1024x1024) ![944, 0] S8x1024.size inb_S1024x1024_S8x1024_944_0).emb x) := by
  obtain ⟨a, j, rfl⟩ : ∃ (a : Fin 8) (j : Fin 1024), x = ix2 a j := ⟨x 0, x 1, eq_ix2 x⟩
  rw [blk944_apply hp hg a j]
  show _ = ((cellVal p g (944 + 1 * a.val) (0 + 1 * j.val) : ℝ) : EReal)
  have ha := a.isLt
  simp only [cellVal, Nat.one_mul, Nat.zero_add]
  rw [show ((944 + a.val) / 8) % 8 = 6 from by omega, show (944 + a.val) % 8 = a.val from by omega, show (944 + a.val) / 64 = 14 from by omega]
  all_goals simp only [Nat.reduceMul, Nat.reduceSub, pt_add_1024]

theorem piece952 (hp : Holds x0 p) (hg : Holds x1 g) (x : (Rect.unit (s := S1024x1024) ![952, 0] S8x1024.size inb_S1024x1024_S8x1024_952_0).shape.Idx) :
    (k0_pay284 (slabRun.sl.r_20 c arg1 harg1 x0) (slabRun.sl.r_27 c arg1 harg1 x0) (slabRun.sl.r_135 c arg2 harg2 x1) (slabRun.sl.r_136 c arg2 harg2 x1)) x = table p g ((Rect.unit (s := S1024x1024) ![952, 0] S8x1024.size inb_S1024x1024_S8x1024_952_0).emb x) := by
  obtain ⟨a, j, rfl⟩ : ∃ (a : Fin 8) (j : Fin 1024), x = ix2 a j := ⟨x 0, x 1, eq_ix2 x⟩
  rw [blk952_apply hp hg a j]
  show _ = ((cellVal p g (952 + 1 * a.val) (0 + 1 * j.val) : ℝ) : EReal)
  have ha := a.isLt
  simp only [cellVal, Nat.one_mul, Nat.zero_add]
  rw [show ((952 + a.val) / 8) % 8 = 7 from by omega, show (952 + a.val) % 8 = a.val from by omega, show (952 + a.val) / 64 = 14 from by omega]
  all_goals simp only [Nat.reduceMul, Nat.reduceSub, pt_add_1024]

theorem piece960 (hp : Holds x0 p) (hg : Holds x1 g) (x : (Rect.unit (s := S1024x1024) ![960, 0] S8x1024.size inb_S1024x1024_S8x1024_960_0).shape.Idx) :
    (k0_pay289 (slabRun.sl.r_13 c arg1 harg1 x0) (slabRun.sl.r_144 c arg2 harg2 x1) (slabRun.sl.r_145 c arg1 harg1 arg2 harg2 x0 x1) k0_pay288) x = table p g ((Rect.unit (s := S1024x1024) ![960, 0] S8x1024.size inb_S1024x1024_S8x1024_960_0).emb x) := by
  obtain ⟨a, j, rfl⟩ : ∃ (a : Fin 8) (j : Fin 1024), x = ix2 a j := ⟨x 0, x 1, eq_ix2 x⟩
  rw [blk960_apply hp hg a j]
  show _ = ((cellVal p g (960 + 1 * a.val) (0 + 1 * j.val) : ℝ) : EReal)
  have ha := a.isLt
  simp only [cellVal, Nat.one_mul, Nat.zero_add]
  rw [show ((960 + a.val) / 8) % 8 = 0 from by omega, show (960 + a.val) % 8 = a.val from by omega, show (960 + a.val) / 64 = 15 from by omega]
  all_goals simp only [Nat.reduceMul, Nat.reduceSub, pt_add_1024]

theorem piece968 (hp : Holds x0 p) (hg : Holds x1 g) (x : (Rect.unit (s := S1024x1024) ![968, 0] S8x1024.size inb_S1024x1024_S8x1024_968_0).shape.Idx) :
    (k0_pay290 (slabRun.sl.r_14 c arg1 harg1 x0) (slabRun.sl.r_21 c arg1 harg1 x0) (slabRun.sl.r_143 c arg2 harg2 x1) (slabRun.sl.r_144 c arg2 harg2 x1)) x = table p g ((Rect.unit (s := S1024x1024) ![968, 0] S8x1024.size inb_S1024x1024_S8x1024_968_0).emb x) := by
  obtain ⟨a, j, rfl⟩ : ∃ (a : Fin 8) (j : Fin 1024), x = ix2 a j := ⟨x 0, x 1, eq_ix2 x⟩
  rw [blk968_apply hp hg a j]
  show _ = ((cellVal p g (968 + 1 * a.val) (0 + 1 * j.val) : ℝ) : EReal)
  have ha := a.isLt
  simp only [cellVal, Nat.one_mul, Nat.zero_add]
  rw [show ((968 + a.val) / 8) % 8 = 1 from by omega, show (968 + a.val) % 8 = a.val from by omega, show (968 + a.val) / 64 = 15 from by omega]
  all_goals simp only [Nat.reduceMul, Nat.reduceSub, pt_add_1024]

theorem piece976 (hp : Holds x0 p) (hg : Holds x1 g) (x : (Rect.unit (s := S1024x1024) ![976, 0] S8x1024.size inb_S1024x1024_S8x1024_976_0).shape.Idx) :
    (k0_pay292 (slabRun.sl.r_146 c arg1 harg1 arg2 harg2 x0 x1)) x = table p g ((Rect.unit (s := S1024x1024) ![976, 0] S8x1024.size inb_S1024x1024_S8x1024_976_0).emb x) := by
  obtain ⟨a, j, rfl⟩ : ∃ (a : Fin 8) (j : Fin 1024), x = ix2 a j := ⟨x 0, x 1, eq_ix2 x⟩
  rw [blk976_apply hp hg a j]
  show _ = ((cellVal p g (976 + 1 * a.val) (0 + 1 * j.val) : ℝ) : EReal)
  have ha := a.isLt
  simp only [cellVal, Nat.one_mul, Nat.zero_add]
  rw [show ((976 + a.val) / 8) % 8 = 2 from by omega, show (976 + a.val) % 8 = a.val from by omega, show (976 + a.val) / 64 = 15 from by omega]
  all_goals simp only [Nat.reduceMul, Nat.reduceSub, pt_add_1024]

theorem piece984 (hp : Holds x0 p) (hg : Holds x1 g) (x : (Rect.unit (s := S1024x1024) ![984, 0] S8x1024.size inb_S1024x1024_S8x1024_984_0).shape.Idx) :
    (k0_pay293 (slabRun.sl.r_16 c arg1 harg1 x0) (slabRun.sl.r_23 c arg1 harg1 x0) (slabRun.sl.r_143 c arg2 harg2 x1) (slabRun.sl.r_144 c arg2 harg2 x1)) x = table p g ((Rect.unit (s := S1024x1024) ![984, 0] S8x1024.size inb_S1024x1024_S8x1024_984_0).emb x) := by
  obtain ⟨a, j, rfl⟩ : ∃ (a : Fin 8) (j : Fin 1024), x = ix2 a j := ⟨x 0, x 1, eq_ix2 x⟩
  rw [blk984_apply hp hg a j]
  show _ = ((cellVal p g (984 + 1 * a.val) (0 + 1 * j.val) : ℝ) : EReal)
  have ha := a.isLt
  simp only [cellVal, Nat.one_mul, Nat.zero_add]
  rw [show ((984 + a.val) / 8) % 8 = 3 from by omega, show (984 + a.val) % 8 = a.val from by omega, show (984 + a.val) / 64 = 15 from by omega]
  all_goals simp only [Nat.reduceMul, Nat.reduceSub, pt_add_1024]

theorem piece992 (hp : Holds x0 p) (hg : Holds x1 g) (x : (Rect.unit (s := S1024x1024) ![992, 0] S8x1024.size inb_S1024x1024_S8x1024_992_0).shape.Idx) :
    (k0_pay294 (slabRun.sl.r_17 c arg1 harg1 x0) (slabRun.sl.r_24 c arg1 harg1 x0) (slabRun.sl.r_143 c arg2 harg2 x1) (slabRun.sl.r_144 c arg2 harg2 x1)) x = table p g ((Rect.unit (s := S1024x1024) ![992, 0] S8x1024.size inb_S1024x1024_S8x1024_992_0).emb x) := by
  obtain ⟨a, j, rfl⟩ : ∃ (a : Fin 8) (j : Fin 1024), x = ix2 a j := ⟨x 0, x 1, eq_ix2 x⟩
  rw [blk992_apply hp hg a j]
  show _ = ((cellVal p g (992 + 1 * a.val) (0 + 1 * j.val) : ℝ) : EReal)
  have ha := a.isLt
  simp only [cellVal, Nat.one_mul, Nat.zero_add]
  rw [show ((992 + a.val) / 8) % 8 = 4 from by omega, show (992 + a.val) % 8 = a.val from by omega, show (992 + a.val) / 64 = 15 from by omega]
  all_goals simp only [Nat.reduceMul, Nat.reduceSub, pt_add_1024]

theorem piece1000 (hp : Holds x0 p) (hg : Holds x1 g) (x : (Rect.unit (s := S1024x1024) ![1000, 0] S8x1024.size inb_S1024x1024_S8x1024_1000_0).shape.Idx) :
    (k0_pay297 (slabRun.sl.r_147 c arg1 harg1 arg2 harg2 x0 x1) (slabRun.sl.r_148 c arg1 harg1 arg2 harg2 x0 x1)) x = table p g ((Rect.unit (s := S1024x1024) ![1000, 0] S8x1024.size inb_S1024x1024_S8x1024_1000_0).emb x) := by
  obtain ⟨a, j, rfl⟩ : ∃ (a : Fin 8) (j : Fin 1024), x = ix2 a j := ⟨x 0, x 1, eq_ix2 x⟩
  rw [blk1000_apply hp hg a j]
  show _ = ((cellVal p g (1000 + 1 * a.val) (0 + 1 * j.val) : ℝ) : EReal)
  have ha := a.isLt
  simp only [cellVal, Nat.one_mul, Nat.zero_add]
  rw [show ((1000 + a.val) / 8) % 8 = 5 from by omega, show (1000 + a.val) % 8 = a.val from by omega, show (1000 + a.val) / 64 = 15 from by omega]
  all_goals simp only [Nat.reduceMul, Nat.reduceSub, pt_add_1024]

theorem piece1008 (hp : Holds x0 p) (hg : Holds x1 g) (x : (Rect.unit (s := S1024x1024) ![1008, 0] S8x1024.size inb_S1024x1024_S8x1024_1008_0).shape.Idx) :
    (k0_pay298 (slabRun.sl.r_19 c arg1 harg1 x0) (slabRun.sl.r_26 c arg1 harg1 x0) (slabRun.sl.r_143 c arg2 harg2 x1) (slabRun.sl.r_144 c arg2 harg2 x1)) x = table p g ((Rect.unit (s := S1024x1024) ![1008, 0] S8x1024.size inb_S1024x1024_S8x1024_1008_0).emb x) := by
  obtain ⟨a, j, rfl⟩ : ∃ (a : Fin 8) (j : Fin 1024), x = ix2 a j := ⟨x 0, x 1, eq_ix2 x⟩
  rw [blk1008_apply hp hg a j]
  show _ = ((cellVal p g (1008 + 1 * a.val) (0 + 1 * j.val) : ℝ) : EReal)
  have ha := a.isLt
  simp only [cellVal, Nat.one_mul, Nat.zero_add]
  rw [show ((1008 + a.val) / 8) % 8 = 6 from by omega, show (1008 + a.val) % 8 = a.val from by omega, show (1008 + a.val) / 64 = 15 from by omega]
  all_goals simp only [Nat.reduceMul, Nat.reduceSub, pt_add_1024]

theorem piece1016 (hp : Holds x0 p) (hg : Holds x1 g) (x : (Rect.unit (s := S1024x1024) ![1016, 0] S8x1024.size inb_S1024x1024_S8x1024_1016_0).shape.Idx) :
    (k0_pay299 (slabRun.sl.r_20 c arg1 harg1 x0) (slabRun.sl.r_27 c arg1 harg1 x0) (slabRun.sl.r_143 c arg2 harg2 x1) (slabRun.sl.r_144 c arg2 harg2 x1)) x = table p g ((Rect.unit (s := S1024x1024) ![1016, 0] S8x1024.size inb_S1024x1024_S8x1024_1016_0).emb x) := by
  obtain ⟨a, j, rfl⟩ : ∃ (a : Fin 8) (j : Fin 1024), x = ix2 a j := ⟨x 0, x 1, eq_ix2 x⟩
  rw [blk1016_apply hp hg a j]
  show _ = ((cellVal p g (1016 + 1 * a.val) (0 + 1 * j.val) : ℝ) : EReal)
  have ha := a.isLt
  simp only [cellVal, Nat.one_mul, Nat.zero_add]
  rw [show ((1016 + a.val) / 8) % 8 = 7 from by omega, show (1016 + a.val) % 8 = a.val from by omega, show (1016 + a.val) / 64 = 15 from by omega]
  all_goals simp only [Nat.reduceMul, Nat.reduceSub, pt_add_1024]

end Cert.KernelIdeal.Hand

end
-- ==== Proof.KTable.lean ====
/-
  The loads of the table's slabs (idealized kernel).

  After the stores of slab k the body loads rows 256 k to 256 k + 255 back. Every piece stored so
  far is a block of the table function; the 128 pieces tile the table, so some piece covers every
  entry, and a piece stored after slab k lies at a higher row than any entry of slab k. Hence each
  load reads the table function on its slab.
-/
import proofs.«103642_g13554916786703_cont_week2b_739_36_alg».proof.Proof.KPiece0
import proofs.«103642_g13554916786703_cont_week2b_739_36_alg».proof.Proof.KPiece1
import proofs.«103642_g13554916786703_cont_week2b_739_36_alg».proof.Proof.KPiece2
import proofs.«103642_g13554916786703_cont_week2b_739_36_alg».proof.Proof.KPiece3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Lay Cert.Spec

variable {c : Dev nD}
variable {arg1 : Memref sig .tc .vmem S1x2x1024 .f32} {harg1 : arg1.IsWhole} {arg2 : Memref sig .tc .vmem S1x2x1024 .f32} {harg2 : arg2.IsWhole}
variable {arg4 : Memref sig .tc .vmem S1024x1024 .f32}
variable {x0 x1 : Vec Ideal S1x2x1024 .f32} {p g : Pt → Fin 2 → ℝ}

/-- Every piece stored up to this slab is a block of the table function. -/
theorem pieces_HS0_32 (hp : Holds x0 p) (hg : Holds x1 g) :
    ∀ q ∈ slabRun.sl.HS0_32 c arg1 harg1 arg2 harg2 x0 x1, ∀ x : q.1.shape.Idx, q.2 x = table p g (q.1.emb x) := by
  intro q hq
  unfold slabRun.sl.HS0_32 at hq
  simp only [List.mem_cons, List.mem_singleton, List.not_mem_nil, or_false] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece248 hp hg
  · exact piece240 hp hg
  · exact piece232 hp hg
  · exact piece224 hp hg
  · exact piece216 hp hg
  · exact piece208 hp hg
  · exact piece200 hp hg
  · exact piece192 hp hg
  · exact piece184 hp hg
  · exact piece176 hp hg
  · exact piece168 hp hg
  · exact piece160 hp hg
  · exact piece152 hp hg
  · exact piece144 hp hg
  · exact piece136 hp hg
  · exact piece128 hp hg
  · exact piece120 hp hg
  · exact piece112 hp hg
  · exact piece104 hp hg
  · exact piece96 hp hg
  · exact piece88 hp hg
  · exact piece80 hp hg
  · exact piece72 hp hg
  · exact piece64 hp hg
  · exact piece56 hp hg
  · exact piece48 hp hg
  · exact piece40 hp hg
  · exact piece32 hp hg
  · exact piece24 hp hg
  · exact piece16 hp hg
  · exact piece8 hp hg
  · exact piece0 hp hg

/-- Every piece stored up to this slab is a block of the table function. -/
theorem pieces_HS0_64 (hp : Holds x0 p) (hg : Holds x1 g) :
    ∀ q ∈ slabRun.sl.HS0_64 c arg1 harg1 arg2 harg2 x0 x1, ∀ x : q.1.shape.Idx, q.2 x = table p g (q.1.emb x) := by
  intro q hq
  unfold slabRun.sl.HS0_64 at hq
  simp only [List.mem_cons] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | hq
  · exact piece504 hp hg
  · exact piece496 hp hg
  · exact piece488 hp hg
  · exact piece480 hp hg
  · exact piece472 hp hg
  · exact piece464 hp hg
  · exact piece456 hp hg
  · exact piece448 hp hg
  · exact piece440 hp hg
  · exact piece432 hp hg
  · exact piece424 hp hg
  · exact piece416 hp hg
  · exact piece408 hp hg
  · exact piece400 hp hg
  · exact piece392 hp hg
  · exact piece384 hp hg
  · exact piece376 hp hg
  · exact piece368 hp hg
  · exact piece360 hp hg
  · exact piece352 hp hg
  · exact piece344 hp hg
  · exact piece336 hp hg
  · exact piece328 hp hg
  · exact piece320 hp hg
  · exact piece312 hp hg
  · exact piece304 hp hg
  · exact piece296 hp hg
  · exact piece288 hp hg
  · exact piece280 hp hg
  · exact piece272 hp hg
  · exact piece264 hp hg
  · exact piece256 hp hg
  · exact pieces_HS0_32 hp hg q hq

/-- A piece of this list is one of the earlier list or lies at row 256 or beyond. -/
theorem newer_HS0_64 : ∀ q ∈ slabRun.sl.HS0_64 (F := Ideal) c arg1 harg1 arg2 harg2 x0 x1, q ∈ slabRun.sl.HS0_32 c arg1 harg1 arg2 harg2 x0 x1 ∨ 256 ≤ q.1.off 0 := by
  intro q hq
  unfold slabRun.sl.HS0_64 at hq
  simp only [List.mem_cons] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | hq
  · exact Or.inr (by show (256 : Nat) ≤ 504; norm_num)
  · exact Or.inr (by show (256 : Nat) ≤ 496; norm_num)
  · exact Or.inr (by show (256 : Nat) ≤ 488; norm_num)
  · exact Or.inr (by show (256 : Nat) ≤ 480; norm_num)
  · exact Or.inr (by show (256 : Nat) ≤ 472; norm_num)
  · exact Or.inr (by show (256 : Nat) ≤ 464; norm_num)
  · exact Or.inr (by show (256 : Nat) ≤ 456; norm_num)
  · exact Or.inr (by show (256 : Nat) ≤ 448; norm_num)
  · exact Or.inr (by show (256 : Nat) ≤ 440; norm_num)
  · exact Or.inr (by show (256 : Nat) ≤ 432; norm_num)
  · exact Or.inr (by show (256 : Nat) ≤ 424; norm_num)
  · exact Or.inr (by show (256 : Nat) ≤ 416; norm_num)
  · exact Or.inr (by show (256 : Nat) ≤ 408; norm_num)
  · exact Or.inr (by show (256 : Nat) ≤ 400; norm_num)
  · exact Or.inr (by show (256 : Nat) ≤ 392; norm_num)
  · exact Or.inr (by show (256 : Nat) ≤ 384; norm_num)
  · exact Or.inr (by show (256 : Nat) ≤ 376; norm_num)
  · exact Or.inr (by show (256 : Nat) ≤ 368; norm_num)
  · exact Or.inr (by show (256 : Nat) ≤ 360; norm_num)
  · exact Or.inr (by show (256 : Nat) ≤ 352; norm_num)
  · exact Or.inr (by show (256 : Nat) ≤ 344; norm_num)
  · exact Or.inr (by show (256 : Nat) ≤ 336; norm_num)
  · exact Or.inr (by show (256 : Nat) ≤ 328; norm_num)
  · exact Or.inr (by show (256 : Nat) ≤ 320; norm_num)
  · exact Or.inr (by show (256 : Nat) ≤ 312; norm_num)
  · exact Or.inr (by show (256 : Nat) ≤ 304; norm_num)
  · exact Or.inr (by show (256 : Nat) ≤ 296; norm_num)
  · exact Or.inr (by show (256 : Nat) ≤ 288; norm_num)
  · exact Or.inr (by show (256 : Nat) ≤ 280; norm_num)
  · exact Or.inr (by show (256 : Nat) ≤ 272; norm_num)
  · exact Or.inr (by show (256 : Nat) ≤ 264; norm_num)
  · exact Or.inr (by show (256 : Nat) ≤ 256; norm_num)
  · exact Or.inl hq

/-- Every piece stored up to this slab is a block of the table function. -/
theorem pieces_HS0_96 (hp : Holds x0 p) (hg : Holds x1 g) :
    ∀ q ∈ slabRun.sl.HS0_96 c arg1 harg1 arg2 harg2 x0 x1, ∀ x : q.1.shape.Idx, q.2 x = table p g (q.1.emb x) := by
  intro q hq
  unfold slabRun.sl.HS0_96 at hq
  simp only [List.mem_cons] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | hq
  · exact piece760 hp hg
  · exact piece752 hp hg
  · exact piece744 hp hg
  · exact piece736 hp hg
  · exact piece728 hp hg
  · exact piece720 hp hg
  · exact piece712 hp hg
  · exact piece704 hp hg
  · exact piece696 hp hg
  · exact piece688 hp hg
  · exact piece680 hp hg
  · exact piece672 hp hg
  · exact piece664 hp hg
  · exact piece656 hp hg
  · exact piece648 hp hg
  · exact piece640 hp hg
  · exact piece632 hp hg
  · exact piece624 hp hg
  · exact piece616 hp hg
  · exact piece608 hp hg
  · exact piece600 hp hg
  · exact piece592 hp hg
  · exact piece584 hp hg
  · exact piece576 hp hg
  · exact piece568 hp hg
  · exact piece560 hp hg
  · exact piece552 hp hg
  · exact piece544 hp hg
  · exact piece536 hp hg
  · exact piece528 hp hg
  · exact piece520 hp hg
  · exact piece512 hp hg
  · exact pieces_HS0_64 hp hg q hq

/-- A piece of this list is one of the earlier list or lies at row 512 or beyond. -/
theorem newer_HS0_96 : ∀ q ∈ slabRun.sl.HS0_96 (F := Ideal) c arg1 harg1 arg2 harg2 x0 x1, q ∈ slabRun.sl.HS0_64 c arg1 harg1 arg2 harg2 x0 x1 ∨ 512 ≤ q.1.off 0 := by
  intro q hq
  unfold slabRun.sl.HS0_96 at hq
  simp only [List.mem_cons] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | hq
  · exact Or.inr (by show (512 : Nat) ≤ 760; norm_num)
  · exact Or.inr (by show (512 : Nat) ≤ 752; norm_num)
  · exact Or.inr (by show (512 : Nat) ≤ 744; norm_num)
  · exact Or.inr (by show (512 : Nat) ≤ 736; norm_num)
  · exact Or.inr (by show (512 : Nat) ≤ 728; norm_num)
  · exact Or.inr (by show (512 : Nat) ≤ 720; norm_num)
  · exact Or.inr (by show (512 : Nat) ≤ 712; norm_num)
  · exact Or.inr (by show (512 : Nat) ≤ 704; norm_num)
  · exact Or.inr (by show (512 : Nat) ≤ 696; norm_num)
  · exact Or.inr (by show (512 : Nat) ≤ 688; norm_num)
  · exact Or.inr (by show (512 : Nat) ≤ 680; norm_num)
  · exact Or.inr (by show (512 : Nat) ≤ 672; norm_num)
  · exact Or.inr (by show (512 : Nat) ≤ 664; norm_num)
  · exact Or.inr (by show (512 : Nat) ≤ 656; norm_num)
  · exact Or.inr (by show (512 : Nat) ≤ 648; norm_num)
  · exact Or.inr (by show (512 : Nat) ≤ 640; norm_num)
  · exact Or.inr (by show (512 : Nat) ≤ 632; norm_num)
  · exact Or.inr (by show (512 : Nat) ≤ 624; norm_num)
  · exact Or.inr (by show (512 : Nat) ≤ 616; norm_num)
  · exact Or.inr (by show (512 : Nat) ≤ 608; norm_num)
  · exact Or.inr (by show (512 : Nat) ≤ 600; norm_num)
  · exact Or.inr (by show (512 : Nat) ≤ 592; norm_num)
  · exact Or.inr (by show (512 : Nat) ≤ 584; norm_num)
  · exact Or.inr (by show (512 : Nat) ≤ 576; norm_num)
  · exact Or.inr (by show (512 : Nat) ≤ 568; norm_num)
  · exact Or.inr (by show (512 : Nat) ≤ 560; norm_num)
  · exact Or.inr (by show (512 : Nat) ≤ 552; norm_num)
  · exact Or.inr (by show (512 : Nat) ≤ 544; norm_num)
  · exact Or.inr (by show (512 : Nat) ≤ 536; norm_num)
  · exact Or.inr (by show (512 : Nat) ≤ 528; norm_num)
  · exact Or.inr (by show (512 : Nat) ≤ 520; norm_num)
  · exact Or.inr (by show (512 : Nat) ≤ 512; norm_num)
  · exact Or.inl hq

/-- Every piece stored up to this slab is a block of the table function. -/
theorem pieces_HS0_128 (hp : Holds x0 p) (hg : Holds x1 g) :
    ∀ q ∈ slabRun.sl.HS0_128 c arg1 harg1 arg2 harg2 x0 x1, ∀ x : q.1.shape.Idx, q.2 x = table p g (q.1.emb x) := by
  intro q hq
  unfold slabRun.sl.HS0_128 at hq
  simp only [List.mem_cons] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | hq
  · exact piece1016 hp hg
  · exact piece1008 hp hg
  · exact piece1000 hp hg
  · exact piece992 hp hg
  · exact piece984 hp hg
  · exact piece976 hp hg
  · exact piece968 hp hg
  · exact piece960 hp hg
  · exact piece952 hp hg
  · exact piece944 hp hg
  · exact piece936 hp hg
  · exact piece928 hp hg
  · exact piece920 hp hg
  · exact piece912 hp hg
  · exact piece904 hp hg
  · exact piece896 hp hg
  · exact piece888 hp hg
  · exact piece880 hp hg
  · exact piece872 hp hg
  · exact piece864 hp hg
  · exact piece856 hp hg
  · exact piece848 hp hg
  · exact piece840 hp hg
  · exact piece832 hp hg
  · exact piece824 hp hg
  · exact piece816 hp hg
  · exact piece808 hp hg
  · exact piece800 hp hg
  · exact piece792 hp hg
  · exact piece784 hp hg
  · exact piece776 hp hg
  · exact piece768 hp hg
  · exact pieces_HS0_96 hp hg q hq

/-- A piece of this list is one of the earlier list or lies at row 768 or beyond. -/
theorem newer_HS0_128 : ∀ q ∈ slabRun.sl.HS0_128 (F := Ideal) c arg1 harg1 arg2 harg2 x0 x1, q ∈ slabRun.sl.HS0_96 c arg1 harg1 arg2 harg2 x0 x1 ∨ 768 ≤ q.1.off 0 := by
  intro q hq
  unfold slabRun.sl.HS0_128 at hq
  simp only [List.mem_cons] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | hq
  · exact Or.inr (by show (768 : Nat) ≤ 1016; norm_num)
  · exact Or.inr (by show (768 : Nat) ≤ 1008; norm_num)
  · exact Or.inr (by show (768 : Nat) ≤ 1000; norm_num)
  · exact Or.inr (by show (768 : Nat) ≤ 992; norm_num)
  · exact Or.inr (by show (768 : Nat) ≤ 984; norm_num)
  · exact Or.inr (by show (768 : Nat) ≤ 976; norm_num)
  · exact Or.inr (by show (768 : Nat) ≤ 968; norm_num)
  · exact Or.inr (by show (768 : Nat) ≤ 960; norm_num)
  · exact Or.inr (by show (768 : Nat) ≤ 952; norm_num)
  · exact Or.inr (by show (768 : Nat) ≤ 944; norm_num)
  · exact Or.inr (by show (768 : Nat) ≤ 936; norm_num)
  · exact Or.inr (by show (768 : Nat) ≤ 928; norm_num)
  · exact Or.inr (by show (768 : Nat) ≤ 920; norm_num)
  · exact Or.inr (by show (768 : Nat) ≤ 912; norm_num)
  · exact Or.inr (by show (768 : Nat) ≤ 904; norm_num)
  · exact Or.inr (by show (768 : Nat) ≤ 896; norm_num)
  · exact Or.inr (by show (768 : Nat) ≤ 888; norm_num)
  · exact Or.inr (by show (768 : Nat) ≤ 880; norm_num)
  · exact Or.inr (by show (768 : Nat) ≤ 872; norm_num)
  · exact Or.inr (by show (768 : Nat) ≤ 864; norm_num)
  · exact Or.inr (by show (768 : Nat) ≤ 856; norm_num)
  · exact Or.inr (by show (768 : Nat) ≤ 848; norm_num)
  · exact Or.inr (by show (768 : Nat) ≤ 840; norm_num)
  · exact Or.inr (by show (768 : Nat) ≤ 832; norm_num)
  · exact Or.inr (by show (768 : Nat) ≤ 824; norm_num)
  · exact Or.inr (by show (768 : Nat) ≤ 816; norm_num)
  · exact Or.inr (by show (768 : Nat) ≤ 808; norm_num)
  · exact Or.inr (by show (768 : Nat) ≤ 800; norm_num)
  · exact Or.inr (by show (768 : Nat) ≤ 792; norm_num)
  · exact Or.inr (by show (768 : Nat) ≤ 784; norm_num)
  · exact Or.inr (by show (768 : Nat) ≤ 776; norm_num)
  · exact Or.inr (by show (768 : Nat) ≤ 768; norm_num)
  · exact Or.inl hq

/-! ## The covers -/

/-- The 128 pieces tile the table. -/
theorem cover_all (y : S1024x1024.Idx) : ∃ q ∈ slabRun.sl.HS0_128 (F := Ideal) c arg1 harg1 arg2 harg2 x0 x1, y ∈ q.1.set :=
  View.cover_of_tiledL (s := S1024x1024) _ (![8, 1024] : Fin 2 → Nat) (by sl_kernel_rfl) y

/-- A piece that covers an entry starts at or before its row. -/
theorem off_le_of_mem {q : View.Piece (Elt Ideal) S1024x1024 .f32} {y : S1024x1024.Idx} (h : y ∈ q.1.set) : q.1.off 0 ≤ (y 0).val := by
  obtain ⟨k, _, hk⟩ := q.1.mem_set.mp h 0
  omega

theorem cover_96 (y : S1024x1024.Idx) (hy : (y 0).val < 768) : ∃ q ∈ slabRun.sl.HS0_96 (F := Ideal) c arg1 harg1 arg2 harg2 x0 x1, y ∈ q.1.set := by
  obtain ⟨q, hq, hyq⟩ := cover_all (c := c) (arg1 := arg1) (harg1 := harg1) (arg2 := arg2) (harg2 := harg2) (x0 := x0) (x1 := x1) y
  rcases newer_HS0_128 q hq with h | h
  · exact ⟨q, h, hyq⟩
  · have := off_le_of_mem hyq; omega

theorem cover_64 (y : S1024x1024.Idx) (hy : (y 0).val < 512) : ∃ q ∈ slabRun.sl.HS0_64 (F := Ideal) c arg1 harg1 arg2 harg2 x0 x1, y ∈ q.1.set := by
  obtain ⟨q, hq, hyq⟩ := cover_96 (c := c) (arg1 := arg1) (harg1 := harg1) (arg2 := arg2) (harg2 := harg2) (x0 := x0) (x1 := x1) y (by omega)
  rcases newer_HS0_96 q hq with h | h
  · exact ⟨q, h, hyq⟩
  · have := off_le_of_mem hyq; omega

theorem cover_32 (y : S1024x1024.Idx) (hy : (y 0).val < 256) : ∃ q ∈ slabRun.sl.HS0_32 (F := Ideal) c arg1 harg1 arg2 harg2 x0 x1, y ∈ q.1.set := by
  obtain ⟨q, hq, hyq⟩ := cover_64 (c := c) (arg1 := arg1) (harg1 := harg1) (arg2 := arg2) (harg2 := harg2) (x0 := x0) (x1 := x1) y (by omega)
  rcases newer_HS0_64 q hq with h | h
  · exact ⟨q, h, hyq⟩
  · have := off_le_of_mem hyq; omega

/-! ## The loads -/

/-- The load of rows 0 to 255 reads the table function there. -/
theorem v693_apply (hp : Holds x0 p) (hg : Holds x1 g) (ρ : Fin 256) (k : Fin 1024) :
    slabRun.sl.v693 c arg1 harg1 arg2 harg2 arg4 x0 x1 (ix2 ρ k) = ((cellVal p g (0 + ρ.val) k.val : ℝ) : EReal) := by
  have hρ := ρ.isLt
  unfold slabRun.sl.v693
  rw [View.readCov_eq_canon']
  show View.canon _ ((Rect.unit (s := S1024x1024) ![0, 0] S256x1024.size inb_S1024x1024_S256x1024_0_0).toLoadRect.idx (ix2 ρ k)) = _
  rw [View.canon_apply_of_pieces (table p g) _ (pieces_HS0_32 hp hg) _ (cover_32 _ (by show 0 + 1 * ρ.val < 256; omega))]
  show ((cellVal p g (0 + 1 * ρ.val) (0 + 1 * k.val) : ℝ) : EReal) = _
  simp only [Nat.one_mul, Nat.zero_add]

/-- The load of rows 256 to 511 reads the table function there. -/
theorem v1300_apply (hp : Holds x0 p) (hg : Holds x1 g) (ρ : Fin 256) (k : Fin 1024) :
    slabRun.sl.v1300 c arg1 harg1 arg2 harg2 arg4 x0 x1 (ix2 ρ k) = ((cellVal p g (256 + ρ.val) k.val : ℝ) : EReal) := by
  have hρ := ρ.isLt
  unfold slabRun.sl.v1300
  rw [View.readCov_eq_canon']
  show View.canon _ ((Rect.unit (s := S1024x1024) ![256, 0] S256x1024.size inb_S1024x1024_S256x1024_256_0).toLoadRect.idx (ix2 ρ k)) = _
  rw [View.canon_apply_of_pieces (table p g) _ (pieces_HS0_64 hp hg) _ (cover_64 _ (by show 256 + 1 * ρ.val < 512; omega))]
  show ((cellVal p g (256 + 1 * ρ.val) (0 + 1 * k.val) : ℝ) : EReal) = _
  simp only [Nat.one_mul, Nat.zero_add]

/-- The load of rows 512 to 767 reads the table function there. -/
theorem v1907_apply (hp : Holds x0 p) (hg : Holds x1 g) (ρ : Fin 256) (k : Fin 1024) :
    slabRun.sl.v1907 c arg1 harg1 arg2 harg2 arg4 x0 x1 (ix2 ρ k) = ((cellVal p g (512 + ρ.val) k.val : ℝ) : EReal) := by
  have hρ := ρ.isLt
  unfold slabRun.sl.v1907
  rw [View.readCov_eq_canon']
  show View.canon _ ((Rect.unit (s := S1024x1024) ![512, 0] S256x1024.size inb_S1024x1024_S256x1024_512_0).toLoadRect.idx (ix2 ρ k)) = _
  rw [View.canon_apply_of_pieces (table p g) _ (pieces_HS0_96 hp hg) _ (cover_96 _ (by show 512 + 1 * ρ.val < 768; omega))]
  show ((cellVal p g (512 + 1 * ρ.val) (0 + 1 * k.val) : ℝ) : EReal) = _
  simp only [Nat.one_mul, Nat.zero_add]

/-- The load of rows 768 to 1023 reads the table function there. -/
theorem v2514_apply (hp : Holds x0 p) (hg : Holds x1 g) (ρ : Fin 256) (k : Fin 1024) :
    slabRun.sl.v2514 c arg1 harg1 arg2 harg2 arg4 x0 x1 (ix2 ρ k) = ((cellVal p g (768 + ρ.val) k.val : ℝ) : EReal) := by
  have hρ := ρ.isLt
  unfold slabRun.sl.v2514
  rw [View.readCov_eq_canon']
  show View.canon _ ((Rect.unit (s := S1024x1024) ![768, 0] ![256, 1024] inb_S1024x1024_S256x1024_768_0).toLoadRect.idx (ix2 ρ k)) = _
  rw [View.canon_apply_of_pieces (table p g) _ (pieces_HS0_128 hp hg) _ (cover_all _)]
  show ((cellVal p g (768 + 1 * ρ.val) (0 + 1 * k.val) : ℝ) : EReal) = _
  simp only [Nat.one_mul, Nat.zero_add]

end Cert.KernelIdeal.Hand

end
-- ==== Proof.KMin.lean ====
/-
  The idealized kernel's per-sample minimum.

  After every 256 rows of the table the body multiplies that slab by a 1024 x 128 matrix of ones
  into a zero accumulator: every column of the product is the slab's row sums. A row of the table
  sums, over a full circle of points, to twice the sample's loss at the row's rotation. The body
  takes the minimum of each slab's product over rows and columns from +infinity, which is the
  infimum over the slab's 256 rows, and then the minimum of the four. Every rotation is held by
  some row, so that is twice the minimum over the 1024 rotations.
-/
import proofs.«103642_g13554916786703_cont_week2b_739_36_alg».proof.Proof.KTable
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.Lay Cert.Spec

/-! ## Sums and infima of extended reals -/

/-- The coercion of reals into extended reals goes through a finite sum. -/
theorem coe_finset_sum {ι : Type} (s : Finset ι) (f : ι → ℝ) :
    (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

/-- A fold of `min` from the top element is the infimum. -/
theorem fold_min_top {ι : Type} (s : Finset ι) (f : ι → EReal) : s.fold min ⊤ f = s.inf f := by
  induction s using Finset.cons_induction with
  | empty => simp
  | cons a s ha ih => rw [Finset.fold_cons, Finset.inf_cons, ih]

/-- The four slabs' infima together are the infimum over all 1024 rows. -/
theorem inf_four (H : ℕ → EReal) :
    min (min (Finset.univ.inf fun ρ : Fin 256 => H (0 + ρ.val)) (Finset.univ.inf fun ρ : Fin 256 => H (256 + ρ.val)))
        (min (Finset.univ.inf fun ρ : Fin 256 => H (512 + ρ.val)) (Finset.univ.inf fun ρ : Fin 256 => H (768 + ρ.val)))
      = Finset.univ.inf fun ρ : Fin 1024 => H ρ.val := by
  refine le_antisymm (Finset.le_inf fun ρ _ => ?_) (le_min (le_min ?_ ?_) (le_min ?_ ?_))
  · have hρ := ρ.isLt
    by_cases h1 : ρ.val < 256
    · refine (min_le_left _ _).trans ((min_le_left _ _).trans ?_)
      exact (Finset.inf_le (Finset.mem_univ (⟨ρ.val, h1⟩ : Fin 256))).trans (le_of_eq (congrArg H (Nat.zero_add _)))
    by_cases h2 : ρ.val < 512
    · refine (min_le_left _ _).trans ((min_le_right _ _).trans ?_)
      exact (Finset.inf_le (Finset.mem_univ (⟨ρ.val - 256, by omega⟩ : Fin 256))).trans (le_of_eq (congrArg H (by show 256 + (ρ.val - 256) = ρ.val; omega)))
    by_cases h3 : ρ.val < 768
    · refine (min_le_right _ _).trans ((min_le_left _ _).trans ?_)
      exact (Finset.inf_le (Finset.mem_univ (⟨ρ.val - 512, by omega⟩ : Fin 256))).trans (le_of_eq (congrArg H (by show 512 + (ρ.val - 512) = ρ.val; omega)))
    · refine (min_le_right _ _).trans ((min_le_right _ _).trans ?_)
      exact (Finset.inf_le (Finset.mem_univ (⟨ρ.val - 768, by omega⟩ : Fin 256))).trans (le_of_eq (congrArg H (by show 768 + (ρ.val - 768) = ρ.val; omega)))
  · exact Finset.le_inf fun ρ _ => Finset.inf_le (f := fun ρ : Fin 1024 => H ρ.val) (Finset.mem_univ (⟨0 + ρ.val, by have := ρ.isLt; omega⟩ : Fin 1024))
  · exact Finset.le_inf fun ρ _ => Finset.inf_le (f := fun ρ : Fin 1024 => H ρ.val) (Finset.mem_univ (⟨256 + ρ.val, by have := ρ.isLt; omega⟩ : Fin 1024))
  · exact Finset.le_inf fun ρ _ => Finset.inf_le (f := fun ρ : Fin 1024 => H ρ.val) (Finset.mem_univ (⟨512 + ρ.val, by have := ρ.isLt; omega⟩ : Fin 1024))
  · exact Finset.le_inf fun ρ _ => Finset.inf_le (f := fun ρ : Fin 1024 => H ρ.val) (Finset.mem_univ (⟨768 + ρ.val, by have := ρ.isLt; omega⟩ : Fin 1024))

/-- The infimum over the rows is the infimum over the rotations, and that is twice the sample's minimum. -/
theorem inf_rows (p g : Pt → Fin 2 → ℝ) :
    (Finset.univ.inf fun ρ : Fin 1024 => ((2 * rot p g (rowRot (pt ρ.val)) : ℝ) : EReal)) = ((2 * minRot p g : ℝ) : EReal) := by
  have h1 : (Finset.univ.inf fun ρ : Fin 1024 => ((2 * rot p g (rowRot (pt ρ.val)) : ℝ) : EReal))
      = Finset.univ.inf fun i : Pt => ((2 * rot p g i : ℝ) : EReal) := by
    refine le_antisymm (Finset.le_inf fun i _ => ?_) (Finset.le_inf fun ρ _ => ?_)
    · obtain ⟨ρ, rfl⟩ := rowRot_surjective i
      refine (Finset.inf_le (Finset.mem_univ ρ)).trans (le_of_eq ?_)
      show ((2 * rot p g (rowRot (pt ρ.val)) : ℝ) : EReal) = _
      rw [pt_of_fin]
    · exact Finset.inf_le (f := fun i : Pt => ((2 * rot p g i : ℝ) : EReal)) (Finset.mem_univ (rowRot (pt ρ.val)))
  rw [h1]
  exact inf_coe_mul 2 (by norm_num) (rot p g)

/-! ## A row of the table sums to twice the loss at the row's rotation -/

theorem cellVal_sum (p g : Pt → Fin 2 → ℝ) (n : ℕ) (hn : n < 1024) :
    ∑ j : Fin 1024, cellVal p g n j.val = 2 * rot p g (rowRot (pt n)) := by
  have ha : ∀ j : Fin 1024, pt (j.val + (1024 - 128 * ((n / 8) % 8))) = j - pt (128 * ((n / 8) % 8)) := fun j => Fin.ext (by
    have := j.isLt
    simp only [Fin.coe_sub, pt_val]; omega)
  have hb : ∀ j : Fin 1024, pt (j.val + (n % 8 + 8 * (n / 64))) = j + pt (n % 8 + 8 * (n / 64)) := fun j => Fin.ext (by
    have := j.isLt
    simp only [Fin.val_add, pt_val]; omega)
  have hab : pt (128 * ((n / 8) % 8)) + pt (n % 8 + 8 * (n / 64)) = rowRot (pt n) := Fin.ext (by
    simp only [Fin.val_add, pt_val, rowRot]; omega)
  rw [← hab, ← kernel_row]
  refine Finset.sum_congr rfl fun j _ => ?_
  unfold cellVal
  rw [ha, hb]

/-- The same, read as extended reals. -/
theorem cellVal_sum_coe (p g : Pt → Fin 2 → ℝ) (n : ℕ) (hn : n < 1024) :
    (∑ j : Fin 1024, ((cellVal p g n j.val : ℝ) : EReal)) = ((2 * rot p g (rowRot (pt n)) : ℝ) : EReal) := by
  rw [coe_finset_sum, cellVal_sum p g n hn]

/-! ## The row sums by the matrix of ones -/

/-- The matrix of ones. -/
theorem ones_apply (y : S1024x128.Idx) : k0_pay33 (F := Ideal) y = 1 := by
  unfold k0_pay33
  exact Cert.Consts.ofBits_one.trans EReal.coe_one

/-- A slab times the matrix of ones, into the zero accumulator: every column is the row sum. -/
theorem rowsum_apply (v : FVec Ideal S256x1024 .f32) (ρ : Fin 256) (k : Fin 128) :
    matmul dot_S256x1024_S1024x128_S256x128_1_0_0_1_n_n none v (k0_pay33 (F := Ideal)) (constant S256x128 .f32 0x00000000#32) (ix2 ρ k)
      = ∑ j : Fin 1024, v (ix2 ρ j) := by
  show FloatOps.matmul dot_S256x1024_S1024x128_S256x128_1_0_0_1_n_n none v (k0_pay33 (F := Ideal)) (constant S256x128 .f32 0x00000000#32) (ix2 ρ k) = _
  rw [Ideal.matmul_constant_zero_apply, ← Equiv.sum_comp (contrEquiv1 dot_S256x1024_S1024x128_S256x128_1_0_0_1_n_n 1024 rfl rfl).symm]
  refine Finset.sum_congr rfl fun j _ => ?_
  have c2 := contrEquiv1_symm_val dot_S256x1024_S1024x128_S256x128_1_0_0_1_n_n 1024 rfl rfl j
  have l2 : (dot_S256x1024_S1024x128_S256x128_1_0_0_1_n_n).lhsIdx (ix2 ρ k) ((contrEquiv1 dot_S256x1024_S1024x128_S256x128_1_0_0_1_n_n 1024 rfl rfl).symm j) = ix2 ρ j := by
    funext ax; apply Fin.ext
    match ax with
    | ⟨0, _⟩ => simp [DotDims.lhsIdx, dot_S256x1024_S1024x128_S256x128_1_0_0_1_n_n]; rfl
    | ⟨1, _⟩ => simp [DotDims.lhsIdx, dot_S256x1024_S1024x128_S256x128_1_0_0_1_n_n]; exact c2
  rw [l2, ones_apply, mul_one]

/-! ## A slab's minimum -/

/-- The row sums viewed 1 x 256 x 128. -/
theorem cast3_apply (w : FVec Ideal S256x128 .f32) (i : S1x256x128.Idx) :
    shapeCast S1x256x128 w shapeCasts_S256x128_S1x256x128 i = w (ix2 (i 1) (i 2)) := by
  refine (shapeCast_addUnit_apply ![256, 128] w shapeCasts_S256x128_S1x256x128 i).trans (congrArg w ?_)
  funext a
  match a with
  | ⟨0, _⟩ => rfl
  | ⟨1, _⟩ => rfl

/-- The minimum over a slab whose 128 columns agree is the infimum over its 256 rows. -/
theorem slabMin_apply (w : FVec Ideal S256x128 .f32) (f : Fin 256 → EReal) (hw : ∀ ρ k, w (ix2 ρ k) = f ρ) (j : S1.Idx) :
    multiReduction (F := Ideal) .minimumf [1, 2] S1 (shapeCast S1x256x128 w shapeCasts_S256x128_S1x256x128) 0x7F800000#32 reduces_S1x256x128_S1 (.inl rfl) rfl j
      = Finset.univ.inf f := by
  refine (multiReduction_minimumf_eq_fold (F := Ideal) _ _ reduces_S1x256x128_S1 _ _ j).trans ?_
  rw [Finset.filter_true_of_mem fun i _ => funext fun b => Fin.ext (by
    have h1 := (reduces_S1x256x128_S1.drop i b).isLt; have h2 := (j b).isLt
    have e : S1.size b = 1 := by
      match b with
      | ⟨0, _⟩ => rfl
    omega)]
  show Finset.fold min (Ideal.ofBits .f32 0x7F800000#32) _ _ = _
  rw [Cert.Consts.ofBits_top, fold_min_top]
  refine le_antisymm (Finset.le_inf fun ρ _ => ?_) (Finset.le_inf fun i _ => ?_)
  · refine (Finset.inf_le (Finset.mem_univ (ix3 0 ρ 0))).trans (le_of_eq ?_)
    rw [cast3_apply]; exact hw _ _
  · refine (Finset.inf_le (Finset.mem_univ (i 1))).trans (le_of_eq ?_)
    rw [cast3_apply]; exact (hw _ _).symm

/-- The minimum's one entry, extracted and broadcast to 1 x 1. -/
theorem scalar_apply (m : FVec Ideal S1 .f32) :
    (broadcast S1x1 (extractAt ![0, 0, 0] (shapeCast S1x1x1 m shapeCasts_S1_S1x1x1) inpos_S1x1x1_p0_0_0) : FVec Ideal S1x1 .f32) (ix2 0 0) = m (ix1 0) := by
  show shapeCast S1x1x1 m shapeCasts_S1_S1x1x1 _ = _
  refine shapeCast_apply _ _ _ _ ?_
  simp only [Shape.rowMajor_val_one, Shape.rowMajor_val_three]; rfl

/-! ## The four slabs -/

/-- A slab that holds rows `off` to `off + 255` of the table: its row sums. -/
theorem slab_rowsum (v : FVec Ideal S256x1024 .f32) (off : ℕ) (hoff : off + 256 ≤ 1024) (p g : Pt → Fin 2 → ℝ)
    (hv : ∀ (ρ : Fin 256) (k : Fin 1024), v (ix2 ρ k) = ((cellVal p g (off + ρ.val) k.val : ℝ) : EReal)) (ρ : Fin 256) (k : Fin 128) :
    matmul dot_S256x1024_S1024x128_S256x128_1_0_0_1_n_n none v (k0_pay33 (F := Ideal)) (constant S256x128 .f32 0x00000000#32) (ix2 ρ k)
      = ((2 * rot p g (rowRot (pt (off + ρ.val))) : ℝ) : EReal) := by
  refine (rowsum_apply v ρ k).trans ?_
  refine (Finset.sum_congr rfl fun j _ => hv ρ j).trans ?_
  exact cellVal_sum_coe p g _ (by have := ρ.isLt; omega)

/-- Its minimum, as the body extracts and broadcasts it. -/
theorem slab_min (v : FVec Ideal S256x1024 .f32) (off : ℕ) (hoff : off + 256 ≤ 1024) (p g : Pt → Fin 2 → ℝ)
    (hv : ∀ (ρ : Fin 256) (k : Fin 1024), v (ix2 ρ k) = ((cellVal p g (off + ρ.val) k.val : ℝ) : EReal)) :
    (broadcast S1x1 (extractAt ![0, 0, 0] (shapeCast S1x1x1 (multiReduction (F := Ideal) .minimumf [1, 2] S1 (shapeCast S1x256x128 (matmul dot_S256x1024_S1024x128_S256x128_1_0_0_1_n_n none v (k0_pay33 (F := Ideal)) (constant S256x128 .f32 0x00000000#32)) shapeCasts_S256x128_S1x256x128) 0x7F800000#32 reduces_S1x256x128_S1 (.inl rfl) rfl) shapeCasts_S1_S1x1x1) inpos_S1x1x1_p0_0_0) : FVec Ideal S1x1 .f32) (ix2 0 0)
      = (Finset.univ.inf fun ρ : Fin 256 => ((2 * rot p g (rowRot (pt (off + ρ.val))) : ℝ) : EReal)) :=
  (scalar_apply _).trans (slabMin_apply _ _ (fun ρ k => slab_rowsum v off hoff p g hv ρ k) _)

/-- The first slab's payload on any such slab. -/
theorem pay99_apply (v : FVec Ideal S256x1024 .f32) (off : ℕ) (hoff : off + 256 ≤ 1024) (p g : Pt → Fin 2 → ℝ)
    (hv : ∀ (ρ : Fin 256) (k : Fin 1024), v (ix2 ρ k) = ((cellVal p g (off + ρ.val) k.val : ℝ) : EReal)) :
    k0_pay99 (F := Ideal) k0_pay33 v (ix2 0 0) = (Finset.univ.inf fun ρ : Fin 256 => ((2 * rot p g (rowRot (pt (off + ρ.val))) : ℝ) : EReal)) := by
  unfold k0_pay99; exact slab_min v off hoff p g hv

/-- The second slab's payload. -/
theorem pay167_apply (v : FVec Ideal S256x1024 .f32) (off : ℕ) (hoff : off + 256 ≤ 1024) (p g : Pt → Fin 2 → ℝ)
    (hv : ∀ (ρ : Fin 256) (k : Fin 1024), v (ix2 ρ k) = ((cellVal p g (off + ρ.val) k.val : ℝ) : EReal)) :
    k0_pay167 (F := Ideal) k0_pay33 v (ix2 0 0) = (Finset.univ.inf fun ρ : Fin 256 => ((2 * rot p g (rowRot (pt (off + ρ.val))) : ℝ) : EReal)) := by
  unfold k0_pay167; exact slab_min v off hoff p g hv

/-- The third slab's payload. -/
theorem pay234_apply (v : FVec Ideal S256x1024 .f32) (off : ℕ) (hoff : off + 256 ≤ 1024) (p g : Pt → Fin 2 → ℝ)
    (hv : ∀ (ρ : Fin 256) (k : Fin 1024), v (ix2 ρ k) = ((cellVal p g (off + ρ.val) k.val : ℝ) : EReal)) :
    k0_pay234 (F := Ideal) k0_pay33 v (ix2 0 0) = (Finset.univ.inf fun ρ : Fin 256 => ((2 * rot p g (rowRot (pt (off + ρ.val))) : ℝ) : EReal)) := by
  unfold k0_pay234; exact slab_min v off hoff p g hv

/-- The fourth slab's minimum, taken from its row sums. -/
theorem pay300_min_apply (v : FVec Ideal S256x1024 .f32) (off : ℕ) (hoff : off + 256 ≤ 1024) (p g : Pt → Fin 2 → ℝ)
    (hv : ∀ (ρ : Fin 256) (k : Fin 1024), v (ix2 ρ k) = ((cellVal p g (off + ρ.val) k.val : ℝ) : EReal)) :
    (broadcast S1x1 (extractAt ![0, 0, 0] (shapeCast S1x1x1 (multiReduction (F := Ideal) .minimumf [1, 2] S1 (k0_pay300 (F := Ideal) k0_pay33 v) 0x7F800000#32 reduces_S1x256x128_S1 (.inl rfl) rfl) shapeCasts_S1_S1x1x1) inpos_S1x1x1_p0_0_0) : FVec Ideal S1x1 .f32) (ix2 0 0)
      = (Finset.univ.inf fun ρ : Fin 256 => ((2 * rot p g (rowRot (pt (off + ρ.val))) : ℝ) : EReal)) := by
  unfold k0_pay300; exact slab_min v off hoff p g hv

/-- The last payload is the minimum of the four. -/
theorem pay1_apply (a b d : FVec Ideal S1x1 .f32) (e : FVec Ideal S1x256x128 .f32) :
    k0_pay1 (F := Ideal) a b d e (ix2 0 0)
      = min (min (a (ix2 0 0)) (b (ix2 0 0))) (min (d (ix2 0 0)) ((broadcast S1x1 (extractAt ![0, 0, 0] (shapeCast S1x1x1 (multiReduction (F := Ideal) .minimumf [1, 2] S1 e 0x7F800000#32 reduces_S1x256x128_S1 (.inl rfl) rfl) shapeCasts_S1_S1x1x1) inpos_S1x1x1_p0_0_0) : FVec Ideal S1x1 .f32) (ix2 0 0))) := rfl

variable {c : Dev nD}
variable {arg1 : Memref sig .tc .vmem S1x2x1024 .f32} {harg1 : arg1.IsWhole} {arg2 : Memref sig .tc .vmem S1x2x1024 .f32} {harg2 : arg2.IsWhole}
variable {arg4 : Memref sig .tc .vmem S1024x1024 .f32}
variable {x0 x1 : Vec Ideal S1x2x1024 .f32} {p g : Pt → Fin 2 → ℝ}

/-- The first slab's minimum. -/
theorem r_56_apply (hp : Holds x0 p) (hg : Holds x1 g) :
    slabRun.sl.r_56 c arg1 harg1 arg2 harg2 arg4 x0 x1 (ix2 0 0) = (Finset.univ.inf fun ρ : Fin 256 => ((2 * rot p g (rowRot (pt (0 + ρ.val))) : ℝ) : EReal)) :=
  pay99_apply (slabRun.sl.v693 c arg1 harg1 arg2 harg2 arg4 x0 x1) 0 (by norm_num) p g (v693_apply hp hg)

/-- The second slab's minimum. -/
theorem r_88_apply (hp : Holds x0 p) (hg : Holds x1 g) :
    slabRun.sl.r_88 c arg1 harg1 arg2 harg2 arg4 x0 x1 (ix2 0 0) = (Finset.univ.inf fun ρ : Fin 256 => ((2 * rot p g (rowRot (pt (256 + ρ.val))) : ℝ) : EReal)) :=
  pay167_apply (slabRun.sl.v1300 c arg1 harg1 arg2 harg2 arg4 x0 x1) 256 (by norm_num) p g (v1300_apply hp hg)

/-- The third slab's minimum. -/
theorem r_119_apply (hp : Holds x0 p) (hg : Holds x1 g) :
    slabRun.sl.r_119 c arg1 harg1 arg2 harg2 arg4 x0 x1 (ix2 0 0) = (Finset.univ.inf fun ρ : Fin 256 => ((2 * rot p g (rowRot (pt (512 + ρ.val))) : ℝ) : EReal)) :=
  pay234_apply (slabRun.sl.v1907 c arg1 harg1 arg2 harg2 arg4 x0 x1) 512 (by norm_num) p g (v1907_apply hp hg)

/-- The fourth slab's minimum. -/
theorem last_apply (hp : Holds x0 p) (hg : Holds x1 g) :
    (broadcast S1x1 (extractAt ![0, 0, 0] (shapeCast S1x1x1 (multiReduction (F := Ideal) .minimumf [1, 2] S1 (k0_pay300 (F := Ideal) k0_pay33 (slabRun.sl.v2514 c arg1 harg1 arg2 harg2 arg4 x0 x1)) 0x7F800000#32 reduces_S1x256x128_S1 (.inl rfl) rfl) shapeCasts_S1_S1x1x1) inpos_S1x1x1_p0_0_0) : FVec Ideal S1x1 .f32) (ix2 0 0)
      = (Finset.univ.inf fun ρ : Fin 256 => ((2 * rot p g (rowRot (pt (768 + ρ.val))) : ℝ) : EReal)) :=
  pay300_min_apply (slabRun.sl.v2514 c arg1 harg1 arg2 harg2 arg4 x0 x1) 768 (by norm_num) p g (v2514_apply hp hg)

/-! ## The sample's minimum -/

/-- The minimum of the four slabs' minima is twice the minimum over rotations of the sample's loss. -/
theorem part_apply (hp : Holds x0 p) (hg : Holds x1 g) :
    k0_pay1 (F := Ideal) (slabRun.sl.r_56 c arg1 harg1 arg2 harg2 arg4 x0 x1) (slabRun.sl.r_88 c arg1 harg1 arg2 harg2 arg4 x0 x1) (slabRun.sl.r_119 c arg1 harg1 arg2 harg2 arg4 x0 x1) (k0_pay300 k0_pay33 (slabRun.sl.v2514 c arg1 harg1 arg2 harg2 arg4 x0 x1)) (ix2 0 0)
      = ((2 * minRot p g : ℝ) : EReal) := by
  refine (pay1_apply _ _ _ _).trans ?_
  refine (congrArg₂ min (congrArg₂ min (r_56_apply hp hg) (r_88_apply hp hg)) (congrArg₂ min (r_119_apply hp hg) (last_apply hp hg))).trans ?_
  exact (inf_four fun n => ((2 * rot p g (rowRot (pt n)) : ℝ) : EReal)).trans (inf_rows p g)

end Cert.KernelIdeal.Hand

end
-- ==== Proof.RRun.lean ====
/-
  The reference, run.

  The reference is a straight line of host operations: the table of rotated indices
  (point j of rotation i is point (i + j) mod 1024, computed with jnp's remainder and its sign
  fix), the gather of the ground truth along that table (jnp.take, with its wrap of negative
  indices and its fill of out-of-range ones), the smooth-L1 distance of every prediction
  coordinate to the gathered one, the sums over coordinates and points, the division by the
  number of points, the minimum over rotations, and the mean over samples. The helper functions
  it calls are listed here at their call sites, each operation on the buffers its call names. Every weakly fair
  execution terminates with every buffer at the operations' fold over the launch contents.
-/
import proofs.«103642_g13554916786703_cont_week2b_739_36_alg».proof.Defs
import proofs.«103642_g13554916786703_cont_week2b_739_36_alg».proof.Proof.Gen.ReferenceIdeal
import Idealize.ShloMosaic.Lib.StableHlo.Run
import Idealize.ShloMosaic.Lib.Pipeline.Regions

noncomputable section

namespace Cert.ReferenceIdeal.Hand

open Idealize.ShloMosaic Idealize.ShloMosaic.TcCoe Idealize.ShloMosaic.StableHlo Idealize.SL.Sem
open Cert.ReferenceIdeal Cert.ReferenceIdeal.Facts₀ Cert.ReferenceIdeal.Facts

variable {F : FTy → Type} [FloatOps F]

/-- @main's operations in order, the helpers' bodies in place of their calls. -/
abbrev ops : List (HloOp τ sig (Elt F)) :=
  [ nullary main_v0 (iotaInDim S1024 32 0),
    unary main_v0 main_v1 (broadcastInDim S1x1024 ![1] bcast_S1024_S1x1024_1 : (⟨S1024, .i32⟩ : BufTy).Contents (Elt F) → (⟨S1x1024, .i32⟩ : BufTy).Contents (Elt F)),
    unary main_v0 main_v2 (broadcastInDim S1024x1 ![0] bcast_S1024_S1024x1_0 : (⟨S1024, .i32⟩ : BufTy).Contents (Elt F) → (⟨S1024x1, .i32⟩ : BufTy).Contents (Elt F)),
    unary main_v1 main_v3 (broadcastInDim S1024x1024 ![0, 1] bcast_S1x1024_S1024x1024_0_1 : (⟨S1x1024, .i32⟩ : BufTy).Contents (Elt F) → (⟨S1024x1024, .i32⟩ : BufTy).Contents (Elt F)),
    unary main_v2 main_v4 (broadcastInDim S1024x1024 ![0, 1] bcast_S1024x1_S1024x1024_0_1 : (⟨S1024x1, .i32⟩ : BufTy).Contents (Elt F) → (⟨S1024x1024, .i32⟩ : BufTy).Contents (Elt F)),
    binary main_v3 main_v4 main_v5 (addi : (⟨S1024x1024, .i32⟩ : BufTy).Contents (Elt F) → (⟨S1024x1024, .i32⟩ : BufTy).Contents (Elt F) → (⟨S1024x1024, .i32⟩ : BufTy).Contents (Elt F)),
    nullary main_c (constantI S_ 32 1024#32),
    unary main_c main_call0_v0 (id : (⟨S_, .i32⟩ : BufTy).Contents (Elt F) → (⟨S_, .i32⟩ : BufTy).Contents (Elt F)),
    nullary main_call0_c ((constantI S_ 32 0#32) : (⟨S_, .i32⟩ : BufTy).Contents (Elt F)),
    binary main_call0_v0 main_call0_c main_call0_v1 ((cmpi .eq) : (⟨S_, .i32⟩ : BufTy).Contents (Elt F) → (⟨S_, .i32⟩ : BufTy).Contents (Elt F) → (⟨S_, .i1⟩ : BufTy).Contents (Elt F)),
    nullary main_call0_c_0 ((constantI S_ 32 1#32) : (⟨S_, .i32⟩ : BufTy).Contents (Elt F)),
    ternary main_call0_v1 main_call0_c_0 main_call0_v0 main_call0_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call0_v2 main_call0_v3 ((broadcastInDim S1024x1024 ![] bcast_S_S1024x1024) : (⟨S_, .i32⟩ : BufTy).Contents (Elt F) → (⟨S1024x1024, .i32⟩ : BufTy).Contents (Elt F)),
    binary main_v5 main_call0_v3 main_call0_v4 (Host.remsi : (⟨S1024x1024, .i32⟩ : BufTy).Contents (Elt F) → (⟨S1024x1024, .i32⟩ : BufTy).Contents (Elt F) → (⟨S1024x1024, .i32⟩ : BufTy).Contents (Elt F)),
    nullary main_call0_c_1 ((constantI S_ 32 0#32) : (⟨S_, .i32⟩ : BufTy).Contents (Elt F)),
    unary main_call0_c_1 main_call0_v5 ((broadcastInDim S1024x1024 ![] bcast_S_S1024x1024) : (⟨S_, .i32⟩ : BufTy).Contents (Elt F) → (⟨S1024x1024, .i32⟩ : BufTy).Contents (Elt F)),
    binary main_call0_v4 main_call0_v5 main_call0_v6 ((cmpi .ne) : (⟨S1024x1024, .i32⟩ : BufTy).Contents (Elt F) → (⟨S1024x1024, .i32⟩ : BufTy).Contents (Elt F) → (⟨S1024x1024, .i1⟩ : BufTy).Contents (Elt F)),
    nullary main_call0_c_2 ((constantI S_ 32 0#32) : (⟨S_, .i32⟩ : BufTy).Contents (Elt F)),
    unary main_call0_c_2 main_call0_v7 ((broadcastInDim S1024x1024 ![] bcast_S_S1024x1024) : (⟨S_, .i32⟩ : BufTy).Contents (Elt F) → (⟨S1024x1024, .i32⟩ : BufTy).Contents (Elt F)),
    binary main_call0_v4 main_call0_v7 main_call0_v8 ((cmpi .slt) : (⟨S1024x1024, .i32⟩ : BufTy).Contents (Elt F) → (⟨S1024x1024, .i32⟩ : BufTy).Contents (Elt F) → (⟨S1024x1024, .i1⟩ : BufTy).Contents (Elt F)),
    nullary main_call0_c_3 ((constantI S_ 32 0#32) : (⟨S_, .i32⟩ : BufTy).Contents (Elt F)),
    binary main_call0_v2 main_call0_c_3 main_call0_v9 ((cmpi .slt) : (⟨S_, .i32⟩ : BufTy).Contents (Elt F) → (⟨S_, .i32⟩ : BufTy).Contents (Elt F) → (⟨S_, .i1⟩ : BufTy).Contents (Elt F)),
    unary main_call0_v9 main_call0_v10 ((broadcastInDim S1024x1024 ![] bcast_S_S1024x1024) : (⟨S_, .i1⟩ : BufTy).Contents (Elt F) → (⟨S1024x1024, .i1⟩ : BufTy).Contents (Elt F)),
    binary main_call0_v8 main_call0_v10 main_call0_v11 ((cmpi .ne) : (⟨S1024x1024, .i1⟩ : BufTy).Contents (Elt F) → (⟨S1024x1024, .i1⟩ : BufTy).Contents (Elt F) → (⟨S1024x1024, .i1⟩ : BufTy).Contents (Elt F)),
    binary main_call0_v11 main_call0_v6 main_call0_v12 (andi : (⟨S1024x1024, .i1⟩ : BufTy).Contents (Elt F) → (⟨S1024x1024, .i1⟩ : BufTy).Contents (Elt F) → (⟨S1024x1024, .i1⟩ : BufTy).Contents (Elt F)),
    unary main_call0_v2 main_call0_v13 ((broadcastInDim S1024x1024 ![] bcast_S_S1024x1024) : (⟨S_, .i32⟩ : BufTy).Contents (Elt F) → (⟨S1024x1024, .i32⟩ : BufTy).Contents (Elt F)),
    binary main_call0_v4 main_call0_v13 main_call0_v14 (addi : (⟨S1024x1024, .i32⟩ : BufTy).Contents (Elt F) → (⟨S1024x1024, .i32⟩ : BufTy).Contents (Elt F) → (⟨S1024x1024, .i32⟩ : BufTy).Contents (Elt F)),
    ternary main_call0_v12 main_call0_v14 main_call0_v4 main_v6 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    reshape main_v6 main_v7 rfl shapeCasts_S1024x1024_S1048576,
    nullary main_call1_c ((constantI S_ 32 0#32) : (⟨S_, .i32⟩ : BufTy).Contents (Elt F)),
    unary main_call1_c main_call1_v0 ((broadcastInDim S1048576 ![] bcast_S_S1048576) : (⟨S_, .i32⟩ : BufTy).Contents (Elt F) → (⟨S1048576, .i32⟩ : BufTy).Contents (Elt F)),
    binary main_v7 main_call1_v0 main_call1_v1 ((cmpi .slt) : (⟨S1048576, .i32⟩ : BufTy).Contents (Elt F) → (⟨S1048576, .i32⟩ : BufTy).Contents (Elt F) → (⟨S1048576, .i1⟩ : BufTy).Contents (Elt F)),
    nullary main_call1_c_0 ((constantI S_ 32 1024#32) : (⟨S_, .i32⟩ : BufTy).Contents (Elt F)),
    unary main_call1_c_0 main_call1_v2 ((broadcastInDim S1048576 ![] bcast_S_S1048576) : (⟨S_, .i32⟩ : BufTy).Contents (Elt F) → (⟨S1048576, .i32⟩ : BufTy).Contents (Elt F)),
    binary main_v7 main_call1_v2 main_call1_v3 (addi : (⟨S1048576, .i32⟩ : BufTy).Contents (Elt F) → (⟨S1048576, .i32⟩ : BufTy).Contents (Elt F) → (⟨S1048576, .i32⟩ : BufTy).Contents (Elt F)),
    ternary main_call1_v1 main_call1_v3 main_v7 main_call1_v4 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_call1_v4 main_call1_v5 ((broadcastInDim S1048576x1 ![0] bcast_S1048576_S1048576x1_0) : (⟨S1048576, .i32⟩ : BufTy).Contents (Elt F) → (⟨S1048576x1, .i32⟩ : BufTy).Contents (Elt F)),
    nullary main_call1_c_1 ((constantI S1 32 1023#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S1048576x1 ![] bcast_S_S1048576x1) : (⟨S_, .i32⟩ : BufTy).Contents (Elt F) → (⟨S1048576x1, .i32⟩ : BufTy).Contents (Elt F)),
    binary main_call1_v5 main_call1_v6 main_call1_v7 ((cmpi .sge) : (⟨S1048576x1, .i32⟩ : BufTy).Contents (Elt F) → (⟨S1048576x1, .i32⟩ : BufTy).Contents (Elt F) → (⟨S1048576x1, .i1⟩ : BufTy).Contents (Elt F)),
    unary main_call1_c_1 main_call1_v8 ((broadcastInDim S1x1 ![1] bcast_S1_S1x1_1) : (⟨S1, .i32⟩ : BufTy).Contents (Elt F) → (⟨S1x1, .i32⟩ : BufTy).Contents (Elt F)),
    unary main_call1_v8 main_call1_v9 ((broadcastInDim S1048576x1 ![0, 1] bcast_S1x1_S1048576x1_0_1) : (⟨S1x1, .i32⟩ : BufTy).Contents (Elt F) → (⟨S1048576x1, .i32⟩ : BufTy).Contents (Elt F)),
    binary main_call1_v5 main_call1_v9 main_call1_v10 ((cmpi .sle) : (⟨S1048576x1, .i32⟩ : BufTy).Contents (Elt F) → (⟨S1048576x1, .i32⟩ : BufTy).Contents (Elt F) → (⟨S1048576x1, .i1⟩ : BufTy).Contents (Elt F)),
    binary main_call1_v7 main_call1_v10 main_call1_v11 (andi : (⟨S1048576x1, .i1⟩ : BufTy).Contents (Elt F) → (⟨S1048576x1, .i1⟩ : BufTy).Contents (Elt F) → (⟨S1048576x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S1048576x1_S1048576_d1 h_S_) : (⟨S1048576x1, .i1⟩ : BufTy).Contents (Elt F) → (⟨S_, .i1⟩ : BufTy).Contents (Elt F) → (⟨S1048576, .i1⟩ : BufTy).Contents (Elt F)),
    binary main_arg1 main_call1_v5 main_call1_v13 ((fun x i => Host.gather gather_S16x1024x2_S1048576x1_S16x1048576x2_02_1_n_n_1_1_1612 x i) : (⟨S16x1024x2, .f32⟩ : BufTy).Contents (Elt F) → (⟨S1048576x1, .i32⟩ : BufTy).Contents (Elt F) → (⟨S16x1048576x2, .f32⟩ : BufTy).Contents (Elt F)),
    unary main_call1_v12 main_call1_v14 ((broadcastInDim S16x1048576x2 ![1] bcast_S1048576_S16x1048576x2_1) : (⟨S1048576, .i1⟩ : BufTy).Contents (Elt F) → (⟨S16x1048576x2, .i1⟩ : BufTy).Contents (Elt F)),
    nullary main_call1_cst ((constant S_ .f32 0x7FC00000#32) : (⟨S_, .f32⟩ : BufTy).Contents (Elt F)),
    unary main_call1_cst main_call1_v15 ((broadcastInDim S16x1048576x2 ![] bcast_S_S16x1048576x2) : (⟨S_, .f32⟩ : BufTy).Contents (Elt F) → (⟨S16x1048576x2, .f32⟩ : BufTy).Contents (Elt F)),
    ternary main_call1_v14 main_call1_v13 main_call1_v15 main_v8 (select : (⟨S16x1048576x2, .i1⟩ : BufTy).Contents (Elt F) → (⟨S16x1048576x2, .f32⟩ : BufTy).Contents (Elt F) → (⟨S16x1048576x2, .f32⟩ : BufTy).Contents (Elt F) → (⟨S16x1048576x2, .f32⟩ : BufTy).Contents (Elt F)),
    reshape main_v8 main_v9 rfl shapeCasts_S16x1048576x2_S16x1024x1024x2,
    unary main_arg0 main_v10 (broadcastInDim S16x1x1024x2 ![0, 2, 3] bcast_S16x1024x2_S16x1x1024x2_0_2_3 : (⟨S16x1024x2, .f32⟩ : BufTy).Contents (Elt F) → (⟨S16x1x1024x2, .f32⟩ : BufTy).Contents (Elt F)),
    unary main_v10 main_v11 (broadcastInDim S16x1024x1024x2 ![0, 1, 2, 3] bcast_S16x1x1024x2_S16x1024x1024x2_0_1_2_3 : (⟨S16x1x1024x2, .f32⟩ : BufTy).Contents (Elt F) → (⟨S16x1024x1024x2, .f32⟩ : BufTy).Contents (Elt F)),
    binary main_v11 main_v9 main_v12 (subf : (⟨S16x1024x1024x2, .f32⟩ : BufTy).Contents (Elt F) → (⟨S16x1024x1024x2, .f32⟩ : BufTy).Contents (Elt F) → (⟨S16x1024x1024x2, .f32⟩ : BufTy).Contents (Elt F)),
    unary main_v12 main_v13 (Host.absf : (⟨S16x1024x1024x2, .f32⟩ : BufTy).Contents (Elt F) → (⟨S16x1024x1024x2, .f32⟩ : BufTy).Contents (Elt F)),
    nullary main_cst (constant S_ .f32 0x3F800000#32),
    unary main_cst main_v14 (broadcastInDim S16x1024x1024x2 ![] bcast_S_S16x1024x1024x2 : (⟨S_, .f32⟩ : BufTy).Contents (Elt F) → (⟨S16x1024x1024x2, .f32⟩ : BufTy).Contents (Elt F)),
    binary main_v13 main_v14 main_v15 (cmpf .olt : (⟨S16x1024x1024x2, .f32⟩ : BufTy).Contents (Elt F) → (⟨S16x1024x1024x2, .f32⟩ : BufTy).Contents (Elt F) → (⟨S16x1024x1024x2, .i1⟩ : BufTy).Contents (Elt F)),
    nullary main_cst_0 (constant S_ .f32 0x3F000000#32),
    unary main_cst_0 main_v16 (broadcastInDim S16x1024x1024x2 ![] bcast_S_S16x1024x1024x2 : (⟨S_, .f32⟩ : BufTy).Contents (Elt F) → (⟨S16x1024x1024x2, .f32⟩ : BufTy).Contents (Elt F)),
    binary main_v16 main_v13 main_v17 (mulf : (⟨S16x1024x1024x2, .f32⟩ : BufTy).Contents (Elt F) → (⟨S16x1024x1024x2, .f32⟩ : BufTy).Contents (Elt F) → (⟨S16x1024x1024x2, .f32⟩ : BufTy).Contents (Elt F)),
    binary main_v17 main_v13 main_v18 (mulf : (⟨S16x1024x1024x2, .f32⟩ : BufTy).Contents (Elt F) → (⟨S16x1024x1024x2, .f32⟩ : BufTy).Contents (Elt F) → (⟨S16x1024x1024x2, .f32⟩ : BufTy).Contents (Elt F)),
    nullary main_cst_1 (constant S_ .f32 0x3F000000#32),
    unary main_cst_1 main_v19 (broadcastInDim S16x1024x1024x2 ![] bcast_S_S16x1024x1024x2 : (⟨S_, .f32⟩ : BufTy).Contents (Elt F) → (⟨S16x1024x1024x2, .f32⟩ : BufTy).Contents (Elt F)),
    binary main_v13 main_v19 main_v20 (subf : (⟨S16x1024x1024x2, .f32⟩ : BufTy).Contents (Elt F) → (⟨S16x1024x1024x2, .f32⟩ : BufTy).Contents (Elt F) → (⟨S16x1024x1024x2, .f32⟩ : BufTy).Contents (Elt F)),
    ternary main_v15 main_v18 main_v20 main_v21 (select : (⟨S16x1024x1024x2, .i1⟩ : BufTy).Contents (Elt F) → (⟨S16x1024x1024x2, .f32⟩ : BufTy).Contents (Elt F) → (⟨S16x1024x1024x2, .f32⟩ : BufTy).Contents (Elt F) → (⟨S16x1024x1024x2, .f32⟩ : BufTy).Contents (Elt F)),
    nullary main_cst_2 (constant S_ .f32 0x00000000#32),
    binary main_v21 main_cst_2 main_v22 ((fun x v => Host.reduceAdd x v reducesTo_S16x1024x1024x2_S16x1024x1024_d3 h_S_) : (⟨S16x1024x1024x2, .f32⟩ : BufTy).Contents (Elt F) → (⟨S_, .f32⟩ : BufTy).Contents (Elt F) → (⟨S16x1024x1024, .f32⟩ : BufTy).Contents (Elt F)),
    nullary main_cst_3 (constant S_ .f32 0x00000000#32),
    binary main_v22 main_cst_3 main_v23 ((fun x v => Host.reduceAdd x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F)),
    nullary main_cst_4 (constant S_ .f32 0x44800000#32),
    unary main_cst_4 main_v24 (broadcastInDim S16x1024 ![] bcast_S_S16x1024 : (⟨S_, .f32⟩ : BufTy).Contents (Elt F) → (⟨S16x1024, .f32⟩ : BufTy).Contents (Elt F)),
    binary main_v23 main_v24 main_v25 (Host.divf : (⟨S16x1024, .f32⟩ : BufTy).Contents (Elt F) → (⟨S16x1024, .f32⟩ : BufTy).Contents (Elt F) → (⟨S16x1024, .f32⟩ : BufTy).Contents (Elt F)),
    nullary main_cst_5 (constant S_ .f32 0x7F800000#32),
    binary main_v25 main_cst_5 main_v26 ((fun x v => Host.reduce FloatOps.minimumf x v reducesTo_S16x1024_S16_d1 h_S_) : (⟨S16x1024, .f32⟩ : BufTy).Contents (Elt F) → (⟨S_, .f32⟩ : BufTy).Contents (Elt F) → (⟨S16, .f32⟩ : BufTy).Contents (Elt F)),
    nullary main_cst_6 (constant S_ .f32 0x00000000#32),
    binary main_v26 main_cst_6 main_v27 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_7 (constant S_ .f32 0x41800000#32),
    binary main_v27 main_cst_7 main_v28 (Host.divf : (⟨S_, .f32⟩ : BufTy).Contents (Elt F) → (⟨S_, .f32⟩ : BufTy).Contents (Elt F) → (⟨S_, .f32⟩ : BufTy).Contents (Elt F)) ]

set_option maxRecDepth 131072 in
set_option maxHeartbeats 8000000 in
/-- @main is that straight line: the helpers' definitions unfolded at their calls, the sequencing reassociated. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., binary_bufs_sub ..⟩

/-- Every weakly fair execution of the reference terminates, and every final state has each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RValue.lean ====
/-
  The reference's result as a function of its two arguments, stage by stage.

  The table of rotated indices (entry (i, j) is the word of (i + j) mod 1024); the table laid out
  flat; jnp.take's index column (a negative index wrapped by the axis length) and its in-range
  mask; the gather of the ground truth along the column, out-of-range entries filled; the result
  reshaped to [16, 1024, 1024, 2], so that entry (b, i, j, c) is the ground truth's point
  (i + j) mod 1024 of sample b; the smooth-L1 distance of every prediction coordinate to that;
  and the sums over coordinates and points, the division by 1024, the minimum over rotations,
  the sum over samples and the division by 16. Each stage is the operations' own text, one
  `let` per operation; the run's fold at the result buffer is their composition, and at an
  argument's buffer it is the argument.
-/
import proofs.«103642_g13554916786703_cont_week2b_739_36_alg».proof.Proof.RRun

noncomputable section

namespace Cert.ReferenceIdeal.Hand

open Idealize.ShloMosaic Idealize.ShloMosaic.TcCoe Idealize.ShloMosaic.StableHlo Idealize.SL.Sem
open Cert.ReferenceIdeal Cert.ReferenceIdeal.Facts₀ Cert.ReferenceIdeal.Facts

variable {F : FTy → Type} [FloatOps F]

/-- The table of rotated indices: entry (i, j) is the 32-bit word of (i + j) mod 1024, by jnp's remainder. -/
def idxTable  : (⟨S1024x1024, .i32⟩ : BufTy).Contents (Elt F) :=
  let v0 : (⟨S1024, .i32⟩ : BufTy).Contents (Elt F) := (iotaInDim S1024 32 0)
  let v1 : (⟨S1x1024, .i32⟩ : BufTy).Contents (Elt F) := ((broadcastInDim S1x1024 ![1] bcast_S1024_S1x1024_1 : (⟨S1024, .i32⟩ : BufTy).Contents (Elt F) → (⟨S1x1024, .i32⟩ : BufTy).Contents (Elt F))) v0
  let v2 : (⟨S1024x1, .i32⟩ : BufTy).Contents (Elt F) := ((broadcastInDim S1024x1 ![0] bcast_S1024_S1024x1_0 : (⟨S1024, .i32⟩ : BufTy).Contents (Elt F) → (⟨S1024x1, .i32⟩ : BufTy).Contents (Elt F))) v0
  let v3 : (⟨S1024x1024, .i32⟩ : BufTy).Contents (Elt F) := ((broadcastInDim S1024x1024 ![0, 1] bcast_S1x1024_S1024x1024_0_1 : (⟨S1x1024, .i32⟩ : BufTy).Contents (Elt F) → (⟨S1024x1024, .i32⟩ : BufTy).Contents (Elt F))) v1
  let v4 : (⟨S1024x1024, .i32⟩ : BufTy).Contents (Elt F) := ((broadcastInDim S1024x1024 ![0, 1] bcast_S1024x1_S1024x1024_0_1 : (⟨S1024x1, .i32⟩ : BufTy).Contents (Elt F) → (⟨S1024x1024, .i32⟩ : BufTy).Contents (Elt F))) v2
  let v5 : (⟨S1024x1024, .i32⟩ : BufTy).Contents (Elt F) := ((addi : (⟨S1024x1024, .i32⟩ : BufTy).Contents (Elt F) → (⟨S1024x1024, .i32⟩ : BufTy).Contents (Elt F) → (⟨S1024x1024, .i32⟩ : BufTy).Contents (Elt F))) v3 v4
  let c : (⟨S_, .i32⟩ : BufTy).Contents (Elt F) := (constantI S_ 32 1024#32)
  let call0_v0 : (⟨S_, .i32⟩ : BufTy).Contents (Elt F) := (id) c
  let call0_c : (⟨S_, .i32⟩ : BufTy).Contents (Elt F) := (constantI S_ 32 0#32)
  let call0_v1 : (⟨S_, .i1⟩ : BufTy).Contents (Elt F) := ((cmpi .eq)) call0_v0 call0_c
  let call0_c_0 : (⟨S_, .i32⟩ : BufTy).Contents (Elt F) := (constantI S_ 32 1#32)
  let call0_v2 : (⟨S_, .i32⟩ : BufTy).Contents (Elt F) := (select) call0_v1 call0_c_0 call0_v0
  let call0_v3 : (⟨S1024x1024, .i32⟩ : BufTy).Contents (Elt F) := ((broadcastInDim S1024x1024 ![] bcast_S_S1024x1024)) call0_v2
  let call0_v4 : (⟨S1024x1024, .i32⟩ : BufTy).Contents (Elt F) := (Host.remsi) v5 call0_v3
  let call0_c_1 : (⟨S_, .i32⟩ : BufTy).Contents (Elt F) := (constantI S_ 32 0#32)
  let call0_v5 : (⟨S1024x1024, .i32⟩ : BufTy).Contents (Elt F) := ((broadcastInDim S1024x1024 ![] bcast_S_S1024x1024)) call0_c_1
  let call0_v6 : (⟨S1024x1024, .i1⟩ : BufTy).Contents (Elt F) := ((cmpi .ne)) call0_v4 call0_v5
  let call0_c_2 : (⟨S_, .i32⟩ : BufTy).Contents (Elt F) := (constantI S_ 32 0#32)
  let call0_v7 : (⟨S1024x1024, .i32⟩ : BufTy).Contents (Elt F) := ((broadcastInDim S1024x1024 ![] bcast_S_S1024x1024)) call0_c_2
  let call0_v8 : (⟨S1024x1024, .i1⟩ : BufTy).Contents (Elt F) := ((cmpi .slt)) call0_v4 call0_v7
  let call0_c_3 : (⟨S_, .i32⟩ : BufTy).Contents (Elt F) := (constantI S_ 32 0#32)
  let call0_v9 : (⟨S_, .i1⟩ : BufTy).Contents (Elt F) := ((cmpi .slt)) call0_v2 call0_c_3
  let call0_v10 : (⟨S1024x1024, .i1⟩ : BufTy).Contents (Elt F) := ((broadcastInDim S1024x1024 ![] bcast_S_S1024x1024)) call0_v9
  let call0_v11 : (⟨S1024x1024, .i1⟩ : BufTy).Contents (Elt F) := ((cmpi .ne)) call0_v8 call0_v10
  let call0_v12 : (⟨S1024x1024, .i1⟩ : BufTy).Contents (Elt F) := (andi) call0_v11 call0_v6
  let call0_v13 : (⟨S1024x1024, .i32⟩ : BufTy).Contents (Elt F) := ((broadcastInDim S1024x1024 ![] bcast_S_S1024x1024)) call0_v2
  let call0_v14 : (⟨S1024x1024, .i32⟩ : BufTy).Contents (Elt F) := (addi) call0_v4 call0_v13
  let v6 : (⟨S1024x1024, .i32⟩ : BufTy).Contents (Elt F) := (select) call0_v12 call0_v14 call0_v4
  v6

/-- The table laid out flat: entry n is the table at (n / 1024, n mod 1024). -/
def idxFlat (v6 : (⟨S1024x1024, .i32⟩ : BufTy).Contents (Elt F)) : (⟨S1048576, .i32⟩ : BufTy).Contents (Elt F) :=
  let v7 : (⟨S1048576, .i32⟩ : BufTy).Contents (Elt F) := shapeCast S1048576 v6 shapeCasts_S1024x1024_S1048576
  v7

/-- jnp.take's index column: a negative index wrapped by the axis length, as an [n, 1] array. -/
def takeCol (v7 : (⟨S1048576, .i32⟩ : BufTy).Contents (Elt F)) : (⟨S1048576x1, .i32⟩ : BufTy).Contents (Elt F) :=
  let call1_c : (⟨S_, .i32⟩ : BufTy).Contents (Elt F) := (constantI S_ 32 0#32)
  let call1_v0 : (⟨S1048576, .i32⟩ : BufTy).Contents (Elt F) := ((broadcastInDim S1048576 ![] bcast_S_S1048576)) call1_c
  let call1_v1 : (⟨S1048576, .i1⟩ : BufTy).Contents (Elt F) := ((cmpi .slt)) v7 call1_v0
  let call1_c_0 : (⟨S_, .i32⟩ : BufTy).Contents (Elt F) := (constantI S_ 32 1024#32)
  let call1_v2 : (⟨S1048576, .i32⟩ : BufTy).Contents (Elt F) := ((broadcastInDim S1048576 ![] bcast_S_S1048576)) call1_c_0
  let call1_v3 : (⟨S1048576, .i32⟩ : BufTy).Contents (Elt F) := (addi) v7 call1_v2
  let call1_v4 : (⟨S1048576, .i32⟩ : BufTy).Contents (Elt F) := (select) call1_v1 call1_v3 v7
  let call1_v5 : (⟨S1048576x1, .i32⟩ : BufTy).Contents (Elt F) := ((broadcastInDim S1048576x1 ![0] bcast_S1048576_S1048576x1_0)) call1_v4
  call1_v5

/-- jnp.take's mask: the indices that lie in [0, 1023]. -/
def takeMask (call1_v5 : (⟨S1048576x1, .i32⟩ : BufTy).Contents (Elt F)) : (⟨S1048576, .i1⟩ : BufTy).Contents (Elt F) :=
  let call1_c_1 : (⟨S1, .i32⟩ : BufTy).Contents (Elt F) := (constantI S1 32 1023#32)
  let call1_c_2 : (⟨S_, .i32⟩ : BufTy).Contents (Elt F) := (constantI S_ 32 0#32)
  let call1_v6 : (⟨S1048576x1, .i32⟩ : BufTy).Contents (Elt F) := ((broadcastInDim S1048576x1 ![] bcast_S_S1048576x1)) call1_c_2
  let call1_v7 : (⟨S1048576x1, .i1⟩ : BufTy).Contents (Elt F) := ((cmpi .sge)) call1_v5 call1_v6
  let call1_v8 : (⟨S1x1, .i32⟩ : BufTy).Contents (Elt F) := ((broadcastInDim S1x1 ![1] bcast_S1_S1x1_1)) call1_c_1
  let call1_v9 : (⟨S1048576x1, .i32⟩ : BufTy).Contents (Elt F) := ((broadcastInDim S1048576x1 ![0, 1] bcast_S1x1_S1048576x1_0_1)) call1_v8
  let call1_v10 : (⟨S1048576x1, .i1⟩ : BufTy).Contents (Elt F) := ((cmpi .sle)) call1_v5 call1_v9
  let call1_v11 : (⟨S1048576x1, .i1⟩ : BufTy).Contents (Elt F) := (andi) call1_v7 call1_v10
  let call1_c_3 : (⟨S_, .i1⟩ : BufTy).Contents (Elt F) := (constantI S_ 1 1#1)
  let call1_v12 : (⟨S1048576, .i1⟩ : BufTy).Contents (Elt F) := ((fun x v => Host.reduce IntOp.andi x v reducesTo_S1048576x1_S1048576_d1 h_S_)) call1_v11 call1_c_3
  call1_v12

/-- The gather of the ground truth along the index column, out-of-range entries filled. -/
def taken (arg1 : (⟨S16x1024x2, .f32⟩ : BufTy).Contents (Elt F)) (call1_v5 : (⟨S1048576x1, .i32⟩ : BufTy).Contents (Elt F)) (call1_v12 : (⟨S1048576, .i1⟩ : BufTy).Contents (Elt F)) : (⟨S16x1048576x2, .f32⟩ : BufTy).Contents (Elt F) :=
  let call1_v13 : (⟨S16x1048576x2, .f32⟩ : BufTy).Contents (Elt F) := ((fun x i => Host.gather gather_S16x1024x2_S1048576x1_S16x1048576x2_02_1_n_n_1_1_1612 x i)) arg1 call1_v5
  let call1_v14 : (⟨S16x1048576x2, .i1⟩ : BufTy).Contents (Elt F) := ((broadcastInDim S16x1048576x2 ![1] bcast_S1048576_S16x1048576x2_1)) call1_v12
  let call1_cst : (⟨S_, .f32⟩ : BufTy).Contents (Elt F) := (constant S_ .f32 0x7FC00000#32)
  let call1_v15 : (⟨S16x1048576x2, .f32⟩ : BufTy).Contents (Elt F) := ((broadcastInDim S16x1048576x2 ![] bcast_S_S16x1048576x2)) call1_cst
  let v8 : (⟨S16x1048576x2, .f32⟩ : BufTy).Contents (Elt F) := (select) call1_v14 call1_v13 call1_v15
  v8

/-- The ground truth by rotation: entry (b, i, j, c) is the ground truth's point (i + j) mod 1024 of sample b. -/
def rotGt (arg1 : (⟨S16x1024x2, .f32⟩ : BufTy).Contents (Elt F)) : (⟨S16x1024x1024x2, .f32⟩ : BufTy).Contents (Elt F) :=
  let v8 : (⟨S16x1048576x2, .f32⟩ : BufTy).Contents (Elt F) := taken arg1 (takeCol (idxFlat idxTable)) (takeMask (takeCol (idxFlat idxTable)))
  let v9 : (⟨S16x1024x1024x2, .f32⟩ : BufTy).Contents (Elt F) := shapeCast S16x1024x1024x2 v8 shapeCasts_S16x1048576x2_S16x1024x1024x2
  v9

/-- The smooth-L1 distance of the prediction to the rotated ground truth, entry by entry. -/
def dist (arg0 : (⟨S16x1024x2, .f32⟩ : BufTy).Contents (Elt F)) (v9 : (⟨S16x1024x1024x2, .f32⟩ : BufTy).Contents (Elt F)) : (⟨S16x1024x1024x2, .f32⟩ : BufTy).Contents (Elt F) :=
  let v10 : (⟨S16x1x1024x2, .f32⟩ : BufTy).Contents (Elt F) := ((broadcastInDim S16x1x1024x2 ![0, 2, 3] bcast_S16x1024x2_S16x1x1024x2_0_2_3 : (⟨S16x1024x2, .f32⟩ : BufTy).Contents (Elt F) → (⟨S16x1x1024x2, .f32⟩ : BufTy).Contents (Elt F))) arg0
  let v11 : (⟨S16x1024x1024x2, .f32⟩ : BufTy).Contents (Elt F) := ((broadcastInDim S16x1024x1024x2 ![0, 1, 2, 3] bcast_S16x1x1024x2_S16x1024x1024x2_0_1_2_3 : (⟨S16x1x1024x2, .f32⟩ : BufTy).Contents (Elt F) → (⟨S16x1024x1024x2, .f32⟩ : BufTy).Contents (Elt F))) v10
  let v12 : (⟨S16x1024x1024x2, .f32⟩ : BufTy).Contents (Elt F) := ((subf : (⟨S16x1024x1024x2, .f32⟩ : BufTy).Contents (Elt F) → (⟨S16x1024x1024x2, .f32⟩ : BufTy).Contents (Elt F) → (⟨S16x1024x1024x2, .f32⟩ : BufTy).Contents (Elt F))) v11 v9
  let v13 : (⟨S16x1024x1024x2, .f32⟩ : BufTy).Contents (Elt F) := ((Host.absf : (⟨S16x1024x1024x2, .f32⟩ : BufTy).Contents (Elt F) → (⟨S16x1024x1024x2, .f32⟩ : BufTy).Contents (Elt F))) v12
  let cst : (⟨S_, .f32⟩ : BufTy).Contents (Elt F) := (constant S_ .f32 0x3F800000#32)
  let v14 : (⟨S16x1024x1024x2, .f32⟩ : BufTy).Contents (Elt F) := ((broadcastInDim S16x1024x1024x2 ![] bcast_S_S16x1024x1024x2 : (⟨S_, .f32⟩ : BufTy).Contents (Elt F) → (⟨S16x1024x1024x2, .f32⟩ : BufTy).Contents (Elt F))) cst
  let v15 : (⟨S16x1024x1024x2, .i1⟩ : BufTy).Contents (Elt F) := ((cmpf .olt : (⟨S16x1024x1024x2, .f32⟩ : BufTy).Contents (Elt F) → (⟨S16x1024x1024x2, .f32⟩ : BufTy).Contents (Elt F) → (⟨S16x1024x1024x2, .i1⟩ : BufTy).Contents (Elt F))) v13 v14
  let cst_0 : (⟨S_, .f32⟩ : BufTy).Contents (Elt F) := (constant S_ .f32 0x3F000000#32)
  let v16 : (⟨S16x1024x1024x2, .f32⟩ : BufTy).Contents (Elt F) := ((broadcastInDim S16x1024x1024x2 ![] bcast_S_S16x1024x1024x2 : (⟨S_, .f32⟩ : BufTy).Contents (Elt F) → (⟨S16x1024x1024x2, .f32⟩ : BufTy).Contents (Elt F))) cst_0
  let v17 : (⟨S16x1024x1024x2, .f32⟩ : BufTy).Contents (Elt F) := ((mulf : (⟨S16x1024x1024x2, .f32⟩ : BufTy).Contents (Elt F) → (⟨S16x1024x1024x2, .f32⟩ : BufTy).Contents (Elt F) → (⟨S16x1024x1024x2, .f32⟩ : BufTy).Contents (Elt F))) v16 v13
  let v18 : (⟨S16x1024x1024x2, .f32⟩ : BufTy).Contents (Elt F) := ((mulf : (⟨S16x1024x1024x2, .f32⟩ : BufTy).Contents (Elt F) → (⟨S16x1024x1024x2, .f32⟩ : BufTy).Contents (Elt F) → (⟨S16x1024x1024x2, .f32⟩ : BufTy).Contents (Elt F))) v17 v13
  let cst_1 : (⟨S_, .f32⟩ : BufTy).Contents (Elt F) := (constant S_ .f32 0x3F000000#32)
  let v19 : (⟨S16x1024x1024x2, .f32⟩ : BufTy).Contents (Elt F) := ((broadcastInDim S16x1024x1024x2 ![] bcast_S_S16x1024x1024x2 : (⟨S_, .f32⟩ : BufTy).Contents (Elt F) → (⟨S16x1024x1024x2, .f32⟩ : BufTy).Contents (Elt F))) cst_1
  let v20 : (⟨S16x1024x1024x2, .f32⟩ : BufTy).Contents (Elt F) := ((subf : (⟨S16x1024x1024x2, .f32⟩ : BufTy).Contents (Elt F) → (⟨S16x1024x1024x2, .f32⟩ : BufTy).Contents (Elt F) → (⟨S16x1024x1024x2, .f32⟩ : BufTy).Contents (Elt F))) v13 v19
  let v21 : (⟨S16x1024x1024x2, .f32⟩ : BufTy).Contents (Elt F) := (select) v15 v18 v20
  v21

/-- Sum over coordinates and points, divide by 1024, minimum over rotations, mean over samples. -/
def mean (v21 : (⟨S16x1024x1024x2, .f32⟩ : BufTy).Contents (Elt F)) : (⟨S_, .f32⟩ : BufTy).Contents (Elt F) :=
  let cst_2 : (⟨S_, .f32⟩ : BufTy).Contents (Elt F) := (constant S_ .f32 0x00000000#32)
  let v22 : (⟨S16x1024x1024, .f32⟩ : BufTy).Contents (Elt F) := (((fun x v => Host.reduceAdd x v reducesTo_S16x1024x1024x2_S16x1024x1024_d3 h_S_) : (⟨S16x1024x1024x2, .f32⟩ : BufTy).Contents (Elt F) → (⟨S_, .f32⟩ : BufTy).Contents (Elt F) → (⟨S16x1024x1024, .f32⟩ : BufTy).Contents (Elt F))) v21 cst_2
  let cst_3 : (⟨S_, .f32⟩ : BufTy).Contents (Elt F) := (constant S_ .f32 0x00000000#32)
  let v23 : (⟨S16x1024, .f32⟩ : BufTy).Contents (Elt F) := (((fun x v => Host.reduceAdd x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F))) v22 cst_3
  let cst_4 : (⟨S_, .f32⟩ : BufTy).Contents (Elt F) := (constant S_ .f32 0x44800000#32)
  let v24 : (⟨S16x1024, .f32⟩ : BufTy).Contents (Elt F) := ((broadcastInDim S16x1024 ![] bcast_S_S16x1024 : (⟨S_, .f32⟩ : BufTy).Contents (Elt F) → (⟨S16x1024, .f32⟩ : BufTy).Contents (Elt F))) cst_4
  let v25 : (⟨S16x1024, .f32⟩ : BufTy).Contents (Elt F) := ((Host.divf : (⟨S16x1024, .f32⟩ : BufTy).Contents (Elt F) → (⟨S16x1024, .f32⟩ : BufTy).Contents (Elt F) → (⟨S16x1024, .f32⟩ : BufTy).Contents (Elt F))) v23 v24
  let cst_5 : (⟨S_, .f32⟩ : BufTy).Contents (Elt F) := (constant S_ .f32 0x7F800000#32)
  let v26 : (⟨S16, .f32⟩ : BufTy).Contents (Elt F) := (((fun x v => Host.reduce FloatOps.minimumf x v reducesTo_S16x1024_S16_d1 h_S_) : (⟨S16x1024, .f32⟩ : BufTy).Contents (Elt F) → (⟨S_, .f32⟩ : BufTy).Contents (Elt F) → (⟨S16, .f32⟩ : BufTy).Contents (Elt F))) v25 cst_5
  let cst_6 : (⟨S_, .f32⟩ : BufTy).Contents (Elt F) := (constant S_ .f32 0x00000000#32)
  let v27 : (⟨S_, .f32⟩ : BufTy).Contents (Elt F) := (((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F))) v26 cst_6
  let cst_7 : (⟨S_, .f32⟩ : BufTy).Contents (Elt F) := (constant S_ .f32 0x41800000#32)
  let v28 : (⟨S_, .f32⟩ : BufTy).Contents (Elt F) := ((Host.divf : (⟨S_, .f32⟩ : BufTy).Contents (Elt F) → (⟨S_, .f32⟩ : BufTy).Contents (Elt F) → (⟨S_, .f32⟩ : BufTy).Contents (Elt F))) v27 cst_7
  v28

/-- The reference's result. -/
def refOut (arg0 : (⟨S16x1024x2, .f32⟩ : BufTy).Contents (Elt F)) (arg1 : (⟨S16x1024x2, .f32⟩ : BufTy).Contents (Elt F)) : (⟨S_, .f32⟩ : BufTy).Contents (Elt F) :=
  mean (dist arg0 (rotGt arg1))
attribute [local irreducible] Host.reduce Host.reduceAdd Host.gather in
set_option maxRecDepth 16384 in
set_option maxHeartbeats 4000000 in
/-- The fold at the result buffer is `refOut` of the arguments: the fold unrolled, each operation's result
    read where it was written. The reductions and the gather stay folded meanwhile. -/
theorem out_eq (V : Valuation τ sig (Elt F)) :
    after ops V (main_v28 : DevRef τ sig) = refOut (V (main_arg0 : DevRef τ sig)) (V (main_arg1 : DevRef τ sig)) := by
  after_results_simp
  rfl

attribute [local irreducible] Host.reduce Host.reduceAdd Host.gather in
set_option maxRecDepth 16384 in
set_option maxHeartbeats 4000000 in
theorem arg0_eq (V : Valuation τ sig (Elt F)) :
    after ops V (main_arg0 : DevRef τ sig) = V (main_arg0 : DevRef τ sig) := by
  after_results_simp

attribute [local irreducible] Host.reduce Host.reduceAdd Host.gather in
set_option maxRecDepth 16384 in
set_option maxHeartbeats 4000000 in
theorem arg1_eq (V : Valuation τ sig (Elt F)) :
    after ops V (main_arg1 : DevRef τ sig) = V (main_arg1 : DevRef τ sig) := by
  after_results_simp

/-- The reference runs: every weakly fair execution terminates with the result at `refOut` of the arguments
    and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v28).trans (out_eq _), (h c main_arg0).trans (arg0_eq _), (h c main_arg1).trans (arg1_eq _)⟩)
    (run_main m ρ)

end Cert.ReferenceIdeal.Hand

end
-- ==== Proof.RWords.lean ====
/-
  The integer side of the reference, word by word.

  The table of rotated indices holds, at (i, j), the 32-bit word of i + j reduced mod 1024 the way
  jnp spells it: the remainder by a divisor guarded against zero, then a correction when the
  remainder's sign differs from the divisor's. jnp.take then wraps a negative index by adding
  the axis length, masks the indices that fall outside [0, 1023], and the gather clamps. For the
  words that occur here (sums of two numbers below 1024) none of these corrections does anything:
  the entry is (i + j) mod 1024, it is not negative, it is in range, and the clamp keeps it.
  Each fact is decided over the finitely many words concerned.
-/
import Idealize.ShloMosaic.PureOps.Ideal

namespace Cert.Words

open Idealize.ShloMosaic

/-- jnp's remainder of `x` by 1024, as the reference prints it on one word. -/
def jnpRem (x : BitVec 32) : BitVec 32 :=
  let d : BitVec 32 := Scalar.select (IntOp.cmpi .eq (1024#32 : BitVec 32) 0#32) 1#32 1024#32
  let r : BitVec 32 := IntOp.remsi .host x d
  Scalar.select (IntOp.andi (IntOp.cmpi .ne (IntOp.cmpi .slt r 0#32) (IntOp.cmpi .slt d 0#32)) (IntOp.cmpi .ne r 0#32))
    (IntOp.addi r d) r

/-- On a sum of two numbers below 1024 it is the sum mod 1024. -/
theorem jnpRem_ofNat : ∀ n : Fin 2048, jnpRem (BitVec.ofNat 32 n.val) = BitVec.ofNat 32 (n.val % 1024) := by
  decide +kernel

/-- jnp.take's wrap of a negative index leaves a number below 1024 alone. -/
theorem wrap_ofNat : ∀ p : Fin 1024,
    Scalar.select (IntOp.cmpi .slt (BitVec.ofNat 32 p.val) 0#32) (IntOp.addi (BitVec.ofNat 32 p.val) 1024#32) (BitVec.ofNat 32 p.val)
      = BitVec.ofNat 32 p.val := by
  decide +kernel

/-- A number below 1024 is in range: the mask jnp.take builds is set. -/
theorem inRange_ofNat : ∀ p : Fin 1024,
    IntOp.andi (IntOp.cmpi .sge (BitVec.ofNat 32 p.val) 0#32) (IntOp.cmpi .sle (BitVec.ofNat 32 p.val) 1023#32) = 1#1 := by
  decide +kernel

/-- The gather's clamp keeps a number below 1024. -/
theorem clamp_ofNat : ∀ p : Fin 1024, min (BitVec.ofNat 32 p.val).toInt.toNat 1023 = p.val := by
  decide +kernel

/-- The sum of two numbers' words is the word of their sum. -/
theorem addi_ofNat (a b : Nat) : IntOp.addi (BitVec.ofNat 32 a) (BitVec.ofNat 32 b) = BitVec.ofNat 32 (a + b) := by
  unfold IntOp.addi; exact (BitVec.ofNat_add a b).symm

end Cert.Words
-- ==== Proof.RRead1.lean ====
/-
  The rotated ground truth, read entry by entry.

  Entry (b, i, j, c) of the reference's [16, 1024, 1024, 2] array is the ground truth's point
  (i + j) mod 1024 of sample b, coordinate c: the index table holds (i + j) mod 1024 at (i, j);
  flattened, entry n holds it for i = n / 1024, j = n mod 1024; jnp.take's wrap leaves it, its
  mask is set there, the gather's clamp keeps it; and the reshape back reads entry 1024 i + j.
-/
import proofs.«103642_g13554916786703_cont_week2b_739_36_alg».proof.Proof.RValue
import proofs.«103642_g13554916786703_cont_week2b_739_36_alg».proof.Proof.RWords
import Idealize.ShloMosaic.Lib.ValueIdx
import Idealize.ShloMosaic.Lib.Pipeline.Value

noncomputable section

namespace Cert.ReferenceIdeal.Hand

open Idealize.ShloMosaic Idealize.ShloMosaic.ValueIdx
open Cert.ReferenceIdeal Cert.ReferenceIdeal.Facts₀ Cert.ReferenceIdeal.Facts

variable {F : FTy → Type} [FloatOps F]

/-- The gather along axis 1: entry (b, n, c) is the operand at (b, the n-th index clamped, c). -/
abbrev takeDims := gather_S16x1024x2_S1048576x1_S16x1048576x2_02_1_n_n_1_1_1612

theorem gather_apply {α : Type} {w : Nat} (x : S16x1024x2.Idx → α) (idx : IVec S1048576x1 w) (b : Fin 16) (n : Fin 1048576) (c : Fin 2) :
    Host.gather takeDims x idx (ix3 b n c) = x (ix3 b ⟨min (idx (ix2 n 0)).toInt.toNat 1023, by omega⟩ c) := by
  unfold Host.gather
  congr 1
  funext a
  refine Fin.ext ?_
  have hsi : takeDims.siIdx (ix3 b n c) ⟨0, by decide⟩ = ix2 n 0 := by
    funext k; refine Fin.ext ?_
    match k with
    | ⟨0, _⟩ => rfl
    | ⟨1, _⟩ => rfl
  match a with
  | ⟨0, _⟩ =>
    show takeDims.start (ix3 b n c) idx 0 + takeDims.batchCoord (ix3 b n c) 0 + takeDims.offCoord (ix3 b n c) 0 = _
    rw [GatherDims.batchCoord_eq_zero _ _ _ List.not_mem_nil]
    unfold GatherDims.start GatherDims.offCoord
    rw [dif_neg (by decide), dif_pos (by decide)]
    have he : ∀ h, takeDims.offsetDims[List.idxOf (0 : Fin 3) takeDims.sKept]'h = (0 : Fin 3) := by decide +revert
    rw [he]
    simp only [Nat.zero_add]
  | ⟨1, _⟩ =>
    show takeDims.start (ix3 b n c) idx 1 + takeDims.batchCoord (ix3 b n c) 1 + takeDims.offCoord (ix3 b n c) 1 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 3) ∈ takeDims.startIndexMap from List.mem_singleton.mpr rfl)]
    have hsi' : takeDims.siIdx (ix3 b n c) ⟨List.idxOf (1 : Fin 3) takeDims.startIndexMap,
        List.idxOf_lt_length_iff.2 (List.mem_singleton.mpr rfl)⟩ = ix2 n 0 := hsi
    rw [hsi']
    rfl
  | ⟨2, _⟩ =>
    show takeDims.start (ix3 b n c) idx 2 + takeDims.batchCoord (ix3 b n c) 2 + takeDims.offCoord (ix3 b n c) 2 = _
    rw [GatherDims.batchCoord_eq_zero _ _ _ List.not_mem_nil]
    unfold GatherDims.start GatherDims.offCoord
    rw [dif_neg (by decide), dif_pos (by decide)]
    have he : ∀ h, takeDims.offsetDims[List.idxOf (2 : Fin 3) takeDims.sKept]'h = (2 : Fin 3) := by decide +revert
    rw [he]
    simp only [Nat.zero_add]

theorem idxTable_apply (i j : Fin 1024) : (idxTable (F := F)) (ix2 i j) = BitVec.ofNat 32 ((i.val + j.val) % 1024) := by
  have h : (idxTable (F := F)) (ix2 i j) = Cert.Words.jnpRem (IntOp.addi (BitVec.ofNat 32 j.val) (BitVec.ofNat 32 i.val)) := rfl
  rw [h, Cert.Words.addi_ofNat]
  have := Cert.Words.jnpRem_ofNat ⟨j.val + i.val, by omega⟩
  simp only at this
  rw [this, Nat.add_comm]

/-- The rotation index of flat position n. -/
def rotOf (n : Fin 1048576) : Fin 1024 := ⟨(n.val / 1024 + n.val % 1024) % 1024, Nat.mod_lt _ (by norm_num)⟩

theorem idxFlat_apply (n : Fin 1048576) : idxFlat (idxTable (F := F)) (ix1 n) = BitVec.ofNat 32 (rotOf n).val := by
  unfold idxFlat
  dsimp only
  rw [shapeCast_apply _ _ (ix1 n) (ix2 ⟨n.val / 1024, by have := n.isLt; omega⟩ ⟨n.val % 1024, Nat.mod_lt _ (by norm_num)⟩)
    (by simp only [Shape.rowMajor_val_one, Shape.rowMajor_val_two]; show n.val / 1024 * 1024 + n.val % 1024 = n.val; omega)]
  exact idxTable_apply _ _

theorem takeCol_apply (v7 : (⟨S1048576, .i32⟩ : BufTy).Contents (Elt F)) (n : Fin 1048576) :
    takeCol v7 (ix2 n 0)
      = Scalar.select (IntOp.cmpi .slt (v7 (ix1 n)) 0#32) (IntOp.addi (v7 (ix1 n)) 1024#32) (v7 (ix1 n)) := by
  unfold takeCol
  rw [broadcastInDim_apply _ _ _ (ix2 n 0) (ix1 n) (fun a => by
    fin_cases a
    show n.val = if (1048576 : Nat) = 1 then 0 else n.val
    rw [if_neg (by decide)])]
  rfl

theorem takeCol_flat (n : Fin 1048576) : takeCol (idxFlat (idxTable (F := F))) (ix2 n 0) = BitVec.ofNat 32 (rotOf n).val := by
  rw [takeCol_apply, idxFlat_apply]
  exact Cert.Words.wrap_ofNat (rotOf n)

end Cert.ReferenceIdeal.Hand

end
-- ==== Proof.RRead2.lean ====
/-
  The rotated ground truth, read entry by entry (continued): the mask, the fill, the reshape.
-/
import proofs.«103642_g13554916786703_cont_week2b_739_36_alg».proof.Proof.RRead1
import Idealize.ShloMosaic.PureOps.Ideal.Laws

noncomputable section

namespace Cert.ReferenceIdeal.Hand

open Idealize.ShloMosaic Idealize.ShloMosaic.ValueIdx
open Cert.ReferenceIdeal Cert.ReferenceIdeal.Facts₀ Cert.ReferenceIdeal.Facts

variable {F : FTy → Type} [FloatOps F]

/-- The mask at position n, from the index column's entry there. -/
theorem takeMask_apply (v5 : (⟨S1048576x1, .i32⟩ : BufTy).Contents (Elt F)) (n : Fin 1048576) :
    takeMask v5 (ix1 n)
      = IntOp.andi (IntOp.andi (IntOp.cmpi .sge (v5 (ix2 n 0)) 0#32) (IntOp.cmpi .sle (v5 (ix2 n 0)) 1023#32)) 1#1 := by
  unfold takeMask
  dsimp only
  rw [Host.reduce_eq_fold_single IntOp.andi _ _ reducesTo_S1048576x1_S1048576_d1 (by decide) h_S_ (ix1 n)]
  have hfold : ∀ (b : BitVec 1) (f : Fin 1 → BitVec 1), Finset.fold IntOp.andi b f (Finset.univ : Finset (Fin 1)) = IntOp.andi (f 0) b := by
    intro b f; simp [Finset.univ_unique, Finset.fold_singleton]
  refine (hfold _ _).trans ?_
  have hl : ∀ (h : S1048576x1.Reduces [1] S1048576), h.lift (ix1 n) (default : Fin 1) = ix2 n 0 := fun h => by
    funext c; apply Fin.ext; fin_cases c <;> rfl
  simp only [Function.comp, show (0 : Fin 1) = default from rfl, hl]
  rfl

/-- Where the mask is set, the filled gather is the gather. -/
theorem taken_of_mask (a1 : (⟨S16x1024x2, .f32⟩ : BufTy).Contents (Elt F)) (v5 : (⟨S1048576x1, .i32⟩ : BufTy).Contents (Elt F)) (v12 : (⟨S1048576, .i1⟩ : BufTy).Contents (Elt F))
    (b : Fin 16) (n : Fin 1048576) (c : Fin 2) (hm : v12 (ix1 n) = 1#1) :
    taken a1 v5 v12 (ix3 b n c) = Host.gather takeDims a1 v5 (ix3 b n c) := by
  unfold taken
  show Scalar.select (broadcastInDim S16x1048576x2 ![1] bcast_S1048576_S16x1048576x2_1 v12 (ix3 b n c))
    (Host.gather takeDims a1 v5 (ix3 b n c)) _ = _
  rw [broadcastInDim_apply _ _ _ (ix3 b n c) (ix1 n) (fun a => by
    fin_cases a
    show n.val = if (1048576 : Nat) = 1 then 0 else n.val
    rw [if_neg (by decide)]), hm, select_one]

/-- The gather where the index column holds the word of a number below 1024: the operand's point of that number. -/
theorem gather_of_word {α : Type} (x : S16x1024x2.Idx → α) (v5 : IVec S1048576x1 32) (b : Fin 16) (n : Fin 1048576) (c : Fin 2)
    (k : Nat) (hk : k < 1024) (h : v5 (ix2 n 0) = BitVec.ofNat 32 k) :
    Host.gather takeDims x v5 (ix3 b n c) = x (ix3 b ⟨k, hk⟩ c) := by
  have key : min (v5 (ix2 n 0)).toInt.toNat 1023 = k := by
    rw [h]; exact Cert.Words.clamp_ofNat ⟨k, hk⟩
  have hfin : (⟨min (v5 (ix2 n 0)).toInt.toNat 1023, by omega⟩ : Fin 1024) = ⟨k, hk⟩ := Fin.ext key
  rw [gather_apply, hfin]

/-- THE ROTATED GROUND TRUTH: entry (b, i, j, c) is the ground truth's point (i + j) mod 1024 of sample b. -/
theorem rotGt_apply (a1 : (⟨S16x1024x2, .f32⟩ : BufTy).Contents (Elt F)) (b : Fin 16) (i j : Fin 1024) (c : Fin 2) :
    rotGt (F := F) a1 (ix4 b i j c) = a1 (ix3 b ⟨(i.val + j.val) % 1024, Nat.mod_lt _ (by norm_num)⟩ c) := by
  have hi := i.isLt; have hj := j.isLt
  unfold rotGt
  dsimp only
  rw [shapeCast_apply _ _ (ix4 b i j c) (ix3 b ⟨1024 * i.val + j.val, by omega⟩ c)
    (by simp only [Shape.rowMajor_val_three, Shape.rowMajor_val_four]
        show (b.val * 1048576 + (1024 * i.val + j.val)) * 2 + c.val = ((b.val * 1024 + i.val) * 1024 + j.val) * 2 + c.val
        ring)]
  have hrot : (rotOf ⟨1024 * i.val + j.val, by omega⟩).val = (i.val + j.val) % 1024 := by
    show ((1024 * i.val + j.val) / 1024 + (1024 * i.val + j.val) % 1024) % 1024 = _
    have h1 : (1024 * i.val + j.val) / 1024 = i.val := by omega
    have h2 : (1024 * i.val + j.val) % 1024 = j.val := by omega
    rw [h1, h2]
  have hm : takeMask (takeCol (idxFlat (idxTable (F := F)))) (ix1 ⟨1024 * i.val + j.val, by omega⟩) = 1#1 := by
    rw [takeMask_apply, takeCol_flat, Cert.Words.inRange_ofNat]; rfl
  have hw : takeCol (idxFlat (idxTable (F := F))) (ix2 ⟨1024 * i.val + j.val, by omega⟩ 0) = BitVec.ofNat 32 ((i.val + j.val) % 1024) :=
    (takeCol_flat _).trans (congrArg (BitVec.ofNat 32) hrot)
  rw [taken_of_mask _ _ _ _ _ _ hm]
  exact gather_of_word a1 _ b _ c _ _ hw

end Cert.ReferenceIdeal.Hand

end
-- ==== Proof.RRead3.lean ====
/-
  The reference's value on real inputs.

  Every entry of the two arguments is a real number read as an extended real. Entry (b, i, j, c) of
  the distance array is then the smooth-L1 of |pred b j c - gt b (j + i) c|, a real; the sums over
  the coordinate and over the points of reals are real, so is the quotient by 1024; the minimum
  over rotations from +infinity of finitely many reals is their least, a real; and the sum over
  samples and the quotient by 16 give the loss.
-/
import proofs.«103642_g13554916786703_cont_week2b_739_36_alg».proof.Proof.RRead2
import proofs.«103642_g13554916786703_cont_week2b_739_36_alg».proof.Proof.Spec
import proofs.«103642_g13554916786703_cont_week2b_739_36_alg».proof.Proof.Consts
import Idealize.ShloMosaic.PureOps.Ideal.Laws
import Idealize.ShloMosaic.Lib.ValueIdx
import Idealize.ShloMosaic.Lib.IdealHost

noncomputable section

namespace Cert.ReferenceIdeal.Hand

open Idealize.ShloMosaic Idealize.ShloMosaic.ValueIdx Cert.Spec
open Cert.ReferenceIdeal Cert.ReferenceIdeal.Facts₀ Cert.ReferenceIdeal.Facts

/-! ## Coerced reals -/

theorem coe_max_real (a b : ℝ) : ((max a b : ℝ) : EReal) = max (a : EReal) (b : EReal) :=
  EReal.coe_strictMono.monotone.map_max

/-- A finite sum of coerced reals is the coerced sum. -/
theorem coe_sum_real {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- Zero plus a sum of entries that are coerced reals is the coerced sum. -/
theorem zero_add_sum_coe {n : Nat} (z : EReal) (hz : z = 0) (x : Fin n → EReal) (f : Fin n → ℝ) (h : ∀ k, x k = ((f k : ℝ) : EReal)) :
    z + ∑ k, x k = ((∑ k, f k : ℝ) : EReal) := by
  rw [hz, zero_add, coe_sum_real]
  exact Finset.sum_congr rfl fun k _ => h k

/-- The fold of the minimum from +infinity is the infimum. -/
theorem fold_min_top {ι : Type} (s : Finset ι) (g : ι → EReal) :
    Finset.fold (FloatOps.minimumf (F := Ideal) (φ := .f32)) (⊤ : EReal) g s = s.inf g := by
  induction s using Finset.cons_induction with
  | empty => simp
  | cons a s ha ih => rw [Finset.fold_cons, Finset.inf_cons, ih]; rfl

/-- A select on a less-than comparison of extended reals is the `if`. -/
theorem select_olt (x y a b : EReal) : Scalar.select (Ideal.cmp .olt x y) a b = if x < y then a else b := by
  unfold Scalar.select
  by_cases h : x < y
  · rw [if_pos h, if_pos]
    show BitVec.ofBool (decide (x < y)) = 1
    rw [decide_eq_true h]; rfl
  · rw [if_neg h, if_neg]
    show ¬ BitVec.ofBool (decide (x < y)) = 1
    rw [decide_eq_false h]; decide

/-! ## The distance at an entry -/

/-- The reference's smooth-L1 of one pair of entries: |x - v| spelled max (x - v) (-(x - v)), compared with 1. -/
def sl1E (x v : EReal) : EReal :=
  Scalar.select (Ideal.cmp .olt (max (x - v) (-(x - v))) (Ideal.ofBits .f32 0x3F800000#32))
    (Ideal.ofBits .f32 0x3F000000#32 * max (x - v) (-(x - v)) * max (x - v) (-(x - v)))
    (max (x - v) (-(x - v)) - Ideal.ofBits .f32 0x3F000000#32)

/-- On two coerced reals it is the real smooth-L1 of their distance, coerced. -/
theorem sl1E_coe (p g : ℝ) : sl1E (p : EReal) (g : EReal) = ((sl1 |p - g| : ℝ) : EReal) := by
  unfold sl1E
  have hd : max ((p : EReal) - (g : EReal)) (-((p : EReal) - (g : EReal))) = ((|p - g| : ℝ) : EReal) := by
    rw [← EReal.coe_sub, ← EReal.coe_neg, ← coe_max_real, ← abs_eq_max_neg]
  rw [hd, Cert.Consts.ofBits_one, Cert.Consts.ofBits_half, select_olt]
  unfold sl1
  by_cases h : |p - g| < 1
  · rw [if_pos (EReal.coe_lt_coe_iff.mpr h), if_pos h, ← EReal.coe_mul, ← EReal.coe_mul]
  · rw [if_neg (fun h' => h (EReal.coe_lt_coe_iff.mp h')), if_neg h, ← EReal.coe_sub]

/-- The prediction broadcast along the rotation axis. -/
theorem pred_bcast (a0 : FVec Ideal S16x1024x2 .f32) (b : Fin 16) (i j : Fin 1024) (c : Fin 2) :
    broadcastInDim S16x1024x1024x2 ![0, 1, 2, 3] bcast_S16x1x1024x2_S16x1024x1024x2_0_1_2_3
      (broadcastInDim S16x1x1024x2 ![0, 2, 3] bcast_S16x1024x2_S16x1x1024x2_0_2_3 a0) (ix4 b i j c) = a0 (ix3 b j c) := by
  rw [broadcastInDim_apply _ _ _ (ix4 b i j c) (ix4 b (0 : Fin 1) j c) (fun a => by fin_cases a <;> rfl),
    broadcastInDim_apply _ _ _ (ix4 b (0 : Fin 1) j c) (ix3 b j c) (fun a => by fin_cases a <;> rfl)]

/-- The distance array at an entry, in the two entries it is made of. -/
theorem dist_at (a0 : FVec Ideal S16x1024x2 .f32) (v9 : FVec Ideal S16x1024x1024x2 .f32) (idx : S16x1024x1024x2.Idx) :
    dist (F := Ideal) a0 v9 idx
      = sl1E (broadcastInDim S16x1024x1024x2 ![0, 1, 2, 3] bcast_S16x1x1024x2_S16x1024x1024x2_0_1_2_3
          (broadcastInDim S16x1x1024x2 ![0, 2, 3] bcast_S16x1024x2_S16x1x1024x2_0_2_3 a0) idx) (v9 idx) := rfl

/-- The distance array at an entry whose two entries are coerced reals. -/
theorem dist_entry (a0 : FVec Ideal S16x1024x2 .f32) (v9 : FVec Ideal S16x1024x1024x2 .f32) (b : Fin 16) (i j : Fin 1024) (c : Fin 2)
    (p g : ℝ) (hp : a0 (ix3 b j c) = ((p : ℝ) : EReal)) (hg : v9 (ix4 b i j c) = ((g : ℝ) : EReal)) :
    dist (F := Ideal) a0 v9 (ix4 b i j c) = ((sl1 |p - g| : ℝ) : EReal) := by
  rw [dist_at, pred_bcast, hp, hg, sl1E_coe]

/-- The distance of the prediction to the rotated ground truth, entry by entry. -/
theorem dist_rot (a0 a1 : FVec Ideal S16x1024x2 .f32) (pred gt : Fin 16 → Pt → Fin 2 → ℝ)
    (h0 : ∀ b j c, a0 (ix3 b j c) = ((pred b j c : ℝ) : EReal)) (h1 : ∀ b j c, a1 (ix3 b j c) = ((gt b j c : ℝ) : EReal))
    (b : Fin 16) (i j : Pt) (c : Fin 2) :
    dist (F := Ideal) a0 (rotGt (F := Ideal) a1) (ix4 b i j c) = ((sl1 |pred b j c - gt b (j + i) c| : ℝ) : EReal) := by
  have hfin : (⟨(i.val + j.val) % 1024, Nat.mod_lt _ (by norm_num)⟩ : Fin 1024) = j + i :=
    Fin.ext (by rw [Fin.val_add, Nat.add_comm])
  refine dist_entry a0 _ b i j c _ _ (h0 b j c) ?_
  rw [rotGt_apply, hfin, h1]

/-! ## The reductions -/

/-- The sum over the coordinate: entry (b, i, j) is the initial value plus the two entries (b, i, j, ·). -/
theorem sum_d3 (x : FVec Ideal S16x1024x1024x2 .f32) (init : S_.Idx → EReal) (b : Fin 16) (i j : Fin 1024) :
    Host.reduceAdd x init reducesTo_S16x1024x1024x2_S16x1024x1024_d3 h_S_ (ix3 b i j)
      = init ix0 + ∑ c : Fin 2, x (ix4 b i j c) := by
  have hR : S16x1024x1024x2.Reduces [3] S16x1024x1024 := by decide
  rw [hostReduceAdd_apply, Ideal.hostReduceAdd_single _ hR]
  have hl : ∀ k : Fin 2, hR.lift (ix3 b i j) k = ix4 b i j k := fun k => by
    funext c; apply Fin.ext; fin_cases c <;> rfl
  have h0 : Shape.Idx.first h_S_ = ix0 := funext fun a => a.elim0
  rw [h0]
  exact congrArg (init ix0 + ·) (Finset.sum_congr rfl fun k _ => congrArg x (hl k))

/-- The sum over the points: entry (b, i) is the initial value plus the 1024 entries (b, i, ·). -/
theorem sum_d2 (x : FVec Ideal S16x1024x1024 .f32) (init : S_.Idx → EReal) (b : Fin 16) (i : Fin 1024) :
    Host.reduceAdd x init reducesTo_S16x1024x1024_S16x1024_d2 h_S_ (ix2 b i)
      = init ix0 + ∑ j : Fin 1024, x (ix3 b i j) := by
  have hR : S16x1024x1024.Reduces [2] S16x1024 := by decide
  rw [hostReduceAdd_apply, Ideal.hostReduceAdd_single _ hR]
  have hl : ∀ k : Fin 1024, hR.lift (ix2 b i) k = ix3 b i k := fun k => by
    funext c; apply Fin.ext; fin_cases c <;> rfl
  have h0 : Shape.Idx.first h_S_ = ix0 := funext fun a => a.elim0
  rw [h0]
  exact congrArg (init ix0 + ·) (Finset.sum_congr rfl fun k _ => congrArg x (hl k))

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- The sum over the samples: the one entry is the initial value plus the 16 entries. -/
theorem sum_d0 (x : FVec Ideal S16 .f32) (init : S_.Idx → EReal) (j0 : S_.Idx) :
    Host.reduceAdd x init reducesTo_S16_S_d0 h_S_ j0 = init ix0 + ∑ b : Fin 16, x (ix1 b) := by
  rw [hostReduceAdd_apply, Ideal.hostReduceAdd_total _ (fun b => b.elim0)]
  have h0 : Shape.Idx.first h_S_ = ix0 := funext fun a => a.elim0
  rw [h0]
  exact congrArg (init ix0 + ·) (Equiv.sum_comp (idxEquiv1 (n := 16)).symm x).symm

/-- The minimum over the rotations from +infinity: entry b is the infimum of the 1024 entries (b, ·). -/
theorem min_d1 (x : FVec Ideal S16x1024 .f32) (b : Fin 16) :
    Host.reduce FloatOps.minimumf x (constant S_ .f32 0x7F800000#32) reducesTo_S16x1024_S16_d1 h_S_ (ix1 b)
      = Finset.univ.inf fun i : Fin 1024 => x (ix2 b i) := by
  have hR : S16x1024.Reduces [1] S16 := by decide
  rw [Host.reduce_eq_fold_single FloatOps.minimumf _ _ reducesTo_S16x1024_S16_d1 hR h_S_ (ix1 b)]
  have hl : ∀ k : Fin 1024, hR.lift (ix1 b) k = ix2 b k := fun k => by
    funext c; apply Fin.ext; fin_cases c <;> rfl
  have htop : (constant (F := Ideal) S_ .f32 0x7F800000#32) (Shape.Idx.first h_S_) = (⊤ : EReal) := Cert.Consts.ofBits_top
  rw [htop, fold_min_top]
  exact Finset.inf_congr rfl fun k _ => congrArg x (hl k)

/-! ## The stages on reals -/

theorem sum3_real (x : FVec Ideal S16x1024x1024x2 .f32) (f : Fin 16 → Pt → Pt → Fin 2 → ℝ)
    (h : ∀ b i j c, x (ix4 b i j c) = ((f b i j c : ℝ) : EReal)) (b : Fin 16) (i j : Pt) :
    Host.reduceAdd x (constant S_ .f32 0x00000000#32) reducesTo_S16x1024x1024x2_S16x1024x1024_d3 h_S_ (ix3 b i j)
      = ((∑ c : Fin 2, f b i j c : ℝ) : EReal) := by
  rw [sum_d3]
  exact zero_add_sum_coe _ Cert.Consts.ofBits_zero _ _ fun c => h b i j c

theorem sum2_real (x : FVec Ideal S16x1024x1024 .f32) (f : Fin 16 → Pt → Pt → ℝ)
    (h : ∀ b i j, x (ix3 b i j) = ((f b i j : ℝ) : EReal)) (b : Fin 16) (i : Pt) :
    Host.reduceAdd x (constant S_ .f32 0x00000000#32) reducesTo_S16x1024x1024_S16x1024_d2 h_S_ (ix2 b i)
      = ((∑ j : Pt, f b i j : ℝ) : EReal) := by
  rw [sum_d2]
  exact zero_add_sum_coe _ Cert.Consts.ofBits_zero _ _ fun j => h b i j

theorem div1024_real (x : FVec Ideal S16x1024 .f32) (f : Fin 16 → Pt → ℝ)
    (h : ∀ b i, x (ix2 b i) = ((f b i : ℝ) : EReal)) (b : Fin 16) (i : Pt) :
    Host.divf x (broadcastInDim S16x1024 ![] bcast_S_S16x1024 (constant S_ .f32 0x44800000#32)) (ix2 b i)
      = ((1 / 1024 * f b i : ℝ) : EReal) := by
  show Ideal.div (x (ix2 b i)) (Ideal.ofBits .f32 0x44800000#32) = _
  rw [h, Cert.Consts.ofBits_1024, Ideal.div_coe (by norm_num), ← EReal.coe_mul, mul_comm]

theorem min1_real (x : FVec Ideal S16x1024 .f32) (f : Fin 16 → Pt → ℝ)
    (h : ∀ b i, x (ix2 b i) = ((1 / 1024 * f b i : ℝ) : EReal)) (b : Fin 16) :
    Host.reduce FloatOps.minimumf x (constant S_ .f32 0x7F800000#32) reducesTo_S16x1024_S16_d1 h_S_ (ix1 b)
      = ((1 / 1024 * Finset.univ.inf' Finset.univ_nonempty (f b) : ℝ) : EReal) := by
  rw [min_d1, ← inf_coe_mul (1 / 1024) (by norm_num) (f b)]
  exact Finset.inf_congr rfl fun i _ => h b i

theorem sum0_real (x : FVec Ideal S16 .f32) (f : Fin 16 → ℝ) (h : ∀ b, x (ix1 b) = ((f b : ℝ) : EReal)) (j0 : S_.Idx) :
    Host.reduceAdd x (constant S_ .f32 0x00000000#32) reducesTo_S16_S_d0 h_S_ j0 = ((∑ b : Fin 16, f b : ℝ) : EReal) := by
  rw [sum_d0]
  exact zero_add_sum_coe _ Cert.Consts.ofBits_zero _ _ fun b => h b

theorem div16_real (x : FVec Ideal S_ .f32) (r : ℝ) (j0 : S_.Idx) (h : x j0 = ((r : ℝ) : EReal)) :
    Host.divf x (constant S_ .f32 0x41800000#32) j0 = ((1 / 16 * r : ℝ) : EReal) := by
  show Ideal.div (x j0) (Ideal.ofBits .f32 0x41800000#32) = _
  rw [h, Cert.Consts.ofBits_16, Ideal.div_coe (by norm_num), ← EReal.coe_mul, mul_comm]

/-! ## The chain -/

/-- The mean stage on a distance array of coerced reals. -/
theorem mean_real (v21 : FVec Ideal S16x1024x1024x2 .f32) (f : Fin 16 → Pt → Pt → Fin 2 → ℝ)
    (h : ∀ b i j c, v21 (ix4 b i j c) = ((f b i j c : ℝ) : EReal)) :
    mean (F := Ideal) v21
      = fun _ => (((∑ b : Fin 16, Finset.univ.inf' Finset.univ_nonempty fun i : Pt => ∑ j : Pt, ∑ c : Fin 2, f b i j c) / 16384 : ℝ) : EReal) := by
  funext j0
  unfold mean
  dsimp only
  rw [div16_real _ _ j0 (sum0_real _ _ (fun b => min1_real _ _ (fun b i => div1024_real _ _ (fun b i =>
    sum2_real _ _ (fun b i j => sum3_real v21 f h b i j) b i) b i) b) j0)]
  congr 1
  rw [← Finset.mul_sum]
  ring

/-- THE REFERENCE'S VALUE: on real inputs the result is the loss. -/
theorem refOut_real (a0 a1 : FVec Ideal S16x1024x2 .f32) (pred gt : Fin 16 → Pt → Fin 2 → ℝ)
    (h0 : ∀ b j c, a0 (ix3 b j c) = ((pred b j c : ℝ) : EReal)) (h1 : ∀ b j c, a1 (ix3 b j c) = ((gt b j c : ℝ) : EReal)) :
    refOut (F := Ideal) a0 a1 = fun _ => ((loss pred gt : ℝ) : EReal) := by
  unfold refOut
  rw [mean_real _ (fun b i j c => sl1 |pred b j c - gt b (j + i) c|) (dist_rot a0 a1 pred gt h0 h1)]
  rfl

end Cert.ReferenceIdeal.Hand

end
-- ==== Proof.Finite.lean ====
/-
  From the precondition to real numbers.

  The precondition says, of each argument, that every entry's absolute value is below +infinity.
  On the extended reals that leaves exactly the real numbers: +infinity fails the comparison, and
  so does -infinity, whose absolute value is +infinity.
-/
import proofs.«103642_g13554916786703_cont_week2b_739_36_alg».proof.Pre_finite_inputs
import proofs.«103642_g13554916786703_cont_week2b_739_36_alg».proof.Proof.Gen.Pre_finite_inputs
import Idealize.ShloMosaic.Lib.ReduceAll
import Idealize.ShloMosaic.Lib.Affine
import Idealize.ShloMosaic.Lib.ValueIdx
import Idealize.ShloMosaic.PureOps.Ideal
import proofs.«103642_g13554916786703_cont_week2b_739_36_alg».proof.Proof.Consts

noncomputable section

namespace Cert.Finite

open Idealize.ShloMosaic Idealize.ShloMosaic.ValueIdx
open Cert.Pre_finite_inputs

instance : Subsingleton S_.Idx := ⟨fun a b => funext fun d => d.elim0⟩

/-- An extended real whose absolute value is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of both arguments is a real number. -/
theorem real_of_pre (a0 a1 : FVec Ideal S16x1024x2 .f32) (h : fn (F := Ideal) a0 a1 = fun _ => 1#1) :
    (∀ i, ∃ r : ℝ, a0 i = (r : EReal)) ∧ (∀ i, ∃ r : ℝ, a1 i = (r : EReal)) := by
  have h0 := congrFun h ix0
  dsimp only [fn] at h0
  obtain ⟨h3, h7⟩ := IntOp.andi_eq_one.mp h0
  refine ⟨fun i => ?_, fun i => ?_⟩
  · have e := Host.reduce_andi_all _ _ _ _ ix0 h3 i
    have e' : Ideal.cmp .olt (max (a0 i) (-(a0 i))) (Ideal.ofBits .f32 0x7F800000#32) = 1#1 := e
    rw [Cert.Consts.ofBits_top] at e'
    refine real_of_abs_lt_top _ ?_
    by_contra hc
    simp [Ideal.cmp, hc] at e'
  · have e := Host.reduce_andi_all _ _ _ _ ix0 h7 i
    have e' : Ideal.cmp .olt (max (a1 i) (-(a1 i))) (Ideal.ofBits .f32 0x7F800000#32) = 1#1 := e
    rw [Cert.Consts.ofBits_top] at e'
    refine real_of_abs_lt_top _ ?_
    by_contra hc
    simp [Ideal.cmp, hc] at e'

end Cert.Finite

end
-- ==== Proof.lean ====
/-
  The polygon matching loss: the kernel against its reference.

  For each of 16 samples, 1024 predicted points are matched with the 1024 ground-truth points at
  every circular rotation; a rotation's loss is the smooth-L1 distance summed over points and the
  two coordinates; the sample's loss is the least over rotations of the mean over points; the
  result is the mean over samples.

  The reference gathers the rotated ground truth, applies smooth-L1 entry by entry, sums, divides
  by 1024, takes the minimum over rotations and the mean over samples. The kernel builds, sample
  by sample, a 1024 x 1024 table whose row 64u + 8o + r holds the terms of rotation r + 8u + 128o
  (the prediction rotated by 128o one way, the ground truth by r + 8u the other), each term
  m(2a - m) with m = min(a, 1), which is twice smooth-L1; sums each row by a product with a matrix
  of ones; takes the minimum of the 1024 row sums; adds it to a running total; and after the last
  sample scales the total by 2^-15 = 1/(2 * 1024 * 16).

  Over the extended reals the two agree where the inputs are finite: then every term is a real
  number, the scale 1/1024 (or 2) passes through the minimum of finitely many reals, and both
  results are (sum over samples of the minimum over rotations of the summed distance) / 16384.
  The frames (each program runs to its end without fault and leaves its arguments as launched) are
  the runs of the three programs; nothing was rewritten between the kernel and its idealization.
-/
import proofs.«103642_g13554916786703_cont_week2b_739_36_alg».proof.Defs
import proofs.«103642_g13554916786703_cont_week2b_739_36_alg».proof.Proof.Gen.Kernel
import proofs.«103642_g13554916786703_cont_week2b_739_36_alg».proof.Proof.Gen.Kernel.Skeleton
import proofs.«103642_g13554916786703_cont_week2b_739_36_alg».proof.Proof.Gen.Kernel.Launch
import proofs.«103642_g13554916786703_cont_week2b_739_36_alg».proof.Proof.Gen.Kernel.Points
import proofs.«103642_g13554916786703_cont_week2b_739_36_alg».proof.Proof.Gen.Kernel.Frame
import proofs.«103642_g13554916786703_cont_week2b_739_36_alg».proof.Proof.Gen.KernelIdeal
import proofs.«103642_g13554916786703_cont_week2b_739_36_alg».proof.Proof.Gen.KernelIdeal.Skeleton
import proofs.«103642_g13554916786703_cont_week2b_739_36_alg».proof.Proof.Gen.KernelIdeal.Launch
import proofs.«103642_g13554916786703_cont_week2b_739_36_alg».proof.Proof.Gen.KernelIdeal.Points
import proofs.«103642_g13554916786703_cont_week2b_739_36_alg».proof.Proof.Gen.KernelIdeal.Frame
import proofs.«103642_g13554916786703_cont_week2b_739_36_alg».proof.Proof.Gen.ReferenceIdeal
import proofs.«103642_g13554916786703_cont_week2b_739_36_alg».proof.Proof.Gen.Pre_finite_inputs
import proofs.«103642_g13554916786703_cont_week2b_739_36_alg».proof.Proof.WBody
import proofs.«103642_g13554916786703_cont_week2b_739_36_alg».proof.Proof.KTotal
import proofs.«103642_g13554916786703_cont_week2b_739_36_alg».proof.Proof.KMin
import proofs.«103642_g13554916786703_cont_week2b_739_36_alg».proof.Proof.RRead3
import proofs.«103642_g13554916786703_cont_week2b_739_36_alg».proof.Proof.Finite
import Idealize.ShloMosaic.Adequacy
import Idealize.ShloMosaic.Init

noncomputable section

namespace Cert.Proof

open Idealize.ShloMosaic Idealize.SL.Sem Idealize.ShloMosaic.ValueIdx Cert.Spec

/-- Under the precondition each device's two arguments hold real numbers; on real arguments the
    idealized kernel ends with the loss and so does the idealized reference. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  have h0 : ∀ (c : Dev Cert.KernelIdeal.nD) (i : Cert.KernelIdeal.S16x1024x2.Idx), ∃ r : ℝ,
      m ((c.tc : Thread Cert.KernelIdeal.nD Cert.KernelIdeal.τ).loc Cert.KernelIdeal.main_arg0) i = (r : EReal) :=
    fun c => (Cert.Finite.real_of_pre _ _ (hpre c)).1
  have h1 : ∀ (c : Dev Cert.KernelIdeal.nD) (i : Cert.KernelIdeal.S16x1024x2.Idx), ∃ r : ℝ,
      m ((c.tc : Thread Cert.KernelIdeal.nD Cert.KernelIdeal.τ).loc Cert.KernelIdeal.main_arg1) i = (r : EReal) :=
    fun c => (Cert.Finite.real_of_pre _ _ (hpre c)).2
  choose P hP using h0
  choose G hG using h1
  refine ⟨fun c _ => ((loss (fun b j cc => P c (ix3 b j cc)) (fun b j cc => G c (ix3 b j cc)) : ℝ) : EReal), ?_, ?_⟩
  · exact (θ_run _ _ _).mono (fun r h c =>
      ⟨(h c).1.trans (Cert.KernelIdeal.Hand.result_val m _ _ c (fun b j cc => hP c _) (fun b j cc => hG c _) (fun _ _ _ _ _ _ _ _ _ _ hp' hg' => Cert.KernelIdeal.Hand.part_apply hp' hg')), (h c).2.1, (h c).2.2⟩)
      (Cert.KernelIdeal.Hand.run_value m ρ)
  · exact (θ_run _ _ _).mono (fun r h c =>
      ⟨(h c).1.trans (by
          rw [(hagree c).1, (hagree c).2]
          exact Cert.ReferenceIdeal.Hand.refOut_real _ _ _ _ (fun b j cc => hP c _) (fun b j cc => hG c _)), (h c).2.1, (h c).2.2⟩)
      (Cert.ReferenceIdeal.Hand.run m' ρ')

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => (θ_run _ _ _).mono (fun _ h c => (h c).2) (Cert.ReferenceIdeal.Hand.run m ρ),
    trivial,
    algebraic⟩

end Cert.Proof

end
